-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x10x3 : Shape := ⟨3, ![4096, 10, 3]⟩
abbrev S4096x10 : Shape := ⟨2, ![4096, 10]⟩
abbrev S4096x10x2 : Shape := ⟨3, ![4096, 10, 2]⟩
abbrev S1 : Shape := ⟨1, ![1]⟩
abbrev S_ : Shape := ⟨0, ![]⟩

class Facts : Prop where
  bcast_S_S4096x10x3 : S_.BroadcastsInDim S4096x10x3 (![] : Fin 0 → Fin S4096x10x3.rank)
  reducesTo_S4096x10x3_S_d0_1_2 : S4096x10x3.ReducesTo [0, 1, 2] S_
  h_S_ : 0 < S_.numel
  bcast_S_S4096x10 : S_.BroadcastsInDim S4096x10 (![] : Fin 0 → Fin S4096x10.rank)
  reducesTo_S4096x10_S_d0_1 : S4096x10.ReducesTo [0, 1] S_
  bcast_S_S4096x10x2 : S_.BroadcastsInDim S4096x10x2 (![] : Fin 0 → Fin S4096x10x2.rank)
  reducesTo_S4096x10x2_S_d0_1_2 : S4096x10x2.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg3 : IVec S1 32) (main_v13 : IVec S_ 1) (main_v15 : IVec S1 1) (main_c_5 : IVec S_ 32) : IVec S_ 1 :=
  let main_v16 : IVec S1 32 := broadcastInDim S1 ![] bcast_S_S1 main_c_5
  let main_v17 : IVec S1 1 := cmpi .sle main_arg3 main_v16
  let main_v18 : IVec S1 1 := andi main_v15 main_v17
  let main_c_6 : IVec S_ 1 := constantI S_ 1 1#1
  let main_v19 : IVec S_ 1 := (fun x v => Host.reduce IntOp.andi x v reducesTo_S1_S_d0 h_S_) main_v18 main_c_6
  let main_v20 : IVec S_ 1 := andi main_v13 main_v19
  main_v20

def fn {F : FTy → Type} [FloatOps F] (main_arg0 : FVec F S4096x10x3 .f32) (main_arg1 : FVec F S4096x10 .f32) (main_arg2 : FVec F S4096x10x2 .f32) (main_arg3 : IVec S1 32) : IVec S_ 1 :=
  let main_v0 : FVec F S4096x10x3 .f32 := Host.absf main_arg0
  let main_cst : FVec F S_ .f32 := constant S_ .f32 0x7F800000#32
  let main_v1 : FVec F S4096x10x3 .f32 := broadcastInDim S4096x10x3 ![] bcast_S_S4096x10x3 main_cst
  let main_v2 : IVec S4096x10x3 1 := cmpf .olt main_v0 main_v1
  let main_c : IVec S_ 1 := constantI S_ 1 1#1
  let main_v3 : IVec S_ 1 := (fun x v => Host.reduce IntOp.andi x v reducesTo_S4096x10x3_S_d0_1_2 h_S_) main_v2 main_c
  let main_v4 : FVec F S4096x10 .f32 := Host.absf main_arg1
  let main_cst_0 : FVec F S_ .f32 := constant S_ .f32 0x7F800000#32
  let main_v5 : FVec F S4096x10 .f32 := broadcastInDim S4096x10 ![] bcast_S_S4096x10 main_cst_0
  let main_v6 : IVec S4096x10 1 := cmpf .olt main_v4 main_v5
  let main_c_1 : IVec S_ 1 := constantI S_ 1 1#1
  let main_v7 : IVec S_ 1 := (fun x v => Host.reduce IntOp.andi x v reducesTo_S4096x10_S_d0_1 h_S_) main_v6 main_c_1
  let main_v8 : IVec S_ 1 := andi main_v3 main_v7
  let main_v9 : FVec F S4096x10x2 .f32 := Host.absf main_arg2
  let main_cst_2 : FVec F S_ .f32 := constant S_ .f32 0x7F800000#32
  let main_v10 : FVec F S4096x10x2 .f32 := broadcastInDim S4096x10x2 ![] bcast_S_S4096x10x2 main_cst_2
  let main_v11 : IVec S4096x10x2 1 := cmpf .olt main_v9 main_v10
  let main_c_3 : IVec S_ 1 := constantI S_ 1 1#1
  let main_v12 : IVec S_ 1 := (fun x v => Host.reduce IntOp.andi x v reducesTo_S4096x10x2_S_d0_1_2 h_S_) main_v11 main_c_3
  let main_v13 : IVec S_ 1 := andi main_v8 main_v12
  let main_c_4 : IVec S_ 32 := constantI S_ 32 0#32
  let main_v14 : IVec S1 32 := broadcastInDim S1 ![] bcast_S_S1 main_c_4
  let main_v15 : IVec S1 1 := cmpi .sge main_arg3 main_v14
  let main_c_5 : IVec S_ 32 := constantI S_ 32 0#32
  fn_part1 (F := F) main_arg3 main_v13 main_v15 main_c_5
-- ==== Kernel.lean ====
abbrev S4096x10x3 : Shape := ⟨3, ![4096, 10, 3]⟩
abbrev S4096x10 : Shape := ⟨2, ![4096, 10]⟩
abbrev S4096x10x2 : Shape := ⟨3, ![4096, 10, 2]⟩
abbrev S1 : Shape := ⟨1, ![1]⟩
abbrev S480 : Shape := ⟨1, ![480]⟩
abbrev S320 : Shape := ⟨1, ![320]⟩
abbrev S160 : Shape := ⟨1, ![160]⟩
abbrev S4096x10x7 : Shape := ⟨3, ![4096, 10, 7]⟩
abbrev S160x3 : Shape := ⟨2, ![160, 3]⟩
abbrev S16x10 : Shape := ⟨2, ![16, 10]⟩
abbrev S160x2 : Shape := ⟨2, ![160, 2]⟩
abbrev S160x7 : Shape := ⟨2, ![160, 7]⟩
abbrev S_ : Shape := ⟨0, ![]⟩
abbrev S16 : Shape := ⟨1, ![16]⟩
abbrev S16x10x3 : Shape := ⟨3, ![16, 10, 3]⟩
abbrev S16x10x2 : Shape := ⟨3, ![16, 10, 2]⟩
abbrev S16x10x7 : Shape := ⟨3, ![16, 10, 7]⟩

abbrev nBuf : Table → Nat
  | .hbm => 11
  | .local .scVector .vmem => 10
  | _ => 0

abbrev bufTy : (tb : Table) → Fin (nBuf tb) → BufTy
  | .hbm, ⟨0, _⟩ => ⟨S4096x10x3, .f32⟩
  | .hbm, ⟨1, _⟩ => ⟨S4096x10, .f32⟩
  | .hbm, ⟨2, _⟩ => ⟨S4096x10x2, .f32⟩
  | .hbm, ⟨3, _⟩ => ⟨S1, .i32⟩
  | .hbm, ⟨4, _⟩ => ⟨S480, .i32⟩
  | .hbm, ⟨5, _⟩ => ⟨S480, .i32⟩
  | .hbm, ⟨6, _⟩ => ⟨S320, .i32⟩
  | .hbm, ⟨7, _⟩ => ⟨S320, .i32⟩
  | .hbm, ⟨8, _⟩ => ⟨S160, .i32⟩
  | .hbm, ⟨9, _⟩ => ⟨S160, .i32⟩
  | .hbm, ⟨10, _⟩ => ⟨S4096x10x7, .f32⟩
  | .local .scVector .vmem, ⟨0, _⟩ => ⟨S160x3, .f32⟩
  | .local .scVector .vmem, ⟨1, _⟩ => ⟨S16x10, .f32⟩
  | .local .scVector .vmem, ⟨2, _⟩ => ⟨S160x2, .f32⟩
  | .local .scVector .vmem, ⟨3, _⟩ => ⟨S160x7, .f32⟩
  | .local .scVector .vmem, ⟨4, _⟩ => ⟨S480, .i32⟩
  | .local .scVector .vmem, ⟨5, _⟩ => ⟨S480, .i32⟩
  | .local .scVector .vmem, ⟨6, _⟩ => ⟨S320, .i32⟩
  | .local .scVector .vmem, ⟨7, _⟩ => ⟨S320, .i32⟩
  | .local .scVector .vmem, ⟨8, _⟩ => ⟨S160, .i32⟩
  | .local .scVector .vmem, ⟨9, _⟩ => ⟨S160, .i32⟩
  | _, _ => ⟨S4096x10x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_c_scv : Ref sig .scVector := ⟨.hbm, 4, rfl⟩
abbrev main_c_0_scv : Ref sig .scVector := ⟨.hbm, 5, rfl⟩
abbrev main_c_1_scv : Ref sig .scVector := ⟨.hbm, 6, rfl⟩
abbrev main_c_2_scv : Ref sig .scVector := ⟨.hbm, 7, rfl⟩
abbrev main_c_3_scv : Ref sig .scVector := ⟨.hbm, 8, rfl⟩
abbrev main_c_4_scv : Ref sig .scVector := ⟨.hbm, 9, rfl⟩
abbrev main_v0_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v5 : BitVec 32 := Scalar.addi c0_i32_0 c8_i32
  let c1_i32 : BitVec 32 := 1#32
  ⟨c0_i32_0, v5, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_0 : BitVec 32 := 0#32
  let c1_i32 : BitVec 32 := 1#32
  let arg22 : BitVec 32 := Scf.iv c0_i32_0 c1_i32 k0_t1
  let c16_i32 : BitVec 32 := 16#32
  let v7 : BitVec 32 := Scalar.muli arg22 c16_i32
  let v8 : BitVec 32 := Scalar.addi v6 v7
  let c0_i32_130_r6 : BitVec 32 := 0#32
  let c0_i32_131_r6 : BitVec 32 := 0#32
  ![v8.toNat, 0, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_0 : BitVec 32 := 0#32
  let c1_i32 : BitVec 32 := 1#32
  let arg22 : BitVec 32 := Scf.iv c0_i32_0 c1_i32 k0_t1
  let c16_i32 : BitVec 32 := 16#32
  let v7 : BitVec 32 := Scalar.muli arg22 c16_i32
  let v8 : BitVec 32 := Scalar.addi v6 v7
  let c0_i32_130_r7 : BitVec 32 := 0#32
  ![v8.toNat, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_0 : BitVec 32 := 0#32
  let c1_i32 : BitVec 32 := 1#32
  let arg22 : BitVec 32 := Scf.iv c0_i32_0 c1_i32 k0_t1
  let c16_i32 : BitVec 32 := 16#32
  let v7 : BitVec 32 := Scalar.muli arg22 c16_i32
  let v8 : BitVec 32 := Scalar.addi v6 v7
  let c0_i32_130_r8 : BitVec 32 := 0#32
  let c0_i32_131_r8 : BitVec 32 := 0#32
  ![v8.toNat, 0, 0]

def k0_chk1 (v9 : IVec S16 32) (v10 : IVec S16 32) : Prop :=
  (∀ a x, ((![v9, v10] : Fin 2 → IVec S16 32) a x).toNat < S160x3.size a) ∧
  (∀ a x, ((![v9, v10] : Fin 2 → IVec S16 32) a x).toNat < S160x7.size a)
instance k0_chk1.dec : ∀ (v9 : IVec S16 32) (v10 : IVec S16 32), Decidable (k0_chk1 v9 v10) := fun v9 v10 => decidable_of_iff' _ (Iff.of_eq (k0_chk1.eq_1 v9 v10))
theorem k0_idx1_inb : ∀ (v9 : IVec S16 32) (v10 : IVec S16 32) (k0_hw1 : k0_chk1 v9 v10), ∀ a x, ((![v9, v10] : Fin 2 → IVec S16 32) a x).toNat < S160x3.size a := fun v9 v10 k0_hw1 => k0_hw1.1
theorem k0_idx2_inb : ∀ (v9 : IVec S16 32) (v10 : IVec S16 32) (k0_hw1 : k0_chk1 v9 v10), ∀ a x, ((![v9, v10] : Fin 2 → IVec S16 32) a x).toNat < S160x7.size a := fun v9 v10 k0_hw1 => k0_hw1.2

def k0_chk2 (v12 : IVec S16 32) (v13 : IVec S16 32) : Prop :=
  (∀ a x, ((![v12, v13] : Fin 2 → IVec S16 32) a x).toNat < S160x3.size a) ∧
  (∀ a x, ((![v12, v13] : Fin 2 → IVec S16 32) a x).toNat < S160x7.size a)
instance k0_chk2.dec : ∀ (v12 : IVec S16 32) (v13 : IVec S16 32), Decidable (k0_chk2 v12 v13) := fun v12 v13 => decidable_of_iff' _ (Iff.of_eq (k0_chk2.eq_1 v12 v13))
theorem k0_idx3_inb : ∀ (v12 : IVec S16 32) (v13 : IVec S16 32) (k0_hw2 : k0_chk2 v12 v13), ∀ a x, ((![v12, v13] : Fin 2 → IVec S16 32) a x).toNat < S160x3.size a := fun v12 v13 k0_hw2 => k0_hw2.1
theorem k0_idx4_inb : ∀ (v12 : IVec S16 32) (v13 : IVec S16 32) (k0_hw2 : k0_chk2 v12 v13), ∀ a x, ((![v12, v13] : Fin 2 → IVec S16 32) a x).toNat < S160x7.size a := fun v12 v13 k0_hw2 => k0_hw2.2

def k0_chk3 (v15 : IVec S16 32) (v16 : IVec S16 32) : Prop :=
  (∀ a x, ((![v15, v16] : Fin 2 → IVec S16 32) a x).toNat < S160x3.size a) ∧
  (∀ a x, ((![v15, v16] : Fin 2 → IVec S16 32) a x).toNat < S160x7.size a)
instance k0_chk3.dec : ∀ (v15 : IVec S16 32) (v16 : IVec S16 32), Decidable (k0_chk3 v15 v16) := fun v15 v16 => decidable_of_iff' _ (Iff.of_eq (k0_chk3.eq_1 v15 v16))
theorem k0_idx5_inb : ∀ (v15 : IVec S16 32) (v16 : IVec S16 32) (k0_hw3 : k0_chk3 v15 v16), ∀ a x, ((![v15, v16] : Fin 2 → IVec S16 32) a x).toNat < S160x3.size a := fun v15 v16 k0_hw3 => k0_hw3.1
theorem k0_idx6_inb : ∀ (v15 : IVec S16 32) (v16 : IVec S16 32) (k0_hw3 : k0_chk3 v15 v16), ∀ a x, ((![v15, v16] : Fin 2 → IVec S16 32) a x).toNat < S160x7.size a := fun v15 v16 k0_hw3 => k0_hw3.2

def k0_chk4 (v18 : IVec S16 32) (v19 : IVec S16 32) : Prop :=
  (∀ a x, ((![v18, v19] : Fin 2 → IVec S16 32) a x).toNat < S160x3.size a) ∧
  (∀ a x, ((![v18, v19] : Fin 2 → IVec S16 32) a x).toNat < S160x7.size a)
instance k0_chk4.dec : ∀ (v18 : IVec S16 32) (v19 : IVec S16 32), Decidable (k0_chk4 v18 v19) := fun v18 v19 => decidable_of_iff' _ (Iff.of_eq (k0_chk4.eq_1 v18 v19))
theorem k0_idx7_inb : ∀ (v18 : IVec S16 32) (v19 : IVec S16 32) (k0_hw4 : k0_chk4 v18 v19), ∀ a x, ((![v18, v19] : Fin 2 → IVec S16 32) a x).toNat < S160x3.size a := fun v18 v19 k0_hw4 => k0_hw4.1
theorem k0_idx8_inb : ∀ (v18 : IVec S16 32) (v19 : IVec S16 32) (k0_hw4 : k0_chk4 v18 v19), ∀ a x, ((![v18, v19] : Fin 2 → IVec S16 32) a x).toNat < S160x7.size a := fun v18 v19 k0_hw4 => k0_hw4.2

def k0_chk5 (v21 : IVec S16 32) (v22 : IVec S16 32) : Prop :=
  (∀ a x, ((![v21, v22] : Fin 2 → IVec S16 32) a x).toNat < S160x3.size a) ∧
  (∀ a x, ((![v21, v22] : Fin 2 → IVec S16 32) a x).toNat < S160x7.size a)
instance k0_chk5.dec : ∀ (v21 : IVec S16 32) (v22 : IVec S16 32), Decidable (k0_chk5 v21 v22) := fun v21 v22 => decidable_of_iff' _ (Iff.of_eq (k0_chk5.eq_1 v21 v22))
theorem k0_idx9_inb : ∀ (v21 : IVec S16 32) (v22 : IVec S16 32) (k0_hw5 : k0_chk5 v21 v22), ∀ a x, ((![v21, v22] : Fin 2 → IVec S16 32) a x).toNat < S160x3.size a := fun v21 v22 k0_hw5 => k0_hw5.1
theorem k0_idx10_inb : ∀ (v21 : IVec S16 32) (v22 : IVec S16 32) (k0_hw5 : k0_chk5 v21 v22), ∀ a x, ((![v21, v22] : Fin 2 → IVec S16 32) a x).toNat < S160x7.size a := fun v21 v22 k0_hw5 => k0_hw5.2

def k0_chk6 (v24 : IVec S16 32) (v25 : IVec S16 32) : Prop :=
  (∀ a x, ((![v24, v25] : Fin 2 → IVec S16 32) a x).toNat < S160x3.size a) ∧
  (∀ a x, ((![v24, v25] : Fin 2 → IVec S16 32) a x).toNat < S160x7.size a)
instance k0_chk6.dec : ∀ (v24 : IVec S16 32) (v25 : IVec S16 32), Decidable (k0_chk6 v24 v25) := fun v24 v25 => decidable_of_iff' _ (Iff.of_eq (k0_chk6.eq_1 v24 v25))
theorem k0_idx11_inb : ∀ (v24 : IVec S16 32) (v25 : IVec S16 32) (k0_hw6 : k0_chk6 v24 v25), ∀ a x, ((![v24, v25] : Fin 2 → IVec S16 32) a x).toNat < S160x3.size a := fun v24 v25 k0_hw6 => k0_hw6.1
theorem k0_idx12_inb : ∀ (v24 : IVec S16 32) (v25 : IVec S16 32) (k0_hw6 : k0_chk6 v24 v25), ∀ a x, ((![v24, v25] : Fin 2 → IVec S16 32) a x).toNat < S160x7.size a := fun v24 v25 k0_hw6 => k0_hw6.2

def k0_chk7 (v27 : IVec S16 32) (v28 : IVec S16 32) : Prop :=
  (∀ a x, ((![v27, v28] : Fin 2 → IVec S16 32) a x).toNat < S160x3.size a) ∧
  (∀ a x, ((![v27, v28] : Fin 2 → IVec S16 32) a x).toNat < S160x7.size a)
instance k0_chk7.dec : ∀ (v27 : IVec S16 32) (v28 : IVec S16 32), Decidable (k0_chk7 v27 v28) := fun v27 v28 => decidable_of_iff' _ (Iff.of_eq (k0_chk7.eq_1 v27 v28))
theorem k0_idx13_inb : ∀ (v27 : IVec S16 32) (v28 : IVec S16 32) (k0_hw7 : k0_chk7 v27 v28), ∀ a x, ((![v27, v28] : Fin 2 → IVec S16 32) a x).toNat < S160x3.size a := fun v27 v28 k0_hw7 => k0_hw7.1
theorem k0_idx14_inb : ∀ (v27 : IVec S16 32) (v28 : IVec S16 32) (k0_hw7 : k0_chk7 v27 v28), ∀ a x, ((![v27, v28] : Fin 2 → IVec S16 32) a x).toNat < S160x7.size a := fun v27 v28 k0_hw7 => k0_hw7.2

def k0_chk8 (v30 : IVec S16 32) (v31 : IVec S16 32) : Prop :=
  (∀ a x, ((![v30, v31] : Fin 2 → IVec S16 32) a x).toNat < S160x3.size a) ∧
  (∀ a x, ((![v30, v31] : Fin 2 → IVec S16 32) a x).toNat < S160x7.size a)
instance k0_chk8.dec : ∀ (v30 : IVec S16 32) (v31 : IVec S16 32), Decidable (k0_chk8 v30 v31) := fun v30 v31 => decidable_of_iff' _ (Iff.of_eq (k0_chk8.eq_1 v30 v31))
theorem k0_idx15_inb : ∀ (v30 : IVec S16 32) (v31 : IVec S16 32) (k0_hw8 : k0_chk8 v30 v31), ∀ a x, ((![v30, v31] : Fin 2 → IVec S16 32) a x).toNat < S160x3.size a := fun v30 v31 k0_hw8 => k0_hw8.1
theorem k0_idx16_inb : ∀ (v30 : IVec S16 32) (v31 : IVec S16 32) (k0_hw8 : k0_chk8 v30 v31), ∀ a x, ((![v30, v31] : Fin 2 → IVec S16 32) a x).toNat < S160x7.size a := fun v30 v31 k0_hw8 => k0_hw8.2

def k0_chk9 (v33 : IVec S16 32) (v34 : IVec S16 32) : Prop :=
  (∀ a x, ((![v33, v34] : Fin 2 → IVec S16 32) a x).toNat < S160x3.size a) ∧
  (∀ a x, ((![v33, v34] : Fin 2 → IVec S16 32) a x).toNat < S160x7.size a)
instance k0_chk9.dec : ∀ (v33 : IVec S16 32) (v34 : IVec S16 32), Decidable (k0_chk9 v33 v34) := fun v33 v34 => decidable_of_iff' _ (Iff.of_eq (k0_chk9.eq_1 v33 v34))
theorem k0_idx17_inb : ∀ (v33 : IVec S16 32) (v34 : IVec S16 32) (k0_hw9 : k0_chk9 v33 v34), ∀ a x, ((![v33, v34] : Fin 2 → IVec S16 32) a x).toNat < S160x3.size a := fun v33 v34 k0_hw9 => k0_hw9.1
theorem k0_idx18_inb : ∀ (v33 : IVec S16 32) (v34 : IVec S16 32) (k0_hw9 : k0_chk9 v33 v34), ∀ a x, ((![v33, v34] : Fin 2 → IVec S16 32) a x).toNat < S160x7.size a := fun v33 v34 k0_hw9 => k0_hw9.2

def k0_chk10 (v36 : IVec S16 32) (v37 : IVec S16 32) : Prop :=
  (∀ a x, ((![v36, v37] : Fin 2 → IVec S16 32) a x).toNat < S160x3.size a) ∧
  (∀ a x, ((![v36, v37] : Fin 2 → IVec S16 32) a x).toNat < S160x7.size a)
instance k0_chk10.dec : ∀ (v36 : IVec S16 32) (v37 : IVec S16 32), Decidable (k0_chk10 v36 v37) := fun v36 v37 => decidable_of_iff' _ (Iff.of_eq (k0_chk10.eq_1 v36 v37))
theorem k0_idx19_inb : ∀ (v36 : IVec S16 32) (v37 : IVec S16 32) (k0_hw10 : k0_chk10 v36 v37), ∀ a x, ((![v36, v37] : Fin 2 → IVec S16 32) a x).toNat < S160x3.size a := fun v36 v37 k0_hw10 => k0_hw10.1
theorem k0_idx20_inb : ∀ (v36 : IVec S16 32) (v37 : IVec S16 32) (k0_hw10 : k0_chk10 v36 v37), ∀ a x, ((![v36, v37] : Fin 2 → IVec S16 32) a x).toNat < S160x7.size a := fun v36 v37 k0_hw10 => k0_hw10.2

def k0_chk11 (v39 : IVec S16 32) (v40 : IVec S16 32) : Prop :=
  (∀ a x, ((![v39, v40] : Fin 2 → IVec S16 32) a x).toNat < S160x3.size a) ∧
  (∀ a x, ((![v39, v40] : Fin 2 → IVec S16 32) a x).toNat < S160x7.size a)
instance k0_chk11.dec : ∀ (v39 : IVec S16 32) (v40 : IVec S16 32), Decidable (k0_chk11 v39 v40) := fun v39 v40 => decidable_of_iff' _ (Iff.of_eq (k0_chk11.eq_1 v39 v40))
theorem k0_idx21_inb : ∀ (v39 : IVec S16 32) (v40 : IVec S16 32) (k0_hw11 : k0_chk11 v39 v40), ∀ a x, ((![v39, v40] : Fin 2 → IVec S16 32) a x).toNat < S160x3.size a := fun v39 v40 k0_hw11 => k0_hw11.1
theorem k0_idx22_inb : ∀ (v39 : IVec S16 32) (v40 : IVec S16 32) (k0_hw11 : k0_chk11 v39 v40), ∀ a x, ((![v39, v40] : Fin 2 → IVec S16 32) a x).toNat < S160x7.size a := fun v39 v40 k0_hw11 => k0_hw11.2

def k0_chk12 (v42 : IVec S16 32) (v43 : IVec S16 32) : Prop :=
  (∀ a x, ((![v42, v43] : Fin 2 → IVec S16 32) a x).toNat < S160x3.size a) ∧
  (∀ a x, ((![v42, v43] : Fin 2 → IVec S16 32) a x).toNat < S160x7.size a)
instance k0_chk12.dec : ∀ (v42 : IVec S16 32) (v43 : IVec S16 32), Decidable (k0_chk12 v42 v43) := fun v42 v43 => decidable_of_iff' _ (Iff.of_eq (k0_chk12.eq_1 v42 v43))
theorem k0_idx23_inb : ∀ (v42 : IVec S16 32) (v43 : IVec S16 32) (k0_hw12 : k0_chk12 v42 v43), ∀ a x, ((![v42, v43] : Fin 2 → IVec S16 32) a x).toNat < S160x3.size a := fun v42 v43 k0_hw12 => k0_hw12.1
theorem k0_idx24_inb : ∀ (v42 : IVec S16 32) (v43 : IVec S16 32) (k0_hw12 : k0_chk12 v42 v43), ∀ a x, ((![v42, v43] : Fin 2 → IVec S16 32) a x).toNat < S160x7.size a := fun v42 v43 k0_hw12 => k0_hw12.2

def k0_chk13 (v45 : IVec S16 32) (v46 : IVec S16 32) : Prop :=
  (∀ a x, ((![v45, v46] : Fin 2 → IVec S16 32) a x).toNat < S160x3.size a) ∧
  (∀ a x, ((![v45, v46] : Fin 2 → IVec S16 32) a x).toNat < S160x7.size a)
instance k0_chk13.dec : ∀ (v45 : IVec S16 32) (v46 : IVec S16 32), Decidable (k0_chk13 v45 v46) := fun v45 v46 => decidable_of_iff' _ (Iff.of_eq (k0_chk13.eq_1 v45 v46))
theorem k0_idx25_inb : ∀ (v45 : IVec S16 32) (v46 : IVec S16 32) (k0_hw13 : k0_chk13 v45 v46), ∀ a x, ((![v45, v46] : Fin 2 → IVec S16 32) a x).toNat < S160x3.size a := fun v45 v46 k0_hw13 => k0_hw13.1
theorem k0_idx26_inb : ∀ (v45 : IVec S16 32) (v46 : IVec S16 32) (k0_hw13 : k0_chk13 v45 v46), ∀ a x, ((![v45, v46] : Fin 2 → IVec S16 32) a x).toNat < S160x7.size a := fun v45 v46 k0_hw13 => k0_hw13.2

def k0_chk14 (v48 : IVec S16 32) (v49 : IVec S16 32) : Prop :=
  (∀ a x, ((![v48, v49] : Fin 2 → IVec S16 32) a x).toNat < S160x3.size a) ∧
  (∀ a x, ((![v48, v49] : Fin 2 → IVec S16 32) a x).toNat < S160x7.size a)
instance k0_chk14.dec : ∀ (v48 : IVec S16 32) (v49 : IVec S16 32), Decidable (k0_chk14 v48 v49) := fun v48 v49 => decidable_of_iff' _ (Iff.of_eq (k0_chk14.eq_1 v48 v49))
theorem k0_idx27_inb : ∀ (v48 : IVec S16 32) (v49 : IVec S16 32) (k0_hw14 : k0_chk14 v48 v49), ∀ a x, ((![v48, v49] : Fin 2 → IVec S16 32) a x).toNat < S160x3.size a := fun v48 v49 k0_hw14 => k0_hw14.1
theorem k0_idx28_inb : ∀ (v48 : IVec S16 32) (v49 : IVec S16 32) (k0_hw14 : k0_chk14 v48 v49), ∀ a x, ((![v48, v49] : Fin 2 → IVec S16 32) a x).toNat < S160x7.size a := fun v48 v49 k0_hw14 => k0_hw14.2

def k0_chk15 (v51 : IVec S16 32) (v52 : IVec S16 32) : Prop :=
  (∀ a x, ((![v51, v52] : Fin 2 → IVec S16 32) a x).toNat < S160x3.size a) ∧
  (∀ a x, ((![v51, v52] : Fin 2 → IVec S16 32) a x).toNat < S160x7.size a)
instance k0_chk15.dec : ∀ (v51 : IVec S16 32) (v52 : IVec S16 32), Decidable (k0_chk15 v51 v52) := fun v51 v52 => decidable_of_iff' _ (Iff.of_eq (k0_chk15.eq_1 v51 v52))
theorem k0_idx29_inb : ∀ (v51 : IVec S16 32) (v52 : IVec S16 32) (k0_hw15 : k0_chk15 v51 v52), ∀ a x, ((![v51, v52] : Fin 2 → IVec S16 32) a x).toNat < S160x3.size a := fun v51 v52 k0_hw15 => k0_hw15.1
theorem k0_idx30_inb : ∀ (v51 : IVec S16 32) (v52 : IVec S16 32) (k0_hw15 : k0_chk15 v51 v52), ∀ a x, ((![v51, v52] : Fin 2 → IVec S16 32) a x).toNat < S160x7.size a := fun v51 v52 k0_hw15 => k0_hw15.2

def k0_chk16 (v54 : IVec S16 32) (v55 : IVec S16 32) : Prop :=
  (∀ a x, ((![v54, v55] : Fin 2 → IVec S16 32) a x).toNat < S160x3.size a) ∧
  (∀ a x, ((![v54, v55] : Fin 2 → IVec S16 32) a x).toNat < S160x7.size a)
instance k0_chk16.dec : ∀ (v54 : IVec S16 32) (v55 : IVec S16 32), Decidable (k0_chk16 v54 v55) := fun v54 v55 => decidable_of_iff' _ (Iff.of_eq (k0_chk16.eq_1 v54 v55))
theorem k0_idx31_inb : ∀ (v54 : IVec S16 32) (v55 : IVec S16 32) (k0_hw16 : k0_chk16 v54 v55), ∀ a x, ((![v54, v55] : Fin 2 → IVec S16 32) a x).toNat < S160x3.size a := fun v54 v55 k0_hw16 => k0_hw16.1
theorem k0_idx32_inb : ∀ (v54 : IVec S16 32) (v55 : IVec S16 32) (k0_hw16 : k0_chk16 v54 v55), ∀ a x, ((![v54, v55] : Fin 2 → IVec S16 32) a x).toNat < S160x7.size a := fun v54 v55 k0_hw16 => k0_hw16.2

def k0_chk17 (v57 : IVec S16 32) (v58 : IVec S16 32) : Prop :=
  (∀ a x, ((![v57, v58] : Fin 2 → IVec S16 32) a x).toNat < S160x3.size a) ∧
  (∀ a x, ((![v57, v58] : Fin 2 → IVec S16 32) a x).toNat < S160x7.size a)
instance k0_chk17.dec : ∀ (v57 : IVec S16 32) (v58 : IVec S16 32), Decidable (k0_chk17 v57 v58) := fun v57 v58 => decidable_of_iff' _ (Iff.of_eq (k0_chk17.eq_1 v57 v58))
theorem k0_idx33_inb : ∀ (v57 : IVec S16 32) (v58 : IVec S16 32) (k0_hw17 : k0_chk17 v57 v58), ∀ a x, ((![v57, v58] : Fin 2 → IVec S16 32) a x).toNat < S160x3.size a := fun v57 v58 k0_hw17 => k0_hw17.1
theorem k0_idx34_inb : ∀ (v57 : IVec S16 32) (v58 : IVec S16 32) (k0_hw17 : k0_chk17 v57 v58), ∀ a x, ((![v57, v58] : Fin 2 → IVec S16 32) a x).toNat < S160x7.size a := fun v57 v58 k0_hw17 => k0_hw17.2

def k0_chk18 (v60 : IVec S16 32) (v61 : IVec S16 32) : Prop :=
  (∀ a x, ((![v60, v61] : Fin 2 → IVec S16 32) a x).toNat < S160x3.size a) ∧
  (∀ a x, ((![v60, v61] : Fin 2 → IVec S16 32) a x).toNat < S160x7.size a)
instance k0_chk18.dec : ∀ (v60 : IVec S16 32) (v61 : IVec S16 32), Decidable (k0_chk18 v60 v61) := fun v60 v61 => decidable_of_iff' _ (Iff.of_eq (k0_chk18.eq_1 v60 v61))
theorem k0_idx35_inb : ∀ (v60 : IVec S16 32) (v61 : IVec S16 32) (k0_hw18 : k0_chk18 v60 v61), ∀ a x, ((![v60, v61] : Fin 2 → IVec S16 32) a x).toNat < S160x3.size a := fun v60 v61 k0_hw18 => k0_hw18.1
theorem k0_idx36_inb : ∀ (v60 : IVec S16 32) (v61 : IVec S16 32) (k0_hw18 : k0_chk18 v60 v61), ∀ a x, ((![v60, v61] : Fin 2 → IVec S16 32) a x).toNat < S160x7.size a := fun v60 v61 k0_hw18 => k0_hw18.2

def k0_chk19 (v63 : IVec S16 32) (v64 : IVec S16 32) : Prop :=
  (∀ a x, ((![v63, v64] : Fin 2 → IVec S16 32) a x).toNat < S160x3.size a) ∧
  (∀ a x, ((![v63, v64] : Fin 2 → IVec S16 32) a x).toNat < S160x7.size a)
instance k0_chk19.dec : ∀ (v63 : IVec S16 32) (v64 : IVec S16 32), Decidable (k0_chk19 v63 v64) := fun v63 v64 => decidable_of_iff' _ (Iff.of_eq (k0_chk19.eq_1 v63 v64))
theorem k0_idx37_inb : ∀ (v63 : IVec S16 32) (v64 : IVec S16 32) (k0_hw19 : k0_chk19 v63 v64), ∀ a x, ((![v63, v64] : Fin 2 → IVec S16 32) a x).toNat < S160x3.size a := fun v63 v64 k0_hw19 => k0_hw19.1
theorem k0_idx38_inb : ∀ (v63 : IVec S16 32) (v64 : IVec S16 32) (k0_hw19 : k0_chk19 v63 v64), ∀ a x, ((![v63, v64] : Fin 2 → IVec S16 32) a x).toNat < S160x7.size a := fun v63 v64 k0_hw19 => k0_hw19.2

def k0_chk20 (v66 : IVec S16 32) (v67 : IVec S16 32) : Prop :=
  (∀ a x, ((![v66, v67] : Fin 2 → IVec S16 32) a x).toNat < S160x3.size a) ∧
  (∀ a x, ((![v66, v67] : Fin 2 → IVec S16 32) a x).toNat < S160x7.size a)
instance k0_chk20.dec : ∀ (v66 : IVec S16 32) (v67 : IVec S16 32), Decidable (k0_chk20 v66 v67) := fun v66 v67 => decidable_of_iff' _ (Iff.of_eq (k0_chk20.eq_1 v66 v67))
theorem k0_idx39_inb : ∀ (v66 : IVec S16 32) (v67 : IVec S16 32) (k0_hw20 : k0_chk20 v66 v67), ∀ a x, ((![v66, v67] : Fin 2 → IVec S16 32) a x).toNat < S160x3.size a := fun v66 v67 k0_hw20 => k0_hw20.1
theorem k0_idx40_inb : ∀ (v66 : IVec S16 32) (v67 : IVec S16 32) (k0_hw20 : k0_chk20 v66 v67), ∀ a x, ((![v66, v67] : Fin 2 → IVec S16 32) a x).toNat < S160x7.size a := fun v66 v67 k0_hw20 => k0_hw20.2

def k0_chk21 (v69 : IVec S16 32) (v70 : IVec S16 32) : Prop :=
  (∀ a x, ((![v69, v70] : Fin 2 → IVec S16 32) a x).toNat < S160x3.size a) ∧
  (∀ a x, ((![v69, v70] : Fin 2 → IVec S16 32) a x).toNat < S160x7.size a)
instance k0_chk21.dec : ∀ (v69 : IVec S16 32) (v70 : IVec S16 32), Decidable (k0_chk21 v69 v70) := fun v69 v70 => decidable_of_iff' _ (Iff.of_eq (k0_chk21.eq_1 v69 v70))
theorem k0_idx41_inb : ∀ (v69 : IVec S16 32) (v70 : IVec S16 32) (k0_hw21 : k0_chk21 v69 v70), ∀ a x, ((![v69, v70] : Fin 2 → IVec S16 32) a x).toNat < S160x3.size a := fun v69 v70 k0_hw21 => k0_hw21.1
theorem k0_idx42_inb : ∀ (v69 : IVec S16 32) (v70 : IVec S16 32) (k0_hw21 : k0_chk21 v69 v70), ∀ a x, ((![v69, v70] : Fin 2 → IVec S16 32) a x).toNat < S160x7.size a := fun v69 v70 k0_hw21 => k0_hw21.2

def k0_chk22 (v72 : IVec S16 32) (v73 : IVec S16 32) : Prop :=
  (∀ a x, ((![v72, v73] : Fin 2 → IVec S16 32) a x).toNat < S160x3.size a) ∧
  (∀ a x, ((![v72, v73] : Fin 2 → IVec S16 32) a x).toNat < S160x7.size a)
instance k0_chk22.dec : ∀ (v72 : IVec S16 32) (v73 : IVec S16 32), Decidable (k0_chk22 v72 v73) := fun v72 v73 => decidable_of_iff' _ (Iff.of_eq (k0_chk22.eq_1 v72 v73))
theorem k0_idx43_inb : ∀ (v72 : IVec S16 32) (v73 : IVec S16 32) (k0_hw22 : k0_chk22 v72 v73), ∀ a x, ((![v72, v73] : Fin 2 → IVec S16 32) a x).toNat < S160x3.size a := fun v72 v73 k0_hw22 => k0_hw22.1
theorem k0_idx44_inb : ∀ (v72 : IVec S16 32) (v73 : IVec S16 32) (k0_hw22 : k0_chk22 v72 v73), ∀ a x, ((![v72, v73] : Fin 2 → IVec S16 32) a x).toNat < S160x7.size a := fun v72 v73 k0_hw22 => k0_hw22.2

def k0_chk23 (v75 : IVec S16 32) (v76 : IVec S16 32) : Prop :=
  (∀ a x, ((![v75, v76] : Fin 2 → IVec S16 32) a x).toNat < S160x3.size a) ∧
  (∀ a x, ((![v75, v76] : Fin 2 → IVec S16 32) a x).toNat < S160x7.size a)
instance k0_chk23.dec : ∀ (v75 : IVec S16 32) (v76 : IVec S16 32), Decidable (k0_chk23 v75 v76) := fun v75 v76 => decidable_of_iff' _ (Iff.of_eq (k0_chk23.eq_1 v75 v76))
theorem k0_idx45_inb : ∀ (v75 : IVec S16 32) (v76 : IVec S16 32) (k0_hw23 : k0_chk23 v75 v76), ∀ a x, ((![v75, v76] : Fin 2 → IVec S16 32) a x).toNat < S160x3.size a := fun v75 v76 k0_hw23 => k0_hw23.1
theorem k0_idx46_inb : ∀ (v75 : IVec S16 32) (v76 : IVec S16 32) (k0_hw23 : k0_chk23 v75 v76), ∀ a x, ((![v75, v76] : Fin 2 → IVec S16 32) a x).toNat < S160x7.size a := fun v75 v76 k0_hw23 => k0_hw23.2

def k0_chk24 (v78 : IVec S16 32) (v79 : IVec S16 32) : Prop :=
  (∀ a x, ((![v78, v79] : Fin 2 → IVec S16 32) a x).toNat < S160x3.size a) ∧
  (∀ a x, ((![v78, v79] : Fin 2 → IVec S16 32) a x).toNat < S160x7.size a)
instance k0_chk24.dec : ∀ (v78 : IVec S16 32) (v79 : IVec S16 32), Decidable (k0_chk24 v78 v79) := fun v78 v79 => decidable_of_iff' _ (Iff.of_eq (k0_chk24.eq_1 v78 v79))
theorem k0_idx47_inb : ∀ (v78 : IVec S16 32) (v79 : IVec S16 32) (k0_hw24 : k0_chk24 v78 v79), ∀ a x, ((![v78, v79] : Fin 2 → IVec S16 32) a x).toNat < S160x3.size a := fun v78 v79 k0_hw24 => k0_hw24.1
theorem k0_idx48_inb : ∀ (v78 : IVec S16 32) (v79 : IVec S16 32) (k0_hw24 : k0_chk24 v78 v79), ∀ a x, ((![v78, v79] : Fin 2 → IVec S16 32) a x).toNat < S160x7.size a := fun v78 v79 k0_hw24 => k0_hw24.2

def k0_chk25 (v81 : IVec S16 32) (v82 : IVec S16 32) : Prop :=
  (∀ a x, ((![v81, v82] : Fin 2 → IVec S16 32) a x).toNat < S160x3.size a) ∧
  (∀ a x, ((![v81, v82] : Fin 2 → IVec S16 32) a x).toNat < S160x7.size a)
instance k0_chk25.dec : ∀ (v81 : IVec S16 32) (v82 : IVec S16 32), Decidable (k0_chk25 v81 v82) := fun v81 v82 => decidable_of_iff' _ (Iff.of_eq (k0_chk25.eq_1 v81 v82))
theorem k0_idx49_inb : ∀ (v81 : IVec S16 32) (v82 : IVec S16 32) (k0_hw25 : k0_chk25 v81 v82), ∀ a x, ((![v81, v82] : Fin 2 → IVec S16 32) a x).toNat < S160x3.size a := fun v81 v82 k0_hw25 => k0_hw25.1
theorem k0_idx50_inb : ∀ (v81 : IVec S16 32) (v82 : IVec S16 32) (k0_hw25 : k0_chk25 v81 v82), ∀ a x, ((![v81, v82] : Fin 2 → IVec S16 32) a x).toNat < S160x7.size a := fun v81 v82 k0_hw25 => k0_hw25.2

def k0_chk26 (v84 : IVec S16 32) (v85 : IVec S16 32) : Prop :=
  (∀ a x, ((![v84, v85] : Fin 2 → IVec S16 32) a x).toNat < S160x3.size a) ∧
  (∀ a x, ((![v84, v85] : Fin 2 → IVec S16 32) a x).toNat < S160x7.size a)
instance k0_chk26.dec : ∀ (v84 : IVec S16 32) (v85 : IVec S16 32), Decidable (k0_chk26 v84 v85) := fun v84 v85 => decidable_of_iff' _ (Iff.of_eq (k0_chk26.eq_1 v84 v85))
theorem k0_idx51_inb : ∀ (v84 : IVec S16 32) (v85 : IVec S16 32) (k0_hw26 : k0_chk26 v84 v85), ∀ a x, ((![v84, v85] : Fin 2 → IVec S16 32) a x).toNat < S160x3.size a := fun v84 v85 k0_hw26 => k0_hw26.1
theorem k0_idx52_inb : ∀ (v84 : IVec S16 32) (v85 : IVec S16 32) (k0_hw26 : k0_chk26 v84 v85), ∀ a x, ((![v84, v85] : Fin 2 → IVec S16 32) a x).toNat < S160x7.size a := fun v84 v85 k0_hw26 => k0_hw26.2

def k0_chk27 (v87 : IVec S16 32) (v88 : IVec S16 32) : Prop :=
  (∀ a x, ((![v87, v88] : Fin 2 → IVec S16 32) a x).toNat < S160x3.size a) ∧
  (∀ a x, ((![v87, v88] : Fin 2 → IVec S16 32) a x).toNat < S160x7.size a)
instance k0_chk27.dec : ∀ (v87 : IVec S16 32) (v88 : IVec S16 32), Decidable (k0_chk27 v87 v88) := fun v87 v88 => decidable_of_iff' _ (Iff.of_eq (k0_chk27.eq_1 v87 v88))
theorem k0_idx53_inb : ∀ (v87 : IVec S16 32) (v88 : IVec S16 32) (k0_hw27 : k0_chk27 v87 v88), ∀ a x, ((![v87, v88] : Fin 2 → IVec S16 32) a x).toNat < S160x3.size a := fun v87 v88 k0_hw27 => k0_hw27.1
theorem k0_idx54_inb : ∀ (v87 : IVec S16 32) (v88 : IVec S16 32) (k0_hw27 : k0_chk27 v87 v88), ∀ a x, ((![v87, v88] : Fin 2 → IVec S16 32) a x).toNat < S160x7.size a := fun v87 v88 k0_hw27 => k0_hw27.2

def k0_chk28 (v90 : IVec S16 32) (v91 : IVec S16 32) : Prop :=
  (∀ a x, ((![v90, v91] : Fin 2 → IVec S16 32) a x).toNat < S160x3.size a) ∧
  (∀ a x, ((![v90, v91] : Fin 2 → IVec S16 32) a x).toNat < S160x7.size a)
instance k0_chk28.dec : ∀ (v90 : IVec S16 32) (v91 : IVec S16 32), Decidable (k0_chk28 v90 v91) := fun v90 v91 => decidable_of_iff' _ (Iff.of_eq (k0_chk28.eq_1 v90 v91))
theorem k0_idx55_inb : ∀ (v90 : IVec S16 32) (v91 : IVec S16 32) (k0_hw28 : k0_chk28 v90 v91), ∀ a x, ((![v90, v91] : Fin 2 → IVec S16 32) a x).toNat < S160x3.size a := fun v90 v91 k0_hw28 => k0_hw28.1
theorem k0_idx56_inb : ∀ (v90 : IVec S16 32) (v91 : IVec S16 32) (k0_hw28 : k0_chk28 v90 v91), ∀ a x, ((![v90, v91] : Fin 2 → IVec S16 32) a x).toNat < S160x7.size a := fun v90 v91 k0_hw28 => k0_hw28.2

def k0_chk29 (v93 : IVec S16 32) (v94 : IVec S16 32) : Prop :=
  (∀ a x, ((![v93, v94] : Fin 2 → IVec S16 32) a x).toNat < S160x3.size a) ∧
  (∀ a x, ((![v93, v94] : Fin 2 → IVec S16 32) a x).toNat < S160x7.size a)
instance k0_chk29.dec : ∀ (v93 : IVec S16 32) (v94 : IVec S16 32), Decidable (k0_chk29 v93 v94) := fun v93 v94 => decidable_of_iff' _ (Iff.of_eq (k0_chk29.eq_1 v93 v94))
theorem k0_idx57_inb : ∀ (v93 : IVec S16 32) (v94 : IVec S16 32) (k0_hw29 : k0_chk29 v93 v94), ∀ a x, ((![v93, v94] : Fin 2 → IVec S16 32) a x).toNat < S160x3.size a := fun v93 v94 k0_hw29 => k0_hw29.1
theorem k0_idx58_inb : ∀ (v93 : IVec S16 32) (v94 : IVec S16 32) (k0_hw29 : k0_chk29 v93 v94), ∀ a x, ((![v93, v94] : Fin 2 → IVec S16 32) a x).toNat < S160x7.size a := fun v93 v94 k0_hw29 => k0_hw29.2

def k0_chk30 (v96 : IVec S16 32) (v97 : IVec S16 32) : Prop :=
  (∀ a x, ((![v96, v97] : Fin 2 → IVec S16 32) a x).toNat < S160x3.size a) ∧
  (∀ a x, ((![v96, v97] : Fin 2 → IVec S16 32) a x).toNat < S160x7.size a)
instance k0_chk30.dec : ∀ (v96 : IVec S16 32) (v97 : IVec S16 32), Decidable (k0_chk30 v96 v97) := fun v96 v97 => decidable_of_iff' _ (Iff.of_eq (k0_chk30.eq_1 v96 v97))
theorem k0_idx59_inb : ∀ (v96 : IVec S16 32) (v97 : IVec S16 32) (k0_hw30 : k0_chk30 v96 v97), ∀ a x, ((![v96, v97] : Fin 2 → IVec S16 32) a x).toNat < S160x3.size a := fun v96 v97 k0_hw30 => k0_hw30.1
theorem k0_idx60_inb : ∀ (v96 : IVec S16 32) (v97 : IVec S16 32) (k0_hw30 : k0_chk30 v96 v97), ∀ a x, ((![v96, v97] : Fin 2 → IVec S16 32) a x).toNat < S160x7.size a := fun v96 v97 k0_hw30 => k0_hw30.2

def k0_chk31 (v99 : IVec S16 32) (v100 : IVec S16 32) : Prop :=
  (∀ a x, ((![v99, v100] : Fin 2 → IVec S16 32) a x).toNat < S160x2.size a)
instance k0_chk31.dec : ∀ (v99 : IVec S16 32) (v100 : IVec S16 32), Decidable (k0_chk31 v99 v100) := fun v99 v100 => decidable_of_iff' _ (Iff.of_eq (k0_chk31.eq_1 v99 v100))
theorem k0_idx61_inb : ∀ (v99 : IVec S16 32) (v100 : IVec S16 32) (k0_hw31 : k0_chk31 v99 v100), ∀ a x, ((![v99, v100] : Fin 2 → IVec S16 32) a x).toNat < S160x2.size a := fun v99 v100 k0_hw31 => k0_hw31

def k0_chk32 (v99 : IVec S16 32) (v101 : IVec S16 32) : Prop :=
  (∀ a x, ((![v99, v101] : Fin 2 → IVec S16 32) a x).toNat < S160x7.size a)
instance k0_chk32.dec : ∀ (v99 : IVec S16 32) (v101 : IVec S16 32), Decidable (k0_chk32 v99 v101) := fun v99 v101 => decidable_of_iff' _ (Iff.of_eq (k0_chk32.eq_1 v99 v101))
theorem k0_idx62_inb : ∀ (v99 : IVec S16 32) (v101 : IVec S16 32) (k0_hw32 : k0_chk32 v99 v101), ∀ a x, ((![v99, v101] : Fin 2 → IVec S16 32) a x).toNat < S160x7.size a := fun v99 v101 k0_hw32 => k0_hw32

def k0_chk33 (v103 : IVec S16 32) (v104 : IVec S16 32) : Prop :=
  (∀ a x, ((![v103, v104] : Fin 2 → IVec S16 32) a x).toNat < S160x2.size a)
instance k0_chk33.dec : ∀ (v103 : IVec S16 32) (v104 : IVec S16 32), Decidable (k0_chk33 v103 v104) := fun v103 v104 => decidable_of_iff' _ (Iff.of_eq (k0_chk33.eq_1 v103 v104))
theorem k0_idx63_inb : ∀ (v103 : IVec S16 32) (v104 : IVec S16 32) (k0_hw33 : k0_chk33 v103 v104), ∀ a x, ((![v103, v104] : Fin 2 → IVec S16 32) a x).toNat < S160x2.size a := fun v103 v104 k0_hw33 => k0_hw33

def k0_chk34 (v103 : IVec S16 32) (v105 : IVec S16 32) : Prop :=
  (∀ a x, ((![v103, v105] : Fin 2 → IVec S16 32) a x).toNat < S160x7.size a)
instance k0_chk34.dec : ∀ (v103 : IVec S16 32) (v105 : IVec S16 32), Decidable (k0_chk34 v103 v105) := fun v103 v105 => decidable_of_iff' _ (Iff.of_eq (k0_chk34.eq_1 v103 v105))
theorem k0_idx64_inb : ∀ (v103 : IVec S16 32) (v105 : IVec S16 32) (k0_hw34 : k0_chk34 v103 v105), ∀ a x, ((![v103, v105] : Fin 2 → IVec S16 32) a x).toNat < S160x7.size a := fun v103 v105 k0_hw34 => k0_hw34

def k0_chk35 (v107 : IVec S16 32) (v108 : IVec S16 32) : Prop :=
  (∀ a x, ((![v107, v108] : Fin 2 → IVec S16 32) a x).toNat < S160x2.size a)
instance k0_chk35.dec : ∀ (v107 : IVec S16 32) (v108 : IVec S16 32), Decidable (k0_chk35 v107 v108) := fun v107 v108 => decidable_of_iff' _ (Iff.of_eq (k0_chk35.eq_1 v107 v108))
theorem k0_idx65_inb : ∀ (v107 : IVec S16 32) (v108 : IVec S16 32) (k0_hw35 : k0_chk35 v107 v108), ∀ a x, ((![v107, v108] : Fin 2 → IVec S16 32) a x).toNat < S160x2.size a := fun v107 v108 k0_hw35 => k0_hw35

def k0_chk36 (v107 : IVec S16 32) (v109 : IVec S16 32) : Prop :=
  (∀ a x, ((![v107, v109] : Fin 2 → IVec S16 32) a x).toNat < S160x7.size a)
instance k0_chk36.dec : ∀ (v107 : IVec S16 32) (v109 : IVec S16 32), Decidable (k0_chk36 v107 v109) := fun v107 v109 => decidable_of_iff' _ (Iff.of_eq (k0_chk36.eq_1 v107 v109))
theorem k0_idx66_inb : ∀ (v107 : IVec S16 32) (v109 : IVec S16 32) (k0_hw36 : k0_chk36 v107 v109), ∀ a x, ((![v107, v109] : Fin 2 → IVec S16 32) a x).toNat < S160x7.size a := fun v107 v109 k0_hw36 => k0_hw36

def k0_chk37 (v111 : IVec S16 32) (v112 : IVec S16 32) : Prop :=
  (∀ a x, ((![v111, v112] : Fin 2 → IVec S16 32) a x).toNat < S160x2.size a)
instance k0_chk37.dec : ∀ (v111 : IVec S16 32) (v112 : IVec S16 32), Decidable (k0_chk37 v111 v112) := fun v111 v112 => decidable_of_iff' _ (Iff.of_eq (k0_chk37.eq_1 v111 v112))
theorem k0_idx67_inb : ∀ (v111 : IVec S16 32) (v112 : IVec S16 32) (k0_hw37 : k0_chk37 v111 v112), ∀ a x, ((![v111, v112] : Fin 2 → IVec S16 32) a x).toNat < S160x2.size a := fun v111 v112 k0_hw37 => k0_hw37

def k0_chk38 (v111 : IVec S16 32) (v113 : IVec S16 32) : Prop :=
  (∀ a x, ((![v111, v113] : Fin 2 → IVec S16 32) a x).toNat < S160x7.size a)
instance k0_chk38.dec : ∀ (v111 : IVec S16 32) (v113 : IVec S16 32), Decidable (k0_chk38 v111 v113) := fun v111 v113 => decidable_of_iff' _ (Iff.of_eq (k0_chk38.eq_1 v111 v113))
theorem k0_idx68_inb : ∀ (v111 : IVec S16 32) (v113 : IVec S16 32) (k0_hw38 : k0_chk38 v111 v113), ∀ a x, ((![v111, v113] : Fin 2 → IVec S16 32) a x).toNat < S160x7.size a := fun v111 v113 k0_hw38 => k0_hw38

def k0_chk39 (v115 : IVec S16 32) (v116 : IVec S16 32) : Prop :=
  (∀ a x, ((![v115, v116] : Fin 2 → IVec S16 32) a x).toNat < S160x2.size a)
instance k0_chk39.dec : ∀ (v115 : IVec S16 32) (v116 : IVec S16 32), Decidable (k0_chk39 v115 v116) := fun v115 v116 => decidable_of_iff' _ (Iff.of_eq (k0_chk39.eq_1 v115 v116))
theorem k0_idx69_inb : ∀ (v115 : IVec S16 32) (v116 : IVec S16 32) (k0_hw39 : k0_chk39 v115 v116), ∀ a x, ((![v115, v116] : Fin 2 → IVec S16 32) a x).toNat < S160x2.size a := fun v115 v116 k0_hw39 => k0_hw39

def k0_chk40 (v115 : IVec S16 32) (v117 : IVec S16 32) : Prop :=
  (∀ a x, ((![v115, v117] : Fin 2 → IVec S16 32) a x).toNat < S160x7.size a)
instance k0_chk40.dec : ∀ (v115 : IVec S16 32) (v117 : IVec S16 32), Decidable (k0_chk40 v115 v117) := fun v115 v117 => decidable_of_iff' _ (Iff.of_eq (k0_chk40.eq_1 v115 v117))
theorem k0_idx70_inb : ∀ (v115 : IVec S16 32) (v117 : IVec S16 32) (k0_hw40 : k0_chk40 v115 v117), ∀ a x, ((![v115, v117] : Fin 2 → IVec S16 32) a x).toNat < S160x7.size a := fun v115 v117 k0_hw40 => k0_hw40

def k0_chk41 (v119 : IVec S16 32) (v120 : IVec S16 32) : Prop :=
  (∀ a x, ((![v119, v120] : Fin 2 → IVec S16 32) a x).toNat < S160x2.size a)
instance k0_chk41.dec : ∀ (v119 : IVec S16 32) (v120 : IVec S16 32), Decidable (k0_chk41 v119 v120) := fun v119 v120 => decidable_of_iff' _ (Iff.of_eq (k0_chk41.eq_1 v119 v120))
theorem k0_idx71_inb : ∀ (v119 : IVec S16 32) (v120 : IVec S16 32) (k0_hw41 : k0_chk41 v119 v120), ∀ a x, ((![v119, v120] : Fin 2 → IVec S16 32) a x).toNat < S160x2.size a := fun v119 v120 k0_hw41 => k0_hw41

def k0_chk42 (v119 : IVec S16 32) (v121 : IVec S16 32) : Prop :=
  (∀ a x, ((![v119, v121] : Fin 2 → IVec S16 32) a x).toNat < S160x7.size a)
instance k0_chk42.dec : ∀ (v119 : IVec S16 32) (v121 : IVec S16 32), Decidable (k0_chk42 v119 v121) := fun v119 v121 => decidable_of_iff' _ (Iff.of_eq (k0_chk42.eq_1 v119 v121))
theorem k0_idx72_inb : ∀ (v119 : IVec S16 32) (v121 : IVec S16 32) (k0_hw42 : k0_chk42 v119 v121), ∀ a x, ((![v119, v121] : Fin 2 → IVec S16 32) a x).toNat < S160x7.size a := fun v119 v121 k0_hw42 => k0_hw42

def k0_chk43 (v123 : IVec S16 32) (v124 : IVec S16 32) : Prop :=
  (∀ a x, ((![v123, v124] : Fin 2 → IVec S16 32) a x).toNat < S160x2.size a)
instance k0_chk43.dec : ∀ (v123 : IVec S16 32) (v124 : IVec S16 32), Decidable (k0_chk43 v123 v124) := fun v123 v124 => decidable_of_iff' _ (Iff.of_eq (k0_chk43.eq_1 v123 v124))
theorem k0_idx73_inb : ∀ (v123 : IVec S16 32) (v124 : IVec S16 32) (k0_hw43 : k0_chk43 v123 v124), ∀ a x, ((![v123, v124] : Fin 2 → IVec S16 32) a x).toNat < S160x2.size a := fun v123 v124 k0_hw43 => k0_hw43

def k0_chk44 (v123 : IVec S16 32) (v125 : IVec S16 32) : Prop :=
  (∀ a x, ((![v123, v125] : Fin 2 → IVec S16 32) a x).toNat < S160x7.size a)
instance k0_chk44.dec : ∀ (v123 : IVec S16 32) (v125 : IVec S16 32), Decidable (k0_chk44 v123 v125) := fun v123 v125 => decidable_of_iff' _ (Iff.of_eq (k0_chk44.eq_1 v123 v125))
theorem k0_idx74_inb : ∀ (v123 : IVec S16 32) (v125 : IVec S16 32) (k0_hw44 : k0_chk44 v123 v125), ∀ a x, ((![v123, v125] : Fin 2 → IVec S16 32) a x).toNat < S160x7.size a := fun v123 v125 k0_hw44 => k0_hw44

def k0_chk45 (v127 : IVec S16 32) (v128 : IVec S16 32) : Prop :=
  (∀ a x, ((![v127, v128] : Fin 2 → IVec S16 32) a x).toNat < S160x2.size a)
instance k0_chk45.dec : ∀ (v127 : IVec S16 32) (v128 : IVec S16 32), Decidable (k0_chk45 v127 v128) := fun v127 v128 => decidable_of_iff' _ (Iff.of_eq (k0_chk45.eq_1 v127 v128))
theorem k0_idx75_inb : ∀ (v127 : IVec S16 32) (v128 : IVec S16 32) (k0_hw45 : k0_chk45 v127 v128), ∀ a x, ((![v127, v128] : Fin 2 → IVec S16 32) a x).toNat < S160x2.size a := fun v127 v128 k0_hw45 => k0_hw45

def k0_chk46 (v127 : IVec S16 32) (v129 : IVec S16 32) : Prop :=
  (∀ a x, ((![v127, v129] : Fin 2 → IVec S16 32) a x).toNat < S160x7.size a)
instance k0_chk46.dec : ∀ (v127 : IVec S16 32) (v129 : IVec S16 32), Decidable (k0_chk46 v127 v129) := fun v127 v129 => decidable_of_iff' _ (Iff.of_eq (k0_chk46.eq_1 v127 v129))
theorem k0_idx76_inb : ∀ (v127 : IVec S16 32) (v129 : IVec S16 32) (k0_hw46 : k0_chk46 v127 v129), ∀ a x, ((![v127, v129] : Fin 2 → IVec S16 32) a x).toNat < S160x7.size a := fun v127 v129 k0_hw46 => k0_hw46

def k0_chk47 (v131 : IVec S16 32) (v132 : IVec S16 32) : Prop :=
  (∀ a x, ((![v131, v132] : Fin 2 → IVec S16 32) a x).toNat < S160x2.size a)
instance k0_chk47.dec : ∀ (v131 : IVec S16 32) (v132 : IVec S16 32), Decidable (k0_chk47 v131 v132) := fun v131 v132 => decidable_of_iff' _ (Iff.of_eq (k0_chk47.eq_1 v131 v132))
theorem k0_idx77_inb : ∀ (v131 : IVec S16 32) (v132 : IVec S16 32) (k0_hw47 : k0_chk47 v131 v132), ∀ a x, ((![v131, v132] : Fin 2 → IVec S16 32) a x).toNat < S160x2.size a := fun v131 v132 k0_hw47 => k0_hw47

def k0_chk48 (v131 : IVec S16 32) (v133 : IVec S16 32) : Prop :=
  (∀ a x, ((![v131, v133] : Fin 2 → IVec S16 32) a x).toNat < S160x7.size a)
instance k0_chk48.dec : ∀ (v131 : IVec S16 32) (v133 : IVec S16 32), Decidable (k0_chk48 v131 v133) := fun v131 v133 => decidable_of_iff' _ (Iff.of_eq (k0_chk48.eq_1 v131 v133))
theorem k0_idx78_inb : ∀ (v131 : IVec S16 32) (v133 : IVec S16 32) (k0_hw48 : k0_chk48 v131 v133), ∀ a x, ((![v131, v133] : Fin 2 → IVec S16 32) a x).toNat < S160x7.size a := fun v131 v133 k0_hw48 => k0_hw48

def k0_chk49 (v135 : IVec S16 32) (v136 : IVec S16 32) : Prop :=
  (∀ a x, ((![v135, v136] : Fin 2 → IVec S16 32) a x).toNat < S160x2.size a)
instance k0_chk49.dec : ∀ (v135 : IVec S16 32) (v136 : IVec S16 32), Decidable (k0_chk49 v135 v136) := fun v135 v136 => decidable_of_iff' _ (Iff.of_eq (k0_chk49.eq_1 v135 v136))
theorem k0_idx79_inb : ∀ (v135 : IVec S16 32) (v136 : IVec S16 32) (k0_hw49 : k0_chk49 v135 v136), ∀ a x, ((![v135, v136] : Fin 2 → IVec S16 32) a x).toNat < S160x2.size a := fun v135 v136 k0_hw49 => k0_hw49

def k0_chk50 (v135 : IVec S16 32) (v137 : IVec S16 32) : Prop :=
  (∀ a x, ((![v135, v137] : Fin 2 → IVec S16 32) a x).toNat < S160x7.size a)
instance k0_chk50.dec : ∀ (v135 : IVec S16 32) (v137 : IVec S16 32), Decidable (k0_chk50 v135 v137) := fun v135 v137 => decidable_of_iff' _ (Iff.of_eq (k0_chk50.eq_1 v135 v137))
theorem k0_idx80_inb : ∀ (v135 : IVec S16 32) (v137 : IVec S16 32) (k0_hw50 : k0_chk50 v135 v137), ∀ a x, ((![v135, v137] : Fin 2 → IVec S16 32) a x).toNat < S160x7.size a := fun v135 v137 k0_hw50 => k0_hw50

def k0_chk51 (v139 : IVec S16 32) (v140 : IVec S16 32) : Prop :=
  (∀ a x, ((![v139, v140] : Fin 2 → IVec S16 32) a x).toNat < S160x2.size a)
instance k0_chk51.dec : ∀ (v139 : IVec S16 32) (v140 : IVec S16 32), Decidable (k0_chk51 v139 v140) := fun v139 v140 => decidable_of_iff' _ (Iff.of_eq (k0_chk51.eq_1 v139 v140))
theorem k0_idx81_inb : ∀ (v139 : IVec S16 32) (v140 : IVec S16 32) (k0_hw51 : k0_chk51 v139 v140), ∀ a x, ((![v139, v140] : Fin 2 → IVec S16 32) a x).toNat < S160x2.size a := fun v139 v140 k0_hw51 => k0_hw51

def k0_chk52 (v139 : IVec S16 32) (v141 : IVec S16 32) : Prop :=
  (∀ a x, ((![v139, v141] : Fin 2 → IVec S16 32) a x).toNat < S160x7.size a)
instance k0_chk52.dec : ∀ (v139 : IVec S16 32) (v141 : IVec S16 32), Decidable (k0_chk52 v139 v141) := fun v139 v141 => decidable_of_iff' _ (Iff.of_eq (k0_chk52.eq_1 v139 v141))
theorem k0_idx82_inb : ∀ (v139 : IVec S16 32) (v141 : IVec S16 32) (k0_hw52 : k0_chk52 v139 v141), ∀ a x, ((![v139, v141] : Fin 2 → IVec S16 32) a x).toNat < S160x7.size a := fun v139 v141 k0_hw52 => k0_hw52

def k0_chk53 (v143 : IVec S16 32) (v144 : IVec S16 32) : Prop :=
  (∀ a x, ((![v143, v144] : Fin 2 → IVec S16 32) a x).toNat < S160x2.size a)
instance k0_chk53.dec : ∀ (v143 : IVec S16 32) (v144 : IVec S16 32), Decidable (k0_chk53 v143 v144) := fun v143 v144 => decidable_of_iff' _ (Iff.of_eq (k0_chk53.eq_1 v143 v144))
theorem k0_idx83_inb : ∀ (v143 : IVec S16 32) (v144 : IVec S16 32) (k0_hw53 : k0_chk53 v143 v144), ∀ a x, ((![v143, v144] : Fin 2 → IVec S16 32) a x).toNat < S160x2.size a := fun v143 v144 k0_hw53 => k0_hw53

def k0_chk54 (v143 : IVec S16 32) (v145 : IVec S16 32) : Prop :=
  (∀ a x, ((![v143, v145] : Fin 2 → IVec S16 32) a x).toNat < S160x7.size a)
instance k0_chk54.dec : ∀ (v143 : IVec S16 32) (v145 : IVec S16 32), Decidable (k0_chk54 v143 v145) := fun v143 v145 => decidable_of_iff' _ (Iff.of_eq (k0_chk54.eq_1 v143 v145))
theorem k0_idx84_inb : ∀ (v143 : IVec S16 32) (v145 : IVec S16 32) (k0_hw54 : k0_chk54 v143 v145), ∀ a x, ((![v143, v145] : Fin 2 → IVec S16 32) a x).toNat < S160x7.size a := fun v143 v145 k0_hw54 => k0_hw54

def k0_chk55 (v147 : IVec S16 32) (v148 : IVec S16 32) : Prop :=
  (∀ a x, ((![v147, v148] : Fin 2 → IVec S16 32) a x).toNat < S160x2.size a)
instance k0_chk55.dec : ∀ (v147 : IVec S16 32) (v148 : IVec S16 32), Decidable (k0_chk55 v147 v148) := fun v147 v148 => decidable_of_iff' _ (Iff.of_eq (k0_chk55.eq_1 v147 v148))
theorem k0_idx85_inb : ∀ (v147 : IVec S16 32) (v148 : IVec S16 32) (k0_hw55 : k0_chk55 v147 v148), ∀ a x, ((![v147, v148] : Fin 2 → IVec S16 32) a x).toNat < S160x2.size a := fun v147 v148 k0_hw55 => k0_hw55

def k0_chk56 (v147 : IVec S16 32) (v149 : IVec S16 32) : Prop :=
  (∀ a x, ((![v147, v149] : Fin 2 → IVec S16 32) a x).toNat < S160x7.size a)
instance k0_chk56.dec : ∀ (v147 : IVec S16 32) (v149 : IVec S16 32), Decidable (k0_chk56 v147 v149) := fun v147 v149 => decidable_of_iff' _ (Iff.of_eq (k0_chk56.eq_1 v147 v149))
theorem k0_idx86_inb : ∀ (v147 : IVec S16 32) (v149 : IVec S16 32) (k0_hw56 : k0_chk56 v147 v149), ∀ a x, ((![v147, v149] : Fin 2 → IVec S16 32) a x).toNat < S160x7.size a := fun v147 v149 k0_hw56 => k0_hw56

def k0_chk57 (v151 : IVec S16 32) (v152 : IVec S16 32) : Prop :=
  (∀ a x, ((![v151, v152] : Fin 2 → IVec S16 32) a x).toNat < S160x2.size a)
instance k0_chk57.dec : ∀ (v151 : IVec S16 32) (v152 : IVec S16 32), Decidable (k0_chk57 v151 v152) := fun v151 v152 => decidable_of_iff' _ (Iff.of_eq (k0_chk57.eq_1 v151 v152))
theorem k0_idx87_inb : ∀ (v151 : IVec S16 32) (v152 : IVec S16 32) (k0_hw57 : k0_chk57 v151 v152), ∀ a x, ((![v151, v152] : Fin 2 → IVec S16 32) a x).toNat < S160x2.size a := fun v151 v152 k0_hw57 => k0_hw57

def k0_chk58 (v151 : IVec S16 32) (v153 : IVec S16 32) : Prop :=
  (∀ a x, ((![v151, v153] : Fin 2 → IVec S16 32) a x).toNat < S160x7.size a)
instance k0_chk58.dec : ∀ (v151 : IVec S16 32) (v153 : IVec S16 32), Decidable (k0_chk58 v151 v153) := fun v151 v153 => decidable_of_iff' _ (Iff.of_eq (k0_chk58.eq_1 v151 v153))
theorem k0_idx88_inb : ∀ (v151 : IVec S16 32) (v153 : IVec S16 32) (k0_hw58 : k0_chk58 v151 v153), ∀ a x, ((![v151, v153] : Fin 2 → IVec S16 32) a x).toNat < S160x7.size a := fun v151 v153 k0_hw58 => k0_hw58

def k0_chk59 (v155 : IVec S16 32) (v156 : IVec S16 32) : Prop :=
  (∀ a x, ((![v155, v156] : Fin 2 → IVec S16 32) a x).toNat < S160x2.size a)
instance k0_chk59.dec : ∀ (v155 : IVec S16 32) (v156 : IVec S16 32), Decidable (k0_chk59 v155 v156) := fun v155 v156 => decidable_of_iff' _ (Iff.of_eq (k0_chk59.eq_1 v155 v156))
theorem k0_idx89_inb : ∀ (v155 : IVec S16 32) (v156 : IVec S16 32) (k0_hw59 : k0_chk59 v155 v156), ∀ a x, ((![v155, v156] : Fin 2 → IVec S16 32) a x).toNat < S160x2.size a := fun v155 v156 k0_hw59 => k0_hw59

def k0_chk60 (v155 : IVec S16 32) (v157 : IVec S16 32) : Prop :=
  (∀ a x, ((![v155, v157] : Fin 2 → IVec S16 32) a x).toNat < S160x7.size a)
instance k0_chk60.dec : ∀ (v155 : IVec S16 32) (v157 : IVec S16 32), Decidable (k0_chk60 v155 v157) := fun v155 v157 => decidable_of_iff' _ (Iff.of_eq (k0_chk60.eq_1 v155 v157))
theorem k0_idx90_inb : ∀ (v155 : IVec S16 32) (v157 : IVec S16 32) (k0_hw60 : k0_chk60 v155 v157), ∀ a x, ((![v155, v157] : Fin 2 → IVec S16 32) a x).toNat < S160x7.size a := fun v155 v157 k0_hw60 => k0_hw60

def k0_chk61 (v159 : IVec S16 32) (v160 : IVec S16 32) : Prop :=
  (∀ a x, ((![v159, v160] : Fin 2 → IVec S16 32) a x).toNat < S160x2.size a)
instance k0_chk61.dec : ∀ (v159 : IVec S16 32) (v160 : IVec S16 32), Decidable (k0_chk61 v159 v160) := fun v159 v160 => decidable_of_iff' _ (Iff.of_eq (k0_chk61.eq_1 v159 v160))
theorem k0_idx91_inb : ∀ (v159 : IVec S16 32) (v160 : IVec S16 32) (k0_hw61 : k0_chk61 v159 v160), ∀ a x, ((![v159, v160] : Fin 2 → IVec S16 32) a x).toNat < S160x2.size a := fun v159 v160 k0_hw61 => k0_hw61

def k0_chk62 (v159 : IVec S16 32) (v161 : IVec S16 32) : Prop :=
  (∀ a x, ((![v159, v161] : Fin 2 → IVec S16 32) a x).toNat < S160x7.size a)
instance k0_chk62.dec : ∀ (v159 : IVec S16 32) (v161 : IVec S16 32), Decidable (k0_chk62 v159 v161) := fun v159 v161 => decidable_of_iff' _ (Iff.of_eq (k0_chk62.eq_1 v159 v161))
theorem k0_idx92_inb : ∀ (v159 : IVec S16 32) (v161 : IVec S16 32) (k0_hw62 : k0_chk62 v159 v161), ∀ a x, ((![v159, v161] : Fin 2 → IVec S16 32) a x).toNat < S160x7.size a := fun v159 v161 k0_hw62 => k0_hw62

def k0_chk63 (v163 : IVec S16 32) (v164 : IVec S16 32) : Prop :=
  (∀ a x, ((![v163, v164] : Fin 2 → IVec S16 32) a x).toNat < S160x2.size a)
instance k0_chk63.dec : ∀ (v163 : IVec S16 32) (v164 : IVec S16 32), Decidable (k0_chk63 v163 v164) := fun v163 v164 => decidable_of_iff' _ (Iff.of_eq (k0_chk63.eq_1 v163 v164))
theorem k0_idx93_inb : ∀ (v163 : IVec S16 32) (v164 : IVec S16 32) (k0_hw63 : k0_chk63 v163 v164), ∀ a x, ((![v163, v164] : Fin 2 → IVec S16 32) a x).toNat < S160x2.size a := fun v163 v164 k0_hw63 => k0_hw63

def k0_chk64 (v163 : IVec S16 32) (v165 : IVec S16 32) : Prop :=
  (∀ a x, ((![v163, v165] : Fin 2 → IVec S16 32) a x).toNat < S160x7.size a)
instance k0_chk64.dec : ∀ (v163 : IVec S16 32) (v165 : IVec S16 32), Decidable (k0_chk64 v163 v165) := fun v163 v165 => decidable_of_iff' _ (Iff.of_eq (k0_chk64.eq_1 v163 v165))
theorem k0_idx94_inb : ∀ (v163 : IVec S16 32) (v165 : IVec S16 32) (k0_hw64 : k0_chk64 v163 v165), ∀ a x, ((![v163, v165] : Fin 2 → IVec S16 32) a x).toNat < S160x7.size a := fun v163 v165 k0_hw64 => k0_hw64

def k0_chk65 (v167 : IVec S16 32) (v168 : IVec S16 32) : Prop :=
  (∀ a x, ((![v167, v168] : Fin 2 → IVec S16 32) a x).toNat < S160x2.size a)
instance k0_chk65.dec : ∀ (v167 : IVec S16 32) (v168 : IVec S16 32), Decidable (k0_chk65 v167 v168) := fun v167 v168 => decidable_of_iff' _ (Iff.of_eq (k0_chk65.eq_1 v167 v168))
theorem k0_idx95_inb : ∀ (v167 : IVec S16 32) (v168 : IVec S16 32) (k0_hw65 : k0_chk65 v167 v168), ∀ a x, ((![v167, v168] : Fin 2 → IVec S16 32) a x).toNat < S160x2.size a := fun v167 v168 k0_hw65 => k0_hw65

def k0_chk66 (v167 : IVec S16 32) (v169 : IVec S16 32) : Prop :=
  (∀ a x, ((![v167, v169] : Fin 2 → IVec S16 32) a x).toNat < S160x7.size a)
instance k0_chk66.dec : ∀ (v167 : IVec S16 32) (v169 : IVec S16 32), Decidable (k0_chk66 v167 v169) := fun v167 v169 => decidable_of_iff' _ (Iff.of_eq (k0_chk66.eq_1 v167 v169))
theorem k0_idx96_inb : ∀ (v167 : IVec S16 32) (v169 : IVec S16 32) (k0_hw66 : k0_chk66 v167 v169), ∀ a x, ((![v167, v169] : Fin 2 → IVec S16 32) a x).toNat < S160x7.size a := fun v167 v169 k0_hw66 => k0_hw66

def k0_chk67 (v171 : IVec S16 32) (v172 : IVec S16 32) : Prop :=
  (∀ a x, ((![v171, v172] : Fin 2 → IVec S16 32) a x).toNat < S160x2.size a)
instance k0_chk67.dec : ∀ (v171 : IVec S16 32) (v172 : IVec S16 32), Decidable (k0_chk67 v171 v172) := fun v171 v172 => decidable_of_iff' _ (Iff.of_eq (k0_chk67.eq_1 v171 v172))
theorem k0_idx97_inb : ∀ (v171 : IVec S16 32) (v172 : IVec S16 32) (k0_hw67 : k0_chk67 v171 v172), ∀ a x, ((![v171, v172] : Fin 2 → IVec S16 32) a x).toNat < S160x2.size a := fun v171 v172 k0_hw67 => k0_hw67

def k0_chk68 (v171 : IVec S16 32) (v173 : IVec S16 32) : Prop :=
  (∀ a x, ((![v171, v173] : Fin 2 → IVec S16 32) a x).toNat < S160x7.size a)
instance k0_chk68.dec : ∀ (v171 : IVec S16 32) (v173 : IVec S16 32), Decidable (k0_chk68 v171 v173) := fun v171 v173 => decidable_of_iff' _ (Iff.of_eq (k0_chk68.eq_1 v171 v173))
theorem k0_idx98_inb : ∀ (v171 : IVec S16 32) (v173 : IVec S16 32) (k0_hw68 : k0_chk68 v171 v173), ∀ a x, ((![v171, v173] : Fin 2 → IVec S16 32) a x).toNat < S160x7.size a := fun v171 v173 k0_hw68 => k0_hw68

def k0_chk69 (v175 : IVec S16 32) (v176 : IVec S16 32) : Prop :=
  (∀ a x, ((![v175, v176] : Fin 2 → IVec S16 32) a x).toNat < S160x2.size a)
instance k0_chk69.dec : ∀ (v175 : IVec S16 32) (v176 : IVec S16 32), Decidable (k0_chk69 v175 v176) := fun v175 v176 => decidable_of_iff' _ (Iff.of_eq (k0_chk69.eq_1 v175 v176))
theorem k0_idx99_inb : ∀ (v175 : IVec S16 32) (v176 : IVec S16 32) (k0_hw69 : k0_chk69 v175 v176), ∀ a x, ((![v175, v176] : Fin 2 → IVec S16 32) a x).toNat < S160x2.size a := fun v175 v176 k0_hw69 => k0_hw69

def k0_chk70 (v175 : IVec S16 32) (v177 : IVec S16 32) : Prop :=
  (∀ a x, ((![v175, v177] : Fin 2 → IVec S16 32) a x).toNat < S160x7.size a)
instance k0_chk70.dec : ∀ (v175 : IVec S16 32) (v177 : IVec S16 32), Decidable (k0_chk70 v175 v177) := fun v175 v177 => decidable_of_iff' _ (Iff.of_eq (k0_chk70.eq_1 v175 v177))
theorem k0_idx100_inb : ∀ (v175 : IVec S16 32) (v177 : IVec S16 32) (k0_hw70 : k0_chk70 v175 v177), ∀ a x, ((![v175, v177] : Fin 2 → IVec S16 32) a x).toNat < S160x7.size a := fun v175 v177 k0_hw70 => k0_hw70

def k0_chk71 (v179 : IVec S16 32) (v180 : IVec S16 32) : Prop :=
  (∀ a x, ((![v179, v180] : Fin 2 → IVec S16 32) a x).toNat < S16x10.size a)
instance k0_chk71.dec : ∀ (v179 : IVec S16 32) (v180 : IVec S16 32), Decidable (k0_chk71 v179 v180) := fun v179 v180 => decidable_of_iff' _ (Iff.of_eq (k0_chk71.eq_1 v179 v180))
theorem k0_idx101_inb : ∀ (v179 : IVec S16 32) (v180 : IVec S16 32) (k0_hw71 : k0_chk71 v179 v180), ∀ a x, ((![v179, v180] : Fin 2 → IVec S16 32) a x).toNat < S16x10.size a := fun v179 v180 k0_hw71 => k0_hw71

def k0_chk72 (v3 : IVec S16 32) (v4 : IVec S16 32) (v183 : IVec S16 32) : Prop :=
  (∀ a x, ((![v183, v4] : Fin 2 → IVec S16 32) a x).toNat < S160x7.size a) ∧
  (∀ a x, ((![v183, v3] : Fin 2 → IVec S16 32) a x).toNat < S160x7.size a)
instance k0_chk72.dec : ∀ (v3 : IVec S16 32) (v4 : IVec S16 32) (v183 : IVec S16 32), Decidable (k0_chk72 v3 v4 v183) := fun v3 v4 v183 => decidable_of_iff' _ (Iff.of_eq (k0_chk72.eq_1 v3 v4 v183))
theorem k0_idx102_inb : ∀ (v3 : IVec S16 32) (v4 : IVec S16 32) (v183 : IVec S16 32) (k0_hw72 : k0_chk72 v3 v4 v183), ∀ a x, ((![v183, v4] : Fin 2 → IVec S16 32) a x).toNat < S160x7.size a := fun v3 v4 v183 k0_hw72 => k0_hw72.1
theorem k0_idx103_inb : ∀ (v3 : IVec S16 32) (v4 : IVec S16 32) (v183 : IVec S16 32) (k0_hw72 : k0_chk72 v3 v4 v183), ∀ a x, ((![v183, v3] : Fin 2 → IVec S16 32) a x).toNat < S160x7.size a := fun v3 v4 v183 k0_hw72 => k0_hw72.2

def k0_chk73 (v190 : IVec S16 32) (v191 : IVec S16 32) : Prop :=
  (∀ a x, ((![v190, v191] : Fin 2 → IVec S16 32) a x).toNat < S16x10.size a)
instance k0_chk73.dec : ∀ (v190 : IVec S16 32) (v191 : IVec S16 32), Decidable (k0_chk73 v190 v191) := fun v190 v191 => decidable_of_iff' _ (Iff.of_eq (k0_chk73.eq_1 v190 v191))
theorem k0_idx104_inb : ∀ (v190 : IVec S16 32) (v191 : IVec S16 32) (k0_hw73 : k0_chk73 v190 v191), ∀ a x, ((![v190, v191] : Fin 2 → IVec S16 32) a x).toNat < S16x10.size a := fun v190 v191 k0_hw73 => k0_hw73

def k0_chk74 (v3 : IVec S16 32) (v4 : IVec S16 32) (v194 : IVec S16 32) : Prop :=
  (∀ a x, ((![v194, v4] : Fin 2 → IVec S16 32) a x).toNat < S160x7.size a) ∧
  (∀ a x, ((![v194, v3] : Fin 2 → IVec S16 32) a x).toNat < S160x7.size a)
instance k0_chk74.dec : ∀ (v3 : IVec S16 32) (v4 : IVec S16 32) (v194 : IVec S16 32), Decidable (k0_chk74 v3 v4 v194) := fun v3 v4 v194 => decidable_of_iff' _ (Iff.of_eq (k0_chk74.eq_1 v3 v4 v194))
theorem k0_idx105_inb : ∀ (v3 : IVec S16 32) (v4 : IVec S16 32) (v194 : IVec S16 32) (k0_hw74 : k0_chk74 v3 v4 v194), ∀ a x, ((![v194, v4] : Fin 2 → IVec S16 32) a x).toNat < S160x7.size a := fun v3 v4 v194 k0_hw74 => k0_hw74.1
theorem k0_idx106_inb : ∀ (v3 : IVec S16 32) (v4 : IVec S16 32) (v194 : IVec S16 32) (k0_hw74 : k0_chk74 v3 v4 v194), ∀ a x, ((![v194, v3] : Fin 2 → IVec S16 32) a x).toNat < S160x7.size a := fun v3 v4 v194 k0_hw74 => k0_hw74.2

def k0_chk75 (v201 : IVec S16 32) (v202 : IVec S16 32) : Prop :=
  (∀ a x, ((![v201, v202] : Fin 2 → IVec S16 32) a x).toNat < S16x10.size a)
instance k0_chk75.dec : ∀ (v201 : IVec S16 32) (v202 : IVec S16 32), Decidable (k0_chk75 v201 v202) := fun v201 v202 => decidable_of_iff' _ (Iff.of_eq (k0_chk75.eq_1 v201 v202))
theorem k0_idx107_inb : ∀ (v201 : IVec S16 32) (v202 : IVec S16 32) (k0_hw75 : k0_chk75 v201 v202), ∀ a x, ((![v201, v202] : Fin 2 → IVec S16 32) a x).toNat < S16x10.size a := fun v201 v202 k0_hw75 => k0_hw75

def k0_chk76 (v3 : IVec S16 32) (v4 : IVec S16 32) (v205 : IVec S16 32) : Prop :=
  (∀ a x, ((![v205, v4] : Fin 2 → IVec S16 32) a x).toNat < S160x7.size a) ∧
  (∀ a x, ((![v205, v3] : Fin 2 → IVec S16 32) a x).toNat < S160x7.size a)
instance k0_chk76.dec : ∀ (v3 : IVec S16 32) (v4 : IVec S16 32) (v205 : IVec S16 32), Decidable (k0_chk76 v3 v4 v205) := fun v3 v4 v205 => decidable_of_iff' _ (Iff.of_eq (k0_chk76.eq_1 v3 v4 v205))
theorem k0_idx108_inb : ∀ (v3 : IVec S16 32) (v4 : IVec S16 32) (v205 : IVec S16 32) (k0_hw76 : k0_chk76 v3 v4 v205), ∀ a x, ((![v205, v4] : Fin 2 → IVec S16 32) a x).toNat < S160x7.size a := fun v3 v4 v205 k0_hw76 => k0_hw76.1
theorem k0_idx109_inb : ∀ (v3 : IVec S16 32) (v4 : IVec S16 32) (v205 : IVec S16 32) (k0_hw76 : k0_chk76 v3 v4 v205), ∀ a x, ((![v205, v3] : Fin 2 → IVec S16 32) a x).toNat < S160x7.size a := fun v3 v4 v205 k0_hw76 => k0_hw76.2

def k0_chk77 (v212 : IVec S16 32) (v213 : IVec S16 32) : Prop :=
  (∀ a x, ((![v212, v213] : Fin 2 → IVec S16 32) a x).toNat < S16x10.size a)
instance k0_chk77.dec : ∀ (v212 : IVec S16 32) (v213 : IVec S16 32), Decidable (k0_chk77 v212 v213) := fun v212 v213 => decidable_of_iff' _ (Iff.of_eq (k0_chk77.eq_1 v212 v213))
theorem k0_idx110_inb : ∀ (v212 : IVec S16 32) (v213 : IVec S16 32) (k0_hw77 : k0_chk77 v212 v213), ∀ a x, ((![v212, v213] : Fin 2 → IVec S16 32) a x).toNat < S16x10.size a := fun v212 v213 k0_hw77 => k0_hw77

def k0_chk78 (v3 : IVec S16 32) (v4 : IVec S16 32) (v216 : IVec S16 32) : Prop :=
  (∀ a x, ((![v216, v4] : Fin 2 → IVec S16 32) a x).toNat < S160x7.size a) ∧
  (∀ a x, ((![v216, v3] : Fin 2 → IVec S16 32) a x).toNat < S160x7.size a)
instance k0_chk78.dec : ∀ (v3 : IVec S16 32) (v4 : IVec S16 32) (v216 : IVec S16 32), Decidable (k0_chk78 v3 v4 v216) := fun v3 v4 v216 => decidable_of_iff' _ (Iff.of_eq (k0_chk78.eq_1 v3 v4 v216))
theorem k0_idx111_inb : ∀ (v3 : IVec S16 32) (v4 : IVec S16 32) (v216 : IVec S16 32) (k0_hw78 : k0_chk78 v3 v4 v216), ∀ a x, ((![v216, v4] : Fin 2 → IVec S16 32) a x).toNat < S160x7.size a := fun v3 v4 v216 k0_hw78 => k0_hw78.1
theorem k0_idx112_inb : ∀ (v3 : IVec S16 32) (v4 : IVec S16 32) (v216 : IVec S16 32) (k0_hw78 : k0_chk78 v3 v4 v216), ∀ a x, ((![v216, v3] : Fin 2 → IVec S16 32) a x).toNat < S160x7.size a := fun v3 v4 v216 k0_hw78 => k0_hw78.2

def k0_chk79 (v223 : IVec S16 32) (v224 : IVec S16 32) : Prop :=
  (∀ a x, ((![v223, v224] : Fin 2 → IVec S16 32) a x).toNat < S16x10.size a)
instance k0_chk79.dec : ∀ (v223 : IVec S16 32) (v224 : IVec S16 32), Decidable (k0_chk79 v223 v224) := fun v223 v224 => decidable_of_iff' _ (Iff.of_eq (k0_chk79.eq_1 v223 v224))
theorem k0_idx113_inb : ∀ (v223 : IVec S16 32) (v224 : IVec S16 32) (k0_hw79 : k0_chk79 v223 v224), ∀ a x, ((![v223, v224] : Fin 2 → IVec S16 32) a x).toNat < S16x10.size a := fun v223 v224 k0_hw79 => k0_hw79

def k0_chk80 (v3 : IVec S16 32) (v4 : IVec S16 32) (v227 : IVec S16 32) : Prop :=
  (∀ a x, ((![v227, v4] : Fin 2 → IVec S16 32) a x).toNat < S160x7.size a) ∧
  (∀ a x, ((![v227, v3] : Fin 2 → IVec S16 32) a x).toNat < S160x7.size a)
instance k0_chk80.dec : ∀ (v3 : IVec S16 32) (v4 : IVec S16 32) (v227 : IVec S16 32), Decidable (k0_chk80 v3 v4 v227) := fun v3 v4 v227 => decidable_of_iff' _ (Iff.of_eq (k0_chk80.eq_1 v3 v4 v227))
theorem k0_idx114_inb : ∀ (v3 : IVec S16 32) (v4 : IVec S16 32) (v227 : IVec S16 32) (k0_hw80 : k0_chk80 v3 v4 v227), ∀ a x, ((![v227, v4] : Fin 2 → IVec S16 32) a x).toNat < S160x7.size a := fun v3 v4 v227 k0_hw80 => k0_hw80.1
theorem k0_idx115_inb : ∀ (v3 : IVec S16 32) (v4 : IVec S16 32) (v227 : IVec S16 32) (k0_hw80 : k0_chk80 v3 v4 v227), ∀ a x, ((![v227, v3] : Fin 2 → IVec S16 32) a x).toNat < S160x7.size a := fun v3 v4 v227 k0_hw80 => k0_hw80.2

def k0_chk81 (v234 : IVec S16 32) (v235 : IVec S16 32) : Prop :=
  (∀ a x, ((![v234, v235] : Fin 2 → IVec S16 32) a x).toNat < S16x10.size a)
instance k0_chk81.dec : ∀ (v234 : IVec S16 32) (v235 : IVec S16 32), Decidable (k0_chk81 v234 v235) := fun v234 v235 => decidable_of_iff' _ (Iff.of_eq (k0_chk81.eq_1 v234 v235))
theorem k0_idx116_inb : ∀ (v234 : IVec S16 32) (v235 : IVec S16 32) (k0_hw81 : k0_chk81 v234 v235), ∀ a x, ((![v234, v235] : Fin 2 → IVec S16 32) a x).toNat < S16x10.size a := fun v234 v235 k0_hw81 => k0_hw81

def k0_chk82 (v3 : IVec S16 32) (v4 : IVec S16 32) (v238 : IVec S16 32) : Prop :=
  (∀ a x, ((![v238, v4] : Fin 2 → IVec S16 32) a x).toNat < S160x7.size a) ∧
  (∀ a x, ((![v238, v3] : Fin 2 → IVec S16 32) a x).toNat < S160x7.size a)
instance k0_chk82.dec : ∀ (v3 : IVec S16 32) (v4 : IVec S16 32) (v238 : IVec S16 32), Decidable (k0_chk82 v3 v4 v238) := fun v3 v4 v238 => decidable_of_iff' _ (Iff.of_eq (k0_chk82.eq_1 v3 v4 v238))
theorem k0_idx117_inb : ∀ (v3 : IVec S16 32) (v4 : IVec S16 32) (v238 : IVec S16 32) (k0_hw82 : k0_chk82 v3 v4 v238), ∀ a x, ((![v238, v4] : Fin 2 → IVec S16 32) a x).toNat < S160x7.size a := fun v3 v4 v238 k0_hw82 => k0_hw82.1
theorem k0_idx118_inb : ∀ (v3 : IVec S16 32) (v4 : IVec S16 32) (v238 : IVec S16 32) (k0_hw82 : k0_chk82 v3 v4 v238), ∀ a x, ((![v238, v3] : Fin 2 → IVec S16 32) a x).toNat < S160x7.size a := fun v3 v4 v238 k0_hw82 => k0_hw82.2

def k0_chk83 (v245 : IVec S16 32) (v246 : IVec S16 32) : Prop :=
  (∀ a x, ((![v245, v246] : Fin 2 → IVec S16 32) a x).toNat < S16x10.size a)
instance k0_chk83.dec : ∀ (v245 : IVec S16 32) (v246 : IVec S16 32), Decidable (k0_chk83 v245 v246) := fun v245 v246 => decidable_of_iff' _ (Iff.of_eq (k0_chk83.eq_1 v245 v246))
theorem k0_idx119_inb : ∀ (v245 : IVec S16 32) (v246 : IVec S16 32) (k0_hw83 : k0_chk83 v245 v246), ∀ a x, ((![v245, v246] : Fin 2 → IVec S16 32) a x).toNat < S16x10.size a := fun v245 v246 k0_hw83 => k0_hw83

def k0_chk84 (v3 : IVec S16 32) (v4 : IVec S16 32) (v249 : IVec S16 32) : Prop :=
  (∀ a x, ((![v249, v4] : Fin 2 → IVec S16 32) a x).toNat < S160x7.size a) ∧
  (∀ a x, ((![v249, v3] : Fin 2 → IVec S16 32) a x).toNat < S160x7.size a)
instance k0_chk84.dec : ∀ (v3 : IVec S16 32) (v4 : IVec S16 32) (v249 : IVec S16 32), Decidable (k0_chk84 v3 v4 v249) := fun v3 v4 v249 => decidable_of_iff' _ (Iff.of_eq (k0_chk84.eq_1 v3 v4 v249))
theorem k0_idx120_inb : ∀ (v3 : IVec S16 32) (v4 : IVec S16 32) (v249 : IVec S16 32) (k0_hw84 : k0_chk84 v3 v4 v249), ∀ a x, ((![v249, v4] : Fin 2 → IVec S16 32) a x).toNat < S160x7.size a := fun v3 v4 v249 k0_hw84 => k0_hw84.1
theorem k0_idx121_inb : ∀ (v3 : IVec S16 32) (v4 : IVec S16 32) (v249 : IVec S16 32) (k0_hw84 : k0_chk84 v3 v4 v249), ∀ a x, ((![v249, v3] : Fin 2 → IVec S16 32) a x).toNat < S160x7.size a := fun v3 v4 v249 k0_hw84 => k0_hw84.2

def k0_chk85 (v256 : IVec S16 32) (v257 : IVec S16 32) : Prop :=
  (∀ a x, ((![v256, v257] : Fin 2 → IVec S16 32) a x).toNat < S16x10.size a)
instance k0_chk85.dec : ∀ (v256 : IVec S16 32) (v257 : IVec S16 32), Decidable (k0_chk85 v256 v257) := fun v256 v257 => decidable_of_iff' _ (Iff.of_eq (k0_chk85.eq_1 v256 v257))
theorem k0_idx122_inb : ∀ (v256 : IVec S16 32) (v257 : IVec S16 32) (k0_hw85 : k0_chk85 v256 v257), ∀ a x, ((![v256, v257] : Fin 2 → IVec S16 32) a x).toNat < S16x10.size a := fun v256 v257 k0_hw85 => k0_hw85

def k0_chk86 (v3 : IVec S16 32) (v4 : IVec S16 32) (v260 : IVec S16 32) : Prop :=
  (∀ a x, ((![v260, v4] : Fin 2 → IVec S16 32) a x).toNat < S160x7.size a) ∧
  (∀ a x, ((![v260, v3] : Fin 2 → IVec S16 32) a x).toNat < S160x7.size a)
instance k0_chk86.dec : ∀ (v3 : IVec S16 32) (v4 : IVec S16 32) (v260 : IVec S16 32), Decidable (k0_chk86 v3 v4 v260) := fun v3 v4 v260 => decidable_of_iff' _ (Iff.of_eq (k0_chk86.eq_1 v3 v4 v260))
theorem k0_idx123_inb : ∀ (v3 : IVec S16 32) (v4 : IVec S16 32) (v260 : IVec S16 32) (k0_hw86 : k0_chk86 v3 v4 v260), ∀ a x, ((![v260, v4] : Fin 2 → IVec S16 32) a x).toNat < S160x7.size a := fun v3 v4 v260 k0_hw86 => k0_hw86.1
theorem k0_idx124_inb : ∀ (v3 : IVec S16 32) (v4 : IVec S16 32) (v260 : IVec S16 32) (k0_hw86 : k0_chk86 v3 v4 v260), ∀ a x, ((![v260, v3] : Fin 2 → IVec S16 32) a x).toNat < S160x7.size a := fun v3 v4 v260 k0_hw86 => k0_hw86.2

def k0_chk87 (v267 : IVec S16 32) (v268 : IVec S16 32) : Prop :=
  (∀ a x, ((![v267, v268] : Fin 2 → IVec S16 32) a x).toNat < S16x10.size a)
instance k0_chk87.dec : ∀ (v267 : IVec S16 32) (v268 : IVec S16 32), Decidable (k0_chk87 v267 v268) := fun v267 v268 => decidable_of_iff' _ (Iff.of_eq (k0_chk87.eq_1 v267 v268))
theorem k0_idx125_inb : ∀ (v267 : IVec S16 32) (v268 : IVec S16 32) (k0_hw87 : k0_chk87 v267 v268), ∀ a x, ((![v267, v268] : Fin 2 → IVec S16 32) a x).toNat < S16x10.size a := fun v267 v268 k0_hw87 => k0_hw87

def k0_chk88 (v3 : IVec S16 32) (v4 : IVec S16 32) (v271 : IVec S16 32) : Prop :=
  (∀ a x, ((![v271, v4] : Fin 2 → IVec S16 32) a x).toNat < S160x7.size a) ∧
  (∀ a x, ((![v271, v3] : Fin 2 → IVec S16 32) a x).toNat < S160x7.size a)
instance k0_chk88.dec : ∀ (v3 : IVec S16 32) (v4 : IVec S16 32) (v271 : IVec S16 32), Decidable (k0_chk88 v3 v4 v271) := fun v3 v4 v271 => decidable_of_iff' _ (Iff.of_eq (k0_chk88.eq_1 v3 v4 v271))
theorem k0_idx126_inb : ∀ (v3 : IVec S16 32) (v4 : IVec S16 32) (v271 : IVec S16 32) (k0_hw88 : k0_chk88 v3 v4 v271), ∀ a x, ((![v271, v4] : Fin 2 → IVec S16 32) a x).toNat < S160x7.size a := fun v3 v4 v271 k0_hw88 => k0_hw88.1
theorem k0_idx127_inb : ∀ (v3 : IVec S16 32) (v4 : IVec S16 32) (v271 : IVec S16 32) (k0_hw88 : k0_chk88 v3 v4 v271), ∀ a x, ((![v271, v3] : Fin 2 → IVec S16 32) a x).toNat < S160x7.size a := fun v3 v4 v271 k0_hw88 => k0_hw88.2

def k0_chk89 (v278 : IVec S16 32) (v279 : IVec S16 32) : Prop :=
  (∀ a x, ((![v278, v279] : Fin 2 → IVec S16 32) a x).toNat < S16x10.size a)
instance k0_chk89.dec : ∀ (v278 : IVec S16 32) (v279 : IVec S16 32), Decidable (k0_chk89 v278 v279) := fun v278 v279 => decidable_of_iff' _ (Iff.of_eq (k0_chk89.eq_1 v278 v279))
theorem k0_idx128_inb : ∀ (v278 : IVec S16 32) (v279 : IVec S16 32) (k0_hw89 : k0_chk89 v278 v279), ∀ a x, ((![v278, v279] : Fin 2 → IVec S16 32) a x).toNat < S16x10.size a := fun v278 v279 k0_hw89 => k0_hw89

def k0_chk90 (v3 : IVec S16 32) (v4 : IVec S16 32) (v282 : IVec S16 32) : Prop :=
  (∀ a x, ((![v282, v4] : Fin 2 → IVec S16 32) a x).toNat < S160x7.size a) ∧
  (∀ a x, ((![v282, v3] : Fin 2 → IVec S16 32) a x).toNat < S160x7.size a)
instance k0_chk90.dec : ∀ (v3 : IVec S16 32) (v4 : IVec S16 32) (v282 : IVec S16 32), Decidable (k0_chk90 v3 v4 v282) := fun v3 v4 v282 => decidable_of_iff' _ (Iff.of_eq (k0_chk90.eq_1 v3 v4 v282))
theorem k0_idx129_inb : ∀ (v3 : IVec S16 32) (v4 : IVec S16 32) (v282 : IVec S16 32) (k0_hw90 : k0_chk90 v3 v4 v282), ∀ a x, ((![v282, v4] : Fin 2 → IVec S16 32) a x).toNat < S160x7.size a := fun v3 v4 v282 k0_hw90 => k0_hw90.1
theorem k0_idx130_inb : ∀ (v3 : IVec S16 32) (v4 : IVec S16 32) (v282 : IVec S16 32) (k0_hw90 : k0_chk90 v3 v4 v282), ∀ a x, ((![v282, v3] : Fin 2 → IVec S16 32) a x).toNat < S160x7.size a := fun v3 v4 v282 k0_hw90 => k0_hw90.2
def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_0 : BitVec 32 := 0#32
  let c1_i32 : BitVec 32 := 1#32
  let arg22 : BitVec 32 := Scf.iv c0_i32_0 c1_i32 k0_t1
  let c16_i32 : BitVec 32 := 16#32
  let v7 : BitVec 32 := Scalar.muli arg22 c16_i32
  let v8 : BitVec 32 := Scalar.addi v6 v7
  let c0_i32_130_r9 : BitVec 32 := 0#32
  let c0_i32_131_r9 : BitVec 32 := 0#32
  ![v8.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  reshapes_S160x3_S16x10x3 : S16x10x3.numel = S160x3.numel ∧ (2 ≤ S160x3.rank ∧ 2 ≤ S16x10x3.rank)
  reshapes_S160x2_S16x10x2 : S16x10x2.numel = S160x2.numel ∧ (2 ≤ S160x2.rank ∧ 2 ≤ S16x10x2.rank)
  inb_S480_S16_0 : ∀ a, (![0] : Fin 1 → Nat) a + S16.size a ≤ S480.size a
  h_S16 : 0 < S16.numel
  h_S160x3 : 0 < S160x3.numel
  h_S160x7 : 0 < S160x7.numel
  inb_S480_S16_16 : ∀ a, (![16] : Fin 1 → Nat) a + S16.size a ≤ S480.size a
  inb_S480_S16_32 : ∀ a, (![32] : Fin 1 → Nat) a + S16.size a ≤ S480.size a
  inb_S480_S16_48 : ∀ a, (![48] : Fin 1 → Nat) a + S16.size a ≤ S480.size a
  inb_S480_S16_64 : ∀ a, (![64] : Fin 1 → Nat) a + S16.size a ≤ S480.size a
  inb_S480_S16_80 : ∀ a, (![80] : Fin 1 → Nat) a + S16.size a ≤ S480.size a
  inb_S480_S16_96 : ∀ a, (![96] : Fin 1 → Nat) a + S16.size a ≤ S480.size a
  inb_S480_S16_112 : ∀ a, (![112] : Fin 1 → Nat) a + S16.size a ≤ S480.size a
  inb_S480_S16_128 : ∀ a, (![128] : Fin 1 → Nat) a + S16.size a ≤ S480.size a
  inb_S480_S16_144 : ∀ a, (![144] : Fin 1 → Nat) a + S16.size a ≤ S480.size a
  inb_S480_S16_160 : ∀ a, (![160] : Fin 1 → Nat) a + S16.size a ≤ S480.size a
  inb_S480_S16_176 : ∀ a, (![176] : Fin 1 → Nat) a + S16.size a ≤ S480.size a
  inb_S480_S16_192 : ∀ a, (![192] : Fin 1 → Nat) a + S16.size a ≤ S480.size a
  inb_S480_S16_208 : ∀ a, (![208] : Fin 1 → Nat) a + S16.size a ≤ S480.size a
  inb_S480_S16_224 : ∀ a, (![224] : Fin 1 → Nat) a + S16.size a ≤ S480.size a
  inb_S480_S16_240 : ∀ a, (![240] : Fin 1 → Nat) a + S16.size a ≤ S480.size a
  inb_S480_S16_256 : ∀ a, (![256] : Fin 1 → Nat) a + S16.size a ≤ S480.size a
  inb_S480_S16_272 : ∀ a, (![272] : Fin 1 → Nat) a + S16.size a ≤ S480.size a
  inb_S480_S16_288 : ∀ a, (![288] : Fin 1 → Nat) a + S16.size a ≤ S480.size a
  inb_S480_S16_304 : ∀ a, (![304] : Fin 1 → Nat) a + S16.size a ≤ S480.size a
  inb_S480_S16_320 : ∀ a, (![320] : Fin 1 → Nat) a + S16.size a ≤ S480.size a
  inb_S480_S16_336 : ∀ a, (![336] : Fin 1 → Nat) a + S16.size a ≤ S480.size a
  inb_S480_S16_352 : ∀ a, (![352] : Fin 1 → Nat) a + S16.size a ≤ S480.size a
  inb_S480_S16_368 : ∀ a, (![368] : Fin 1 → Nat) a + S16.size a ≤ S480.size a
  inb_S480_S16_384 : ∀ a, (![384] : Fin 1 → Nat) a + S16.size a ≤ S480.size a
  inb_S480_S16_400 : ∀ a, (![400] : Fin 1 → Nat) a + S16.size a ≤ S480.size a
  inb_S480_S16_416 : ∀ a, (![416] : Fin 1 → Nat) a + S16.size a ≤ S480.size a
  inb_S480_S16_432 : ∀ a, (![432] : Fin 1 → Nat) a + S16.size a ≤ S480.size a
  inb_S480_S16_448 : ∀ a, (![448] : Fin 1 → Nat) a + S16.size a ≤ S480.size a
  inb_S480_S16_464 : ∀ a, (![464] : Fin 1 → Nat) a + S16.size a ≤ S480.size a
  inb_S320_S16_0 : ∀ a, (![0] : Fin 1 → Nat) a + S16.size a ≤ S320.size a
  h_S160x2 : 0 < S160x2.numel
  inb_S320_S16_16 : ∀ a, (![16] : Fin 1 → Nat) a + S16.size a ≤ S320.size a
  inb_S320_S16_32 : ∀ a, (![32] : Fin 1 → Nat) a + S16.size a ≤ S320.size a
  inb_S320_S16_48 : ∀ a, (![48] : Fin 1 → Nat) a + S16.size a ≤ S320.size a
  inb_S320_S16_64 : ∀ a, (![64] : Fin 1 → Nat) a + S16.size a ≤ S320.size a
  inb_S320_S16_80 : ∀ a, (![80] : Fin 1 → Nat) a + S16.size a ≤ S320.size a
  inb_S320_S16_96 : ∀ a, (![96] : Fin 1 → Nat) a + S16.size a ≤ S320.size a
  inb_S320_S16_112 : ∀ a, (![112] : Fin 1 → Nat) a + S16.size a ≤ S320.size a
  inb_S320_S16_128 : ∀ a, (![128] : Fin 1 → Nat) a + S16.size a ≤ S320.size a
  inb_S320_S16_144 : ∀ a, (![144] : Fin 1 → Nat) a + S16.size a ≤ S320.size a
  inb_S320_S16_160 : ∀ a, (![160] : Fin 1 → Nat) a + S16.size a ≤ S320.size a
  inb_S320_S16_176 : ∀ a, (![176] : Fin 1 → Nat) a + S16.size a ≤ S320.size a
  inb_S320_S16_192 : ∀ a, (![192] : Fin 1 → Nat) a + S16.size a ≤ S320.size a
  inb_S320_S16_208 : ∀ a, (![208] : Fin 1 → Nat) a + S16.size a ≤ S320.size a
  inb_S320_S16_224 : ∀ a, (![224] : Fin 1 → Nat) a + S16.size a ≤ S320.size a
  inb_S320_S16_240 : ∀ a, (![240] : Fin 1 → Nat) a + S16.size a ≤ S320.size a
  inb_S320_S16_256 : ∀ a, (![256] : Fin 1 → Nat) a + S16.size a ≤ S320.size a
  inb_S320_S16_272 : ∀ a, (![272] : Fin 1 → Nat) a + S16.size a ≤ S320.size a
  inb_S320_S16_288 : ∀ a, (![288] : Fin 1 → Nat) a + S16.size a ≤ S320.size a
  inb_S320_S16_304 : ∀ a, (![304] : Fin 1 → Nat) a + S16.size a ≤ S320.size a
  inb_S160_S16_0 : ∀ a, (![0] : Fin 1 → Nat) a + S16.size a ≤ S160.size a
  h_S16x10 : 0 < S16x10.numel
  inb_S160_S16_16 : ∀ a, (![16] : Fin 1 → Nat) a + S16.size a ≤ S160.size a
  inb_S160_S16_32 : ∀ a, (![32] : Fin 1 → Nat) a + S16.size a ≤ S160.size a
  inb_S160_S16_48 : ∀ a, (![48] : Fin 1 → Nat) a + S16.size a ≤ S160.size a
  inb_S160_S16_64 : ∀ a, (![64] : Fin 1 → Nat) a + S16.size a ≤ S160.size a
  inb_S160_S16_80 : ∀ a, (![80] : Fin 1 → Nat) a + S16.size a ≤ S160.size a
  inb_S160_S16_96 : ∀ a, (![96] : Fin 1 → Nat) a + S16.size a ≤ S160.size a
  inb_S160_S16_112 : ∀ a, (![112] : Fin 1 → Nat) a + S16.size a ≤ S160.size a
  inb_S160_S16_128 : ∀ a, (![128] : Fin 1 → Nat) a + S16.size a ≤ S160.size a
  inb_S160_S16_144 : ∀ a, (![144] : Fin 1 → Nat) a + S16.size a ≤ S160.size a
  reshapes_S160x7_S16x10x7 : S16x10x7.numel = S160x7.numel ∧ (2 ≤ S160x7.rank ∧ 2 ≤ S16x10x7.rank)
  hcc0_scoped0 : 0 + S_.numel ≤ 10
  hcc0_scoped1 : 1 + S_.numel ≤ 10
  hcc0_scoped2 : 2 + S_.numel ≤ 10
  hcc0_scoped3 : 3 + S_.numel ≤ 10
  hcc0_scoped4 : 4 + S_.numel ≤ 10
  hcc0_scoped5 : 5 + S_.numel ≤ 10
  hcc0_scoped6 : 6 + S_.numel ≤ 10
  hcc0_scoped7 : 7 + S_.numel ≤ 10
  hcc0_scoped8 : 8 + S_.numel ≤ 10
  hcc0_scoped9 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S16x10x3.size a ≤ S4096x10x3.size a
  k0_off2_inb : ∀ (i : grid0.Coords) (k0_t1 : Fin k0_t1_loop.trips), ∀ a, (k0_off2 i k0_t1) a + S16x10.size a ≤ S4096x10.size a
  k0_off3_inb : ∀ (i : grid0.Coords) (k0_t1 : Fin k0_t1_loop.trips), ∀ a, (k0_off3 i k0_t1) a + S16x10x2.size a ≤ S4096x10x2.size a
  k0_off4_inb : ∀ (i : grid0.Coords) (k0_t1 : Fin k0_t1_loop.trips), ∀ a, (k0_off4 i k0_t1) a + S16x10x7.size a ≤ S4096x10x7.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9

class Facts : Prop extends Facts₀ where

variable [Facts]
-- ==== ReferenceIdeal.lean ====
abbrev S4096x10x3 : Shape := ⟨3, ![4096, 10, 3]⟩
abbrev S4096x10 : Shape := ⟨2, ![4096, 10]⟩
abbrev S4096x10x2 : Shape := ⟨3, ![4096, 10, 2]⟩
abbrev S1 : Shape := ⟨1, ![1]⟩
abbrev S_ : Shape := ⟨0, ![]⟩
abbrev S4096x10x7 : Shape := ⟨3, ![4096, 10, 7]⟩

abbrev nBuf : Space → Nat
  | .hbm => 25
  | .vmem => 0
  | .smem => 0
  | _ => 0

abbrev bufTy : (tb : Table) → Fin (tcTables nBuf tb) → BufTy
  | .hbm, ⟨0, _⟩ => ⟨S4096x10x3, .f32⟩
  | .hbm, ⟨1, _⟩ => ⟨S4096x10, .f32⟩
  | .hbm, ⟨2, _⟩ => ⟨S4096x10x2, .f32⟩
  | .hbm, ⟨3, _⟩ => ⟨S1, .i32⟩
  | .hbm, ⟨4, _⟩ => ⟨S_, .f32⟩
  | .hbm, ⟨5, _⟩ => ⟨S4096x10x7, .f32⟩
  | .hbm, ⟨6, _⟩ => ⟨S_, .i32⟩
  | .hbm, ⟨7, _⟩ => ⟨S1, .i32⟩
  | .hbm, ⟨8, _⟩ => ⟨S4096x10x7, .f32⟩
  | .hbm, ⟨9, _⟩ => ⟨S_, .i32⟩
  | .hbm, ⟨10, _⟩ => ⟨S1, .i32⟩
  | .hbm, ⟨11, _⟩ => ⟨S4096x10x7, .f32⟩
  | .hbm, ⟨12, _⟩ => ⟨S_, .f32⟩
  | .hbm, ⟨13, _⟩ => ⟨S4096x10, .f32⟩
  | .hbm, ⟨14, _⟩ => ⟨S4096x10, .i1⟩
  | .hbm, ⟨15, _⟩ => ⟨S4096x10, .f32⟩
  | .hbm, ⟨16, _⟩ => ⟨S_, .f32⟩
  | .hbm, ⟨17, _⟩ => ⟨S4096x10, .f32⟩
  | .hbm, ⟨18, _⟩ => ⟨S4096x10, .f32⟩
  | .hbm, ⟨19, _⟩ => ⟨S_, .i32⟩
  | .hbm, ⟨20, _⟩ => ⟨S1, .i32⟩
  | .hbm, ⟨21, _⟩ => ⟨S4096x10x7, .f32⟩
  | .hbm, ⟨22, _⟩ => ⟨S_, .i32⟩
  | .hbm, ⟨23, _⟩ => ⟨S1, .i32⟩
  | .hbm, ⟨24, _⟩ => ⟨S4096x10x7, .f32⟩
  | _, _ => ⟨S4096x10x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S4096x10x7 : S_.BroadcastsInDim S4096x10x7 (![] : Fin 0 → Fin S4096x10x7.rank)
  bcast_S_S1 : S_.BroadcastsInDim S1 (![] : Fin 0 → Fin S1.rank)
  bcast_S_S4096x10 : S_.BroadcastsInDim S4096x10 (![] : Fin 0 → Fin S4096x10.rank)
  scatter_S4096x10x7_S1_S4096x10x3_012_n_2_0_wf : ScatterDims.WF S4096x10x7 S1 S4096x10x3 [0, 1, 2] [] [2] 0
  scatter_S4096x10x7_S1_S4096x10_01_2_2_0_wf : ScatterDims.WF S4096x10x7 S1 S4096x10 [0, 1] [2] [2] 0
  scatter_S4096x10x7_S1_S4096x10x2_012_n_2_0_wf : ScatterDims.WF S4096x10x7 S1 S4096x10x2 [0, 1, 2] [] [2] 0

variable [Facts₀]

def scatter_S4096x10x7_S1_S4096x10x3_012_n_2_0 : ScatterDims S4096x10x7 S1 S4096x10x3 where
  updateWindowDims := [0, 1, 2]
  insertedWindowDims := []
  scatterDimsToOperandDims := [2]
  indexVectorDim := 0
  wf := scatter_S4096x10x7_S1_S4096x10x3_012_n_2_0_wf
def scatter_S4096x10x7_S1_S4096x10_01_2_2_0 : ScatterDims S4096x10x7 S1 S4096x10 where
  updateWindowDims := [0, 1]
  insertedWindowDims := [2]
  scatterDimsToOperandDims := [2]
  indexVectorDim := 0
  wf := scatter_S4096x10x7_S1_S4096x10_01_2_2_0_wf
def scatter_S4096x10x7_S1_S4096x10x2_012_n_2_0 : ScatterDims S4096x10x7 S1 S4096x10x2 where
  updateWindowDims := [0, 1, 2]
  insertedWindowDims := []
  scatterDimsToOperandDims := [2]
  indexVectorDim := 0
  wf := scatter_S4096x10x7_S1_S4096x10x2_012_n_2_0_wf

class Facts : Prop extends Facts₀ where

variable [Facts]
-- ==== Proof.Spec.lean ====
/-
  The result as one function of the three argument arrays, index by index, for every float instance.

  Entry (b, p, ·) of the result is the record of candidate p of batch row b: the candidate's three grid coordinates, a mark of
  its confidence, the confidence itself, and its two box extents:
      columns 0, 1, 2 : the three coordinates            x0 (b, p, 0..2)
      column  3       : the mark of the confidence        0 where x1 (b, p) exceeds three tenths, -1 elsewhere
      column  4       : the confidence                   x1 (b, p)
      columns 5, 6    : the two box extents              x2 (b, p, 0..1)
  The mark is stated through the comparison and the choice between two constants, so that at the exact instance it is
  "0 if the confidence is above 3/10 (as a binary32 number), else -1" on the extended reals.

  `Gv` is the same record table for ONE chunk of sixteen batch rows, as the chunk's staging buffers hold it: the chunk's
  160 = 16 * 10 candidates are rows of a [160, 7] table; row r is candidate r % 10 of the chunk's batch row r / 10.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The mark of a confidence: the constant 0 where the confidence is above three tenths (the binary32 number nearest to it),
    the constant -1 elsewhere. -/
def mark (x : F .f32) : F .f32 :=
  Scalar.select (FloatOps.cmpf .ogt x (Scalar.ofBits .f32 0x3E99999A#32)) (Scalar.ofBits .f32 0x00000000#32) (Scalar.ofBits .f32 0xBF800000#32)

/-- The whole result: the seven-column record of every candidate of every batch row. -/
def G (x0 : FVec F ⟨3, ![4096, 10, 3]⟩ .f32) (x1 : FVec F ⟨2, ![4096, 10]⟩ .f32) (x2 : FVec F ⟨3, ![4096, 10, 2]⟩ .f32) :
    FVec F ⟨3, ![4096, 10, 7]⟩ .f32 :=
  fun j =>
    have h7 : (j 2).val < 7 := (j 2).isLt
    if h : (j 2).val < 3 then x0 (ix3 (j 0) (j 1) ⟨(j 2).val, h⟩)
    else if (j 2).val = 3 then mark (x1 (ix2 (j 0) (j 1)))
    else if (j 2).val = 4 then x1 (ix2 (j 0) (j 1))
    else x2 (ix3 (j 0) (j 1) ⟨(j 2).val - 5, by omega⟩)

/-- One chunk's records from the chunk's three staged tables: coordinates `A` ([160, 3]), confidences `C` ([16, 10]: batch row
    by candidate) and extents `B` ([160, 2]). -/
def Gv (A : FVec F ⟨2, ![160, 3]⟩ .f32) (C : FVec F ⟨2, ![16, 10]⟩ .f32) (B : FVec F ⟨2, ![160, 2]⟩ .f32) :
    FVec F ⟨2, ![160, 7]⟩ .f32 :=
  fun j =>
    have h160 : (j 0).val < 160 := (j 0).isLt
    have h7 : (j 1).val < 7 := (j 1).isLt
    if h : (j 1).val < 3 then A (ix2 (j 0) ⟨(j 1).val, h⟩)
    else if (j 1).val = 3 then mark (C (ix2 ⟨(j 0).val / 10, by omega⟩ ⟨(j 0).val % 10, by omega⟩))
    else if (j 1).val = 4 then C (ix2 ⟨(j 0).val / 10, by omega⟩ ⟨(j 0).val % 10, by omega⟩)
    else B (ix2 (j 0) ⟨(j 1).val - 5, by omega⟩)

end Cert.Spec

end
-- ==== Proof.WordCommon.lean ====
/-
  The word-level kernel as the SparseCore launch theorem sees it, and the vocabulary the body and launch modules share.

  The program is one vector-subcore kernel on both SparseCores: 2 x 16 = 32 tiles. Tile (core c, subcore s) is worker
  w = 2 s + c and owns batch rows [128 w, 128 w + 128) of the result, which it fills in eight chunks of sixteen rows. It
  only READS the three argument arrays and the six constant index tables, so each of those nine arrays is handed to the
  tiles as thirty-two equal shares of the whole array; the result array is handed out as 32 x 8 disjoint chunks.
  The kernel's transfers are all local copies each waited for before the next is issued, so the ghost state is the
  launch handshakes' beside the transfers' counters and needs no schedule.
-/
import proofs.«214040_g26508538151745_cont_9to1_1151_18_alg».proof.Defs
import proofs.«214040_g26508538151745_cont_9to1_1151_18_alg».proof.Proof.Gen.Kernel
import proofs.«214040_g26508538151745_cont_9to1_1151_18_alg».proof.Proof.KernelSkeleton
import proofs.«214040_g26508538151745_cont_9to1_1151_18_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KW

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄 (F : FTy → Type) : Type := MT nD τ sig (HIx 1) (Elt F) ℕ UU ℕ

abbrev EH : Emb UH (𝕄 F) := embL

/-! ## Locations -/

/-- The three arguments, the six constant tables and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev t0Loc (d : Dev nD) : Loc nD τ sig := (SparseCore.T d).loc main_c
abbrev t1Loc (d : Dev nD) : Loc nD τ sig := (SparseCore.T d).loc main_c_0
abbrev t2Loc (d : Dev nD) : Loc nD τ sig := (SparseCore.T d).loc main_c_1
abbrev t3Loc (d : Dev nD) : Loc nD τ sig := (SparseCore.T d).loc main_c_2
abbrev t4Loc (d : Dev nD) : Loc nD τ sig := (SparseCore.T d).loc main_c_3
abbrev t5Loc (d : Dev nD) : Loc nD τ sig := (SparseCore.T d).loc main_c_4
abbrev oLoc (d : Dev nD) : Loc nD τ sig := (SparseCore.T d).loc main_v0

/-! ## The constant tables, the read-only bundle and the target -/

/-- The six constant index tables, as @main's constants write them: entry `i` the table's literal at `i`'s row-major position. -/
abbrev TB0 (d : Dev nD) : Buf (Elt F) (t0Loc d) := fun i => lit0 (S480.rowMajor i)
abbrev TB1 (d : Dev nD) : Buf (Elt F) (t1Loc d) := fun i => lit1 (S480.rowMajor i)
abbrev TB2 (d : Dev nD) : Buf (Elt F) (t2Loc d) := fun i => lit2 (S320.rowMajor i)
abbrev TB3 (d : Dev nD) : Buf (Elt F) (t3Loc d) := fun i => lit3 (S320.rowMajor i)
abbrev TB4 (d : Dev nD) : Buf (Elt F) (t4Loc d) := fun i => lit4 (S160.rowMajor i)
abbrev TB5 (d : Dev nD) : Buf (Elt F) (t5Loc d) := fun i => lit5 (S160.rowMajor i)
/-- The same contents, in a tile's own copy of the table. -/
abbrev TS0 (d : Dev nD) (c : Fin τ.nSC) (i : Fin τ.nSub) : Buf (Elt F) ((V d c i).loc cc0_scratch4) := fun j => lit0 (S480.rowMajor j)
abbrev TS1 (d : Dev nD) (c : Fin τ.nSC) (i : Fin τ.nSub) : Buf (Elt F) ((V d c i).loc cc0_scratch5) := fun j => lit1 (S480.rowMajor j)
abbrev TS2 (d : Dev nD) (c : Fin τ.nSC) (i : Fin τ.nSub) : Buf (Elt F) ((V d c i).loc cc0_scratch6) := fun j => lit2 (S320.rowMajor j)
abbrev TS3 (d : Dev nD) (c : Fin τ.nSC) (i : Fin τ.nSub) : Buf (Elt F) ((V d c i).loc cc0_scratch7) := fun j => lit3 (S320.rowMajor j)
abbrev TS4 (d : Dev nD) (c : Fin τ.nSC) (i : Fin τ.nSub) : Buf (Elt F) ((V d c i).loc cc0_scratch8) := fun j => lit4 (S160.rowMajor j)
abbrev TS5 (d : Dev nD) (c : Fin τ.nSC) (i : Fin τ.nSub) : Buf (Elt F) ((V d c i).loc cc0_scratch9) := fun j => lit5 (S160.rowMajor j)

/-- Share `q` of the nine arrays a task only reads: the three arguments at their launch contents `m`, the six tables. -/
def Ins (d : Dev nD) (m : (ℓ : Loc nD τ sig) → Buf (Elt F) ℓ) (q : PosShare TreeShare) : sProp (𝕄 F) :=
  iprop((a0Loc d ↦{q} m (a0Loc d)) ∗ (a1Loc d ↦{q} m (a1Loc d)) ∗ (a2Loc d ↦{q} m (a2Loc d))
    ∗ (t0Loc d ↦{q} TB0 d) ∗ (t1Loc d ↦{q} TB1 d) ∗ (t2Loc d ↦{q} TB2 d) ∗ (t3Loc d ↦{q} TB3 d) ∗ (t4Loc d ↦{q} TB4 d) ∗ (t5Loc d ↦{q} TB5 d))

/-- The specification at the launch contents of the three arguments: what the result array is to hold. -/
def GO [FloatOps F] (m : (ℓ : Loc nD τ sig) → Buf (Elt F) ℓ) (d : Dev nD) : Buf (Elt F) (oLoc d) :=
  Cert.Spec.G (F := F) (m (a0Loc d)) (m (a1Loc d)) (m (a2Loc d))

end Cert.Proof.KW

end
-- ==== Proof.WordChunks.lean ====
/-
  The result array as the tiles' chunks.

  Tile L = (core L 0 < 2, subcore L 1 < 16) is worker w = 2 (L 1) + (L 0). Its chunk k < 8 is the sixteen batch rows
  [16 (8 w + k), 16 (8 w + k) + 16) of the [4096, 10, 7] result, whole on the other two axes. The 2 x 16 x 8 = 256 chunks are
  pairwise disjoint and cover the array (every batch row b < 4096 lies in chunk (b / 16) % 8 of worker b / 128), so the
  full points-to of the result is the separating conjunction, over the tiles and their chunks, of the points-to's of the chunks.
-/
import proofs.«214040_g26508538151745_cont_9to1_1151_18_alg».proof.Proof.WordCommon

noncomputable section

namespace Cert.Proof.KW

open Cert.Kernel Cert.Kernel.Gen Cert.Kernel.GenP

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- The coordinates of the tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `k` of tile `L`, as the kernel slices it out of the result array. -/
abbrev oChunk (L : grid0.Coords) (k : Fin k0_t1_loop.trips) : Memref sig .scVector .hbm S16x10x7 .f32 :=
  (Memref.whole main_v0_scv).slice (Rect.unit (s := S4096x10x7) (k0_off4 L k) S16x10x7.size (k0_off4_inb L k)) (fun _ => rfl)

/-- The elements of the result array under chunk `k` of tile `L`. -/
abbrev chunkSet (L : grid0.Coords) (k : Fin k0_t1_loop.trips) : Finset S4096x10x7.Idx := (oChunk L k).view.set

/-- Each tile makes eight trips. -/
theorem trips_eq : k0_t1_loop.trips = 8 := by decide

/-- A chunk is sixteen consecutive batch rows, whole on the other axes. -/
theorem mem_chunkSet (L : grid0.Coords) (k : Fin k0_t1_loop.trips) (j : S4096x10x7.Idx) :
    j ∈ chunkSet L k ↔ 16 * (8 * (2 * (L 1).val + (L 0).val) + k.val) ≤ (j 0).val
      ∧ (j 0).val < 16 * (8 * (2 * (L 1).val + (L 0).val) + k.val) + 16 := by
  show j ∈ ((View.whole (main_v0_scv : Ref sig .scVector)).slice
      (Rect.unit (s := S4096x10x7) (k0_off4 L k) S16x10x7.size (k0_off4_inb L k))).set ↔ _
  rw [View.set_slice_whole, Rect.mem_set_unit, k0_off4_eq]
  have h1 : (j 1).val < 10 := (j 1).isLt
  have h2 : (j 2).val < 7 := (j 2).isLt
  constructor
  · intro h
    have h0 := h 0
    simp only [Matrix.cons_val_zero] at h0
    omega
  · intro h a
    match a with
    | ⟨0, _⟩ =>
      show 256 * (L 1).val + 128 * (L 0).val + 16 * k.val ≤ (j 0).val ∧ (j 0).val < 256 * (L 1).val + 128 * (L 0).val + 16 * k.val + 16
      omega
    | ⟨1, _⟩ =>
      show 0 ≤ (j 1).val ∧ (j 1).val < 0 + 10
      omega
    | ⟨2, _⟩ =>
      show 0 ≤ (j 2).val ∧ (j 2).val < 0 + 7
      omega

/-- The chunks, numbered by core, subcore and trip. -/
abbrev chunkOf (t : Fin (grid0.bound 0) × Fin (grid0.bound 1) × Fin k0_t1_loop.trips) : Finset S4096x10x7.Idx :=
  chunkSet (coordsV t.1 t.2.1) t.2.2

/-- Different chunks share no element: the chunk's first batch row, divided by sixteen, is 8 (2 s + c) + k, which
    determines k < 8, then c < 2 and s. -/
theorem chunks_disjoint : ∀ t ∈ (Finset.univ : Finset (Fin (grid0.bound 0) × Fin (grid0.bound 1) × Fin k0_t1_loop.trips)),
    ∀ t' ∈ (Finset.univ : Finset (Fin (grid0.bound 0) × Fin (grid0.bound 1) × Fin k0_t1_loop.trips)),
    t ≠ t' → Disjoint (chunkOf t) (chunkOf t') := by
  intro t _ t' _ hne
  rw [Finset.disjoint_left]
  intro j hj hj'
  rw [mem_chunkSet] at hj hj'
  apply hne
  obtain ⟨c, s, k⟩ := t
  obtain ⟨c', s', k'⟩ := t'
  have hc : c.val < 2 := c.isLt
  have hc' : c'.val < 2 := c'.isLt
  have hk : k.val < 8 := Nat.lt_of_lt_of_le k.isLt (le_of_eq trips_eq)
  have hk' : k'.val < 8 := Nat.lt_of_lt_of_le k'.isLt (le_of_eq trips_eq)
  have e0 : ∀ (c : Fin (grid0.bound 0)) (s : Fin (grid0.bound 1)), ((coordsV c s) 0).val = c.val := fun _ _ => rfl
  have e1 : ∀ (c : Fin (grid0.bound 0)) (s : Fin (grid0.bound 1)), ((coordsV c s) 1).val = s.val := fun _ _ => rfl
  simp only [e0, e1] at hj hj'
  have hcc : c = c' := Fin.ext (by omega)
  have hss : s = s' := Fin.ext (by omega)
  have hkk : k = k' := Fin.ext (by omega)
  rw [hcc, hss, hkk]

/-- Every element of the result lies in a chunk. -/
theorem chunks_cover :
    (Finset.univ : Finset (Fin (grid0.bound 0) × Fin (grid0.bound 1) × Fin k0_t1_loop.trips)).biUnion chunkOf = Finset.univ := by
  ext j
  simp only [Finset.mem_biUnion, Finset.mem_univ, true_and, iff_true]
  have h0 : (j 0).val < 4096 := (j 0).isLt
  refine ⟨(⟨(j 0).val / 128 % 2, by show _ < 2; omega⟩, ⟨(j 0).val / 256, by show _ < 16; omega⟩,
    ⟨(j 0).val / 16 % 8, by rw [trips_eq]; omega⟩), ?_⟩
  rw [mem_chunkSet]
  show 16 * (8 * (2 * ((j 0).val / 256) + (j 0).val / 128 % 2) + (j 0).val / 16 % 8) ≤ (j 0).val
    ∧ (j 0).val < 16 * (8 * (2 * ((j 0).val / 256) + (j 0).val / 128 % 2) + (j 0).val / 16 % 8) + 16
  omega

/-- **The full points-to of the result is the separating conjunction of its 2 x 16 x 8 chunks' points-to's.** -/
theorem out_split (d : Dev nD) (f : Buf (Elt F) (oLoc d)) :
    (oLoc d ↦{fullShare} f : sProp (𝕄 F))
      = bigSep Finset.univ fun c : Fin (grid0.bound 0) => bigSep Finset.univ fun s : Fin (grid0.bound 1) =>
          bigSep Finset.univ fun k : Fin k0_t1_loop.trips => oLoc d ↦[chunkSet (coordsV c s) k]{fullShare} f := by
  have h : (oLoc d ↦{fullShare} f : sProp (𝕄 F))
      = bigSep Finset.univ fun t : Fin (grid0.bound 0) × Fin (grid0.bound 1) × Fin k0_t1_loop.trips =>
          oLoc d ↦[chunkOf t]{fullShare} f := by
    rw [← pointsTo_biUnion Finset.univ (ℓ := oLoc d) chunkOf chunks_disjoint, chunks_cover]; try rfl
  rw [h, bigSep_univ_prod]
  refine bigSep_congr fun c _ => ?_
  rw [bigSep_univ_prod]

end Cert.Proof.KW

end
-- ==== Proof.LibShares.lean ====
/-
  Splitting along the halves of a tree share, iterated.

  A positive tree share `q` is the composite of its two halves `q.left` and `q.right`; halving each half again, and so on
  `n` times, cuts `q` into `2 ^ n` leaves. Any family of assertions `Φ` indexed by shares that splits along the two
  halves of every share (`Φ q = Φ q.left ∗ Φ q.right`) therefore splits into the `2 ^ n` leaves of the depth-`n` halving
  (`leaves`). A points-to is such a family (`pointsTo_halves`), and the separating conjunction of two such families is one
  again (`sep_halves`), so a bundle of points-to's splits at once.
-/
import Idealize.ShloMosaic.Rules.PointsTo

noncomputable section

namespace Cert.LibShares

open Idealize.ShloMosaic
open Idealize.SL Idealize.SL.RA Idealize.SL.BI
open scoped Idealize.SL.BI
open Idealize.SL.BI.BIBase Idealize.SL.BI.Laws

universe u

/-- Leaf `i` of the depth-`n` halving of the share `q`: at depth 0 the share itself; at depth `n + 1` the first `2 ^ n`
    leaves are those of the left half, the remaining `2 ^ n` those of the right half. -/
def leaf : (n : ℕ) → PosShare TreeShare → Fin (2 ^ n) → PosShare TreeShare
  | 0, q, _ => q
  | n + 1, q, i =>
    if h : i.val < 2 ^ n then leaf n q.left ⟨i.val, h⟩
    else leaf n q.right ⟨i.val - 2 ^ n, by have := i.isLt; have h2 := pow_succ 2 n; omega⟩

/-- The `2 ^ (n + 1)` leaf numbers are the `2 ^ n` of the left half followed by the `2 ^ n` of the right half. -/
def halves (n : ℕ) : Fin (2 ^ n) ⊕ Fin (2 ^ n) ≃ Fin (2 ^ (n + 1)) :=
  finSumFinEquiv.trans (finCongr (by rw [pow_succ]; omega))

theorem halves_inl_val (n : ℕ) (a : Fin (2 ^ n)) : (halves n (.inl a)).val = a.val := by
  simp [halves]

theorem halves_inr_val (n : ℕ) (b : Fin (2 ^ n)) : (halves n (.inr b)).val = 2 ^ n + b.val := by
  simp [halves]; omega

theorem leaf_succ_inl (n : ℕ) (q : PosShare TreeShare) (a : Fin (2 ^ n)) :
    leaf (n + 1) q (halves n (.inl a)) = leaf n q.left a := by
  have h : (halves n (.inl a)).val < 2 ^ n := by rw [halves_inl_val]; exact a.isLt
  rw [leaf, dif_pos h]
  congr 1

theorem leaf_succ_inr (n : ℕ) (q : PosShare TreeShare) (b : Fin (2 ^ n)) :
    leaf (n + 1) q (halves n (.inr b)) = leaf n q.right b := by
  have h : ¬ (halves n (.inr b)).val < 2 ^ n := by rw [halves_inr_val]; omega
  rw [leaf, dif_neg h]
  congr 1
  apply Fin.ext
  show (halves n (.inr b)).val - 2 ^ n = b.val
  rw [halves_inr_val]; omega

/-- **A family that splits along the halves of every share splits into the leaves of the depth-`n` halving.** -/
theorem leaves {M : Type u} [URA M] (Φ : PosShare TreeShare → sProp M)
    (hΦ : ∀ q, Φ q = iprop(Φ q.left ∗ Φ q.right)) :
    ∀ (n : ℕ) (q : PosShare TreeShare), Φ q = bigSep Finset.univ fun i : Fin (2 ^ n) => Φ (leaf n q i) := by
  intro n
  induction n with
  | zero =>
    intro q
    haveI : Subsingleton (Fin (2 ^ 0)) := by rw [pow_zero]; infer_instance
    rw [bigSep_univ_of_subsingleton (⟨0, by simp⟩ : Fin (2 ^ 0))]
    rfl
  | succ n ih =>
    intro q
    rw [bigSep_univ_equiv (halves n) (fun i : Fin (2 ^ (n + 1)) => Φ (leaf (n + 1) q i)), bigSep_univ_sum]
    simp only [leaf_succ_inl, leaf_succ_inr]
    rw [← ih q.left, ← ih q.right]
    exact hΦ q

section PointsTo
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl
variable {ℓ : Loc nD τ sig} {I : Finset (Idx ℓ)} {q : PosShare TreeShare} {f : Buf Val ℓ}

/-- A points-to at a share is the points-to at its left half beside the points-to at its right half. -/
theorem pointsTo_halves :
    (ℓ ↦[I]{q} f : sProp 𝕄) = iprop((ℓ ↦[I]{q.left} f) ∗ (ℓ ↦[I]{q.right} f)) :=
  have h : (ℓ ↦[I]{q} f : sProp 𝕄) ⊣⊢ iprop((ℓ ↦[I]{q.left} f) ∗ (ℓ ↦[I]{q.right} f)) :=
    pointsTo_share (PosShare.mem_left_op_right q)
  BI.equiv_iff.mp ⟨h.1, h.2⟩

end PointsTo

/-- The separating conjunction of two families that split along the halves of every share splits along them too. -/
theorem sep_halves {M : Type u} [URA M] (Φ Ψ : PosShare TreeShare → sProp M)
    (hΦ : ∀ q, Φ q = iprop(Φ q.left ∗ Φ q.right)) (hΨ : ∀ q, Ψ q = iprop(Ψ q.left ∗ Ψ q.right)) :
    ∀ q, iprop(Φ q ∗ Ψ q) = iprop(iprop(Φ q.left ∗ Ψ q.left) ∗ iprop(Φ q.right ∗ Ψ q.right)) := by
  intro q
  have h : iprop((Φ q.left ∗ Φ q.right) ∗ (Ψ q.left ∗ Ψ q.right))
      ⊣⊢ iprop((Φ q.left ∗ Ψ q.left) ∗ (Φ q.right ∗ Ψ q.right)) := sep_sep_sep_comm
  calc iprop(Φ q ∗ Ψ q) = iprop(iprop(Φ q.left ∗ Φ q.right) ∗ iprop(Ψ q.left ∗ Ψ q.right)) := by rw [← hΦ q, ← hΨ q]
    _ = _ := BI.equiv_iff.mp ⟨h.1, h.2⟩

end Cert.LibShares

end
-- ==== Proof.WordPay.lean ====
/-
  What the launch handshakes of the word-level kernel carry.

  The call hands SparseCore c one half of every read-only array (the three arguments, the six tables) and the chunks of
  the result that its sixteen tiles own, and takes them back with the chunks at the specification. The sequencer hands tile
  (c, i) a sixteenth of its half (a thirty-second of each array) and the tile's own eight chunks. The kernel has no
  protocol of its own beyond its local transfers, so the threads get nothing else.
-/
import proofs.«214040_g26508538151745_cont_9to1_1151_18_alg».proof.Proof.WordChunks
import proofs.«214040_g26508538151745_cont_9to1_1151_18_alg».proof.Proof.LibShares

noncomputable section

namespace Cert.Proof.KW

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem bound_zero : grid0.bound 0 = 2 := rfl
theorem bound_one : grid0.bound 1 = 16 := rfl

/-- SparseCore `c`'s half of a full share, and tile `(c, i)`'s sixteenth of that half. -/
def coreShare (c : Fin 2) : PosShare TreeShare := Cert.LibShares.leaf 1 fullShare (Fin.cast (by decide) c)
def tileShare (c : Fin 2) (i : Fin 16) : PosShare TreeShare := Cert.LibShares.leaf 4 (coreShare c) (Fin.cast (by decide) i)

/-- Tile `(c, i)` as the kernel's grid names it. -/
abbrev tileL (c : Fin 2) (i : Fin 16) : grid0.Coords := coordsV (Fin.cast bound_zero.symm c) (Fin.cast bound_one.symm i)

/-- The eight chunks of the result that tile `(c, i)` owns, all read through the one whole-array function `f`. -/
def outTile (d : Dev nD) (c : Fin 2) (i : Fin 16) (f : Buf (Elt F) (oLoc d)) : sProp (𝕄 F) :=
  bigSep Finset.univ fun k : Fin k0_t1_loop.trips => oLoc d ↦[chunkSet (tileL c i) k]{fullShare} f

variable [FloatOps F] (m : (ℓ : Loc nD τ sig) → Buf (Elt F) ℓ)

def P : (K (F := F)).Pay (nD := nD) (Val := Elt F) (Name := ℕ) (U := UU) where
  st := fun q d c => match q with
    | 0 => iprop(Ins d m (coreShare (Fin.cast nCore_zero c)) ∗ bigSep Finset.univ fun i : Fin 16 => outTile d (Fin.cast nCore_zero c) i (m (oLoc d)))
  dn := fun q d c => match q with
    | 0 => iprop(Ins d m (coreShare (Fin.cast nCore_zero c)) ∗ bigSep Finset.univ fun i : Fin 16 => outTile d (Fin.cast nCore_zero c) i (GO m d))
  go := fun q d c i => match q with
    | 0 => iprop(Ins d m (tileShare (Fin.cast nCore_zero c) (Fin.cast nSub_zero i)) ∗ outTile d (Fin.cast nCore_zero c) (Fin.cast nSub_zero i) (m (oLoc d)))
  td := fun q d c i => match q with
    | 0 => iprop(Ins d m (tileShare (Fin.cast nCore_zero c) (Fin.cast nSub_zero i)) ∗ outTile d (Fin.cast nCore_zero c) (Fin.cast nSub_zero i) (GO m d))
  x := fun _ _ => iprop(emp)

instance Ins_storable (d : Dev nD) (q : PosShare TreeShare) : BI.Storable (upEmb : UEmb _ (𝕄 F)) (Ins d m q) := by
  unfold Ins; infer_instance
instance outTile_storable (d : Dev nD) (c : Fin 2) (i : Fin 16) (f : Buf (Elt F) (oLoc d)) : BI.Storable (upEmb : UEmb _ (𝕄 F)) (outTile d c i f) := by
  unfold outTile; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KW

end
-- ==== Proof.LibStoreIdx.lean ====
/-
  A general fact about the indexed (scatter) store `storeIdx`, unmasked and overwriting.

  The store folds over the lanes in ascending order, each lane writing its value at the position its index vectors name.
  If EVERY lane writes, at its position, the value a fixed target table `T` has there, then nothing the store does can
  spoil an agreement with `T`: wherever the table agreed with `T` before it still does, and it now agrees with `T` at
  every lane's position as well. No distinctness of the positions is needed — a later lane landing on an earlier lane's
  position also writes `T`'s value there.
-/
import Idealize.ShloMosaic.PureOps
import Idealize.ShloMosaic.Lib.ValueIdx

noncomputable section

namespace Cert.LibStoreIdx

open Idealize.ShloMosaic

variable {F : FTy → Type} [FloatOps F] {s : Shape} {e : EltTy} {d : Fin 1 → Nat}

/-- Two multi-indices with the same coordinates are equal. -/
theorem idx_eq_of_val (j i : s.Idx) (h : ∀ a, (j a).val = (i a).val) : j = i :=
  funext fun a => Fin.ext (h a)

/-- One lane's write, unmasked and overwriting: the value `v x` at the position lane `k` names, everything else kept. -/
def writeLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked overwriting store is the fold of the single-lane writes. -/
theorem storeIdx_eq_foldl (g : Vec F s e) (idxs : Fin s.rank → IVec ⟨1, d⟩ 32) (v : Vec F ⟨1, d⟩ e)
    (h : ∀ a x, (idxs a x).toNat < s.size a) :
    storeIdx g idxs v (fun _ => 1#1) false h = (List.finRange (d 0)).foldl (writeLane idxs v h) g := by
  unfold storeIdx
  congr 1

/-- The fold of single-lane writes over ANY list of lanes keeps an agreement with a target `T` and extends it to the
    positions of the lanes of the list, provided every lane's value is `T`'s value at the lane's position. -/
theorem foldl_writeLane_agrees (T : Vec F s e) (idxs : Fin s.rank → IVec ⟨1, d⟩ 32) (v : Vec F ⟨1, d⟩ e)
    (h : ∀ a x, (idxs a x).toNat < s.size a) (hv : ∀ x, v x = T (idxAt idxs h x)) :
    ∀ (l : List (Fin (d 0))) (g : Vec F s e) (P : s.Idx → Prop), (∀ j, P j → g j = T j) →
      ∀ j, (P j ∨ ∃ k, k ∈ l ∧ j = idxAt idxs h (Shape.ofLane k)) → l.foldl (writeLane idxs v h) g j = T j := by
  intro l
  induction l with
  | nil =>
    intro g P hg j hj
    rcases hj with hj | ⟨k, hk, _⟩
    · exact hg j hj
    · cases hk
  | cons k l ih =>
    intro g P hg j hj
    rw [List.foldl_cons]
    -- after lane `k`'s write the table agrees with `T` on `P` and at lane `k`'s position
    refine ih (writeLane idxs v h g k) (fun j => P j ∨ j = idxAt idxs h (Shape.ofLane k)) ?_ j ?_
    · intro j' hj'
      unfold writeLane
      by_cases hpos : ∀ a, (j' a).val = (idxAt idxs h (Shape.ofLane k) a).val
      · rw [if_pos hpos, hv, idx_eq_of_val _ _ hpos]
      · rw [if_neg hpos]
        rcases hj' with hj' | hj'
        · exact hg j' hj'
        · exact absurd (fun a => by rw [hj']) hpos
    · rcases hj with hj | ⟨k', hk', hj⟩
      · exact Or.inl (Or.inl hj)
      · rcases List.mem_cons.mp hk' with hk' | hk'
        · subst hk'; exact Or.inl (Or.inr hj)
        · exact Or.inr ⟨k', hk', hj⟩

/-- **The unmasked overwriting scatter preserves and extends an agreement with a target.** If every lane's stored value is
    the target `T`'s value at the lane's position, and the table `g` agrees with `T` on `D`, then the table after the store
    agrees with `T` on every `D'` contained in `D` together with the lanes' positions. -/
theorem storeIdx_agrees (T : Vec F s e) (g : Vec F s e) (idxs : Fin s.rank → IVec ⟨1, d⟩ 32) (v : Vec F ⟨1, d⟩ e)
    (h : ∀ a x, (idxs a x).toNat < s.size a) (D D' : s.Idx → Prop)
    (hv : ∀ x, v x = T (idxAt idxs h x)) (hg : ∀ j, D j → g j = T j)
    (hD : ∀ j, D' j → D j ∨ ∃ k : Fin (d 0), j = idxAt idxs h (Shape.ofLane k)) :
    ∀ j, D' j → storeIdx g idxs v (fun _ => 1#1) false h j = T j := by
  intro j hj
  rw [storeIdx_eq_foldl]
  refine foldl_writeLane_agrees T idxs v h hv _ g D hg j ?_
  rcases hD j hj with hj | ⟨k, hk⟩
  · exact Or.inl hj
  · exact Or.inr ⟨k, List.mem_finRange k, hk⟩

end Cert.LibStoreIdx

end
-- ==== Proof.Chunk.lean ====
/-
  One chunk's [160, 7] record table, filled by 80 indexed stores of sixteen lanes each, agrees with the target
  `Cert.Spec.Gv` on everything written so far, and on every entry once all groups are done.

  Phase 1 (30 groups) copies the [160, 3] coordinate table into columns 0..2: lane x of group t handles the flat entry
  n = 16 t + x, that is row n / 3, column n % 3. Phase 2 (20 groups) copies the [160, 2] extent table into columns 5, 6:
  flat entry n = 16 t + x is row n / 2, column n % 2, stored at column n % 2 + 5. Phase 3 (10 groups) handles candidate
  n = 16 t + x: batch row n / 10, candidate n % 10, whose staging row (n / 10) * 10 + n % 10 is n itself; column 4 receives
  the confidence and column 3 its mark.

  Everything here is arithmetic on positions plus the general fact that an unmasked overwriting scatter, each of whose lanes
  writes the target's value at its position, preserves and extends an agreement with the target.
-/
import Idealize.ShloMosaic.PureOps
import Idealize.ShloMosaic.Lib.ValueIdx
import proofs.«214040_g26508538151745_cont_9to1_1151_18_alg».proof.Proof.Spec
import proofs.«214040_g26508538151745_cont_9to1_1151_18_alg».proof.Proof.LibStoreIdx

noncomputable section

namespace Cert.Chunk

open Idealize.ShloMosaic Idealize.ShloMosaic.ValueIdx Cert.LibStoreIdx

variable {F : FTy → Type} [FloatOps F]

abbrev S16 : Shape := ⟨1, ![16]⟩
abbrev S160x3 : Shape := ⟨2, ![160, 3]⟩
abbrev S16x10 : Shape := ⟨2, ![16, 10]⟩
abbrev S160x2 : Shape := ⟨2, ![160, 2]⟩
abbrev S160x7 : Shape := ⟨2, ![160, 7]⟩

/-- which entries of the [160,7] table have been written after t groups of each phase -/
def Done1 (t : Nat) (j : S160x7.Idx) : Prop := (j 1).val < 3 ∧ 3 * (j 0).val + (j 1).val < 16 * t
def Done2 (t : Nat) (j : S160x7.Idx) : Prop := Done1 30 j ∨ (5 ≤ (j 1).val ∧ 2 * (j 0).val + ((j 1).val - 5) < 16 * t)
def Done3 (t : Nat) (j : S160x7.Idx) : Prop := Done2 20 j ∨ (((j 1).val = 3 ∨ (j 1).val = 4) ∧ (j 0).val < 16 * t)

def Agrees (D : S160x7.Idx → Prop) (O : Vec F S160x7 .f32) (A : Vec F S160x3 .f32) (C : Vec F S16x10 .f32) (B : Vec F S160x2 .f32) : Prop :=
  ∀ j, D j → O j = Cert.Spec.Gv A C B j

/-! ## Small facts: lanes, positions, words -/

/-- A lane number is below sixteen. -/
theorem lane_lt (x : S16.Idx) : (x 0).val < 16 := (x 0).isLt

/-- Lane `k`'s multi-index has coordinate `k`. -/
theorem ofLane_val {d : Fin 1 → Nat} (k : Fin (d 0)) : ((Shape.ofLane k) 0).val = k.val := rfl

/-- A rank-2 index is the position a lane names as soon as its two coordinates are the lane's two index words. -/
theorem eq_idxAt2 {n0 n1 : Nat} (i0 i1 : IVec S16 32)
    (h : ∀ a x, ((![i0, i1] : Fin 2 → IVec S16 32) a x).toNat < (⟨2, ![n0, n1]⟩ : Shape).size a)
    (j : (⟨2, ![n0, n1]⟩ : Shape).Idx) (x : S16.Idx)
    (e0 : (j 0).val = (i0 x).toNat) (e1 : (j 1).val = (i1 x).toNat) : j = idxAt ![i0, i1] h x := by
  funext a
  match a with
  | ⟨0, _⟩ => exact Fin.ext e0
  | ⟨1, _⟩ => exact Fin.ext e1

/-- Adding the word 5 to a word below 2 does not wrap. -/
theorem toNat_add5 (a : BitVec 32) (h : a.toNat < 2) : (a + 5#32).toNat = a.toNat + 5 := by
  rw [BitVec.toNat_add, BitVec.toNat_ofNat]; omega

/-- Ten times a word below 16 plus a word below 10 does not wrap. -/
theorem toNat_row (a c : BitVec 32) (ha : a.toNat < 16) (hc : c.toNat < 10) :
    (a * 10#32 + c).toNat = a.toNat * 10 + c.toNat := by
  rw [BitVec.toNat_add, BitVec.toNat_mul, BitVec.toNat_ofNat]; omega

/-! ## The target read by columns -/

theorem Gv_lt3 (A : Vec F S160x3 .f32) (C : Vec F S16x10 .f32) (B : Vec F S160x2 .f32) (j : S160x7.Idx)
    (h : (j 1).val < 3) : Cert.Spec.Gv A C B j = A (ix2 (j 0) ⟨(j 1).val, h⟩) := by
  unfold Cert.Spec.Gv
  exact dif_pos h

theorem Gv_3 (A : Vec F S160x3 .f32) (C : Vec F S16x10 .f32) (B : Vec F S160x2 .f32) (j : S160x7.Idx)
    (h : (j 1).val = 3) :
    Cert.Spec.Gv A C B j
      = Cert.Spec.mark (C (ix2 ⟨(j 0).val / 10, by have := idx2_lt0 j; omega⟩ ⟨(j 0).val % 10, by omega⟩)) := by
  unfold Cert.Spec.Gv
  have h3 : ¬ (j 1).val < 3 := by omega
  simp only [dif_neg h3, if_pos h]

theorem Gv_4 (A : Vec F S160x3 .f32) (C : Vec F S16x10 .f32) (B : Vec F S160x2 .f32) (j : S160x7.Idx)
    (h : (j 1).val = 4) :
    Cert.Spec.Gv A C B j = C (ix2 ⟨(j 0).val / 10, by have := idx2_lt0 j; omega⟩ ⟨(j 0).val % 10, by omega⟩) := by
  unfold Cert.Spec.Gv
  have h3 : ¬ (j 1).val < 3 := by omega
  have h4 : ¬ (j 1).val = 3 := by omega
  simp only [dif_neg h3, if_neg h4, if_pos h]

theorem Gv_ge5 (A : Vec F S160x3 .f32) (C : Vec F S16x10 .f32) (B : Vec F S160x2 .f32) (j : S160x7.Idx)
    (h : 5 ≤ (j 1).val) :
    Cert.Spec.Gv A C B j = B (ix2 (j 0) ⟨(j 1).val - 5, by have := idx2_lt1 j; omega⟩) := by
  unfold Cert.Spec.Gv
  have h3 : ¬ (j 1).val < 3 := by omega
  have h4 : ¬ (j 1).val = 3 := by omega
  have h5 : ¬ (j 1).val = 4 := by omega
  simp only [dif_neg h3, if_neg h4, if_neg h5]

/-! ## Start, bridges, end -/

theorem agrees_start (O : Vec F S160x7 .f32) (A : Vec F S160x3 .f32) (C : Vec F S16x10 .f32) (B : Vec F S160x2 .f32) :
    Agrees (Done1 0) O A C B := by
  intro j hj
  obtain ⟨_, hj⟩ := hj
  omega

theorem agrees_1_2 (O : Vec F S160x7 .f32) (A : Vec F S160x3 .f32) (C : Vec F S16x10 .f32) (B : Vec F S160x2 .f32)
    (h : Agrees (Done1 30) O A C B) : Agrees (Done2 0) O A C B := by
  intro j hj
  rcases hj with hj | ⟨_, hj⟩
  · exact h j hj
  · omega

theorem agrees_2_3 (O : Vec F S160x7 .f32) (A : Vec F S160x3 .f32) (C : Vec F S16x10 .f32) (B : Vec F S160x2 .f32)
    (h : Agrees (Done2 20) O A C B) : Agrees (Done3 0) O A C B := by
  intro j hj
  rcases hj with hj | ⟨_, hj⟩
  · exact h j hj
  · omega

theorem agrees_done (O : Vec F S160x7 .f32) (A : Vec F S160x3 .f32) (C : Vec F S16x10 .f32) (B : Vec F S160x2 .f32)
    (h : Agrees (Done3 10) O A C B) : O = Cert.Spec.Gv A C B := by
  funext j
  apply h j
  have h0 : (j 0).val < 160 := idx2_lt0 j
  have h1 : (j 1).val < 7 := idx2_lt1 j
  unfold Done3 Done2 Done1
  omega

/-! ## Phase 1 -/

theorem chk1 (t : Nat) (ht : t < 30) (r c : IVec S16 32)
    (hr : ∀ x, (r x).toNat = (16 * t + (x 0).val) / 3) (hc : ∀ x, (c x).toNat = (16 * t + (x 0).val) % 3) :
    (∀ a x, ((![r, c] : Fin 2 → IVec S16 32) a x).toNat < S160x3.size a)
    ∧ (∀ a x, ((![r, c] : Fin 2 → IVec S16 32) a x).toNat < S160x7.size a) := by
  refine ⟨fun a x => ?_, fun a x => ?_⟩
  · have hx := lane_lt x
    match a with
    | ⟨0, _⟩ => show (r x).toNat < 160; rw [hr]; omega
    | ⟨1, _⟩ => show (c x).toNat < 3; rw [hc]; omega
  · have hx := lane_lt x
    match a with
    | ⟨0, _⟩ => show (r x).toNat < 160; rw [hr]; omega
    | ⟨1, _⟩ => show (c x).toNat < 7; rw [hc]; omega

theorem step1 (t : Nat) (ht : t < 30) (O : Vec F S160x7 .f32) (A : Vec F S160x3 .f32) (C : Vec F S16x10 .f32) (B : Vec F S160x2 .f32)
    (r c : IVec S16 32)
    (hr : ∀ x, (r x).toNat = (16 * t + (x 0).val) / 3) (hc : ∀ x, (c x).toNat = (16 * t + (x 0).val) % 3)
    (h1 : ∀ a x, ((![r, c] : Fin 2 → IVec S16 32) a x).toNat < S160x3.size a)
    (h2 : ∀ a x, ((![r, c] : Fin 2 → IVec S16 32) a x).toNat < S160x7.size a)
    (hO : Agrees (Done1 t) O A C B) :
    Agrees (Done1 (t + 1)) (storeIdx O ![r, c] (loadIdx A ![r, c] h1) (fun _ => 1#1) false h2) A C B := by
  refine storeIdx_agrees (F := F) (s := S160x7) (e := .f32) (Cert.Spec.Gv A C B) O _ _ h2 (Done1 t) (Done1 (t + 1)) ?_ hO ?_
  · -- lane x loads entry (row, column) of the coordinate table, which is what the target has at (row, column)
    intro x
    have hx := lane_lt x
    have hcol : ((idxAt (s := S160x7) ![r, c] h2 x) 1).val < 3 := by
      show (c x).toNat < 3
      rw [hc]; omega
    rw [Gv_lt3 A C B _ hcol]
    show A (idxAt ![r, c] h1 x) = _
    congr 1
    exact (eq_idxAt2 r c h1 _ x rfl rfl).symm
  · -- an entry newly counted as written is the position of lane n - 16 t, n its flat number
    intro j hj
    obtain ⟨hj1, hj2⟩ := hj
    by_cases hlt : 3 * (j 0).val + (j 1).val < 16 * t
    · exact Or.inl ⟨hj1, hlt⟩
    · right
      obtain ⟨k, hk⟩ : ∃ k : Fin 16, k.val = 3 * (j 0).val + (j 1).val - 16 * t := ⟨⟨_, by omega⟩, rfl⟩
      refine ⟨k, eq_idxAt2 r c h2 j _ ?_ ?_⟩
      · rw [hr]; show (j 0).val = (16 * t + k.val) / 3; omega
      · rw [hc]; show (j 1).val = (16 * t + k.val) % 3; omega

/-! ## Phase 2 -/

theorem chk2 (t : Nat) (ht : t < 20) (r c : IVec S16 32)
    (hr : ∀ x, (r x).toNat = (16 * t + (x 0).val) / 2) (hc : ∀ x, (c x).toNat = (16 * t + (x 0).val) % 2) :
    (∀ a x, ((![r, c] : Fin 2 → IVec S16 32) a x).toNat < S160x2.size a)
    ∧ (∀ a x, ((![r, addi c (broadcast S16 5#32)] : Fin 2 → IVec S16 32) a x).toNat < S160x7.size a) := by
  refine ⟨fun a x => ?_, fun a x => ?_⟩
  · have hx := lane_lt x
    match a with
    | ⟨0, _⟩ => show (r x).toNat < 160; rw [hr]; omega
    | ⟨1, _⟩ => show (c x).toNat < 2; rw [hc]; omega
  · have hx := lane_lt x
    match a with
    | ⟨0, _⟩ => show (r x).toNat < 160; rw [hr]; omega
    | ⟨1, _⟩ =>
      show (c x + 5#32).toNat < 7
      rw [toNat_add5 _ (by rw [hc]; omega), hc]; omega

theorem step2 (t : Nat) (ht : t < 20) (O : Vec F S160x7 .f32) (A : Vec F S160x3 .f32) (C : Vec F S16x10 .f32) (B : Vec F S160x2 .f32)
    (r c : IVec S16 32)
    (hr : ∀ x, (r x).toNat = (16 * t + (x 0).val) / 2) (hc : ∀ x, (c x).toNat = (16 * t + (x 0).val) % 2)
    (h1 : ∀ a x, ((![r, c] : Fin 2 → IVec S16 32) a x).toNat < S160x2.size a)
    (h2 : ∀ a x, ((![r, addi c (broadcast S16 5#32)] : Fin 2 → IVec S16 32) a x).toNat < S160x7.size a)
    (hO : Agrees (Done2 t) O A C B) :
    Agrees (Done2 (t + 1))
      (storeIdx O ![r, addi c (broadcast S16 5#32)] (loadIdx B ![r, c] h1) (fun _ => 1#1) false h2) A C B := by
  -- the stored column is the loaded column plus 5, without wrap-around
  have hc5 : ∀ x, ((addi c (broadcast S16 5#32)) x).toNat = (c x).toNat + 5 := by
    intro x
    have hx := lane_lt x
    show (c x + 5#32).toNat = _
    exact toNat_add5 _ (by rw [hc]; omega)
  refine storeIdx_agrees (F := F) (s := S160x7) (e := .f32) (Cert.Spec.Gv A C B) O _ _ h2 (Done2 t) (Done2 (t + 1)) ?_ hO ?_
  · intro x
    have hx := lane_lt x
    have hcol : ((idxAt (s := S160x7) ![r, addi c (broadcast S16 5#32)] h2 x) 1).val = (c x).toNat + 5 := hc5 x
    rw [Gv_ge5 A C B _ (by rw [hcol]; omega)]
    show B (idxAt ![r, c] h1 x) = _
    congr 1
    refine (eq_idxAt2 r c h1 _ x rfl ?_).symm
    show (idxAt (s := S160x7) ![r, addi c (broadcast S16 5#32)] h2 x 1).val - 5 = (c x).toNat
    rw [hcol]; omega
  · intro j hj
    have h1j : (j 1).val < 7 := idx2_lt1 j
    rcases hj with hj | ⟨hj1, hj2⟩
    · exact Or.inl (Or.inl hj)
    · by_cases hlt : 2 * (j 0).val + ((j 1).val - 5) < 16 * t
      · exact Or.inl (Or.inr ⟨hj1, hlt⟩)
      · right
        obtain ⟨k, hk⟩ : ∃ k : Fin 16, k.val = 2 * (j 0).val + ((j 1).val - 5) - 16 * t := ⟨⟨_, by omega⟩, rfl⟩
        refine ⟨k, eq_idxAt2 r _ h2 j _ ?_ ?_⟩
        · rw [hr]; show (j 0).val = (16 * t + k.val) / 2; omega
        · rw [hc5, hc]; show (j 1).val = (16 * t + k.val) % 2 + 5; omega

/-! ## Phase 3 -/

/-- Between the two stores of group t of phase 3: column 4 is written up to row 16 (t + 1), column 3 up to row 16 t. -/
def Mid3 (t : Nat) (j : S160x7.Idx) : Prop := Done3 t j ∨ ((j 1).val = 4 ∧ (j 0).val < 16 * (t + 1))

/-- The staging row of candidate n = 16 t + x, computed as (n / 10) * 10 + n % 10 on words, is n. -/
theorem row_toNat (t : Nat) (ht : t < 10) (b p : IVec S16 32)
    (hb : ∀ x, (b x).toNat = (16 * t + (x 0).val) / 10) (hp : ∀ x, (p x).toNat = (16 * t + (x 0).val) % 10) (x : S16.Idx) :
    ((addi (muli b (broadcast S16 10#32)) p) x).toNat = 16 * t + (x 0).val := by
  have hx := lane_lt x
  show (b x * 10#32 + p x).toNat = _
  rw [toNat_row _ _ (by rw [hb]; omega) (by rw [hp]; omega), hb, hp]; omega

theorem chk3 (t : Nat) (ht : t < 10) (b p : IVec S16 32)
    (hb : ∀ x, (b x).toNat = (16 * t + (x 0).val) / 10) (hp : ∀ x, (p x).toNat = (16 * t + (x 0).val) % 10) :
    (∀ a x, ((![b, p] : Fin 2 → IVec S16 32) a x).toNat < S16x10.size a)
    ∧ (∀ a x, ((![addi (muli b (broadcast S16 10#32)) p, broadcast S16 4#32] : Fin 2 → IVec S16 32) a x).toNat < S160x7.size a)
    ∧ (∀ a x, ((![addi (muli b (broadcast S16 10#32)) p, broadcast S16 3#32] : Fin 2 → IVec S16 32) a x).toNat < S160x7.size a) := by
  refine ⟨fun a x => ?_, fun a x => ?_, fun a x => ?_⟩
  · have hx := lane_lt x
    match a with
    | ⟨0, _⟩ => show (b x).toNat < 16; rw [hb]; omega
    | ⟨1, _⟩ => show (p x).toNat < 10; rw [hp]; omega
  · have hx := lane_lt x
    match a with
    | ⟨0, _⟩ =>
      show ((addi (muli b (broadcast S16 10#32)) p) x).toNat < 160
      rw [row_toNat t ht b p hb hp x]; omega
    | ⟨1, _⟩ => show (4#32).toNat < 7; decide
  · have hx := lane_lt x
    match a with
    | ⟨0, _⟩ =>
      show ((addi (muli b (broadcast S16 10#32)) p) x).toNat < 160
      rw [row_toNat t ht b p hb hp x]; omega
    | ⟨1, _⟩ => show (3#32).toNat < 7; decide

theorem step3 (t : Nat) (ht : t < 10) (O : Vec F S160x7 .f32) (A : Vec F S160x3 .f32) (C : Vec F S16x10 .f32) (B : Vec F S160x2 .f32)
    (b p : IVec S16 32)
    (hb : ∀ x, (b x).toNat = (16 * t + (x 0).val) / 10) (hp : ∀ x, (p x).toNat = (16 * t + (x 0).val) % 10)
    (h1 : ∀ a x, ((![b, p] : Fin 2 → IVec S16 32) a x).toNat < S16x10.size a)
    (h2 : ∀ a x, ((![addi (muli b (broadcast S16 10#32)) p, broadcast S16 4#32] : Fin 2 → IVec S16 32) a x).toNat < S160x7.size a)
    (h3 : ∀ a x, ((![addi (muli b (broadcast S16 10#32)) p, broadcast S16 3#32] : Fin 2 → IVec S16 32) a x).toNat < S160x7.size a)
    (hO : Agrees (Done3 t) O A C B) :
    Agrees (Done3 (t + 1))
      (storeIdx
        (storeIdx O ![addi (muli b (broadcast S16 10#32)) p, broadcast S16 4#32] (loadIdx C ![b, p] h1) (fun _ => 1#1) false h2)
        ![addi (muli b (broadcast S16 10#32)) p, broadcast S16 3#32]
        (fun x => Cert.Spec.mark (loadIdx C ![b, p] h1 x)) (fun _ => 1#1) false h3) A C B := by
  have hrow := row_toNat t ht b p hb hp
  -- the confidence lane x loads is the target's confidence of staging row n = 16 t + x
  have hload : ∀ (x : S16.Idx) (j : S160x7.Idx) (hj : (j 0).val = 16 * t + (x 0).val),
      idxAt ![b, p] h1 x = ix2 ⟨(j 0).val / 10, by have := idx2_lt0 j; omega⟩ ⟨(j 0).val % 10, by omega⟩ := by
    intro x j hj
    refine (eq_idxAt2 b p h1 _ x ?_ ?_).symm
    · show (j 0).val / 10 = (b x).toNat
      rw [hb, hj]
    · show (j 0).val % 10 = (p x).toNat
      rw [hp, hj]
  -- after the first store: column 4 is written up to row 16 (t + 1), column 3 up to row 16 t
  have hmid : Agrees (Mid3 t)
      (storeIdx O ![addi (muli b (broadcast S16 10#32)) p, broadcast S16 4#32] (loadIdx C ![b, p] h1) (fun _ => 1#1) false h2)
      A C B := by
    refine storeIdx_agrees (F := F) (s := S160x7) (e := .f32) (Cert.Spec.Gv A C B) O _ _ h2 (Done3 t) (Mid3 t) ?_ hO ?_
    · intro x
      have hcol : ((idxAt (s := S160x7) ![addi (muli b (broadcast S16 10#32)) p, broadcast S16 4#32] h2 x) 1).val = 4 := by
        show (4#32).toNat = 4
        decide
      rw [Gv_4 A C B _ hcol]
      show C (idxAt ![b, p] h1 x) = _
      congr 1
      exact hload x _ (hrow x)
    · intro j hj
      rcases hj with hj | ⟨hj1, hj2⟩
      · exact Or.inl hj
      · by_cases hlt : (j 0).val < 16 * t
        · exact Or.inl (Or.inr ⟨Or.inr hj1, hlt⟩)
        · right
          obtain ⟨k, hk⟩ : ∃ k : Fin 16, k.val = (j 0).val - 16 * t := ⟨⟨_, by omega⟩, rfl⟩
          refine ⟨k, eq_idxAt2 _ _ h2 j _ ?_ ?_⟩
          · rw [hrow]; show (j 0).val = 16 * t + k.val; omega
          · rw [hj1]; show 4 = (4#32).toNat; decide
  refine storeIdx_agrees (F := F) (s := S160x7) (e := .f32) (Cert.Spec.Gv A C B) _ _ _ h3 (Mid3 t) (Done3 (t + 1)) ?_ hmid ?_
  · intro x
    have hcol : ((idxAt (s := S160x7) ![addi (muli b (broadcast S16 10#32)) p, broadcast S16 3#32] h3 x) 1).val = 3 := by
      show (3#32).toNat = 3
      decide
    rw [Gv_3 A C B _ hcol]
    show Cert.Spec.mark (C (idxAt ![b, p] h1 x)) = _
    congr 2
    exact hload x _ (hrow x)
  · intro j hj
    rcases hj with hj | ⟨hj1, hj2⟩
    · exact Or.inl (Or.inl (Or.inl hj))
    · rcases hj1 with hj1 | hj1
      · by_cases hlt : (j 0).val < 16 * t
        · exact Or.inl (Or.inl (Or.inr ⟨Or.inl hj1, hlt⟩))
        · right
          obtain ⟨k, hk⟩ : ∃ k : Fin 16, k.val = (j 0).val - 16 * t := ⟨⟨_, by omega⟩, rfl⟩
          refine ⟨k, eq_idxAt2 _ _ h3 j _ ?_ ?_⟩
          · rw [hrow]; show (j 0).val = 16 * t + k.val; omega
          · rw [hj1]; show 3 = (3#32).toNat; decide
      · exact Or.inl (Or.inr ⟨hj1, hj2⟩)

end Cert.Chunk

end
-- ==== Proof.WordViews.lean ====
/-
  What one tile's trip reads and writes through its views, index by index.

  (A) The six index tables: a sixteen-lane load at offset o of a table copy holding the literal table reads, at lane x, the
      table's entry o + x, which is (o + x) / 3, (o + x) % 3, (o + x) / 2, (o + x) % 2, (o + x) / 10, (o + x) % 10.
  (B) The three copies in: the staging tables hold the chunk's sixteen batch rows of the arguments, the [160, c] tables by
      row-major regrouping of [16, 10, c]: staging row r is candidate r % 10 of the chunk's batch row r / 10.
  (C) The copy out: the chunk of the result written from a staging table equal to the chunk's target `Cert.Spec.Gv` agrees
      with the whole target `Cert.Spec.G` on the chunk.
-/
import proofs.«214040_g26508538151745_cont_9to1_1151_18_alg».proof.Proof.WordChunks
import proofs.«214040_g26508538151745_cont_9to1_1151_18_alg».proof.Proof.Chunk

noncomputable section

namespace Cert.Proof.KW

open Cert.Kernel Cert.Kernel.Gen Cert.Kernel.GenP

open Idealize.ShloMosaic Idealize.ShloMosaic.ValueIdx
open Idealize.ShloMosaic.SparseCore (S V T)

variable {F : FTy → Type}

/-! ## (A) The six index tables -/

theorem lit0_eq : ∀ n : Fin 480, (lit0 n).toNat = n.val / 3 := by decide +kernel
theorem lit1_eq : ∀ n : Fin 480, (lit1 n).toNat = n.val % 3 := by decide +kernel
theorem lit2_eq : ∀ n : Fin 320, (lit2 n).toNat = n.val / 2 := by decide +kernel
theorem lit3_eq : ∀ n : Fin 320, (lit3 n).toNat = n.val % 2 := by decide +kernel
theorem lit4_eq : ∀ n : Fin 160, (lit4 n).toNat = n.val / 10 := by decide +kernel
theorem lit5_eq : ∀ n : Fin 160, (lit5 n).toNat = n.val % 10 := by decide +kernel

/-- Lane x of a sixteen-lane window at offset o of a rank-one table is the table's entry o + x. -/
theorem window_pos {n : Nat} (o : Nat) (h : ∀ a, (![o] : Fin 1 → Nat) a + S16.size a ≤ (⟨1, ![n]⟩ : Shape).size a) (x : S16.Idx) :
    ((⟨1, ![n]⟩ : Shape).rowMajor ((Rect.unit (s := ⟨1, ![n]⟩) ![o] S16.size h).toLoadRect.idx x)).val = o + (x 0).val := by
  rw [Shape.rowMajor_val_one]
  show o + 1 * (x 0).val = _
  rw [Nat.one_mul]

theorem rd4 (o : Nat) (h : ∀ a, (![o] : Fin 1 → Nat) a + S16.size a ≤ S480.size a) (x : S16.Idx) :
    (View.readAt (Elt F) (Memref.whole cc0_scratch4 : Memref sig .scVector .vmem S480 .i32).view
      (Rect.unit (s := S480) ![o] S16.size h).toLoadRect (fun j => lit0 (S480.rowMajor j)) x).toNat = (o + (x 0).val) / 3 := by
  show (lit0 (S480.rowMajor ((Rect.unit (s := S480) ![o] S16.size h).toLoadRect.idx x))).toNat = _
  exact (lit0_eq _).trans (congrArg (· / 3) (window_pos o h x))

theorem rd5 (o : Nat) (h : ∀ a, (![o] : Fin 1 → Nat) a + S16.size a ≤ S480.size a) (x : S16.Idx) :
    (View.readAt (Elt F) (Memref.whole cc0_scratch5 : Memref sig .scVector .vmem S480 .i32).view
      (Rect.unit (s := S480) ![o] S16.size h).toLoadRect (fun j => lit1 (S480.rowMajor j)) x).toNat = (o + (x 0).val) % 3 := by
  show (lit1 (S480.rowMajor ((Rect.unit (s := S480) ![o] S16.size h).toLoadRect.idx x))).toNat = _
  exact (lit1_eq _).trans (congrArg (· % 3) (window_pos o h x))

theorem rd6 (o : Nat) (h : ∀ a, (![o] : Fin 1 → Nat) a + S16.size a ≤ S320.size a) (x : S16.Idx) :
    (View.readAt (Elt F) (Memref.whole cc0_scratch6 : Memref sig .scVector .vmem S320 .i32).view
      (Rect.unit (s := S320) ![o] S16.size h).toLoadRect (fun j => lit2 (S320.rowMajor j)) x).toNat = (o + (x 0).val) / 2 := by
  show (lit2 (S320.rowMajor ((Rect.unit (s := S320) ![o] S16.size h).toLoadRect.idx x))).toNat = _
  exact (lit2_eq _).trans (congrArg (· / 2) (window_pos o h x))

theorem rd7 (o : Nat) (h : ∀ a, (![o] : Fin 1 → Nat) a + S16.size a ≤ S320.size a) (x : S16.Idx) :
    (View.readAt (Elt F) (Memref.whole cc0_scratch7 : Memref sig .scVector .vmem S320 .i32).view
      (Rect.unit (s := S320) ![o] S16.size h).toLoadRect (fun j => lit3 (S320.rowMajor j)) x).toNat = (o + (x 0).val) % 2 := by
  show (lit3 (S320.rowMajor ((Rect.unit (s := S320) ![o] S16.size h).toLoadRect.idx x))).toNat = _
  exact (lit3_eq _).trans (congrArg (· % 2) (window_pos o h x))

theorem rd8 (o : Nat) (h : ∀ a, (![o] : Fin 1 → Nat) a + S16.size a ≤ S160.size a) (x : S16.Idx) :
    (View.readAt (Elt F) (Memref.whole cc0_scratch8 : Memref sig .scVector .vmem S160 .i32).view
      (Rect.unit (s := S160) ![o] S16.size h).toLoadRect (fun j => lit4 (S160.rowMajor j)) x).toNat = (o + (x 0).val) / 10 := by
  show (lit4 (S160.rowMajor ((Rect.unit (s := S160) ![o] S16.size h).toLoadRect.idx x))).toNat = _
  exact (lit4_eq _).trans (congrArg (· / 10) (window_pos o h x))

theorem rd9 (o : Nat) (h : ∀ a, (![o] : Fin 1 → Nat) a + S16.size a ≤ S160.size a) (x : S16.Idx) :
    (View.readAt (Elt F) (Memref.whole cc0_scratch9 : Memref sig .scVector .vmem S160 .i32).view
      (Rect.unit (s := S160) ![o] S16.size h).toLoadRect (fun j => lit5 (S160.rowMajor j)) x).toNat = (o + (x 0).val) % 10 := by
  show (lit5 (S160.rowMajor ((Rect.unit (s := S160) ![o] S16.size h).toLoadRect.idx x))).toNat = _
  exact (lit5_eq _).trans (congrArg (· % 10) (window_pos o h x))

/-! ## (B) The three copies in -/

/-- The first batch row of chunk k of tile L, plus a row offset below sixteen, is a batch row of the array. -/
theorem base_lt (L : grid0.Coords) (k : Fin k0_t1_loop.trips) (m : Nat) (hm : m < 16) :
    16 * (8 * (2 * (L 1).val + (L 0).val) + k.val) + m < 4096 := by
  have h0 : (L 0).val < 2 := (L 0).isLt
  have h1 : (L 1).val < 16 := (L 1).isLt
  have hk : k.val < 8 := Nat.lt_of_lt_of_le k.isLt (le_of_eq trips_eq)
  omega

/-- Row-major regrouping of [160, c] as [16, 10, c]: staging row r, column x is candidate r % 10 of batch row r / 10. -/
theorem regroup {c : Nat} (h : (⟨3, ![16, 10, c]⟩ : Shape).numel = (⟨2, ![160, c]⟩ : Shape).numel) (r : Fin 160) (x : Fin c) :
    (Shape.reshapeEquiv h).symm (ix2 r x) = ix3 ⟨r.val / 10, by omega⟩ ⟨r.val % 10, by omega⟩ x := by
  rw [Equiv.symm_apply_eq]
  symm
  apply Shape.reshapeEquiv_eq_of_rowMajor
  rw [Shape.rowMajor_val_two, Shape.rowMajor_val_three]
  show r.val * c + x.val = (r.val / 10 * 10 + r.val % 10) * c + x.val
  have : r.val / 10 * 10 + r.val % 10 = r.val := by omega
  rw [this]

theorem copyA (d : Dev nD) (L : grid0.Coords) (k : Fin k0_t1_loop.trips)
    (h1 : S16x10x3.numel = S160x3.numel) (h2 : 2 ≤ S160x3.rank ∧ 2 ≤ S16x10x3.rank)
    (h3 : (Memref.whole cc0_scratch0 : Memref sig .scVector .vmem S160x3 .f32).view.Contiguous)
    (g0 : (cc0_scratch0 : Ref sig .scVector).ty.Contents (Elt F)) (X0 : Buf (Elt F) (a0Loc d))
    (r : Fin 160) (c : Fin 3) :
    View.write (Elt F) ((Memref.whole cc0_scratch0 : Memref sig .scVector .vmem S160x3 .f32).reshape S16x10x3 h1 h2 h3).view g0
        (ReadAs.same.apply (View.read (Elt F)
          ((Memref.whole main_arg0_scv : Memref sig .scVector .hbm S4096x10x3 .f32).slice
            (Rect.unit (s := S4096x10x3) (k0_off1 L k) S16x10x3.size (k0_off1_inb L k)) (fun _ => rfl)).view X0))
        Finset.univ (ix2 r c)
      = X0 (ix3 (n0 := 4096) (n1 := 10) (n2 := 3)
          ⟨16 * (8 * (2 * (L 1).val + (L 0).val) + k.val) + r.val / 10, base_lt L k _ (by omega)⟩ ⟨r.val % 10, by omega⟩ c) := by
  show View.write (Elt F) ((View.whole (cc0_scratch0 : Ref sig .scVector)).reshape S16x10x3 h1) g0 _ Finset.univ (ix2 r c) = _
  rw [View.write_reshape_univ, View.write_whole_univ, regroup h1 r c]
  show X0 _ = X0 _
  congr 1
  funext a
  apply Fin.ext
  match a with
  | ⟨0, _⟩ =>
    show k0_off1 L k 0 + 1 * (r.val / 10) = 16 * (8 * (2 * (L 1).val + (L 0).val) + k.val) + r.val / 10
    rw [k0_off1_eq]
    show 256 * (L 1).val + 128 * (L 0).val + 16 * k.val + 1 * (r.val / 10) = _
    omega
  | ⟨1, _⟩ =>
    show k0_off1 L k 1 + 1 * (r.val % 10) = r.val % 10
    rw [k0_off1_eq]
    show 0 + 1 * (r.val % 10) = _
    omega
  | ⟨2, _⟩ =>
    show k0_off1 L k 2 + 1 * c.val = c.val
    rw [k0_off1_eq]
    show 0 + 1 * c.val = _
    omega

theorem copyC (d : Dev nD) (L : grid0.Coords) (k : Fin k0_t1_loop.trips)
    (g1 : (cc0_scratch1 : Ref sig .scVector).ty.Contents (Elt F)) (X1 : Buf (Elt F) (a1Loc d))
    (b : Fin 16) (p : Fin 10) :
    View.write (Elt F) (Memref.whole cc0_scratch1 : Memref sig .scVector .vmem S16x10 .f32).view g1
        (ReadAs.same.apply (View.read (Elt F)
          ((Memref.whole main_arg1_scv : Memref sig .scVector .hbm S4096x10 .f32).slice
            (Rect.unit (s := S4096x10) (k0_off2 L k) S16x10.size (k0_off2_inb L k)) (fun _ => rfl)).view X1))
        Finset.univ (ix2 b p)
      = X1 (ix2 (n0 := 4096) (n1 := 10)
          ⟨16 * (8 * (2 * (L 1).val + (L 0).val) + k.val) + b.val, base_lt L k _ b.isLt⟩ p) := by
  show View.write (Elt F) (View.whole (cc0_scratch1 : Ref sig .scVector)) g1 _ Finset.univ (ix2 b p) = _
  rw [View.write_whole_univ]
  show X1 _ = X1 _
  congr 1
  funext a
  apply Fin.ext
  match a with
  | ⟨0, _⟩ =>
    show k0_off2 L k 0 + 1 * b.val = 16 * (8 * (2 * (L 1).val + (L 0).val) + k.val) + b.val
    rw [k0_off2_eq]
    show 256 * (L 1).val + 128 * (L 0).val + 16 * k.val + 1 * b.val = _
    omega
  | ⟨1, _⟩ =>
    show k0_off2 L k 1 + 1 * p.val = p.val
    rw [k0_off2_eq]
    show 0 + 1 * p.val = _
    omega

theorem copyB (d : Dev nD) (L : grid0.Coords) (k : Fin k0_t1_loop.trips)
    (h1 : S16x10x2.numel = S160x2.numel) (h2 : 2 ≤ S160x2.rank ∧ 2 ≤ S16x10x2.rank)
    (h3 : (Memref.whole cc0_scratch2 : Memref sig .scVector .vmem S160x2 .f32).view.Contiguous)
    (g2 : (cc0_scratch2 : Ref sig .scVector).ty.Contents (Elt F)) (X2 : Buf (Elt F) (a2Loc d))
    (r : Fin 160) (c : Fin 2) :
    View.write (Elt F) ((Memref.whole cc0_scratch2 : Memref sig .scVector .vmem S160x2 .f32).reshape S16x10x2 h1 h2 h3).view g2
        (ReadAs.same.apply (View.read (Elt F)
          ((Memref.whole main_arg2_scv : Memref sig .scVector .hbm S4096x10x2 .f32).slice
            (Rect.unit (s := S4096x10x2) (k0_off3 L k) S16x10x2.size (k0_off3_inb L k)) (fun _ => rfl)).view X2))
        Finset.univ (ix2 r c)
      = X2 (ix3 (n0 := 4096) (n1 := 10) (n2 := 2)
          ⟨16 * (8 * (2 * (L 1).val + (L 0).val) + k.val) + r.val / 10, base_lt L k _ (by omega)⟩ ⟨r.val % 10, by omega⟩ c) := by
  show View.write (Elt F) ((View.whole (cc0_scratch2 : Ref sig .scVector)).reshape S16x10x2 h1) g2 _ Finset.univ (ix2 r c) = _
  rw [View.write_reshape_univ, View.write_whole_univ, regroup h1 r c]
  show X2 _ = X2 _
  congr 1
  funext a
  apply Fin.ext
  match a with
  | ⟨0, _⟩ =>
    show k0_off3 L k 0 + 1 * (r.val / 10) = 16 * (8 * (2 * (L 1).val + (L 0).val) + k.val) + r.val / 10
    rw [k0_off3_eq]
    show 256 * (L 1).val + 128 * (L 0).val + 16 * k.val + 1 * (r.val / 10) = _
    omega
  | ⟨1, _⟩ =>
    show k0_off3 L k 1 + 1 * (r.val % 10) = r.val % 10
    rw [k0_off3_eq]
    show 0 + 1 * (r.val % 10) = _
    omega
  | ⟨2, _⟩ =>
    show k0_off3 L k 2 + 1 * c.val = c.val
    rw [k0_off3_eq]
    show 0 + 1 * c.val = _
    omega

/-! ## (C) The copy out -/

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

section Out
variable [FloatOps F]

/-! The whole target read by columns. -/

theorem G_lt3 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val < 3) :
    Cert.Spec.G x0 x1 x2 j = x0 (ix3 (j 0) (j 1) ⟨(j 2).val, h⟩) := by
  unfold Cert.Spec.G
  exact dif_pos h

theorem G_3 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val = 3) :
    Cert.Spec.G x0 x1 x2 j = Cert.Spec.mark (x1 (ix2 (j 0) (j 1))) := by
  unfold Cert.Spec.G
  have h3 : ¬ (j 2).val < 3 := by omega
  simp only [dif_neg h3, if_pos h]

theorem G_4 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val = 4) :
    Cert.Spec.G x0 x1 x2 j = x1 (ix2 (j 0) (j 1)) := by
  unfold Cert.Spec.G
  have h3 : ¬ (j 2).val < 3 := by omega
  have h4 : ¬ (j 2).val = 3 := by omega
  simp only [dif_neg h3, if_neg h4, if_pos h]

theorem G_ge5 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : 5 ≤ (j 2).val) :
    Cert.Spec.G x0 x1 x2 j = x2 (ix3 (j 0) (j 1) ⟨(j 2).val - 5, by have := idx3_lt2 j; omega⟩) := by
  unfold Cert.Spec.G
  have h3 : ¬ (j 2).val < 3 := by omega
  have h4 : ¬ (j 2).val = 3 := by omega
  have h5 : ¬ (j 2).val = 4 := by omega
  simp only [dif_neg h3, if_neg h4, if_neg h5]

/-- Row-major regrouping of [16, 10, c] as [160, c], the other way: candidate y 1 of batch row y 0 is staging row 10 (y 0) + y 1. -/
theorem regroup' {c : Nat} (h : (⟨3, ![16, 10, c]⟩ : Shape).numel = (⟨2, ![160, c]⟩ : Shape).numel)
    (y : (⟨3, ![16, 10, c]⟩ : Shape).Idx) :
    Shape.reshapeEquiv h y
      = ix2 (n0 := 160) (n1 := c) ⟨(y 0).val * 10 + (y 1).val, by have := idx3_lt0 y; have := idx3_lt1 y; omega⟩ (y 2) := by
  apply Shape.reshapeEquiv_eq_of_rowMajor
  rw [Shape.rowMajor_val_two (d := ![160, c]), Shape.rowMajor_val_three (d := ![16, 10, c])]
  rfl

/-- The chunk's index y sits at batch row base + y 0 of the result. -/
theorem oChunk_emb (L : grid0.Coords) (k : Fin k0_t1_loop.trips) (y : S16x10x7.Idx) :
    (oChunk L k).view.emb y
      = ix3 (n0 := 4096) (n1 := 10) (n2 := 7)
          ⟨16 * (8 * (2 * (L 1).val + (L 0).val) + k.val) + (y 0).val, base_lt L k _ (y 0).isLt⟩ (y 1) (y 2) := by
  funext a
  apply Fin.ext
  match a with
  | ⟨0, _⟩ =>
    show k0_off4 L k 0 + 1 * (y 0).val = 16 * (8 * (2 * (L 1).val + (L 0).val) + k.val) + (y 0).val
    rw [k0_off4_eq]
    show 256 * (L 1).val + 128 * (L 0).val + 16 * k.val + 1 * (y 0).val = _
    omega
  | ⟨1, _⟩ =>
    show k0_off4 L k 1 + 1 * (y 1).val = (y 1).val
    rw [k0_off4_eq]
    show 0 + 1 * (y 1).val = _
    omega
  | ⟨2, _⟩ =>
    show k0_off4 L k 2 + 1 * (y 2).val = (y 2).val
    rw [k0_off4_eq]
    show 0 + 1 * (y 2).val = _
    omega

/-- The chunk's target, built from staging tables that hold the chunk's rows of the arguments, is the whole target on the
    chunk: staging row 10 b + p is candidate p of batch row base + b. -/
theorem Gv_eq_G (L : grid0.Coords) (k : Fin k0_t1_loop.trips)
    (X0 : FVec F ⟨3, ![4096, 10, 3]⟩ .f32) (X1 : FVec F ⟨2, ![4096, 10]⟩ .f32) (X2 : FVec F ⟨3, ![4096, 10, 2]⟩ .f32)
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 ⟨16 * (8 * (2 * (L 1).val + (L 0).val) + k.val) + b.val, base_lt L k _ b.isLt⟩ p))
    (hB : ∀ (r : Fin 160) (c : Fin 2), B (ix2 r c)
      = X2 (ix3 ⟨16 * (8 * (2 * (L 1).val + (L 0).val) + k.val) + r.val / 10, base_lt L k _ (by omega)⟩ ⟨r.val % 10, by omega⟩ c))
    (b : Fin 16) (p : Fin 10) (q : Fin 7) :
    Cert.Spec.Gv A C B (ix2 ⟨b.val * 10 + p.val, by omega⟩ q)
      = Cert.Spec.G X0 X1 X2 (ix3 ⟨16 * (8 * (2 * (L 1).val + (L 0).val) + k.val) + b.val, base_lt L k _ b.isLt⟩ p q) := by
  have hdiv : (b.val * 10 + p.val) / 10 = b.val := by omega
  have hmod : (b.val * 10 + p.val) % 10 = p.val := by omega
  by_cases hq3 : q.val < 3
  · rw [Cert.Chunk.Gv_lt3 A C B _ hq3, G_lt3 X0 X1 X2 _ hq3, hA]
    congr 1
    funext a
    match a with
    | ⟨0, _⟩ => exact Fin.ext (by show _ + (b.val * 10 + p.val) / 10 = _ + b.val; rw [hdiv])
    | ⟨1, _⟩ => exact Fin.ext hmod
    | ⟨2, _⟩ => rfl
  · by_cases hq : q.val = 3
    · rw [Cert.Chunk.Gv_3 A C B _ hq, G_3 X0 X1 X2 _ hq, hC]
      congr 2
      funext a
      match a with
      | ⟨0, _⟩ => exact Fin.ext (by show _ + (b.val * 10 + p.val) / 10 = _ + b.val; rw [hdiv])
      | ⟨1, _⟩ => exact Fin.ext hmod
    · by_cases hq4 : q.val = 4
      · rw [Cert.Chunk.Gv_4 A C B _ hq4, G_4 X0 X1 X2 _ hq4, hC]
        congr 1
        funext a
        match a with
        | ⟨0, _⟩ => exact Fin.ext (by show _ + (b.val * 10 + p.val) / 10 = _ + b.val; rw [hdiv])
        | ⟨1, _⟩ => exact Fin.ext hmod
      · have hq5 : 5 ≤ q.val := by omega
        rw [Cert.Chunk.Gv_ge5 A C B _ hq5, G_ge5 X0 X1 X2 _ hq5, hB]
        congr 1
        funext a
        match a with
        | ⟨0, _⟩ => exact Fin.ext (by show _ + (b.val * 10 + p.val) / 10 = _ + b.val; rw [hdiv])
        | ⟨1, _⟩ => exact Fin.ext hmod
        | ⟨2, _⟩ => rfl

end Out

section Out2
variable [FloatOps F]

/-- **The copy out, on any mask.** The staging table equal to the chunk's target, read through its [16, 10, 7] regrouping and
    written through the chunk's view on the mask `M`, leaves the whole target's values at the masked elements of the chunk. -/
theorem copyOut_on (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) (M : Finset S16x10x7.Idx) :
    ∀ j ∈ (oChunk L k).view.setOn M,
      View.write (Elt F) (oChunk L k).view f
        (ReadAs.same.apply (View.read (Elt F)
          ((Memref.whole cc0_scratch3 : Memref sig .scVector .vmem S160x7 .f32).reshape S16x10x7 h1 h2 h3).view O)) M j
      = Cert.Spec.G (F := F) X0 X1 X2 j := by
  intro j hj
  obtain ⟨y, hy, rfl⟩ := Finset.mem_map.mp hj
  rw [View.write_emb_of_mem _ _ hy]
  subst hO
  show Cert.Spec.Gv A C B (Shape.reshapeEquiv h1 y) = Cert.Spec.G X0 X1 X2 ((oChunk L k).view.emb y)
  rw [regroup' h1 y, oChunk_emb L k y]
  exact Gv_eq_G L k X0 X1 X2 A C B hA hC hB ⟨(y 0).val, (y 0).isLt⟩ (y 1) (y 2)

/-- **The copy out, unmasked**: the result after the chunk is written agrees with the whole target on the chunk. -/
theorem copyOut (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) :
    ∀ j ∈ chunkSet L k,
      View.write (Elt F) (oChunk L k).view f
        (ReadAs.same.apply (View.read (Elt F)
          ((Memref.whole cc0_scratch3 : Memref sig .scVector .vmem S160x7 .f32).reshape S16x10x7 h1 h2 h3).view O)) Finset.univ j
      = Cert.Spec.G (F := F) X0 X1 X2 j :=
  fun j hj => copyOut_on d L k h1 h2 h3 X0 X1 X2 A C B hA hC hB O hO f Finset.univ j hj

end Out2

section OutW
variable [FloatOps F]

/-- **The copy out as a one-piece list of writes, the piece's contents named by a variable.** A single unmasked piece through the
    whole rectangle of the chunk's view is the unmasked write through the view. -/
theorem copyOutW_of (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d))
    (w : S16x10x7.Idx → Elt F .f32)
    (hw : w = ReadAs.same.apply (View.read (Elt F)
      ((Memref.whole cc0_scratch3 : Memref sig .scVector .vmem S160x7 .f32).reshape S16x10x7 h1 h2 h3).view O)) :
    ∀ j ∈ chunkSet L k,
      (oChunk L k).view.writes (Elt F) f [⟨Rect.whole S16x10x7, w⟩] j = Cert.Spec.G (F := F) X0 X1 X2 j := by
  intro j hj
  subst hw
  rw [← View.write_univ_eq_writes_whole (oChunk L k).view f [] _, View.writes_nil]
  exact copyOut d L k h1 h2 h3 X0 X1 X2 A C B hA hC hB O hO f j hj

/-- **The copy out as a one-piece list of writes.** -/
theorem copyOutW (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) :
    ∀ j ∈ chunkSet L k,
      (oChunk L k).view.writes (Elt F) f [⟨Rect.whole S16x10x7, ReadAs.same.apply (View.read (Elt F)
        ((Memref.whole cc0_scratch3 : Memref sig .scVector .vmem S160x7 .f32).reshape S16x10x7 h1 h2 h3).view O)⟩] j
      = Cert.Spec.G (F := F) X0 X1 X2 j :=
  copyOutW_of d L k h1 h2 h3 X0 X1 X2 A C B hA hC hB O hO f _ rfl

end OutW

end Cert.Proof.KW

end
-- ==== Proof.WordBody.lean ====
/-
  One tile's task of the word-level kernel, at a symbolic tile.

  The task first copies the six constant index tables into its own memory. Then, eight times (chunk k = 0..7): it copies
  the chunk's sixteen batch rows of the three arguments into staging tables A [160,3], C [16,10], B [160,2] (the copies land
  through a row-major regrouping of (row, candidate) into one axis of 160); it fills a [160,7] staging table by eighty
  indexed stores, every one writing, at the positions its index vectors name, what the chunk's record table holds there;
  and it copies the staging table to the chunk's sixteen rows of the result.
  The loop's invariant: the chunks below k of the tile's rows hold the specification `Cert.Spec.G` of the arguments, the
  nine read-only arrays are untouched, the six table copies hold the tables, every semaphore counter is zero.
-/
import proofs.«214040_g26508538151745_cont_9to1_1151_18_alg».proof.Proof.WordChunks
import proofs.«214040_g26508538151745_cont_9to1_1151_18_alg».proof.Proof.Chunk
import proofs.«214040_g26508538151745_cont_9to1_1151_18_alg».proof.Proof.WordViews

noncomputable section

namespace Cert.Proof.KW

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

-- the kernel's memrefs, spelt as the body table passes them
local notation "a0V" => (Memref.whole Cert.Kernel.main_arg0_scv : Memref Cert.Kernel.sig Kind.scVector Space.hbm Cert.Kernel.S4096x10x3 EltTy.f32)
local notation "a1V" => (Memref.whole Cert.Kernel.main_arg1_scv : Memref Cert.Kernel.sig Kind.scVector Space.hbm Cert.Kernel.S4096x10 EltTy.f32)
local notation "a2V" => (Memref.whole Cert.Kernel.main_arg2_scv : Memref Cert.Kernel.sig Kind.scVector Space.hbm Cert.Kernel.S4096x10x2 EltTy.f32)
local notation "t0V" => (Memref.whole Cert.Kernel.main_c_scv : Memref Cert.Kernel.sig Kind.scVector Space.hbm Cert.Kernel.S480 EltTy.i32)
local notation "t1V" => (Memref.whole Cert.Kernel.main_c_0_scv : Memref Cert.Kernel.sig Kind.scVector Space.hbm Cert.Kernel.S480 EltTy.i32)
local notation "t2V" => (Memref.whole Cert.Kernel.main_c_1_scv : Memref Cert.Kernel.sig Kind.scVector Space.hbm Cert.Kernel.S320 EltTy.i32)
local notation "t3V" => (Memref.whole Cert.Kernel.main_c_2_scv : Memref Cert.Kernel.sig Kind.scVector Space.hbm Cert.Kernel.S320 EltTy.i32)
local notation "t4V" => (Memref.whole Cert.Kernel.main_c_3_scv : Memref Cert.Kernel.sig Kind.scVector Space.hbm Cert.Kernel.S160 EltTy.i32)
local notation "t5V" => (Memref.whole Cert.Kernel.main_c_4_scv : Memref Cert.Kernel.sig Kind.scVector Space.hbm Cert.Kernel.S160 EltTy.i32)
local notation "oV" => (Memref.whole Cert.Kernel.main_v0_scv : Memref Cert.Kernel.sig Kind.scVector Space.hbm Cert.Kernel.S4096x10x7 EltTy.f32)
local notation "s0V" => (Memref.whole Cert.Kernel.cc0_scratch0 : Memref Cert.Kernel.sig Kind.scVector Space.vmem Cert.Kernel.S160x3 EltTy.f32)
local notation "s1V" => (Memref.whole Cert.Kernel.cc0_scratch1 : Memref Cert.Kernel.sig Kind.scVector Space.vmem Cert.Kernel.S16x10 EltTy.f32)
local notation "s2V" => (Memref.whole Cert.Kernel.cc0_scratch2 : Memref Cert.Kernel.sig Kind.scVector Space.vmem Cert.Kernel.S160x2 EltTy.f32)
local notation "s3V" => (Memref.whole Cert.Kernel.cc0_scratch3 : Memref Cert.Kernel.sig Kind.scVector Space.vmem Cert.Kernel.S160x7 EltTy.f32)
local notation "s4V" => (Memref.whole Cert.Kernel.cc0_scratch4 : Memref Cert.Kernel.sig Kind.scVector Space.vmem Cert.Kernel.S480 EltTy.i32)
local notation "s5V" => (Memref.whole Cert.Kernel.cc0_scratch5 : Memref Cert.Kernel.sig Kind.scVector Space.vmem Cert.Kernel.S480 EltTy.i32)
local notation "s6V" => (Memref.whole Cert.Kernel.cc0_scratch6 : Memref Cert.Kernel.sig Kind.scVector Space.vmem Cert.Kernel.S320 EltTy.i32)
local notation "s7V" => (Memref.whole Cert.Kernel.cc0_scratch7 : Memref Cert.Kernel.sig Kind.scVector Space.vmem Cert.Kernel.S320 EltTy.i32)
local notation "s8V" => (Memref.whole Cert.Kernel.cc0_scratch8 : Memref Cert.Kernel.sig Kind.scVector Space.vmem Cert.Kernel.S160 EltTy.i32)
local notation "s9V" => (Memref.whole Cert.Kernel.cc0_scratch9 : Memref Cert.Kernel.sig Kind.scVector Space.vmem Cert.Kernel.S160 EltTy.i32)

variable [FloatOps F]

section Tile
variable (d : Dev nD) (L : grid0.Coords)

abbrev cV (L : grid0.Coords) : Fin τ.nSC := (L 0).castLE hcore0
abbrev jV (L : grid0.Coords) : Fin τ.nSub := (L 1).castLE hsub0

/-! ## The arrays as a tile's memrefs address them are the device's arrays -/

omit [FloatOps F] in
theorem pts_a0V (c : Fin τ.nSC) (i : Fin τ.nSub) (q : PosShare TreeShare) (f : Buf (Elt F) (a0Loc d)) :
    ((a0V).view.loc (V d c i) ↦{q} f : sProp (𝕄 F)) = a0Loc d ↦{q} f := by
  simp only [Memref.view_whole, View.set_whole]
omit [FloatOps F] in
theorem pts_a1V (c : Fin τ.nSC) (i : Fin τ.nSub) (q : PosShare TreeShare) (f : Buf (Elt F) (a1Loc d)) :
    ((a1V).view.loc (V d c i) ↦{q} f : sProp (𝕄 F)) = a1Loc d ↦{q} f := by
  simp only [Memref.view_whole, View.set_whole]
omit [FloatOps F] in
theorem pts_a2V (c : Fin τ.nSC) (i : Fin τ.nSub) (q : PosShare TreeShare) (f : Buf (Elt F) (a2Loc d)) :
    ((a2V).view.loc (V d c i) ↦{q} f : sProp (𝕄 F)) = a2Loc d ↦{q} f := by
  simp only [Memref.view_whole, View.set_whole]
omit [FloatOps F] in
theorem pts_t0V (c : Fin τ.nSC) (i : Fin τ.nSub) (q : PosShare TreeShare) (f : Buf (Elt F) (t0Loc d)) :
    ((t0V).view.loc (V d c i) ↦{q} f : sProp (𝕄 F)) = t0Loc d ↦{q} f := by
  simp only [Memref.view_whole, View.set_whole]
omit [FloatOps F] in
theorem pts_t1V (c : Fin τ.nSC) (i : Fin τ.nSub) (q : PosShare TreeShare) (f : Buf (Elt F) (t1Loc d)) :
    ((t1V).view.loc (V d c i) ↦{q} f : sProp (𝕄 F)) = t1Loc d ↦{q} f := by
  simp only [Memref.view_whole, View.set_whole]
omit [FloatOps F] in
theorem pts_t2V (c : Fin τ.nSC) (i : Fin τ.nSub) (q : PosShare TreeShare) (f : Buf (Elt F) (t2Loc d)) :
    ((t2V).view.loc (V d c i) ↦{q} f : sProp (𝕄 F)) = t2Loc d ↦{q} f := by
  simp only [Memref.view_whole, View.set_whole]
omit [FloatOps F] in
theorem pts_t3V (c : Fin τ.nSC) (i : Fin τ.nSub) (q : PosShare TreeShare) (f : Buf (Elt F) (t3Loc d)) :
    ((t3V).view.loc (V d c i) ↦{q} f : sProp (𝕄 F)) = t3Loc d ↦{q} f := by
  simp only [Memref.view_whole, View.set_whole]
omit [FloatOps F] in
theorem pts_t4V (c : Fin τ.nSC) (i : Fin τ.nSub) (q : PosShare TreeShare) (f : Buf (Elt F) (t4Loc d)) :
    ((t4V).view.loc (V d c i) ↦{q} f : sProp (𝕄 F)) = t4Loc d ↦{q} f := by
  simp only [Memref.view_whole, View.set_whole]
omit [FloatOps F] in
theorem pts_t5V (c : Fin τ.nSC) (i : Fin τ.nSub) (q : PosShare TreeShare) (f : Buf (Elt F) (t5Loc d)) :
    ((t5V).view.loc (V d c i) ↦{q} f : sProp (𝕄 F)) = t5Loc d ↦{q} f := by
  simp only [Memref.view_whole, View.set_whole]
omit [FloatOps F] in
theorem pts_oV (c : Fin τ.nSC) (i : Fin τ.nSub) (q : PosShare TreeShare) (f : Buf (Elt F) (oLoc d)) :
    ((oV).view.loc (V d c i) ↦{q} f : sProp (𝕄 F)) = oLoc d ↦{q} f := by
  simp only [Memref.view_whole, View.set_whole]
omit [FloatOps F] in
theorem pts_s0 (c : Fin τ.nSC) (i : Fin τ.nSub) (f : Buf (Elt F) ((V d c i).loc cc0_scratch0)) :
    ((s0V).view.loc (V d c i) ↦{fullShare} f : sProp (𝕄 F)) = (V d c i).loc cc0_scratch0 ↦{fullShare} f := rfl
omit [FloatOps F] in
theorem pts_s1 (c : Fin τ.nSC) (i : Fin τ.nSub) (f : Buf (Elt F) ((V d c i).loc cc0_scratch1)) :
    ((s1V).view.loc (V d c i) ↦{fullShare} f : sProp (𝕄 F)) = (V d c i).loc cc0_scratch1 ↦{fullShare} f := rfl
omit [FloatOps F] in
theorem pts_s2 (c : Fin τ.nSC) (i : Fin τ.nSub) (f : Buf (Elt F) ((V d c i).loc cc0_scratch2)) :
    ((s2V).view.loc (V d c i) ↦{fullShare} f : sProp (𝕄 F)) = (V d c i).loc cc0_scratch2 ↦{fullShare} f := rfl
omit [FloatOps F] in
theorem pts_s3 (c : Fin τ.nSC) (i : Fin τ.nSub) (f : Buf (Elt F) ((V d c i).loc cc0_scratch3)) :
    ((s3V).view.loc (V d c i) ↦{fullShare} f : sProp (𝕄 F)) = (V d c i).loc cc0_scratch3 ↦{fullShare} f := rfl
omit [FloatOps F] in
theorem pts_s4 (c : Fin τ.nSC) (i : Fin τ.nSub) (f : Buf (Elt F) ((V d c i).loc cc0_scratch4)) :
    ((s4V).view.loc (V d c i) ↦{fullShare} f : sProp (𝕄 F)) = (V d c i).loc cc0_scratch4 ↦{fullShare} f := rfl
omit [FloatOps F] in
theorem pts_s5 (c : Fin τ.nSC) (i : Fin τ.nSub) (f : Buf (Elt F) ((V d c i).loc cc0_scratch5)) :
    ((s5V).view.loc (V d c i) ↦{fullShare} f : sProp (𝕄 F)) = (V d c i).loc cc0_scratch5 ↦{fullShare} f := rfl
omit [FloatOps F] in
theorem pts_s6 (c : Fin τ.nSC) (i : Fin τ.nSub) (f : Buf (Elt F) ((V d c i).loc cc0_scratch6)) :
    ((s6V).view.loc (V d c i) ↦{fullShare} f : sProp (𝕄 F)) = (V d c i).loc cc0_scratch6 ↦{fullShare} f := rfl
omit [FloatOps F] in
theorem pts_s7 (c : Fin τ.nSC) (i : Fin τ.nSub) (f : Buf (Elt F) ((V d c i).loc cc0_scratch7)) :
    ((s7V).view.loc (V d c i) ↦{fullShare} f : sProp (𝕄 F)) = (V d c i).loc cc0_scratch7 ↦{fullShare} f := rfl
omit [FloatOps F] in
theorem pts_s8 (c : Fin τ.nSC) (i : Fin τ.nSub) (f : Buf (Elt F) ((V d c i).loc cc0_scratch8)) :
    ((s8V).view.loc (V d c i) ↦{fullShare} f : sProp (𝕄 F)) = (V d c i).loc cc0_scratch8 ↦{fullShare} f := rfl
omit [FloatOps F] in
theorem pts_s9 (c : Fin τ.nSC) (i : Fin τ.nSub) (f : Buf (Elt F) ((V d c i).loc cc0_scratch9)) :
    ((s9V).view.loc (V d c i) ↦{fullShare} f : sProp (𝕄 F)) = (V d c i).loc cc0_scratch9 ↦{fullShare} f := rfl

/-! ## The tile's own buffers and semaphores, opened -/

omit [FloatOps F] in
/-- The ten scratch buffers are among the tile's own: they are them, at some contents, and the rest. -/
theorem ownBufs_V (c : Fin τ.nSC) (i : Fin τ.nSub) :
    (ownBufs (V d c i) : sProp (𝕄 F))
      = iprop((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f)
          ∗ (∃ f, (V d c i).loc cc0_scratch5 ↦{fullShare} f)
          ∗ (∃ f, (V d c i).loc cc0_scratch6 ↦{fullShare} f)
          ∗ (∃ f, (V d c i).loc cc0_scratch7 ↦{fullShare} f)
          ∗ (∃ f, (V d c i).loc cc0_scratch8 ↦{fullShare} f)
          ∗ (∃ f, (V d c i).loc cc0_scratch9 ↦{fullShare} f)
          ∗ bigSep (((((((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5)).erase ((Proc.scVector c i).devRef cc0_scratch6)).erase ((Proc.scVector c i).devRef cc0_scratch7)).erase ((Proc.scVector c i).devRef cc0_scratch8)).erase ((Proc.scVector c i).devRef cc0_scratch9))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := (Proc.scVector c i).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := (Proc.scVector c i).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := (Proc.scVector c i).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector c i) (b := (Proc.scVector c i).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector c i) (b := (Proc.scVector c i).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector c i) (b := (Proc.scVector c i).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector c i) (b := (Proc.scVector c i).devRef cc0_scratch9) rfl⟩⟩⟩⟩⟩⟩⟩⟩⟩)]

omit [FloatOps F] in
theorem cell_ne (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

omit [FloatOps F] in
/-- The ten transfer semaphores are among the tile's own cells: they are them, at zero, and the rest. -/
theorem ownSems0_V (c : Fin τ.nSC) (i : Fin τ.nSub) :
    (ownSems0 (V d c i) : sProp (𝕄 F))
      = iprop(semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ semVal ((V d c i, SemLoc.dma cc0_scoped5.sem) : GSem nD τ sig) 0
          ∗ semVal ((V d c i, SemLoc.dma cc0_scoped6.sem) : GSem nD τ sig) 0
          ∗ semVal ((V d c i, SemLoc.dma cc0_scoped7.sem) : GSem nD τ sig) 0
          ∗ semVal ((V d c i, SemLoc.dma cc0_scoped8.sem) : GSem nD τ sig) 0
          ∗ semVal ((V d c i, SemLoc.dma cc0_scoped9.sem) : GSem nD τ sig) 0
          ∗ bigSep (((((((((((ownCells (V d c i)).erase ((V d c i, SemLoc.dma cc0_scoped0.sem) : GSem nD τ sig)).erase ((V d c i, SemLoc.dma cc0_scoped1.sem) : GSem nD τ sig)).erase ((V d c i, SemLoc.dma cc0_scoped2.sem) : GSem nD τ sig)).erase ((V d c i, SemLoc.dma cc0_scoped3.sem) : GSem nD τ sig)).erase ((V d c i, SemLoc.dma cc0_scoped4.sem) : GSem nD τ sig)).erase ((V d c i, SemLoc.dma cc0_scoped5.sem) : GSem nD τ sig)).erase ((V d c i, SemLoc.dma cc0_scoped6.sem) : GSem nD τ sig)).erase ((V d c i, SemLoc.dma cc0_scoped7.sem) : GSem nD τ sig)).erase ((V d c i, SemLoc.dma cc0_scoped8.sem) : GSem nD τ sig)).erase ((V d c i, SemLoc.dma cc0_scoped9.sem) : GSem nD τ sig)) fun g => semVal g 0) := by
  unfold SparseCore.Cfg.ownSems0
  rw [SparseCore.bigSep_erase' ((mem_ownCells (g := ((V d c i, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨cell_ne d c i (show (cc0_scoped1.sem : DmaSem sig) ≠ cc0_scoped0.sem by decide), (mem_ownCells (g := ((V d c i, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨cell_ne d c i (show (cc0_scoped2.sem : DmaSem sig) ≠ cc0_scoped1.sem by decide), Finset.mem_erase.mpr ⟨cell_ne d c i (show (cc0_scoped2.sem : DmaSem sig) ≠ cc0_scoped0.sem by decide), (mem_ownCells (g := ((V d c i, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨cell_ne d c i (show (cc0_scoped3.sem : DmaSem sig) ≠ cc0_scoped2.sem by decide), Finset.mem_erase.mpr ⟨cell_ne d c i (show (cc0_scoped3.sem : DmaSem sig) ≠ cc0_scoped1.sem by decide), Finset.mem_erase.mpr ⟨cell_ne d c i (show (cc0_scoped3.sem : DmaSem sig) ≠ cc0_scoped0.sem by decide), (mem_ownCells (g := ((V d c i, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨cell_ne d c i (show (cc0_scoped4.sem : DmaSem sig) ≠ cc0_scoped3.sem by decide), Finset.mem_erase.mpr ⟨cell_ne d c i (show (cc0_scoped4.sem : DmaSem sig) ≠ cc0_scoped2.sem by decide), Finset.mem_erase.mpr ⟨cell_ne d c i (show (cc0_scoped4.sem : DmaSem sig) ≠ cc0_scoped1.sem by decide), Finset.mem_erase.mpr ⟨cell_ne d c i (show (cc0_scoped4.sem : DmaSem sig) ≠ cc0_scoped0.sem by decide), (mem_ownCells (g := ((V d c i, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨cell_ne d c i (show (cc0_scoped5.sem : DmaSem sig) ≠ cc0_scoped4.sem by decide), Finset.mem_erase.mpr ⟨cell_ne d c i (show (cc0_scoped5.sem : DmaSem sig) ≠ cc0_scoped3.sem by decide), Finset.mem_erase.mpr ⟨cell_ne d c i (show (cc0_scoped5.sem : DmaSem sig) ≠ cc0_scoped2.sem by decide), Finset.mem_erase.mpr ⟨cell_ne d c i (show (cc0_scoped5.sem : DmaSem sig) ≠ cc0_scoped1.sem by decide), Finset.mem_erase.mpr ⟨cell_ne d c i (show (cc0_scoped5.sem : DmaSem sig) ≠ cc0_scoped0.sem by decide), (mem_ownCells (g := ((V d c i, SemLoc.dma cc0_scoped5.sem) : GSem nD τ sig))).mpr ⟨rfl, by show (SemLoc.dma cc0_scoped5.sem : SemLoc sig).isScoped .scVector = true; decide⟩⟩⟩⟩⟩⟩),
    SparseCore.bigSep_erase' (Finset.mem_erase.mpr ⟨cell_ne d c i (show (cc0_scoped6.sem : DmaSem sig) ≠ cc0_scoped5.sem by decide), Finset.mem_erase.mpr ⟨cell_ne d c i (show (cc0_scoped6.sem : DmaSem sig) ≠ cc0_scoped4.sem by decide), Finset.mem_erase.mpr ⟨cell_ne d c i (show (cc0_scoped6.sem : DmaSem sig) ≠ cc0_scoped3.sem by decide), Finset.mem_erase.mpr ⟨cell_ne d c i (show (cc0_scoped6.sem : DmaSem sig) ≠ cc0_scoped2.sem by decide), Finset.mem_erase.mpr ⟨cell_ne d c i (show (cc0_scoped6.sem : DmaSem sig) ≠ cc0_scoped1.sem by decide), Finset.mem_erase.mpr ⟨cell_ne d c i (show (cc0_scoped6.sem : DmaSem sig) ≠ cc0_scoped0.sem by decide), (mem_ownCells (g := ((V d c i, SemLoc.dma cc0_scoped6.sem) : GSem nD τ sig))).mpr ⟨rfl, by show (SemLoc.dma cc0_scoped6.sem : SemLoc sig).isScoped .scVector = true; decide⟩⟩⟩⟩⟩⟩⟩),
    SparseCore.bigSep_erase' (Finset.mem_erase.mpr ⟨cell_ne d c i (show (cc0_scoped7.sem : DmaSem sig) ≠ cc0_scoped6.sem by decide), Finset.mem_erase.mpr ⟨cell_ne d c i (show (cc0_scoped7.sem : DmaSem sig) ≠ cc0_scoped5.sem by decide), Finset.mem_erase.mpr ⟨cell_ne d c i (show (cc0_scoped7.sem : DmaSem sig) ≠ cc0_scoped4.sem by decide), Finset.mem_erase.mpr ⟨cell_ne d c i (show (cc0_scoped7.sem : DmaSem sig) ≠ cc0_scoped3.sem by decide), Finset.mem_erase.mpr ⟨cell_ne d c i (show (cc0_scoped7.sem : DmaSem sig) ≠ cc0_scoped2.sem by decide), Finset.mem_erase.mpr ⟨cell_ne d c i (show (cc0_scoped7.sem : DmaSem sig) ≠ cc0_scoped1.sem by decide), Finset.mem_erase.mpr ⟨cell_ne d c i (show (cc0_scoped7.sem : DmaSem sig) ≠ cc0_scoped0.sem by decide), (mem_ownCells (g := ((V d c i, SemLoc.dma cc0_scoped7.sem) : GSem nD τ sig))).mpr ⟨rfl, by show (SemLoc.dma cc0_scoped7.sem : SemLoc sig).isScoped .scVector = true; decide⟩⟩⟩⟩⟩⟩⟩⟩),
    SparseCore.bigSep_erase' (Finset.mem_erase.mpr ⟨cell_ne d c i (show (cc0_scoped8.sem : DmaSem sig) ≠ cc0_scoped7.sem by decide), Finset.mem_erase.mpr ⟨cell_ne d c i (show (cc0_scoped8.sem : DmaSem sig) ≠ cc0_scoped6.sem by decide), Finset.mem_erase.mpr ⟨cell_ne d c i (show (cc0_scoped8.sem : DmaSem sig) ≠ cc0_scoped5.sem by decide), Finset.mem_erase.mpr ⟨cell_ne d c i (show (cc0_scoped8.sem : DmaSem sig) ≠ cc0_scoped4.sem by decide), Finset.mem_erase.mpr ⟨cell_ne d c i (show (cc0_scoped8.sem : DmaSem sig) ≠ cc0_scoped3.sem by decide), Finset.mem_erase.mpr ⟨cell_ne d c i (show (cc0_scoped8.sem : DmaSem sig) ≠ cc0_scoped2.sem by decide), Finset.mem_erase.mpr ⟨cell_ne d c i (show (cc0_scoped8.sem : DmaSem sig) ≠ cc0_scoped1.sem by decide), Finset.mem_erase.mpr ⟨cell_ne d c i (show (cc0_scoped8.sem : DmaSem sig) ≠ cc0_scoped0.sem by decide), (mem_ownCells (g := ((V d c i, SemLoc.dma cc0_scoped8.sem) : GSem nD τ sig))).mpr ⟨rfl, by show (SemLoc.dma cc0_scoped8.sem : SemLoc sig).isScoped .scVector = true; decide⟩⟩⟩⟩⟩⟩⟩⟩⟩),
    SparseCore.bigSep_erase' (Finset.mem_erase.mpr ⟨cell_ne d c i (show (cc0_scoped9.sem : DmaSem sig) ≠ cc0_scoped8.sem by decide), Finset.mem_erase.mpr ⟨cell_ne d c i (show (cc0_scoped9.sem : DmaSem sig) ≠ cc0_scoped7.sem by decide), Finset.mem_erase.mpr ⟨cell_ne d c i (show (cc0_scoped9.sem : DmaSem sig) ≠ cc0_scoped6.sem by decide), Finset.mem_erase.mpr ⟨cell_ne d c i (show (cc0_scoped9.sem : DmaSem sig) ≠ cc0_scoped5.sem by decide), Finset.mem_erase.mpr ⟨cell_ne d c i (show (cc0_scoped9.sem : DmaSem sig) ≠ cc0_scoped4.sem by decide), Finset.mem_erase.mpr ⟨cell_ne d c i (show (cc0_scoped9.sem : DmaSem sig) ≠ cc0_scoped3.sem by decide), Finset.mem_erase.mpr ⟨cell_ne d c i (show (cc0_scoped9.sem : DmaSem sig) ≠ cc0_scoped2.sem by decide), Finset.mem_erase.mpr ⟨cell_ne d c i (show (cc0_scoped9.sem : DmaSem sig) ≠ cc0_scoped1.sem by decide), Finset.mem_erase.mpr ⟨cell_ne d c i (show (cc0_scoped9.sem : DmaSem sig) ≠ cc0_scoped0.sem by decide), (mem_ownCells (g := ((V d c i, SemLoc.dma cc0_scoped9.sem) : GSem nD τ sig))).mpr ⟨rfl, by show (SemLoc.dma cc0_scoped9.sem : SemLoc sig).isScoped .scVector = true; decide⟩⟩⟩⟩⟩⟩⟩⟩⟩⟩)]

/-! ## Respelling a staging table for the indexed load and store rules -/

omit [FloatOps F] in
theorem acc_s0 (c : Fin τ.nSC) (i : Fin τ.nSub) (f : Buf (Elt F) ((V d c i).loc cc0_scratch0)) :
    ((s0V).view.loc (V d c i) ↦{fullShare} f : sProp (𝕄 F)) = (((s0V).access (.whole S160x3)).loc (V d c i) ↦{fullShare} f) := rfl
omit [FloatOps F] in
theorem acc_s1 (c : Fin τ.nSC) (i : Fin τ.nSub) (f : Buf (Elt F) ((V d c i).loc cc0_scratch1)) :
    ((s1V).view.loc (V d c i) ↦{fullShare} f : sProp (𝕄 F)) = (((s1V).access (.whole S16x10)).loc (V d c i) ↦{fullShare} f) := rfl
omit [FloatOps F] in
theorem acc_s2 (c : Fin τ.nSC) (i : Fin τ.nSub) (f : Buf (Elt F) ((V d c i).loc cc0_scratch2)) :
    ((s2V).view.loc (V d c i) ↦{fullShare} f : sProp (𝕄 F)) = (((s2V).access (.whole S160x2)).loc (V d c i) ↦{fullShare} f) := rfl
omit [FloatOps F] in
theorem acc_s3 (c : Fin τ.nSC) (i : Fin τ.nSub) (f : Buf (Elt F) ((V d c i).loc cc0_scratch3)) :
    ((s3V).view.loc (V d c i) ↦{fullShare} f : sProp (𝕄 F))
      = (((s3V).access (.whole S160x7)).loc (V d c i) ↦[((s3V).access (.whole S160x7)).set]{fullShare} f) := by
  rw [show ((s3V).access (.whole S160x7)).set = Finset.univ from Memref.set_access_whole (cc0_scratch3 : Ref sig .scVector)]

/-! ## The index vectors a group loads, and the checks on them -/

/-- The sixteen lanes a group loads at offset `o` of the tile's copy of table 0. -/
abbrev RD4 (o : Nat) (h : ∀ a, (![o] : Fin 1 → Nat) a + S16.size a ≤ S480.size a) : IVec S16 32 :=
  View.readAt (Elt F) (s4V).view (Rect.unit (s := S480) ![o] S16.size h).toLoadRect (fun j => lit0 (S480.rowMajor j))
/-- The sixteen lanes a group loads at offset `o` of the tile's copy of table 1. -/
abbrev RD5 (o : Nat) (h : ∀ a, (![o] : Fin 1 → Nat) a + S16.size a ≤ S480.size a) : IVec S16 32 :=
  View.readAt (Elt F) (s5V).view (Rect.unit (s := S480) ![o] S16.size h).toLoadRect (fun j => lit1 (S480.rowMajor j))
/-- The sixteen lanes a group loads at offset `o` of the tile's copy of table 2. -/
abbrev RD6 (o : Nat) (h : ∀ a, (![o] : Fin 1 → Nat) a + S16.size a ≤ S320.size a) : IVec S16 32 :=
  View.readAt (Elt F) (s6V).view (Rect.unit (s := S320) ![o] S16.size h).toLoadRect (fun j => lit2 (S320.rowMajor j))
/-- The sixteen lanes a group loads at offset `o` of the tile's copy of table 3. -/
abbrev RD7 (o : Nat) (h : ∀ a, (![o] : Fin 1 → Nat) a + S16.size a ≤ S320.size a) : IVec S16 32 :=
  View.readAt (Elt F) (s7V).view (Rect.unit (s := S320) ![o] S16.size h).toLoadRect (fun j => lit3 (S320.rowMajor j))
/-- The sixteen lanes a group loads at offset `o` of the tile's copy of table 4. -/
abbrev RD8 (o : Nat) (h : ∀ a, (![o] : Fin 1 → Nat) a + S16.size a ≤ S160.size a) : IVec S16 32 :=
  View.readAt (Elt F) (s8V).view (Rect.unit (s := S160) ![o] S16.size h).toLoadRect (fun j => lit4 (S160.rowMajor j))
/-- The sixteen lanes a group loads at offset `o` of the tile's copy of table 5. -/
abbrev RD9 (o : Nat) (h : ∀ a, (![o] : Fin 1 → Nat) a + S16.size a ≤ S160.size a) : IVec S16 32 :=
  View.readAt (Elt F) (s9V).view (Rect.unit (s := S160) ![o] S16.size h).toLoadRect (fun j => lit5 (S160.rowMajor j))

/-- Phase 1's check at offset `o` (group `o / 16`): rows `n / 3`, columns `n % 3` of flat entries `n = o .. o + 15` are inside [160,3] and [160,7]. -/
theorem chk_p1 (o : Nat) (ho : o % 16 = 0) (hlt : o < 480) (h h' : ∀ a, (![o] : Fin 1 → Nat) a + S16.size a ≤ S480.size a) :
    (∀ a x, ((![RD4 (F := F) o h, RD5 (F := F) o h'] : Fin 2 → IVec S16 32) a x).toNat < S160x3.size a)
      ∧ (∀ a x, ((![RD4 (F := F) o h, RD5 (F := F) o h'] : Fin 2 → IVec S16 32) a x).toNat < S160x7.size a) := by
  have e : 16 * (o / 16) = o := by omega
  exact Cert.Chunk.chk1 (o / 16) (by omega) _ _ (fun x => by rw [e]; exact rd4 (F := F) o h x) (fun x => by rw [e]; exact rd5 (F := F) o h' x)

/-- Phase 2's first check at offset `o`: rows `n / 2`, columns `n % 2` of flat entries `n = o .. o + 15` are inside [160,2]. -/
theorem chk_p2a (o : Nat) (ho : o % 16 = 0) (hlt : o < 320) (h h' : ∀ a, (![o] : Fin 1 → Nat) a + S16.size a ≤ S320.size a) :
    (∀ a x, ((![RD6 (F := F) o h, RD7 (F := F) o h'] : Fin 2 → IVec S16 32) a x).toNat < S160x2.size a) := by
  have e : 16 * (o / 16) = o := by omega
  exact (Cert.Chunk.chk2 (o / 16) (by omega) _ _ (fun x => by rw [e]; exact rd6 (F := F) o h x) (fun x => by rw [e]; exact rd7 (F := F) o h' x)).1
/-- Phase 2's second check: the same rows with the columns moved up by five are inside [160,7]. -/
theorem chk_p2b (o : Nat) (ho : o % 16 = 0) (hlt : o < 320) (h h' : ∀ a, (![o] : Fin 1 → Nat) a + S16.size a ≤ S320.size a)
    (five : IVec S16 32) (hfive : five = broadcast S16 5#32) :
    (∀ a x, ((![RD6 (F := F) o h, addi (RD7 (F := F) o h') five] : Fin 2 → IVec S16 32) a x).toNat < S160x7.size a) := by
  subst hfive
  have e : 16 * (o / 16) = o := by omega
  exact (Cert.Chunk.chk2 (o / 16) (by omega) _ _ (fun x => by rw [e]; exact rd6 (F := F) o h x) (fun x => by rw [e]; exact rd7 (F := F) o h' x)).2
/-- Phase 3's first check at offset `o`: batch rows `n / 10`, candidates `n % 10` of candidates `n = o .. o + 15` are inside [16,10]. -/
theorem chk_p3a (o : Nat) (ho : o % 16 = 0) (hlt : o < 160) (h h' : ∀ a, (![o] : Fin 1 → Nat) a + S16.size a ≤ S160.size a) :
    (∀ a x, ((![RD8 (F := F) o h, RD9 (F := F) o h'] : Fin 2 → IVec S16 32) a x).toNat < S16x10.size a) := by
  have e : 16 * (o / 16) = o := by omega
  exact (Cert.Chunk.chk3 (o / 16) (by omega) _ _ (fun x => by rw [e]; exact rd8 (F := F) o h x) (fun x => by rw [e]; exact rd9 (F := F) o h' x)).1
/-- Phase 3's second check: staging rows `10 (n / 10) + n % 10 = n` at columns 4 and 3 are inside [160,7]. -/
theorem chk_p3b (o : Nat) (ho : o % 16 = 0) (hlt : o < 160) (h h' : ∀ a, (![o] : Fin 1 → Nat) a + S16.size a ≤ S160.size a)
    (three four row : IVec S16 32) (hthree : three = broadcast S16 3#32) (hfour : four = broadcast S16 4#32)
    (hrow : row = addi (muli (RD8 (F := F) o h) (broadcast S16 10#32)) (RD9 (F := F) o h')) :
    (∀ a x, ((![row, four] : Fin 2 → IVec S16 32) a x).toNat < S160x7.size a)
      ∧ (∀ a x, ((![row, three] : Fin 2 → IVec S16 32) a x).toNat < S160x7.size a) := by
  subst hthree hfour hrow
  have e : 16 * (o / 16) = o := by omega
  exact (Cert.Chunk.chk3 (o / 16) (by omega) _ _ (fun x => by rw [e]; exact rd8 (F := F) o h x) (fun x => by rw [e]; exact rd9 (F := F) o h' x)).2

omit [FloatOps F] in
/-- A points-to keeps holding at contents of which a fact is remembered instead of the term. -/
theorem pts_remember {ℓ : Loc nD τ sig} {I : Finset (Idx ℓ)} {q : PosShare TreeShare} (P : Buf (Elt F) ℓ → Prop) (f : Buf (Elt F) ℓ) (hf : P f) :
    (ℓ ↦[I]{q} f : sProp (𝕄 F)) ⊢ iprop(∃ g : Buf (Elt F) ℓ, ⌜P g⌝ ∗ ℓ ↦[I]{q} g) := by
  iintro H
  iexists f
  isplitr
  · ipureintro; exact hf
  · iexact H

/-- A group of the first phase at offset `o = 16 t`: sixteen coordinates gathered out of `A` and stored where they came from. -/
theorem repack1 (c : Fin τ.nSC) (i : Fin τ.nSub) (t o : Nat) (ho : o = 16 * t) (ht : t < 30)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S480.size a)
    (r cc : IVec S16 32) (hr : r = RD4 (F := F) o h) (hc : cc = RD5 (F := F) o h')
    (h2 : ∀ a x, ((![r, cc] : Fin 2 → IVec S16 32) a x).toNat < S160x7.size a)
    (v : Vec F S16 .f32)
    (hv : ∃ h1 : (∀ a x, ((![r, cc] : Fin 2 → IVec S16 32) a x).toNat < S160x3.size a),
      v = loadIdx (((s0V).access (.whole S160x3)).read (Elt F) A) ![r, cc] h1)
    (hO : Cert.Chunk.Agrees (F := F) (Cert.Chunk.Done1 t) O A C B) :
    ((((s3V).access (.whole S160x7)).loc (V d c i) ↦[((s3V).access (.whole S160x7)).set]{fullShare}
        (((s3V).access (.whole S160x7)).write (Elt F) O (storeIdx (((s3V).access (.whole S160x7)).read (Elt F) O) ![r, cc] v (fun _ => 1#1) false h2) Finset.univ) : sProp (𝕄 F))
      ⊢ iprop(∃ O' : Buf (Elt F) ((V d c i).loc cc0_scratch3), ⌜Cert.Chunk.Agrees (F := F) (Cert.Chunk.Done1 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s0V).access (.whole S160x3)) A = A := Memref.read_access_whole (Elt F) (cc0_scratch0 : Ref sig .scVector) A
  obtain ⟨h1, rfl⟩ := hv
  rw [e2, e1, e0]
  iintro H
  iexists (storeIdx O ![r, cc] (loadIdx A ![r, cc] h1) (fun _ => 1#1) false h2)
  isplitr
  · ipureintro
    subst ho hr hc
    exact Cert.Chunk.step1 (F := F) t ht O A C B _ _ (fun x => rd4 (F := F) (16 * t) h x) (fun x => rd5 (F := F) (16 * t) h' x) h1 h2 hO
  · iexact H

/-- A group of the second phase at offset `o = 16 t`: sixteen extents gathered out of `B` and stored five columns up. -/
theorem repack2 (c : Fin τ.nSC) (i : Fin τ.nSub) (t o : Nat) (ho : o = 16 * t) (ht : t < 20)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S320.size a)
    (r cc five col : IVec S16 32) (hr : r = RD6 (F := F) o h) (hc : cc = RD7 (F := F) o h') (hfive : five = broadcast S16 5#32)
    (hcol : col = addi cc five)
    (h2 : ∀ a x, ((![r, col] : Fin 2 → IVec S16 32) a x).toNat < S160x7.size a)
    (v : Vec F S16 .f32)
    (hv : ∃ h1 : (∀ a x, ((![r, cc] : Fin 2 → IVec S16 32) a x).toNat < S160x2.size a),
      v = loadIdx (((s2V).access (.whole S160x2)).read (Elt F) B) ![r, cc] h1)
    (hO : Cert.Chunk.Agrees (F := F) (Cert.Chunk.Done2 t) O A C B) :
    ((((s3V).access (.whole S160x7)).loc (V d c i) ↦[((s3V).access (.whole S160x7)).set]{fullShare}
        (((s3V).access (.whole S160x7)).write (Elt F) O (storeIdx (((s3V).access (.whole S160x7)).read (Elt F) O) ![r, col] v (fun _ => 1#1) false h2) Finset.univ) : sProp (𝕄 F))
      ⊢ iprop(∃ O' : Buf (Elt F) ((V d c i).loc cc0_scratch3), ⌜Cert.Chunk.Agrees (F := F) (Cert.Chunk.Done2 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s2V).access (.whole S160x2)) B = B := Memref.read_access_whole (Elt F) (cc0_scratch2 : Ref sig .scVector) B
  obtain ⟨h1, rfl⟩ := hv
  subst hcol
  rw [e2, e1, e0]
  iintro H
  iexists (storeIdx O ![r, addi cc five] (loadIdx B ![r, cc] h1) (fun _ => 1#1) false h2)
  isplitr
  · ipureintro
    subst ho hr hc hfive
    exact Cert.Chunk.step2 (F := F) t ht O A C B _ _ (fun x => rd6 (F := F) (16 * t) h x) (fun x => rd7 (F := F) (16 * t) h' x) h1 h2 hO
  · iexact H

/-- A group of the third phase at offset `o = 16 t`: sixteen confidences gathered out of `C`, stored at column 4 of their staging rows,
    and their marks at column 3. -/
theorem repack3 (c : Fin τ.nSC) (i : Fin τ.nSub) (t o : Nat) (ho : o = 16 * t) (ht : t < 10)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S160.size a)
    (b p three four row : IVec S16 32) (hb : b = RD8 (F := F) o h) (hp : p = RD9 (F := F) o h')
    (hthree : three = broadcast S16 3#32) (hfour : four = broadcast S16 4#32)
    (hrow : row = addi (muli b (broadcast S16 10#32)) p)
    (h2 : ∀ a x, ((![row, four] : Fin 2 → IVec S16 32) a x).toNat < S160x7.size a)
    (h3 : ∀ a x, ((![row, three] : Fin 2 → IVec S16 32) a x).toNat < S160x7.size a)
    (cv : Vec F S16 .f32)
    (hcv : ∃ h1 : (∀ a x, ((![b, p] : Fin 2 → IVec S16 32) a x).toNat < S16x10.size a),
      cv = loadIdx (((s1V).access (.whole S16x10)).read (Elt F) C) ![b, p] h1)
    (mk : FVec F S16 .f32) (hmk : mk = fun x => Cert.Spec.mark (F := F) (cv x))
    (hO : Cert.Chunk.Agrees (F := F) (Cert.Chunk.Done3 t) O A C B) :
    ((((s3V).access (.whole S160x7)).loc (V d c i) ↦[((s3V).access (.whole S160x7)).set]{fullShare}
        (((s3V).access (.whole S160x7)).write (Elt F)
          (((s3V).access (.whole S160x7)).write (Elt F) O (storeIdx (((s3V).access (.whole S160x7)).read (Elt F) O) ![row, four] cv (fun _ => 1#1) false h2) Finset.univ)
          (storeIdx (((s3V).access (.whole S160x7)).read (Elt F)
              (((s3V).access (.whole S160x7)).write (Elt F) O (storeIdx (((s3V).access (.whole S160x7)).read (Elt F) O) ![row, four] cv (fun _ => 1#1) false h2) Finset.univ))
            ![row, three] mk (fun _ => 1#1) false h3) Finset.univ) : sProp (𝕄 F))
      ⊢ iprop(∃ O' : Buf (Elt F) ((V d c i).loc cc0_scratch3), ⌜Cert.Chunk.Agrees (F := F) (Cert.Chunk.Done3 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s1V).access (.whole S16x10)) C = C := Memref.read_access_whole (Elt F) (cc0_scratch1 : Ref sig .scVector) C
  obtain ⟨h1, rfl⟩ := hcv
  subst hmk
  simp only [e2, e1, e0]
  iintro H
  iexists (storeIdx (storeIdx O ![row, four] (loadIdx C ![b, p] h1) (fun _ => 1#1) false h2) ![row, three]
    (fun x => Cert.Spec.mark (F := F) (loadIdx C ![b, p] h1 x)) (fun _ => 1#1) false h3)
  isplitr
  · ipureintro
    subst ho hb hp hthree hfour hrow
    exact Cert.Chunk.step3 (F := F) t ht O A C B _ _ (fun x => rd8 (F := F) (16 * t) h x) (fun x => rd9 (F := F) (16 * t) h' x) h1 h2 h3 hO
  · iexact H

/-! ## The chunk of the result a trip writes, and the bookkeeping of the trips -/

omit [FloatOps F] in
/-- Chunk `k` of the tile's rows, as the tile addresses it, is that set of entries of the device's result array. -/
theorem pts_chunk (c : Fin τ.nSC) (i : Fin τ.nSub) (k : Fin k0_t1_loop.trips) (f : Buf (Elt F) (oLoc d)) :
    ((oChunk L k).view.loc (V d c i) ↦[(oChunk L k).view.set]{fullShare} f : sProp (𝕄 F)) = (oLoc d ↦[chunkSet L k]{fullShare} f) := rfl

omit [FloatOps F] in
/-- Chunk `k` at `g` beside the other chunks (those below `k` at `g`, the others at `f`) is all chunks, those below `k + 1` at `g`. -/
theorem chunks_fold (k : Fin k0_t1_loop.trips) (f g : Buf (Elt F) (oLoc d)) :
    iprop((oLoc d ↦[chunkSet L k]{fullShare} g)
        ∗ bigSep (Finset.univ.erase k) (fun j : Fin k0_t1_loop.trips => oLoc d ↦[chunkSet L j]{fullShare} (if j.val < k.val then g else f)))
      ⊢ (bigSep Finset.univ (fun j : Fin k0_t1_loop.trips => oLoc d ↦[chunkSet L j]{fullShare} (if j.val < k.val + 1 then g else f)) : sProp (𝕄 F)) := by
  have e : (bigSep (Finset.univ.erase k) (fun j : Fin k0_t1_loop.trips => oLoc d ↦[chunkSet L j]{fullShare} (if j.val < k.val then g else f)) : sProp (𝕄 F))
      = bigSep (Finset.univ.erase k) (fun j : Fin k0_t1_loop.trips => oLoc d ↦[chunkSet L j]{fullShare} (if j.val < k.val + 1 then g else f)) :=
    bigSep_congr fun j hj => by
      have hne : j.val ≠ k.val := fun e => (Finset.mem_erase.mp hj).1 (Fin.ext e)
      by_cases h : j.val < k.val
      · rw [if_pos h, if_pos (by omega)]
      · rw [if_neg h, if_neg (by omega)]
  rw [SparseCore.bigSep_erase' (Finset.mem_univ k) (Φ := fun j : Fin k0_t1_loop.trips => (oLoc d ↦[chunkSet L j]{fullShare} (if j.val < k.val + 1 then g else f) : sProp (𝕄 F))),
    if_pos (Nat.lt_succ_self _), e]

/-- One more wait on a transfer semaphore of the tile's own keeps the recorded waits within what the launch allows. -/
theorem ins_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- What the three copies in leave in the staging tables: the chunk's sixteen batch rows of each argument, the rows of
    the first and the third regrouped with the candidates into one axis of 160. -/
def RelA (X0 : Buf (Elt F) (a0Loc d)) (k : Fin k0_t1_loop.trips) (A : FVec F ⟨2, ![160, 3]⟩ .f32) : Prop :=
  ∀ (r : Fin 160) (c : Fin 3), A (ix2 r c)
    = X0 (ix3 (n0 := 4096) (n1 := 10) (n2 := 3) ⟨16 * (8 * (2 * (L 1).val + (L 0).val) + k.val) + r.val / 10, base_lt L k _ (by omega)⟩ ⟨r.val % 10, by omega⟩ c)
def RelC (X1 : Buf (Elt F) (a1Loc d)) (k : Fin k0_t1_loop.trips) (C : FVec F ⟨2, ![16, 10]⟩ .f32) : Prop :=
  ∀ (b : Fin 16) (p : Fin 10), C (ix2 b p)
    = X1 (ix2 (n0 := 4096) (n1 := 10) ⟨16 * (8 * (2 * (L 1).val + (L 0).val) + k.val) + b.val, base_lt L k _ b.isLt⟩ p)
def RelB (X2 : Buf (Elt F) (a2Loc d)) (k : Fin k0_t1_loop.trips) (B : FVec F ⟨2, ![160, 2]⟩ .f32) : Prop :=
  ∀ (r : Fin 160) (c : Fin 2), B (ix2 r c)
    = X2 (ix3 (n0 := 4096) (n1 := 10) (n2 := 2) ⟨16 * (8 * (2 * (L 1).val + (L 0).val) + k.val) + r.val / 10, base_lt L k _ (by omega)⟩ ⟨r.val % 10, by omega⟩ c)

omit [FloatOps F] in
/-- Before the first trip no chunk is below the trip count: all chunks are at `f`. -/
theorem chunks_start (f g : Buf (Elt F) (oLoc d)) :
    (bigSep Finset.univ (fun j : Fin k0_t1_loop.trips => oLoc d ↦[chunkSet L j]{fullShare} f) : sProp (𝕄 F))
      ⊢ bigSep Finset.univ (fun j : Fin k0_t1_loop.trips => oLoc d ↦[chunkSet L j]{fullShare} (if j.val < 0 then g else f)) := by
  rw [show (fun j : Fin k0_t1_loop.trips => (oLoc d ↦[chunkSet L j]{fullShare} (if j.val < 0 then g else f) : sProp (𝕄 F)))
      = fun j => oLoc d ↦[chunkSet L j]{fullShare} f from funext fun j => by rw [if_neg (Nat.not_lt_zero _)]]

omit [FloatOps F] in
/-- After the last trip every chunk is below the trip count: all chunks are at `g`. -/
theorem chunks_end (f g : Buf (Elt F) (oLoc d)) :
    (bigSep Finset.univ (fun j : Fin k0_t1_loop.trips => oLoc d ↦[chunkSet L j]{fullShare} (if j.val < k0_t1_loop.trips then g else f)) : sProp (𝕄 F))
      ⊢ bigSep Finset.univ (fun j : Fin k0_t1_loop.trips => oLoc d ↦[chunkSet L j]{fullShare} g) := by
  rw [show (fun j : Fin k0_t1_loop.trips => (oLoc d ↦[chunkSet L j]{fullShare} (if j.val < k0_t1_loop.trips then g else f) : sProp (𝕄 F)))
      = fun j => oLoc d ↦[chunkSet L j]{fullShare} g from funext fun j => by rw [if_pos j.isLt]]

omit [FloatOps F] in
/-- A tile's copy of constant table 0 holds the table. -/
theorem tcopy0 (c : Fin τ.nSC) (i : Fin τ.nSub) (j : S480.Idx) :
    (ReadAs.same.apply (View.read (Elt F) (t0V).view (TB0 (F := F) d)) : S480.Idx → Elt F .i32) j = TS0 (F := F) d c i j :=
  congrFun (View.read_whole (Val := Elt F) (main_c_scv : Ref sig .scVector) (TB0 (F := F) d)) j
omit [FloatOps F] in
/-- A tile's copy of constant table 1 holds the table. -/
theorem tcopy1 (c : Fin τ.nSC) (i : Fin τ.nSub) (j : S480.Idx) :
    (ReadAs.same.apply (View.read (Elt F) (t1V).view (TB1 (F := F) d)) : S480.Idx → Elt F .i32) j = TS1 (F := F) d c i j :=
  congrFun (View.read_whole (Val := Elt F) (main_c_0_scv : Ref sig .scVector) (TB1 (F := F) d)) j
omit [FloatOps F] in
/-- A tile's copy of constant table 2 holds the table. -/
theorem tcopy2 (c : Fin τ.nSC) (i : Fin τ.nSub) (j : S320.Idx) :
    (ReadAs.same.apply (View.read (Elt F) (t2V).view (TB2 (F := F) d)) : S320.Idx → Elt F .i32) j = TS2 (F := F) d c i j :=
  congrFun (View.read_whole (Val := Elt F) (main_c_1_scv : Ref sig .scVector) (TB2 (F := F) d)) j
omit [FloatOps F] in
/-- A tile's copy of constant table 3 holds the table. -/
theorem tcopy3 (c : Fin τ.nSC) (i : Fin τ.nSub) (j : S320.Idx) :
    (ReadAs.same.apply (View.read (Elt F) (t3V).view (TB3 (F := F) d)) : S320.Idx → Elt F .i32) j = TS3 (F := F) d c i j :=
  congrFun (View.read_whole (Val := Elt F) (main_c_2_scv : Ref sig .scVector) (TB3 (F := F) d)) j
omit [FloatOps F] in
/-- A tile's copy of constant table 4 holds the table. -/
theorem tcopy4 (c : Fin τ.nSC) (i : Fin τ.nSub) (j : S160.Idx) :
    (ReadAs.same.apply (View.read (Elt F) (t4V).view (TB4 (F := F) d)) : S160.Idx → Elt F .i32) j = TS4 (F := F) d c i j :=
  congrFun (View.read_whole (Val := Elt F) (main_c_3_scv : Ref sig .scVector) (TB4 (F := F) d)) j
omit [FloatOps F] in
/-- A tile's copy of constant table 5 holds the table. -/
theorem tcopy5 (c : Fin τ.nSC) (i : Fin τ.nSub) (j : S160.Idx) :
    (ReadAs.same.apply (View.read (Elt F) (t5V).view (TB5 (F := F) d)) : S160.Idx → Elt F .i32) j = TS5 (F := F) d c i j :=
  congrFun (View.read_whole (Val := Elt F) (main_c_4_scv : Ref sig .scVector) (TB5 (F := F) d)) j

variable (m : (ℓ : Loc nD τ sig) → Buf (Elt F) ℓ)

/-- The loop's invariant before trip `n`: the nine read-only arrays and the six table copies as they were, the four staging
    tables at some contents, every transfer semaphore's counter at zero, chunks below `n` of the tile's rows at the
    specification and the others untouched, and what the tile owes the launch. -/
def inv (O : CellTallies nD τ sig (HIx 1)) (W : Waits sig (HIx 1)) (q : PosShare TreeShare) (n : Nat) (_ : PUnit) : sProp (𝕄 F) :=
  iprop(Transfers.MayWaits (V d (cV L) (jV L)) (none : HIx 1) O
    ∗ ((a0V).view.loc (V d (cV L) (jV L)) ↦{q} m (a0Loc d)) ∗ ((a1V).view.loc (V d (cV L) (jV L)) ↦{q} m (a1Loc d)) ∗ ((a2V).view.loc (V d (cV L) (jV L)) ↦{q} m (a2Loc d))
    ∗ ((s4V).view.loc (V d (cV L) (jV L)) ↦{fullShare} TS0 d (cV L) (jV L)) ∗ ((s5V).view.loc (V d (cV L) (jV L)) ↦{fullShare} TS1 d (cV L) (jV L)) ∗ ((s6V).view.loc (V d (cV L) (jV L)) ↦{fullShare} TS2 d (cV L) (jV L)) ∗ ((s7V).view.loc (V d (cV L) (jV L)) ↦{fullShare} TS3 d (cV L) (jV L)) ∗ ((s8V).view.loc (V d (cV L) (jV L)) ↦{fullShare} TS4 d (cV L) (jV L)) ∗ ((s9V).view.loc (V d (cV L) (jV L)) ↦{fullShare} TS5 d (cV L) (jV L))
    ∗ (∃ f, (s0V).view.loc (V d (cV L) (jV L)) ↦{fullShare} f) ∗ (∃ f, (s1V).view.loc (V d (cV L) (jV L)) ↦{fullShare} f) ∗ (∃ f, (s2V).view.loc (V d (cV L) (jV L)) ↦{fullShare} f) ∗ (∃ f, (s3V).view.loc (V d (cV L) (jV L)) ↦{fullShare} f)
    ∗ semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0 ∗ semVal ((V d (cV L) (jV L)), SemLoc.dma cc0_scoped3.sem) 0 ∗ semVal ((V d (cV L) (jV L)), SemLoc.dma cc0_scoped4.sem) 0 ∗ semVal ((V d (cV L) (jV L)), SemLoc.dma cc0_scoped5.sem) 0 ∗ semVal ((V d (cV L) (jV L)), SemLoc.dma cc0_scoped6.sem) 0 ∗ semVal ((V d (cV L) (jV L)), SemLoc.dma cc0_scoped7.sem) 0 ∗ semVal ((V d (cV L) (jV L)), SemLoc.dma cc0_scoped8.sem) 0 ∗ semVal ((V d (cV L) (jV L)), SemLoc.dma cc0_scoped9.sem) 0
    ∗ (bigSep Finset.univ fun k : Fin k0_t1_loop.trips => oLoc d ↦[chunkSet L k]{fullShare} (if k.val < n then GO m d else m (oLoc d)))
    ∗ ∃ W', ⌜∀ p ∈ W', p ∈ W ∨ p.2 = none⌝ ∗ owes (V d (cV L) (jV L)) O W')

set_option hygiene false in
local macro "sl_chk" : tactic => `(tactic| first
  | (show (∀ a x, _ < S160x3.size a) ∧ _; exact chk_p1 (F := F) _ (by decide) (by decide) _ _)
  | (show (∀ a x, _ < S160x2.size a); exact chk_p2a (F := F) _ (by decide) (by decide) _ _)
  | (show (∀ a x, _ < S160x7.size a); exact chk_p2b (F := F) _ (by decide) (by decide) _ _ _ rfl)
  | (show (∀ a x, _ < S16x10.size a); exact chk_p3a (F := F) _ (by decide) (by decide) _ _)
  | (show (∀ a x, _ < S160x7.size a) ∧ _; exact chk_p3b (F := F) _ (by decide) (by decide) _ _ _ _ _ rfl rfl rfl))

set_option hygiene false in
local macro "grp1" t:num o:num hb:ident : tactic => `(tactic| (
    iapply (SparseCore.wp_vectorLoadIdx 𝒱₀ (V d (cV L) (jV L)) none Set.univ (base := s0V) (S := Finset.univ) (q := fullShare) (Finset.subset_univ _)) $$ Hs0; iintro Hs0
    iapply (SparseCore.wp_vectorStoreIdx 𝒱₀ (V d (cV L) (jV L)) none Set.univ (base := s3V)) $$ Hs3; iintro Hs3
    ihave Hs3 := (repack1 (F := F) d (cV L) (jV L) $t $o (by decide) (by decide) A C B Ocur $hb $hb _ _ ?hr ?hc _ _ ?hv hOcur) $$ Hs3
    case hr => exact rfl
    case hc => exact rfl
    case hv => exact ⟨_, rfl⟩
    icases Hs3 with ⟨%Ocur, %hOcur, Hs3⟩
    sl_exec (disch := sl_chk)))

set_option hygiene false in
local macro "grp1s" t:num o:num hb:ident : tactic => `(tactic| (
    iapply (SparseCore.wp_vectorLoadIdx 𝒱₀ (V d (cV L) (jV L)) none Set.univ (base := s0V) (S := Finset.univ) (q := fullShare) (Finset.subset_univ _)) $$ Hs0; iintro Hs0
    sl_exec (disch := sl_chk)
    iapply (SparseCore.wp_vectorStoreIdx 𝒱₀ (V d (cV L) (jV L)) none Set.univ (base := s3V)) $$ Hs3; iintro Hs3
    ihave Hs3 := (repack1 (F := F) d (cV L) (jV L) $t $o (by decide) (by decide) A C B Ocur $hb $hb _ _ ?hr ?hc _ _ ?hv hOcur) $$ Hs3
    case hr => exact rfl
    case hc => exact rfl
    case hv => exact ⟨_, rfl⟩
    icases Hs3 with ⟨%Ocur, %hOcur, Hs3⟩
    sl_exec (disch := sl_chk)))

set_option hygiene false in
local macro "grp2" t:num o:num hb:ident : tactic => `(tactic| (
    iapply (SparseCore.wp_vectorLoadIdx 𝒱₀ (V d (cV L) (jV L)) none Set.univ (base := s2V) (S := Finset.univ) (q := fullShare) (Finset.subset_univ _)) $$ Hs2; iintro Hs2
    iapply (SparseCore.wp_vectorStoreIdx 𝒱₀ (V d (cV L) (jV L)) none Set.univ (base := s3V)) $$ Hs3; iintro Hs3
    ihave Hs3 := (repack2 (F := F) d (cV L) (jV L) $t $o (by decide) (by decide) A C B Ocur $hb $hb _ (RD7 (F := F) $o $hb) (broadcast S16 5#32) _ ?hr rfl rfl ?hcol _ _ ?hv hOcur) $$ Hs3
    case hr => exact rfl
    case hcol => exact rfl
    case hv => exact ⟨_, rfl⟩
    icases Hs3 with ⟨%Ocur, %hOcur, Hs3⟩
    sl_exec (disch := sl_chk)))

set_option hygiene false in
local macro "grp2s" t:num o:num hb:ident : tactic => `(tactic| (
    iapply (SparseCore.wp_vectorLoadIdx 𝒱₀ (V d (cV L) (jV L)) none Set.univ (base := s2V) (S := Finset.univ) (q := fullShare) (Finset.subset_univ _)) $$ Hs2; iintro Hs2
    sl_exec (disch := sl_chk)
    iapply (SparseCore.wp_vectorStoreIdx 𝒱₀ (V d (cV L) (jV L)) none Set.univ (base := s3V)) $$ Hs3; iintro Hs3
    ihave Hs3 := (repack2 (F := F) d (cV L) (jV L) $t $o (by decide) (by decide) A C B Ocur $hb $hb _ (RD7 (F := F) $o $hb) (broadcast S16 5#32) _ ?hr rfl rfl ?hcol _ _ ?hv hOcur) $$ Hs3
    case hr => exact rfl
    case hcol => exact rfl
    case hv => exact ⟨_, rfl⟩
    icases Hs3 with ⟨%Ocur, %hOcur, Hs3⟩
    sl_exec (disch := sl_chk)))

set_option hygiene false in
local macro "grp3" t:num o:num hb:ident : tactic => `(tactic| (
    iapply (SparseCore.wp_vectorLoadIdx 𝒱₀ (V d (cV L) (jV L)) none Set.univ (base := s1V) (S := Finset.univ) (q := fullShare) (Finset.subset_univ _)) $$ Hs1; iintro Hs1
    iapply (SparseCore.wp_vectorStoreIdx 𝒱₀ (V d (cV L) (jV L)) none Set.univ (base := s3V)) $$ Hs3; iintro Hs3
    iapply (SparseCore.wp_vectorStoreIdx 𝒱₀ (V d (cV L) (jV L)) none Set.univ (base := s3V)) $$ Hs3; iintro Hs3
    ihave Hs3 := (repack3 (F := F) d (cV L) (jV L) $t $o (by decide) (by decide) A C B Ocur $hb $hb (RD8 (F := F) $o $hb) (RD9 (F := F) $o $hb) _ _ _ rfl rfl ?hthree ?hfour ?hrow _ _ _ ?hcv _ ?hmk hOcur) $$ Hs3
    case hthree => exact rfl
    case hfour => exact rfl
    case hrow => exact rfl
    case hcv => exact ⟨_, rfl⟩
    case hmk => exact rfl
    icases Hs3 with ⟨%Ocur, %hOcur, Hs3⟩))

set_option hygiene false in
local macro "grp3s" t:num o:num hb:ident : tactic => `(tactic| (
    iapply (SparseCore.wp_vectorLoadIdx 𝒱₀ (V d (cV L) (jV L)) none Set.univ (base := s1V) (S := Finset.univ) (q := fullShare) (Finset.subset_univ _)) $$ Hs1; iintro Hs1
    sl_exec (disch := sl_chk)
    iapply (SparseCore.wp_vectorStoreIdx 𝒱₀ (V d (cV L) (jV L)) none Set.univ (base := s3V)) $$ Hs3; iintro Hs3
    iapply (SparseCore.wp_vectorStoreIdx 𝒱₀ (V d (cV L) (jV L)) none Set.univ (base := s3V)) $$ Hs3; iintro Hs3
    ihave Hs3 := (repack3 (F := F) d (cV L) (jV L) $t $o (by decide) (by decide) A C B Ocur $hb $hb (RD8 (F := F) $o $hb) (RD9 (F := F) $o $hb) _ _ _ rfl rfl ?hthree ?hfour ?hrow _ _ _ ?hcv _ ?hmk hOcur) $$ Hs3
    case hthree => exact rfl
    case hfour => exact rfl
    case hrow => exact rfl
    case hcv => exact ⟨_, rfl⟩
    case hmk => exact rfl
    icases Hs3 with ⟨%Ocur, %hOcur, Hs3⟩))

set_option maxHeartbeats 0 in
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp
        ∗ (Ins d m q ∗ bigSep Finset.univ fun k : Fin k0_t1_loop.trips => oLoc d ↦[chunkSet L k]{fullShare} m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_assemble L a0V (Memref.isWhole_whole _) a1V (Memref.isWhole_whole _) a2V (Memref.isWhole_whole _) t0V (Memref.isWhole_whole _) t1V (Memref.isWhole_whole _) t2V (Memref.isWhole_whole _) t3V (Memref.isWhole_whole _) t4V (Memref.isWhole_whole _) t5V (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) s8V (Memref.isWhole_whole _) s9V (Memref.isWhole_whole _) cc0_scoped0 cc0_scoped1 cc0_scoped2 cc0_scoped3 cc0_scoped4 cc0_scoped5 cc0_scoped6 cc0_scoped7 cc0_scoped8 cc0_scoped9)
          fun _ => iprop((Ins d m q ∗ bigSep Finset.univ fun k : Fin k0_t1_loop.trips => oLoc d ↦[chunkSet L k]{fullShare} GO m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_assemble_eq_skeleton]; unfold cc0__sc_assemble_skel
  rw [(K (F := F)).scopedBufs_V hF d (cV L) (jV L), SparseCore.Cfg.scopedSems0_V (Val := Elt F) d (cV L) (jV L), ownSems0_V, ownBufs_V]
  unfold Ins
  iintro ⟨#Hlv, -, ⟨⟨Ha0, Ha1, Ha2, Ht0, Ht1, Ht2, Ht3, Ht4, Ht5⟩, Hout⟩,
    ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, Hbufs⟩, ⟨Hm0, Hm1, Hm2, Hm3, Hm4, Hm5, Hm6, Hm7, Hm8, Hm9, Hsems⟩, HO⟩
  ihave Hmw := ((K (F := F)).mayWaits_none (thr := (V d (cV L) (jV L))) hO) $$ Hlv
  ihave Ha0' := (Entails.of_eq (pts_a0V (F := F) d (cV L) (jV L) q _).symm) $$ Ha0
  ihave Ha1' := (Entails.of_eq (pts_a1V (F := F) d (cV L) (jV L) q _).symm) $$ Ha1
  ihave Ha2' := (Entails.of_eq (pts_a2V (F := F) d (cV L) (jV L) q _).symm) $$ Ha2
  ihave Ht0' := (Entails.of_eq (pts_t0V (F := F) d (cV L) (jV L) q _).symm) $$ Ht0
  ihave Ht1' := (Entails.of_eq (pts_t1V (F := F) d (cV L) (jV L) q _).symm) $$ Ht1
  ihave Ht2' := (Entails.of_eq (pts_t2V (F := F) d (cV L) (jV L) q _).symm) $$ Ht2
  ihave Ht3' := (Entails.of_eq (pts_t3V (F := F) d (cV L) (jV L) q _).symm) $$ Ht3
  ihave Ht4' := (Entails.of_eq (pts_t4V (F := F) d (cV L) (jV L) q _).symm) $$ Ht4
  ihave Ht5' := (Entails.of_eq (pts_t5V (F := F) d (cV L) (jV L) q _).symm) $$ Ht5
  ihave Hs0' := (Entails.of_eq (pts_s0 (F := F) d (cV L) (jV L) _).symm) $$ Hs0
  ihave Hs1' := (Entails.of_eq (pts_s1 (F := F) d (cV L) (jV L) _).symm) $$ Hs1
  ihave Hs2' := (Entails.of_eq (pts_s2 (F := F) d (cV L) (jV L) _).symm) $$ Hs2
  ihave Hs3' := (Entails.of_eq (pts_s3 (F := F) d (cV L) (jV L) _).symm) $$ Hs3
  ihave Hs4' := (Entails.of_eq (pts_s4 (F := F) d (cV L) (jV L) _).symm) $$ Hs4
  ihave Hs5' := (Entails.of_eq (pts_s5 (F := F) d (cV L) (jV L) _).symm) $$ Hs5
  ihave Hs6' := (Entails.of_eq (pts_s6 (F := F) d (cV L) (jV L) _).symm) $$ Hs6
  ihave Hs7' := (Entails.of_eq (pts_s7 (F := F) d (cV L) (jV L) _).symm) $$ Hs7
  ihave Hs8' := (Entails.of_eq (pts_s8 (F := F) d (cV L) (jV L) _).symm) $$ Hs8
  ihave Hs9' := (Entails.of_eq (pts_s9 (F := F) d (cV L) (jV L) _).symm) $$ Hs9
  sl_exec
  simp only [View.write_whole_univ]
  sl_for (inv d L m O W q) $$ [Hmw Ha0' Ha1' Ha2' Hs4' Hs5' Hs6' Hs7' Hs8' Hs9' Hs0' Hs1' Hs2' Hs3' Hm0 Hm1 Hm2 Hm3 Hm4 Hm5 Hm6 Hm7 Hm8 Hm9 Hout HO]
  case region =>
    intro k u
    unfold inv
    rw [SparseCore.bigSep_erase' (Finset.mem_univ k), if_neg (Nat.lt_irrefl k.val)]
    iintro ⟨Hmw, Ha0, Ha1, Ha2, Hs4, Hs5, Hs6, Hs7, Hs8, Hs9, ⟨%g0, Hs0⟩, ⟨%g1, Hs1⟩, ⟨%g2, Hs2⟩, ⟨%g3, Hs3⟩, Hm0, Hm1, Hm2, Hm3, Hm4, Hm5, Hm6, Hm7, Hm8, Hm9, ⟨Hck, Hrest⟩, %W', %hW', HO⟩
    ihave Hck' := (Entails.of_eq (pts_chunk (F := F) d L (cV L) (jV L) k _).symm) $$ Hck
    sl_exec (disch := sl_chk)
    ihave Hs0 := (pts_remember (F := F) (RelA (F := F) d L (m (a0Loc d)) k) _ ?hA) $$ Hs0
    case hA => exact fun r c => copyA (F := F) d L k _ _ _ _ _ r c
    icases Hs0 with ⟨%A, %hA, Hs0⟩
    ihave Hs1 := (pts_remember (F := F) (RelC (F := F) d L (m (a1Loc d)) k) _ ?hC) $$ Hs1
    case hC => exact fun b p => copyC (F := F) d L k _ _ b p
    icases Hs1 with ⟨%C, %hC, Hs1⟩
    ihave Hs2 := (pts_remember (F := F) (RelB (F := F) d L (m (a2Loc d)) k) _ ?hB) $$ Hs2
    case hB => exact fun r c => copyB (F := F) d L k _ _ _ _ _ r c
    icases Hs2 with ⟨%B, %hB, Hs2⟩
    ihave Hs0 := (Entails.of_eq (acc_s0 (F := F) d (cV L) (jV L) _)) $$ Hs0
    ihave Hs1 := (Entails.of_eq (acc_s1 (F := F) d (cV L) (jV L) _)) $$ Hs1
    ihave Hs2 := (Entails.of_eq (acc_s2 (F := F) d (cV L) (jV L) _)) $$ Hs2
    ihave Hs3 := (Entails.of_eq (acc_s3 (F := F) d (cV L) (jV L) _)) $$ Hs3
    have hOcur : Cert.Chunk.Agrees (F := F) (Cert.Chunk.Done1 0) g3 A C B := Cert.Chunk.agrees_start _ _ _ _
    rename' g3 => Ocur
    grp1 0 0 inb_S480_S16_0
    grp1 1 16 inb_S480_S16_16
    grp1 2 32 inb_S480_S16_32
    grp1 3 48 inb_S480_S16_48
    grp1 4 64 inb_S480_S16_64
    grp1 5 80 inb_S480_S16_80
    grp1 6 96 inb_S480_S16_96
    grp1 7 112 inb_S480_S16_112
    grp1 8 128 inb_S480_S16_128
    grp1 9 144 inb_S480_S16_144
    grp1 10 160 inb_S480_S16_160
    grp1 11 176 inb_S480_S16_176
    grp1 12 192 inb_S480_S16_192
    grp1 13 208 inb_S480_S16_208
    grp1 14 224 inb_S480_S16_224
    grp1 15 240 inb_S480_S16_240
    grp1 16 256 inb_S480_S16_256
    grp1 17 272 inb_S480_S16_272
    grp1 18 288 inb_S480_S16_288
    grp1 19 304 inb_S480_S16_304
    grp1 20 320 inb_S480_S16_320
    grp1 21 336 inb_S480_S16_336
    grp1 22 352 inb_S480_S16_352
    grp1 23 368 inb_S480_S16_368
    grp1 24 384 inb_S480_S16_384
    grp1 25 400 inb_S480_S16_400
    grp1s 26 416 inb_S480_S16_416
    grp1 27 432 inb_S480_S16_432
    grp1 28 448 inb_S480_S16_448
    grp1 29 464 inb_S480_S16_464
    have hOcur := Cert.Chunk.agrees_1_2 (F := F) _ _ _ _ hOcur
    grp2 0 0 inb_S320_S16_0
    grp2 1 16 inb_S320_S16_16
    grp2 2 32 inb_S320_S16_32
    grp2 3 48 inb_S320_S16_48
    grp2 4 64 inb_S320_S16_64
    grp2 5 80 inb_S320_S16_80
    grp2 6 96 inb_S320_S16_96
    grp2 7 112 inb_S320_S16_112
    grp2 8 128 inb_S320_S16_128
    grp2 9 144 inb_S320_S16_144
    grp2s 10 160 inb_S320_S16_160
    grp2 11 176 inb_S320_S16_176
    grp2 12 192 inb_S320_S16_192
    grp2 13 208 inb_S320_S16_208
    grp2 14 224 inb_S320_S16_224
    grp2 15 240 inb_S320_S16_240
    grp2 16 256 inb_S320_S16_256
    grp2 17 272 inb_S320_S16_272
    grp2 18 288 inb_S320_S16_288
    grp2 19 304 inb_S320_S16_304
    have hOcur := Cert.Chunk.agrees_2_3 (F := F) _ _ _ _ hOcur
    grp3 0 0 inb_S160_S16_0
    sl_exec (disch := sl_chk)
    grp3s 1 16 inb_S160_S16_16
    sl_exec (disch := sl_chk)
    grp3 2 32 inb_S160_S16_32
    sl_exec (disch := sl_chk)
    grp3 3 48 inb_S160_S16_48
    sl_exec (disch := sl_chk)
    grp3s 4 64 inb_S160_S16_64
    sl_exec (disch := sl_chk)
    grp3 5 80 inb_S160_S16_80
    sl_exec (disch := sl_chk)
    grp3 6 96 inb_S160_S16_96
    sl_exec (disch := sl_chk)
    grp3s 7 112 inb_S160_S16_112
    sl_exec (disch := sl_chk)
    grp3 8 128 inb_S160_S16_128
    sl_exec (disch := sl_chk)
    grp3 9 144 inb_S160_S16_144
    have hfin : Ocur = Cert.Spec.Gv (F := F) A C B := Cert.Chunk.agrees_done (F := F) _ _ _ _ hOcur
    ihave Hs0 := (Entails.of_eq (acc_s0 (F := F) d (cV L) (jV L) _).symm) $$ Hs0
    ihave Hs1 := (Entails.of_eq (acc_s1 (F := F) d (cV L) (jV L) _).symm) $$ Hs1
    ihave Hs2 := (Entails.of_eq (acc_s2 (F := F) d (cV L) (jV L) _).symm) $$ Hs2
    ihave Hs3 := (Entails.of_eq (acc_s3 (F := F) d (cV L) (jV L) _).symm) $$ Hs3
    sl_exec (disch := sl_chk)
    sl_step
    -- the chunk, back at the device's location, holds the specification on its sixteen rows
    ihave Hck := (Entails.of_eq (pts_chunk (F := F) d L (cV L) (jV L) k _)) $$ Hck'
    ihave Hck := (Entails.of_eq (pointsTo_congr (g := GO m d) ?hcong)) $$ Hck
    case hcong =>
      exact copyOutW_of (F := F) d L k _ _ _ (m (a0Loc d)) (m (a1Loc d)) (m (a2Loc d)) A C B hA hC hB Ocur hfin (m (oLoc d)) _ rfl
    isplitl [Hmw]; · iexact Hmw
    isplitl [Ha0]; · iexact Ha0
    isplitl [Ha1]; · iexact Ha1
    isplitl [Ha2]; · iexact Ha2
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs0]; · iexists _; iexact Hs0
    isplitl [Hs1]; · iexists _; iexact Hs1
    isplitl [Hs2]; · iexists _; iexact Hs2
    isplitl [Hs3]; · iexists _; iexact Hs3
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hck Hrest]
    · iapply (chunks_fold (F := F) d L k (m (oLoc d)) (GO m d))
      isplitl [Hck]; · iexact Hck
      iexact Hrest
    iexists _; isplitr
    on_goal 2 => iexact HO
    ipureintro; exact ins_ok (ins_ok (ins_ok (ins_ok hW' _) _) _) _
  · unfold inv
    isplitr; · iexact Hmw
    isplitl [Ha0']; · iexact Ha0'
    isplitl [Ha1']; · iexact Ha1'
    isplitl [Ha2']; · iexact Ha2'
    isplitl [Hs4']
    · iapply (Entails.of_eq (pointsTo_congr (g := TS0 (F := F) d (cV L) (jV L)) ?h4)) $$ Hs4'
      case h4 => exact fun j _ => tcopy0 (F := F) d (cV L) (jV L) j
    isplitl [Hs5']
    · iapply (Entails.of_eq (pointsTo_congr (g := TS1 (F := F) d (cV L) (jV L)) ?h5)) $$ Hs5'
      case h5 => exact fun j _ => tcopy1 (F := F) d (cV L) (jV L) j
    isplitl [Hs6']
    · iapply (Entails.of_eq (pointsTo_congr (g := TS2 (F := F) d (cV L) (jV L)) ?h6)) $$ Hs6'
      case h6 => exact fun j _ => tcopy2 (F := F) d (cV L) (jV L) j
    isplitl [Hs7']
    · iapply (Entails.of_eq (pointsTo_congr (g := TS3 (F := F) d (cV L) (jV L)) ?h7)) $$ Hs7'
      case h7 => exact fun j _ => tcopy3 (F := F) d (cV L) (jV L) j
    isplitl [Hs8']
    · iapply (Entails.of_eq (pointsTo_congr (g := TS4 (F := F) d (cV L) (jV L)) ?h8)) $$ Hs8'
      case h8 => exact fun j _ => tcopy4 (F := F) d (cV L) (jV L) j
    isplitl [Hs9']
    · iapply (Entails.of_eq (pointsTo_congr (g := TS5 (F := F) d (cV L) (jV L)) ?h9)) $$ Hs9'
      case h9 => exact fun j _ => tcopy5 (F := F) d (cV L) (jV L) j
    isplitl [Hs0']; · iexists _; iexact Hs0'
    isplitl [Hs1']; · iexists _; iexact Hs1'
    isplitl [Hs2']; · iexists _; iexact Hs2'
    isplitl [Hs3']; · iexists _; iexact Hs3'
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hout]
    · iapply (chunks_start (F := F) d L (m (oLoc d)) (GO m d)); iexact Hout
    iexists _; isplitr
    on_goal 2 => iexact HO
    ipureintro; exact ins_ok (ins_ok (ins_ok (ins_ok (ins_ok (ins_ok (fun p hp => Or.inl hp) _) _) _) _) _) _
  iintro %acc HI
  unfold inv
  icases HI with ⟨-, Ha0, Ha1, Ha2, Hs4, Hs5, Hs6, Hs7, Hs8, Hs9, ⟨%g0, Hs0⟩, ⟨%g1, Hs1⟩, ⟨%g2, Hs2⟩, ⟨%g3, Hs3⟩, Hm0, Hm1, Hm2, Hm3, Hm4, Hm5, Hm6, Hm7, Hm8, Hm9, Hout, %W', %hW', HO⟩
  sl_exec
  sl_step
  isplitl [Ha0 Ha1 Ha2 Ht0' Ht1' Ht2' Ht3' Ht4' Ht5' Hout]
  · isplitl [Ha0 Ha1 Ha2 Ht0' Ht1' Ht2' Ht3' Ht4' Ht5']
    · isplitl [Ha0]; · iapply (Entails.of_eq (pts_a0V (F := F) d (cV L) (jV L) q _)); iexact Ha0
      isplitl [Ha1]; · iapply (Entails.of_eq (pts_a1V (F := F) d (cV L) (jV L) q _)); iexact Ha1
      isplitl [Ha2]; · iapply (Entails.of_eq (pts_a2V (F := F) d (cV L) (jV L) q _)); iexact Ha2
      isplitl [Ht0']; · iapply (Entails.of_eq (pts_t0V (F := F) d (cV L) (jV L) q _)); iexact Ht0'
      isplitl [Ht1']; · iapply (Entails.of_eq (pts_t1V (F := F) d (cV L) (jV L) q _)); iexact Ht1'
      isplitl [Ht2']; · iapply (Entails.of_eq (pts_t2V (F := F) d (cV L) (jV L) q _)); iexact Ht2'
      isplitl [Ht3']; · iapply (Entails.of_eq (pts_t3V (F := F) d (cV L) (jV L) q _)); iexact Ht3'
      isplitl [Ht4']; · iapply (Entails.of_eq (pts_t4V (F := F) d (cV L) (jV L) q _)); iexact Ht4'
      iapply (Entails.of_eq (pts_t5V (F := F) d (cV L) (jV L) q _)); iexact Ht5'
    · iapply (chunks_end (F := F) d L (m (oLoc d)) (GO m d)); iexact Hout
  isplitl [Hs0 Hs1 Hs2 Hs3 Hs4 Hs5 Hs6 Hs7 Hs8 Hs9 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    iexact Hbufs
  isplitl [Hm0 Hm1 Hm2 Hm3 Hm4 Hm5 Hm6 Hm7 Hm8 Hm9 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    iexact Hsems
  iexists W'; isplitr
  · ipureintro; exact hW'
  · iexact HO

end Tile

end Cert.Proof.KW

end
-- ==== Proof.WordLaunch.lean ====
/-
  The launch of the word-level kernel: from one tile's task to every weakly fair execution of the device's threads.

  The launch theorem asks for: the task's obligation at every tile of the grid (the body theorem at the tile's coordinates,
  at the tile's thirty-second share of the read-only arrays and its own eight chunks of the result); how a SparseCore's
  holdings split among its sixteen tiles and gather back (its half share of the nine read-only arrays is the sixteen
  leaves of the fourfold halving, its chunks are its tiles' chunks); the launch element (the handshakes' rounds; the
  kernel has no protocol of its own); and @main on the TensorCore: six constants written into the six tables, the call
  handing the two SparseCores the halves of the read-only arrays and the result's chunks and taking them back at the
  specification, the return. The claim read off the final memory: the result array is the specification at the arguments'
  launch contents, and the four arguments are unchanged.
-/
import proofs.«214040_g26508538151745_cont_9to1_1151_18_alg».proof.Proof.WordPay
import proofs.«214040_g26508538151745_cont_9to1_1151_18_alg».proof.Proof.WordBody

noncomputable section

namespace Cert.Proof.KW

open Cert.Kernel Cert.Kernel.Gen Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "a0V" => (Memref.whole Cert.Kernel.main_arg0_scv : Memref Cert.Kernel.sig Kind.scVector Space.hbm Cert.Kernel.S4096x10x3 EltTy.f32)
local notation "a1V" => (Memref.whole Cert.Kernel.main_arg1_scv : Memref Cert.Kernel.sig Kind.scVector Space.hbm Cert.Kernel.S4096x10 EltTy.f32)
local notation "a2V" => (Memref.whole Cert.Kernel.main_arg2_scv : Memref Cert.Kernel.sig Kind.scVector Space.hbm Cert.Kernel.S4096x10x2 EltTy.f32)
local notation "t0V" => (Memref.whole Cert.Kernel.main_c_scv : Memref Cert.Kernel.sig Kind.scVector Space.hbm Cert.Kernel.S480 EltTy.i32)
local notation "t1V" => (Memref.whole Cert.Kernel.main_c_0_scv : Memref Cert.Kernel.sig Kind.scVector Space.hbm Cert.Kernel.S480 EltTy.i32)
local notation "t2V" => (Memref.whole Cert.Kernel.main_c_1_scv : Memref Cert.Kernel.sig Kind.scVector Space.hbm Cert.Kernel.S320 EltTy.i32)
local notation "t3V" => (Memref.whole Cert.Kernel.main_c_2_scv : Memref Cert.Kernel.sig Kind.scVector Space.hbm Cert.Kernel.S320 EltTy.i32)
local notation "t4V" => (Memref.whole Cert.Kernel.main_c_3_scv : Memref Cert.Kernel.sig Kind.scVector Space.hbm Cert.Kernel.S160 EltTy.i32)
local notation "t5V" => (Memref.whole Cert.Kernel.main_c_4_scv : Memref Cert.Kernel.sig Kind.scVector Space.hbm Cert.Kernel.S160 EltTy.i32)
local notation "oV" => (Memref.whole Cert.Kernel.main_v0_scv : Memref Cert.Kernel.sig Kind.scVector Space.hbm Cert.Kernel.S4096x10x7 EltTy.f32)
local notation "s0V" => (Memref.whole Cert.Kernel.cc0_scratch0 : Memref Cert.Kernel.sig Kind.scVector Space.vmem Cert.Kernel.S160x3 EltTy.f32)
local notation "s1V" => (Memref.whole Cert.Kernel.cc0_scratch1 : Memref Cert.Kernel.sig Kind.scVector Space.vmem Cert.Kernel.S16x10 EltTy.f32)
local notation "s2V" => (Memref.whole Cert.Kernel.cc0_scratch2 : Memref Cert.Kernel.sig Kind.scVector Space.vmem Cert.Kernel.S160x2 EltTy.f32)
local notation "s3V" => (Memref.whole Cert.Kernel.cc0_scratch3 : Memref Cert.Kernel.sig Kind.scVector Space.vmem Cert.Kernel.S160x7 EltTy.f32)
local notation "s4V" => (Memref.whole Cert.Kernel.cc0_scratch4 : Memref Cert.Kernel.sig Kind.scVector Space.vmem Cert.Kernel.S480 EltTy.i32)
local notation "s5V" => (Memref.whole Cert.Kernel.cc0_scratch5 : Memref Cert.Kernel.sig Kind.scVector Space.vmem Cert.Kernel.S480 EltTy.i32)
local notation "s6V" => (Memref.whole Cert.Kernel.cc0_scratch6 : Memref Cert.Kernel.sig Kind.scVector Space.vmem Cert.Kernel.S320 EltTy.i32)
local notation "s7V" => (Memref.whole Cert.Kernel.cc0_scratch7 : Memref Cert.Kernel.sig Kind.scVector Space.vmem Cert.Kernel.S320 EltTy.i32)
local notation "s8V" => (Memref.whole Cert.Kernel.cc0_scratch8 : Memref Cert.Kernel.sig Kind.scVector Space.vmem Cert.Kernel.S160 EltTy.i32)
local notation "s9V" => (Memref.whole Cert.Kernel.cc0_scratch9 : Memref Cert.Kernel.sig Kind.scVector Space.vmem Cert.Kernel.S160 EltTy.i32)

variable [FloatOps F] (m : (ℓ : Loc nD τ sig) → Buf (Elt F) ℓ) (ρ : Dev nD → PrngReg)

/-! ## The payload record's fields, as equations -/

theorem P_st (d : Dev nD) (c : Fin ((K (F := F)).nCore 0)) :
    (P m).st 0 d c = iprop(Ins d m (coreShare (Fin.cast nCore_zero c)) ∗ bigSep Finset.univ fun i : Fin 16 => outTile d (Fin.cast nCore_zero c) i (m (oLoc d))) := rfl
theorem P_dn (d : Dev nD) (c : Fin ((K (F := F)).nCore 0)) :
    (P m).dn 0 d c = iprop(Ins d m (coreShare (Fin.cast nCore_zero c)) ∗ bigSep Finset.univ fun i : Fin 16 => outTile d (Fin.cast nCore_zero c) i (GO m d)) := rfl
theorem P_go (d : Dev nD) (c : Fin ((K (F := F)).nCore 0)) (i : Fin ((K (F := F)).nSub 0)) :
    (P m).go 0 d c i = iprop(Ins d m (tileShare (Fin.cast nCore_zero c) (Fin.cast nSub_zero i)) ∗ outTile d (Fin.cast nCore_zero c) (Fin.cast nSub_zero i) (m (oLoc d))) := rfl
theorem P_td (d : Dev nD) (c : Fin ((K (F := F)).nCore 0)) (i : Fin ((K (F := F)).nSub 0)) :
    (P m).td 0 d c i = iprop(Ins d m (tileShare (Fin.cast nCore_zero c) (Fin.cast nSub_zero i)) ∗ outTile d (Fin.cast nCore_zero c) (Fin.cast nSub_zero i) (GO m d)) := rfl
theorem P_x (q : Fin 1) (thr : Thread nD τ) : (P m).x q thr = iprop(emp) := rfl

/-! ## The task's obligation -/

theorem defs₀_vector (c : Fin τ.nSC) (s : Fin τ.nSub) :
    defs₀ (F := F) (.scVector c s) 0 ()
      = SparseCore.onTile hcore0 hsub0 (fun c s => cc0__sc_assemble (coordsV c s)
          a0V (Memref.isWhole_whole _) a1V (Memref.isWhole_whole _) a2V (Memref.isWhole_whole _) t0V (Memref.isWhole_whole _) t1V (Memref.isWhole_whole _) t2V (Memref.isWhole_whole _) t3V (Memref.isWhole_whole _) t4V (Memref.isWhole_whole _) t5V (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) s8V (Memref.isWhole_whole _) s9V (Memref.isWhole_whole _) cc0_scoped0 cc0_scoped1 cc0_scoped2 cc0_scoped3 cc0_scoped4 cc0_scoped5 cc0_scoped6 cc0_scoped7 cc0_scoped8 cc0_scoped9) ⟨⟩ c s := rfl

omit [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation at call 0: tile `(c, i)` of the grid runs the body at its coordinates, at its share of the read-only
    arrays and its own chunks. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, P_x]
  exact (tile_body d (coordsV ⟨_, hc.1⟩ ⟨_, hc.2⟩) m hF O W hO (tileShare (Fin.cast nCore_zero c) (Fin.cast nSub_zero i))).trans
    (wp_mono frame _ _ fun _ => obl_post)

/-! ## A SparseCore's holdings among its tiles -/

omit [FloatOps F] in
/-- The read-only bundle at a share is the bundle at the share's left half beside the bundle at its right half. -/
theorem Ins_halves (d : Dev nD) : ∀ q, Ins d m q = iprop(Ins d m q.left ∗ Ins d m q.right) := by
  unfold Ins
  exact Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves) (fun _ => Cert.LibShares.pointsTo_halves))))))))

omit [FloatOps F] in
/-- A SparseCore's half of the read-only bundle is its sixteen tiles' shares of it. -/
theorem Ins_tiles (d : Dev nD) (c : Fin 2) :
    Ins d m (coreShare c) = bigSep Finset.univ fun i : Fin 16 => Ins d m (tileShare c i) := by
  rw [Cert.LibShares.leaves (fun q => Ins d m q) (Ins_halves m d) 4 (coreShare c)]
  exact bigSep_univ_equiv (finCongr (by decide : 16 = 2 ^ 4)) _

omit [FloatOps F] in
/-- The whole read-only bundle is the two SparseCores' halves of it. -/
theorem Ins_cores (d : Dev nD) :
    Ins d m fullShare = iprop(Ins d m (coreShare 0) ∗ Ins d m (coreShare 1)) := by
  rw [Cert.LibShares.leaves (fun q => Ins d m q) (Ins_halves m d) 1 fullShare,
    bigSep_univ_equiv (finCongr (by decide : 2 = 2 ^ 1)), bigSep_univ_two]
  rfl

omit [FloatOps F] in
theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

/-- SparseCore `c`'s holdings split into its sixteen tiles' and gather back from them: the half share of the read-only
    bundle is the sixteen leaves below it, the chunks are already grouped by tile. -/
theorem vecSplit : (K (F := F)).VecSplit' (P m) 0 := by
  intro d c
  simp only [P_st, P_dn, P_go, P_td]
  rw [bigSep_tasks (F := F) (fun i => iprop(Ins d m (tileShare (Fin.cast nCore_zero c) i) ∗ outTile d (Fin.cast nCore_zero c) i (m (oLoc d)))),
    bigSep_tasks (F := F) (fun i => iprop(Ins d m (tileShare (Fin.cast nCore_zero c) i) ∗ outTile d (Fin.cast nCore_zero c) i (GO m d))),
    bigSep_sep', bigSep_sep', Ins_tiles]
  iintro ⟨Hi, Ho⟩; imodintro
  isplitl [Hi Ho]
  · isplitl [Hi]; · iexact Hi
    iexact Ho
  iintro ⟨Hi, Ho⟩
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp (𝕄 F))) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp (𝕄 F)) = iprop((a0Loc d ↦{fullShare} W main_arg0) ∗ (a1Loc d ↦{fullShare} W main_arg1) ∗ (a2Loc d ↦{fullShare} W main_arg2)
      ∗ (a3Loc d ↦{fullShare} W main_arg3) ∗ (t0Loc d ↦{fullShare} W main_c) ∗ (t1Loc d ↦{fullShare} W main_c_0) ∗ (t2Loc d ↦{fullShare} W main_c_1)
      ∗ (t3Loc d ↦{fullShare} W main_c_2) ∗ (t4Loc d ↦{fullShare} W main_c_3) ∗ (t5Loc d ↦{fullShare} W main_c_4) ∗ (oLoc d ↦{fullShare} W main_v0)) := by
  unfold unscopedBufs
  rw [show (Finset.univ.filter fun b : Ref sig .tc => ¬ b.isScoped)
      = {main_arg0, main_arg1, main_arg2, main_arg3, main_c, main_c_0, main_c_1, main_c_2, main_c_3, main_c_4, main_v0} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`'s arrays. -/
def V0 (d : Dev nD) : Valuation τ sig (Elt F) := fun b => m (d, b)

omit [FloatOps F] in
/-- One array held whole. -/
theorem held_single (d : Dev nD) (b : DevRef τ sig) (W : Valuation τ sig (Elt F)) :
    (held (SparseCore.T d) {b} W : sProp (𝕄 F)) = ((d, b) : Loc nD τ sig) ↦{fullShare} W b := by
  unfold held; rw [bigSep_singleton]

omit [FloatOps F] in
/-- After a constant is written, its array holds the constant. -/
theorem held_const (d : Dev nD) (y : Ref sig .tc) (v : y.ty.Contents (Elt F))
    (hy : y.space ≠ .host ∧ (Proc.devRef .tc y : DevRef τ sig).isScoped = false) (W : Valuation τ sig (Elt F)) :
    (held (SparseCore.T d) {(Proc.devRef .tc y : DevRef τ sig)} ((StableHlo.nullary y v hy : HloOp τ sig (Elt F)).result W) : sProp (𝕄 F))
      = ((SparseCore.T d).loc y) ↦{fullShare} v := by
  rw [held_single, StableHlo.nullary_result]

/-- What @main leaves the claim: the four arguments at their launch contents, the result at the specification. -/
abbrev FIN (d : Dev nD) : sProp (𝕄 F) :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (oLoc d ↦{fullShare} GO m d))

/-- The result array whole is the two SparseCores' tiles' chunks. -/
theorem out_tiles (d : Dev nD) (f : Buf (Elt F) (oLoc d)) :
    (oLoc d ↦{fullShare} f : sProp (𝕄 F))
      = iprop((bigSep Finset.univ fun i : Fin 16 => outTile d 0 i f) ∗ (bigSep Finset.univ fun i : Fin 16 => outTile d 1 i f)) := by
  rw [out_split d f]
  exact bigSep_univ_two (fun c : Fin 2 => bigSep Finset.univ fun i : Fin 16 => outTile d c i f)

/-- What the call hands the two SparseCores: the read-only bundle and the result array, whole. -/
theorem st0_eq (d : Dev nD) : (bigSep Finset.univ fun c : Fin ((K (F := F)).nCore 0) => (P m).st 0 d c)
    = iprop(Ins d m fullShare ∗ (oLoc d ↦{fullShare} m (oLoc d))) := by
  simp only [P_st]
  rw [bigSep_cores (F := F) (fun c => iprop(Ins d m (coreShare c) ∗ bigSep Finset.univ fun i : Fin 16 => outTile d c i (m (oLoc d)))),
    bigSep_sep', bigSep_univ_two, bigSep_univ_two, ← Ins_cores, ← out_tiles]
/-- What it takes back: the bundle, and the result array at the specification. -/
theorem dn0_eq (d : Dev nD) : (bigSep Finset.univ fun c : Fin ((K (F := F)).nCore 0) => (P m).dn 0 d c)
    = iprop(Ins d m fullShare ∗ (oLoc d ↦{fullShare} GO m d)) := by
  simp only [P_dn]
  rw [bigSep_cores (F := F) (fun c => iprop(Ins d m (coreShare c) ∗ bigSep Finset.univ fun i : Fin 16 => outTile d c i (GO m d))),
    bigSep_sep', bigSep_univ_two, bigSep_univ_two, ← Ins_cores, ← out_tiles]

omit [FloatOps F] in
theorem Ins_eq (d : Dev nD) (q : PosShare TreeShare) : Ins d m q
    = iprop((a0Loc d ↦{q} m (a0Loc d)) ∗ (a1Loc d ↦{q} m (a1Loc d)) ∗ (a2Loc d ↦{q} m (a2Loc d))
      ∗ (t0Loc d ↦{q} TB0 d) ∗ (t1Loc d ↦{q} TB1 d) ∗ (t2Loc d ↦{q} TB2 d) ∗ (t3Loc d ↦{q} TB3 d) ∗ (t4Loc d ↦{q} TB4 d) ∗ (t5Loc d ↦{q} TB5 d)) := rfl

/-- @main on device `d`'s TensorCore: the six constants, each written into its table; the call, from the read-only arrays
    and the result array whole, back with the result at the specification; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ht0, Ht1, Ht2, Ht3, Ht4, Ht5, Ho⟩, -, -⟩, -⟩
  iapply (wp_hlo_within 𝒱 (SparseCore.T d) none Set.univ (op := StableHlo.nullary main_c (fun i => lit0 (S480.rowMajor i))) (S := {Proc.devRef .tc (main_c : Ref sig .tc)}) (Finset.Subset.refl _) (V := V0 m d)) $$ [Hb Ht0]
  · isplitl [Hb]; · iexact Hb
    rw [held_single]; iexact Ht0
  iintro ⟨Hb, Hh⟩
  ihave Ht0 := (Entails.of_eq (held_const (F := F) d main_c _ _ (V0 m d))) $$ Hh
  rw [wp_ret]; imodintro
  iapply (wp_hlo_within 𝒱 (SparseCore.T d) none Set.univ (op := StableHlo.nullary main_c_0 (fun i => lit1 (S480.rowMajor i))) (S := {Proc.devRef .tc (main_c_0 : Ref sig .tc)}) (Finset.Subset.refl _) (V := V0 m d)) $$ [Hb Ht1]
  · isplitl [Hb]; · iexact Hb
    rw [held_single]; iexact Ht1
  iintro ⟨Hb, Hh⟩
  ihave Ht1 := (Entails.of_eq (held_const (F := F) d main_c_0 _ _ (V0 m d))) $$ Hh
  rw [wp_ret]; imodintro
  iapply (wp_hlo_within 𝒱 (SparseCore.T d) none Set.univ (op := StableHlo.nullary main_c_1 (fun i => lit2 (S320.rowMajor i))) (S := {Proc.devRef .tc (main_c_1 : Ref sig .tc)}) (Finset.Subset.refl _) (V := V0 m d)) $$ [Hb Ht2]
  · isplitl [Hb]; · iexact Hb
    rw [held_single]; iexact Ht2
  iintro ⟨Hb, Hh⟩
  ihave Ht2 := (Entails.of_eq (held_const (F := F) d main_c_1 _ _ (V0 m d))) $$ Hh
  rw [wp_ret]; imodintro
  iapply (wp_hlo_within 𝒱 (SparseCore.T d) none Set.univ (op := StableHlo.nullary main_c_2 (fun i => lit3 (S320.rowMajor i))) (S := {Proc.devRef .tc (main_c_2 : Ref sig .tc)}) (Finset.Subset.refl _) (V := V0 m d)) $$ [Hb Ht3]
  · isplitl [Hb]; · iexact Hb
    rw [held_single]; iexact Ht3
  iintro ⟨Hb, Hh⟩
  ihave Ht3 := (Entails.of_eq (held_const (F := F) d main_c_2 _ _ (V0 m d))) $$ Hh
  rw [wp_ret]; imodintro
  iapply (wp_hlo_within 𝒱 (SparseCore.T d) none Set.univ (op := StableHlo.nullary main_c_3 (fun i => lit4 (S160.rowMajor i))) (S := {Proc.devRef .tc (main_c_3 : Ref sig .tc)}) (Finset.Subset.refl _) (V := V0 m d)) $$ [Hb Ht4]
  · isplitl [Hb]; · iexact Hb
    rw [held_single]; iexact Ht4
  iintro ⟨Hb, Hh⟩
  ihave Ht4 := (Entails.of_eq (held_const (F := F) d main_c_3 _ _ (V0 m d))) $$ Hh
  rw [wp_ret]; imodintro
  iapply (wp_hlo_within 𝒱 (SparseCore.T d) none Set.univ (op := StableHlo.nullary main_c_4 (fun i => lit5 (S160.rowMajor i))) (S := {Proc.devRef .tc (main_c_4 : Ref sig .tc)}) (Finset.Subset.refl _) (V := V0 m d)) $$ [Hb Ht5]
  · isplitl [Hb]; · iexact Hb
    rw [held_single]; iexact Ht5
  iintro ⟨Hb, Hh⟩
  ihave Ht5 := (Entails.of_eq (held_const (F := F) d main_c_4 _ _ (V0 m d))) $$ Hh
  rw [wp_ret]; imodintro
  -- the call
  iapply ((K (F := F)).wp_run (D (F := F)) 𝒱 (EH := EH) (P := P m) κ d 0) $$ [Hst Ha0 Ha1 Ha2 Ha3 Ht0 Ht1 Ht2 Ht3 Ht4 Ht5 Ho]
  isplitr; · iexact Hctx
  isplitl [Hst]; · iexact Hst
  isplitl [Ha0 Ha1 Ha2 Ht0 Ht1 Ht2 Ht3 Ht4 Ht5 Ho]
  · rw [st0_eq, Ins_eq]
    isplitl [Ha0 Ha1 Ha2 Ht0 Ht1 Ht2 Ht3 Ht4 Ht5]
    · isplitl [Ha0]; · iexact Ha0
      isplitl [Ha1]; · iexact Ha1
      isplitl [Ha2]; · iexact Ha2
      isplitl [Ht0]; · iexact Ht0
      isplitl [Ht1]; · iexact Ht1
      isplitl [Ht2]; · iexact Ht2
      isplitl [Ht3]; · iexact Ht3
      isplitl [Ht4]; · iexact Ht4
      iexact Ht5
    · iexact Ho
  iintro ⟨Hst, Hdn⟩
  ihave Hdn' := (Entails.of_eq (dn0_eq m d)) $$ Hdn
  icases Hdn' with ⟨Hins, Ho⟩
  ihave Hins' := (Entails.of_eq (Ins_eq m d fullShare)) $$ Hins
  icases Hins' with ⟨Ha0, Ha1, Ha2, -⟩
  imodintro
  isplitl [Hst]; · iexact Hst
  isplitl [Ha0]; · iexact Ha0
  isplitl [Ha1]; · iexact Ha1
  isplitl [Ha2]; · iexact Ha2
  isplitl [Ha3]; · iexact Ha3
  iexact Ho

def fq (d : Dev nD) (s' : Phys nD τ sig (Elt F)) : Prop :=
  s'.mem.mem (oLoc d) = GO m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp (𝕄 F)) := by
  iintro ⟨⟨H0, H1, H2, H3, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := oLoc d) (I := Finset.univ) (q := fullShare) (f := GO m d)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (oLoc c) = GO m c ∧ r.2.mem (a0Loc c) = m (a0Loc c) ∧ r.2.mem (a1Loc c) = m (a1Loc c)
    ∧ r.2.mem (a2Loc c) = m (a2Loc c) ∧ r.2.mem (a3Loc c) = m (a3Loc c)

/-- Every weakly fair execution of the device's threads terminates with the result array at the specification of the
    arguments' launch contents and the four arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KW

end
-- ==== Proof.IdealCommon.lean ====
/-
  The idealized kernel as the SparseCore launch theorem sees it, and the vocabulary the body and launch modules share.

  The program is one vector-subcore kernel on both SparseCores: 2 x 16 = 32 tiles. Tile (core c, subcore s) is worker
  w = 2 s + c and owns batch rows [128 w, 128 w + 128) of the result, which it fills in eight chunks of sixteen rows. It
  only READS the three argument arrays and the six constant index tables, so each of those nine arrays is handed to the
  tiles as thirty-two equal shares of the whole array; the result array is handed out as 32 x 8 disjoint chunks.
  The kernel's transfers are all local copies each waited for before the next is issued, so the ghost state is the
  launch handshakes' beside the transfers' counters and needs no schedule.
-/
import proofs.«214040_g26508538151745_cont_9to1_1151_18_alg».proof.Defs
import proofs.«214040_g26508538151745_cont_9to1_1151_18_alg».proof.Proof.Gen.KernelIdeal
import proofs.«214040_g26508538151745_cont_9to1_1151_18_alg».proof.Proof.KernelIdealSkeleton
import proofs.«214040_g26508538151745_cont_9to1_1151_18_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev 𝕄 (F : FTy → Type) : Type := MT nD τ sig (HIx 1) (Elt F) ℕ UU ℕ

abbrev EH : Emb UH (𝕄 F) := embL

/-! ## Locations -/

/-- The three arguments, the six constant tables and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev t0Loc (d : Dev nD) : Loc nD τ sig := (SparseCore.T d).loc main_c
abbrev t1Loc (d : Dev nD) : Loc nD τ sig := (SparseCore.T d).loc main_c_0
abbrev t2Loc (d : Dev nD) : Loc nD τ sig := (SparseCore.T d).loc main_c_1
abbrev t3Loc (d : Dev nD) : Loc nD τ sig := (SparseCore.T d).loc main_c_2
abbrev t4Loc (d : Dev nD) : Loc nD τ sig := (SparseCore.T d).loc main_c_3
abbrev t5Loc (d : Dev nD) : Loc nD τ sig := (SparseCore.T d).loc main_c_4
abbrev oLoc (d : Dev nD) : Loc nD τ sig := (SparseCore.T d).loc main_v0

/-! ## The constant tables, the read-only bundle and the target -/

/-- The six constant index tables, as @main's constants write them: entry `i` the table's literal at `i`'s row-major position. -/
abbrev TB0 (d : Dev nD) : Buf (Elt F) (t0Loc d) := fun i => lit0 (S480.rowMajor i)
abbrev TB1 (d : Dev nD) : Buf (Elt F) (t1Loc d) := fun i => lit1 (S480.rowMajor i)
abbrev TB2 (d : Dev nD) : Buf (Elt F) (t2Loc d) := fun i => lit2 (S320.rowMajor i)
abbrev TB3 (d : Dev nD) : Buf (Elt F) (t3Loc d) := fun i => lit3 (S320.rowMajor i)
abbrev TB4 (d : Dev nD) : Buf (Elt F) (t4Loc d) := fun i => lit4 (S160.rowMajor i)
abbrev TB5 (d : Dev nD) : Buf (Elt F) (t5Loc d) := fun i => lit5 (S160.rowMajor i)
/-- The same contents, in a tile's own copy of the table. -/
abbrev TS0 (d : Dev nD) (c : Fin τ.nSC) (i : Fin τ.nSub) : Buf (Elt F) ((V d c i).loc cc0_scratch4) := fun j => lit0 (S480.rowMajor j)
abbrev TS1 (d : Dev nD) (c : Fin τ.nSC) (i : Fin τ.nSub) : Buf (Elt F) ((V d c i).loc cc0_scratch5) := fun j => lit1 (S480.rowMajor j)
abbrev TS2 (d : Dev nD) (c : Fin τ.nSC) (i : Fin τ.nSub) : Buf (Elt F) ((V d c i).loc cc0_scratch6) := fun j => lit2 (S320.rowMajor j)
abbrev TS3 (d : Dev nD) (c : Fin τ.nSC) (i : Fin τ.nSub) : Buf (Elt F) ((V d c i).loc cc0_scratch7) := fun j => lit3 (S320.rowMajor j)
abbrev TS4 (d : Dev nD) (c : Fin τ.nSC) (i : Fin τ.nSub) : Buf (Elt F) ((V d c i).loc cc0_scratch8) := fun j => lit4 (S160.rowMajor j)
abbrev TS5 (d : Dev nD) (c : Fin τ.nSC) (i : Fin τ.nSub) : Buf (Elt F) ((V d c i).loc cc0_scratch9) := fun j => lit5 (S160.rowMajor j)

/-- Share `q` of the nine arrays a task only reads: the three arguments at their launch contents `m`, the six tables. -/
def Ins (d : Dev nD) (m : (ℓ : Loc nD τ sig) → Buf (Elt F) ℓ) (q : PosShare TreeShare) : sProp (𝕄 F) :=
  iprop((a0Loc d ↦{q} m (a0Loc d)) ∗ (a1Loc d ↦{q} m (a1Loc d)) ∗ (a2Loc d ↦{q} m (a2Loc d))
    ∗ (t0Loc d ↦{q} TB0 d) ∗ (t1Loc d ↦{q} TB1 d) ∗ (t2Loc d ↦{q} TB2 d) ∗ (t3Loc d ↦{q} TB3 d) ∗ (t4Loc d ↦{q} TB4 d) ∗ (t5Loc d ↦{q} TB5 d))

/-- The specification at the launch contents of the three arguments: what the result array is to hold. -/
def GO [FloatOps F] (m : (ℓ : Loc nD τ sig) → Buf (Elt F) ℓ) (d : Dev nD) : Buf (Elt F) (oLoc d) :=
  Cert.Spec.G (F := F) (m (a0Loc d)) (m (a1Loc d)) (m (a2Loc d))

end Cert.Proof.KI

end
-- ==== Proof.IdealChunks.lean ====
/-
  The result array as the tiles' chunks.

  Tile L = (core L 0 < 2, subcore L 1 < 16) is worker w = 2 (L 1) + (L 0). Its chunk k < 8 is the sixteen batch rows
  [16 (8 w + k), 16 (8 w + k) + 16) of the [4096, 10, 7] result, whole on the other two axes. The 2 x 16 x 8 = 256 chunks are
  pairwise disjoint and cover the array (every batch row b < 4096 lies in chunk (b / 16) % 8 of worker b / 128), so the
  full points-to of the result is the separating conjunction, over the tiles and their chunks, of the points-to's of the chunks.
-/
import proofs.«214040_g26508538151745_cont_9to1_1151_18_alg».proof.Proof.IdealCommon

noncomputable section

namespace Cert.Proof.KI

open Cert.KernelIdeal Cert.KernelIdeal.Gen Cert.KernelIdeal.GenP

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-- The coordinates of the tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `k` of tile `L`, as the kernel slices it out of the result array. -/
abbrev oChunk (L : grid0.Coords) (k : Fin k0_t1_loop.trips) : Memref sig .scVector .hbm S16x10x7 .f32 :=
  (Memref.whole main_v0_scv).slice (Rect.unit (s := S4096x10x7) (k0_off4 L k) S16x10x7.size (k0_off4_inb L k)) (fun _ => rfl)

/-- The elements of the result array under chunk `k` of tile `L`. -/
abbrev chunkSet (L : grid0.Coords) (k : Fin k0_t1_loop.trips) : Finset S4096x10x7.Idx := (oChunk L k).view.set

/-- Each tile makes eight trips. -/
theorem trips_eq : k0_t1_loop.trips = 8 := by decide

/-- A chunk is sixteen consecutive batch rows, whole on the other axes. -/
theorem mem_chunkSet (L : grid0.Coords) (k : Fin k0_t1_loop.trips) (j : S4096x10x7.Idx) :
    j ∈ chunkSet L k ↔ 16 * (8 * (2 * (L 1).val + (L 0).val) + k.val) ≤ (j 0).val
      ∧ (j 0).val < 16 * (8 * (2 * (L 1).val + (L 0).val) + k.val) + 16 := by
  show j ∈ ((View.whole (main_v0_scv : Ref sig .scVector)).slice
      (Rect.unit (s := S4096x10x7) (k0_off4 L k) S16x10x7.size (k0_off4_inb L k))).set ↔ _
  rw [View.set_slice_whole, Rect.mem_set_unit, k0_off4_eq]
  have h1 : (j 1).val < 10 := (j 1).isLt
  have h2 : (j 2).val < 7 := (j 2).isLt
  constructor
  · intro h
    have h0 := h 0
    simp only [Matrix.cons_val_zero] at h0
    omega
  · intro h a
    match a with
    | ⟨0, _⟩ =>
      show 256 * (L 1).val + 128 * (L 0).val + 16 * k.val ≤ (j 0).val ∧ (j 0).val < 256 * (L 1).val + 128 * (L 0).val + 16 * k.val + 16
      omega
    | ⟨1, _⟩ =>
      show 0 ≤ (j 1).val ∧ (j 1).val < 0 + 10
      omega
    | ⟨2, _⟩ =>
      show 0 ≤ (j 2).val ∧ (j 2).val < 0 + 7
      omega

/-- The chunks, numbered by core, subcore and trip. -/
abbrev chunkOf (t : Fin (grid0.bound 0) × Fin (grid0.bound 1) × Fin k0_t1_loop.trips) : Finset S4096x10x7.Idx :=
  chunkSet (coordsV t.1 t.2.1) t.2.2

/-- Different chunks share no element: the chunk's first batch row, divided by sixteen, is 8 (2 s + c) + k, which
    determines k < 8, then c < 2 and s. -/
theorem chunks_disjoint : ∀ t ∈ (Finset.univ : Finset (Fin (grid0.bound 0) × Fin (grid0.bound 1) × Fin k0_t1_loop.trips)),
    ∀ t' ∈ (Finset.univ : Finset (Fin (grid0.bound 0) × Fin (grid0.bound 1) × Fin k0_t1_loop.trips)),
    t ≠ t' → Disjoint (chunkOf t) (chunkOf t') := by
  intro t _ t' _ hne
  rw [Finset.disjoint_left]
  intro j hj hj'
  rw [mem_chunkSet] at hj hj'
  apply hne
  obtain ⟨c, s, k⟩ := t
  obtain ⟨c', s', k'⟩ := t'
  have hc : c.val < 2 := c.isLt
  have hc' : c'.val < 2 := c'.isLt
  have hk : k.val < 8 := Nat.lt_of_lt_of_le k.isLt (le_of_eq trips_eq)
  have hk' : k'.val < 8 := Nat.lt_of_lt_of_le k'.isLt (le_of_eq trips_eq)
  have e0 : ∀ (c : Fin (grid0.bound 0)) (s : Fin (grid0.bound 1)), ((coordsV c s) 0).val = c.val := fun _ _ => rfl
  have e1 : ∀ (c : Fin (grid0.bound 0)) (s : Fin (grid0.bound 1)), ((coordsV c s) 1).val = s.val := fun _ _ => rfl
  simp only [e0, e1] at hj hj'
  have hcc : c = c' := Fin.ext (by omega)
  have hss : s = s' := Fin.ext (by omega)
  have hkk : k = k' := Fin.ext (by omega)
  rw [hcc, hss, hkk]

/-- Every element of the result lies in a chunk. -/
theorem chunks_cover :
    (Finset.univ : Finset (Fin (grid0.bound 0) × Fin (grid0.bound 1) × Fin k0_t1_loop.trips)).biUnion chunkOf = Finset.univ := by
  ext j
  simp only [Finset.mem_biUnion, Finset.mem_univ, true_and, iff_true]
  have h0 : (j 0).val < 4096 := (j 0).isLt
  refine ⟨(⟨(j 0).val / 128 % 2, by show _ < 2; omega⟩, ⟨(j 0).val / 256, by show _ < 16; omega⟩,
    ⟨(j 0).val / 16 % 8, by rw [trips_eq]; omega⟩), ?_⟩
  rw [mem_chunkSet]
  show 16 * (8 * (2 * ((j 0).val / 256) + (j 0).val / 128 % 2) + (j 0).val / 16 % 8) ≤ (j 0).val
    ∧ (j 0).val < 16 * (8 * (2 * ((j 0).val / 256) + (j 0).val / 128 % 2) + (j 0).val / 16 % 8) + 16
  omega

/-- **The full points-to of the result is the separating conjunction of its 2 x 16 x 8 chunks' points-to's.** -/
theorem out_split (d : Dev nD) (f : Buf (Elt F) (oLoc d)) :
    (oLoc d ↦{fullShare} f : sProp (𝕄 F))
      = bigSep Finset.univ fun c : Fin (grid0.bound 0) => bigSep Finset.univ fun s : Fin (grid0.bound 1) =>
          bigSep Finset.univ fun k : Fin k0_t1_loop.trips => oLoc d ↦[chunkSet (coordsV c s) k]{fullShare} f := by
  have h : (oLoc d ↦{fullShare} f : sProp (𝕄 F))
      = bigSep Finset.univ fun t : Fin (grid0.bound 0) × Fin (grid0.bound 1) × Fin k0_t1_loop.trips =>
          oLoc d ↦[chunkOf t]{fullShare} f := by
    rw [← pointsTo_biUnion Finset.univ (ℓ := oLoc d) chunkOf chunks_disjoint, chunks_cover]; try rfl
  rw [h, bigSep_univ_prod]
  refine bigSep_congr fun c _ => ?_
  rw [bigSep_univ_prod]

end Cert.Proof.KI

end
-- ==== Proof.IdealPay.lean ====
/-
  What the launch handshakes of the idealized kernel carry.

  The call hands SparseCore c one half of every read-only array (the three arguments, the six tables) and the chunks of
  the result that its sixteen tiles own, and takes them back with the chunks at the specification. The sequencer hands tile
  (c, i) a sixteenth of its half (a thirty-second of each array) and the tile's own eight chunks. The kernel has no
  protocol of its own beyond its local transfers, so the threads get nothing else.
-/
import proofs.«214040_g26508538151745_cont_9to1_1151_18_alg».proof.Proof.IdealChunks
import proofs.«214040_g26508538151745_cont_9to1_1151_18_alg».proof.Proof.LibShares

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem bound_zero : grid0.bound 0 = 2 := rfl
theorem bound_one : grid0.bound 1 = 16 := rfl

/-- SparseCore `c`'s half of a full share, and tile `(c, i)`'s sixteenth of that half. -/
def coreShare (c : Fin 2) : PosShare TreeShare := Cert.LibShares.leaf 1 fullShare (Fin.cast (by decide) c)
def tileShare (c : Fin 2) (i : Fin 16) : PosShare TreeShare := Cert.LibShares.leaf 4 (coreShare c) (Fin.cast (by decide) i)

/-- Tile `(c, i)` as the kernel's grid names it. -/
abbrev tileL (c : Fin 2) (i : Fin 16) : grid0.Coords := coordsV (Fin.cast bound_zero.symm c) (Fin.cast bound_one.symm i)

/-- The eight chunks of the result that tile `(c, i)` owns, all read through the one whole-array function `f`. -/
def outTile (d : Dev nD) (c : Fin 2) (i : Fin 16) (f : Buf (Elt F) (oLoc d)) : sProp (𝕄 F) :=
  bigSep Finset.univ fun k : Fin k0_t1_loop.trips => oLoc d ↦[chunkSet (tileL c i) k]{fullShare} f

variable [FloatOps F] (m : (ℓ : Loc nD τ sig) → Buf (Elt F) ℓ)

def P : (K (F := F)).Pay (nD := nD) (Val := Elt F) (Name := ℕ) (U := UU) where
  st := fun q d c => match q with
    | 0 => iprop(Ins d m (coreShare (Fin.cast nCore_zero c)) ∗ bigSep Finset.univ fun i : Fin 16 => outTile d (Fin.cast nCore_zero c) i (m (oLoc d)))
  dn := fun q d c => match q with
    | 0 => iprop(Ins d m (coreShare (Fin.cast nCore_zero c)) ∗ bigSep Finset.univ fun i : Fin 16 => outTile d (Fin.cast nCore_zero c) i (GO m d))
  go := fun q d c i => match q with
    | 0 => iprop(Ins d m (tileShare (Fin.cast nCore_zero c) (Fin.cast nSub_zero i)) ∗ outTile d (Fin.cast nCore_zero c) (Fin.cast nSub_zero i) (m (oLoc d)))
  td := fun q d c i => match q with
    | 0 => iprop(Ins d m (tileShare (Fin.cast nCore_zero c) (Fin.cast nSub_zero i)) ∗ outTile d (Fin.cast nCore_zero c) (Fin.cast nSub_zero i) (GO m d))
  x := fun _ _ => iprop(emp)

instance Ins_storable (d : Dev nD) (q : PosShare TreeShare) : BI.Storable (upEmb : UEmb _ (𝕄 F)) (Ins d m q) := by
  unfold Ins; infer_instance
instance outTile_storable (d : Dev nD) (c : Fin 2) (i : Fin 16) (f : Buf (Elt F) (oLoc d)) : BI.Storable (upEmb : UEmb _ (𝕄 F)) (outTile d c i f) := by
  unfold outTile; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KI

end
-- ==== Proof.IdealViews.lean ====
/-
  What one tile's trip reads and writes through its views, index by index.

  (A) The six index tables: a sixteen-lane load at offset o of a table copy holding the literal table reads, at lane x, the
      table's entry o + x, which is (o + x) / 3, (o + x) % 3, (o + x) / 2, (o + x) % 2, (o + x) / 10, (o + x) % 10.
  (B) The three copies in: the staging tables hold the chunk's sixteen batch rows of the arguments, the [160, c] tables by
      row-major regrouping of [16, 10, c]: staging row r is candidate r % 10 of the chunk's batch row r / 10.
  (C) The copy out: the chunk of the result written from a staging table equal to the chunk's target `Cert.Spec.Gv` agrees
      with the whole target `Cert.Spec.G` on the chunk.
-/
import proofs.«214040_g26508538151745_cont_9to1_1151_18_alg».proof.Proof.IdealChunks
import proofs.«214040_g26508538151745_cont_9to1_1151_18_alg».proof.Proof.Chunk

noncomputable section

namespace Cert.Proof.KI

open Cert.KernelIdeal Cert.KernelIdeal.Gen Cert.KernelIdeal.GenP

open Idealize.ShloMosaic Idealize.ShloMosaic.ValueIdx
open Idealize.ShloMosaic.SparseCore (S V T)

variable {F : FTy → Type}

/-! ## (A) The six index tables -/

theorem lit0_eq : ∀ n : Fin 480, (lit0 n).toNat = n.val / 3 := by decide +kernel
theorem lit1_eq : ∀ n : Fin 480, (lit1 n).toNat = n.val % 3 := by decide +kernel
theorem lit2_eq : ∀ n : Fin 320, (lit2 n).toNat = n.val / 2 := by decide +kernel
theorem lit3_eq : ∀ n : Fin 320, (lit3 n).toNat = n.val % 2 := by decide +kernel
theorem lit4_eq : ∀ n : Fin 160, (lit4 n).toNat = n.val / 10 := by decide +kernel
theorem lit5_eq : ∀ n : Fin 160, (lit5 n).toNat = n.val % 10 := by decide +kernel

/-- Lane x of a sixteen-lane window at offset o of a rank-one table is the table's entry o + x. -/
theorem window_pos {n : Nat} (o : Nat) (h : ∀ a, (![o] : Fin 1 → Nat) a + S16.size a ≤ (⟨1, ![n]⟩ : Shape).size a) (x : S16.Idx) :
    ((⟨1, ![n]⟩ : Shape).rowMajor ((Rect.unit (s := ⟨1, ![n]⟩) ![o] S16.size h).toLoadRect.idx x)).val = o + (x 0).val := by
  rw [Shape.rowMajor_val_one]
  show o + 1 * (x 0).val = _
  rw [Nat.one_mul]

theorem rd4 (o : Nat) (h : ∀ a, (![o] : Fin 1 → Nat) a + S16.size a ≤ S480.size a) (x : S16.Idx) :
    (View.readAt (Elt F) (Memref.whole cc0_scratch4 : Memref sig .scVector .vmem S480 .i32).view
      (Rect.unit (s := S480) ![o] S16.size h).toLoadRect (fun j => lit0 (S480.rowMajor j)) x).toNat = (o + (x 0).val) / 3 := by
  show (lit0 (S480.rowMajor ((Rect.unit (s := S480) ![o] S16.size h).toLoadRect.idx x))).toNat = _
  exact (lit0_eq _).trans (congrArg (· / 3) (window_pos o h x))

theorem rd5 (o : Nat) (h : ∀ a, (![o] : Fin 1 → Nat) a + S16.size a ≤ S480.size a) (x : S16.Idx) :
    (View.readAt (Elt F) (Memref.whole cc0_scratch5 : Memref sig .scVector .vmem S480 .i32).view
      (Rect.unit (s := S480) ![o] S16.size h).toLoadRect (fun j => lit1 (S480.rowMajor j)) x).toNat = (o + (x 0).val) % 3 := by
  show (lit1 (S480.rowMajor ((Rect.unit (s := S480) ![o] S16.size h).toLoadRect.idx x))).toNat = _
  exact (lit1_eq _).trans (congrArg (· % 3) (window_pos o h x))

theorem rd6 (o : Nat) (h : ∀ a, (![o] : Fin 1 → Nat) a + S16.size a ≤ S320.size a) (x : S16.Idx) :
    (View.readAt (Elt F) (Memref.whole cc0_scratch6 : Memref sig .scVector .vmem S320 .i32).view
      (Rect.unit (s := S320) ![o] S16.size h).toLoadRect (fun j => lit2 (S320.rowMajor j)) x).toNat = (o + (x 0).val) / 2 := by
  show (lit2 (S320.rowMajor ((Rect.unit (s := S320) ![o] S16.size h).toLoadRect.idx x))).toNat = _
  exact (lit2_eq _).trans (congrArg (· / 2) (window_pos o h x))

theorem rd7 (o : Nat) (h : ∀ a, (![o] : Fin 1 → Nat) a + S16.size a ≤ S320.size a) (x : S16.Idx) :
    (View.readAt (Elt F) (Memref.whole cc0_scratch7 : Memref sig .scVector .vmem S320 .i32).view
      (Rect.unit (s := S320) ![o] S16.size h).toLoadRect (fun j => lit3 (S320.rowMajor j)) x).toNat = (o + (x 0).val) % 2 := by
  show (lit3 (S320.rowMajor ((Rect.unit (s := S320) ![o] S16.size h).toLoadRect.idx x))).toNat = _
  exact (lit3_eq _).trans (congrArg (· % 2) (window_pos o h x))

theorem rd8 (o : Nat) (h : ∀ a, (![o] : Fin 1 → Nat) a + S16.size a ≤ S160.size a) (x : S16.Idx) :
    (View.readAt (Elt F) (Memref.whole cc0_scratch8 : Memref sig .scVector .vmem S160 .i32).view
      (Rect.unit (s := S160) ![o] S16.size h).toLoadRect (fun j => lit4 (S160.rowMajor j)) x).toNat = (o + (x 0).val) / 10 := by
  show (lit4 (S160.rowMajor ((Rect.unit (s := S160) ![o] S16.size h).toLoadRect.idx x))).toNat = _
  exact (lit4_eq _).trans (congrArg (· / 10) (window_pos o h x))

theorem rd9 (o : Nat) (h : ∀ a, (![o] : Fin 1 → Nat) a + S16.size a ≤ S160.size a) (x : S16.Idx) :
    (View.readAt (Elt F) (Memref.whole cc0_scratch9 : Memref sig .scVector .vmem S160 .i32).view
      (Rect.unit (s := S160) ![o] S16.size h).toLoadRect (fun j => lit5 (S160.rowMajor j)) x).toNat = (o + (x 0).val) % 10 := by
  show (lit5 (S160.rowMajor ((Rect.unit (s := S160) ![o] S16.size h).toLoadRect.idx x))).toNat = _
  exact (lit5_eq _).trans (congrArg (· % 10) (window_pos o h x))

/-! ## (B) The three copies in -/

/-- The first batch row of chunk k of tile L, plus a row offset below sixteen, is a batch row of the array. -/
theorem base_lt (L : grid0.Coords) (k : Fin k0_t1_loop.trips) (m : Nat) (hm : m < 16) :
    16 * (8 * (2 * (L 1).val + (L 0).val) + k.val) + m < 4096 := by
  have h0 : (L 0).val < 2 := (L 0).isLt
  have h1 : (L 1).val < 16 := (L 1).isLt
  have hk : k.val < 8 := Nat.lt_of_lt_of_le k.isLt (le_of_eq trips_eq)
  omega

/-- Row-major regrouping of [160, c] as [16, 10, c]: staging row r, column x is candidate r % 10 of batch row r / 10. -/
theorem regroup {c : Nat} (h : (⟨3, ![16, 10, c]⟩ : Shape).numel = (⟨2, ![160, c]⟩ : Shape).numel) (r : Fin 160) (x : Fin c) :
    (Shape.reshapeEquiv h).symm (ix2 r x) = ix3 ⟨r.val / 10, by omega⟩ ⟨r.val % 10, by omega⟩ x := by
  rw [Equiv.symm_apply_eq]
  symm
  apply Shape.reshapeEquiv_eq_of_rowMajor
  rw [Shape.rowMajor_val_two, Shape.rowMajor_val_three]
  show r.val * c + x.val = (r.val / 10 * 10 + r.val % 10) * c + x.val
  have : r.val / 10 * 10 + r.val % 10 = r.val := by omega
  rw [this]

theorem copyA (d : Dev nD) (L : grid0.Coords) (k : Fin k0_t1_loop.trips)
    (h1 : S16x10x3.numel = S160x3.numel) (h2 : 2 ≤ S160x3.rank ∧ 2 ≤ S16x10x3.rank)
    (h3 : (Memref.whole cc0_scratch0 : Memref sig .scVector .vmem S160x3 .f32).view.Contiguous)
    (g0 : (cc0_scratch0 : Ref sig .scVector).ty.Contents (Elt F)) (X0 : Buf (Elt F) (a0Loc d))
    (r : Fin 160) (c : Fin 3) :
    View.write (Elt F) ((Memref.whole cc0_scratch0 : Memref sig .scVector .vmem S160x3 .f32).reshape S16x10x3 h1 h2 h3).view g0
        (ReadAs.same.apply (View.read (Elt F)
          ((Memref.whole main_arg0_scv : Memref sig .scVector .hbm S4096x10x3 .f32).slice
            (Rect.unit (s := S4096x10x3) (k0_off1 L k) S16x10x3.size (k0_off1_inb L k)) (fun _ => rfl)).view X0))
        Finset.univ (ix2 r c)
      = X0 (ix3 (n0 := 4096) (n1 := 10) (n2 := 3)
          ⟨16 * (8 * (2 * (L 1).val + (L 0).val) + k.val) + r.val / 10, base_lt L k _ (by omega)⟩ ⟨r.val % 10, by omega⟩ c) := by
  show View.write (Elt F) ((View.whole (cc0_scratch0 : Ref sig .scVector)).reshape S16x10x3 h1) g0 _ Finset.univ (ix2 r c) = _
  rw [View.write_reshape_univ, View.write_whole_univ, regroup h1 r c]
  show X0 _ = X0 _
  congr 1
  funext a
  apply Fin.ext
  match a with
  | ⟨0, _⟩ =>
    show k0_off1 L k 0 + 1 * (r.val / 10) = 16 * (8 * (2 * (L 1).val + (L 0).val) + k.val) + r.val / 10
    rw [k0_off1_eq]
    show 256 * (L 1).val + 128 * (L 0).val + 16 * k.val + 1 * (r.val / 10) = _
    omega
  | ⟨1, _⟩ =>
    show k0_off1 L k 1 + 1 * (r.val % 10) = r.val % 10
    rw [k0_off1_eq]
    show 0 + 1 * (r.val % 10) = _
    omega
  | ⟨2, _⟩ =>
    show k0_off1 L k 2 + 1 * c.val = c.val
    rw [k0_off1_eq]
    show 0 + 1 * c.val = _
    omega

theorem copyC (d : Dev nD) (L : grid0.Coords) (k : Fin k0_t1_loop.trips)
    (g1 : (cc0_scratch1 : Ref sig .scVector).ty.Contents (Elt F)) (X1 : Buf (Elt F) (a1Loc d))
    (b : Fin 16) (p : Fin 10) :
    View.write (Elt F) (Memref.whole cc0_scratch1 : Memref sig .scVector .vmem S16x10 .f32).view g1
        (ReadAs.same.apply (View.read (Elt F)
          ((Memref.whole main_arg1_scv : Memref sig .scVector .hbm S4096x10 .f32).slice
            (Rect.unit (s := S4096x10) (k0_off2 L k) S16x10.size (k0_off2_inb L k)) (fun _ => rfl)).view X1))
        Finset.univ (ix2 b p)
      = X1 (ix2 (n0 := 4096) (n1 := 10)
          ⟨16 * (8 * (2 * (L 1).val + (L 0).val) + k.val) + b.val, base_lt L k _ b.isLt⟩ p) := by
  show View.write (Elt F) (View.whole (cc0_scratch1 : Ref sig .scVector)) g1 _ Finset.univ (ix2 b p) = _
  rw [View.write_whole_univ]
  show X1 _ = X1 _
  congr 1
  funext a
  apply Fin.ext
  match a with
  | ⟨0, _⟩ =>
    show k0_off2 L k 0 + 1 * b.val = 16 * (8 * (2 * (L 1).val + (L 0).val) + k.val) + b.val
    rw [k0_off2_eq]
    show 256 * (L 1).val + 128 * (L 0).val + 16 * k.val + 1 * b.val = _
    omega
  | ⟨1, _⟩ =>
    show k0_off2 L k 1 + 1 * p.val = p.val
    rw [k0_off2_eq]
    show 0 + 1 * p.val = _
    omega

theorem copyB (d : Dev nD) (L : grid0.Coords) (k : Fin k0_t1_loop.trips)
    (h1 : S16x10x2.numel = S160x2.numel) (h2 : 2 ≤ S160x2.rank ∧ 2 ≤ S16x10x2.rank)
    (h3 : (Memref.whole cc0_scratch2 : Memref sig .scVector .vmem S160x2 .f32).view.Contiguous)
    (g2 : (cc0_scratch2 : Ref sig .scVector).ty.Contents (Elt F)) (X2 : Buf (Elt F) (a2Loc d))
    (r : Fin 160) (c : Fin 2) :
    View.write (Elt F) ((Memref.whole cc0_scratch2 : Memref sig .scVector .vmem S160x2 .f32).reshape S16x10x2 h1 h2 h3).view g2
        (ReadAs.same.apply (View.read (Elt F)
          ((Memref.whole main_arg2_scv : Memref sig .scVector .hbm S4096x10x2 .f32).slice
            (Rect.unit (s := S4096x10x2) (k0_off3 L k) S16x10x2.size (k0_off3_inb L k)) (fun _ => rfl)).view X2))
        Finset.univ (ix2 r c)
      = X2 (ix3 (n0 := 4096) (n1 := 10) (n2 := 2)
          ⟨16 * (8 * (2 * (L 1).val + (L 0).val) + k.val) + r.val / 10, base_lt L k _ (by omega)⟩ ⟨r.val % 10, by omega⟩ c) := by
  show View.write (Elt F) ((View.whole (cc0_scratch2 : Ref sig .scVector)).reshape S16x10x2 h1) g2 _ Finset.univ (ix2 r c) = _
  rw [View.write_reshape_univ, View.write_whole_univ, regroup h1 r c]
  show X2 _ = X2 _
  congr 1
  funext a
  apply Fin.ext
  match a with
  | ⟨0, _⟩ =>
    show k0_off3 L k 0 + 1 * (r.val / 10) = 16 * (8 * (2 * (L 1).val + (L 0).val) + k.val) + r.val / 10
    rw [k0_off3_eq]
    show 256 * (L 1).val + 128 * (L 0).val + 16 * k.val + 1 * (r.val / 10) = _
    omega
  | ⟨1, _⟩ =>
    show k0_off3 L k 1 + 1 * (r.val % 10) = r.val % 10
    rw [k0_off3_eq]
    show 0 + 1 * (r.val % 10) = _
    omega
  | ⟨2, _⟩ =>
    show k0_off3 L k 2 + 1 * c.val = c.val
    rw [k0_off3_eq]
    show 0 + 1 * c.val = _
    omega

/-! ## (C) The copy out -/

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

section Out
variable [FloatOps F]

/-! The whole target read by columns. -/

theorem G_lt3 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val < 3) :
    Cert.Spec.G x0 x1 x2 j = x0 (ix3 (j 0) (j 1) ⟨(j 2).val, h⟩) := by
  unfold Cert.Spec.G
  exact dif_pos h

theorem G_3 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val = 3) :
    Cert.Spec.G x0 x1 x2 j = Cert.Spec.mark (x1 (ix2 (j 0) (j 1))) := by
  unfold Cert.Spec.G
  have h3 : ¬ (j 2).val < 3 := by omega
  simp only [dif_neg h3, if_pos h]

theorem G_4 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : (j 2).val = 4) :
    Cert.Spec.G x0 x1 x2 j = x1 (ix2 (j 0) (j 1)) := by
  unfold Cert.Spec.G
  have h3 : ¬ (j 2).val < 3 := by omega
  have h4 : ¬ (j 2).val = 3 := by omega
  simp only [dif_neg h3, if_neg h4, if_pos h]

theorem G_ge5 (x0 : FVec F ⟨3, ![4096, 10, 3]⟩ .f32) (x1 : FVec F ⟨2, ![4096, 10]⟩ .f32) (x2 : FVec F ⟨3, ![4096, 10, 2]⟩ .f32)
    (j : (⟨3, ![4096, 10, 7]⟩ : Shape).Idx) (h : 5 ≤ (j 2).val) :
    Cert.Spec.G x0 x1 x2 j = x2 (ix3 (j 0) (j 1) ⟨(j 2).val - 5, by have := idx3_lt2 j; omega⟩) := by
  unfold Cert.Spec.G
  have h3 : ¬ (j 2).val < 3 := by omega
  have h4 : ¬ (j 2).val = 3 := by omega
  have h5 : ¬ (j 2).val = 4 := by omega
  simp only [dif_neg h3, if_neg h4, if_neg h5]

/-- Row-major regrouping of [16, 10, c] as [160, c], the other way: candidate y 1 of batch row y 0 is staging row 10 (y 0) + y 1. -/
theorem regroup' {c : Nat} (h : (⟨3, ![16, 10, c]⟩ : Shape).numel = (⟨2, ![160, c]⟩ : Shape).numel)
    (y : (⟨3, ![16, 10, c]⟩ : Shape).Idx) :
    Shape.reshapeEquiv h y
      = ix2 (n0 := 160) (n1 := c) ⟨(y 0).val * 10 + (y 1).val, by have := idx3_lt0 y; have := idx3_lt1 y; omega⟩ (y 2) := by
  apply Shape.reshapeEquiv_eq_of_rowMajor
  rw [Shape.rowMajor_val_two (d := ![160, c]), Shape.rowMajor_val_three (d := ![16, 10, c])]
  rfl

/-- The chunk's index y sits at batch row base + y 0 of the result. -/
theorem oChunk_emb (L : grid0.Coords) (k : Fin k0_t1_loop.trips) (y : S16x10x7.Idx) :
    (oChunk L k).view.emb y
      = ix3 (n0 := 4096) (n1 := 10) (n2 := 7)
          ⟨16 * (8 * (2 * (L 1).val + (L 0).val) + k.val) + (y 0).val, base_lt L k _ (y 0).isLt⟩ (y 1) (y 2) := by
  funext a
  apply Fin.ext
  match a with
  | ⟨0, _⟩ =>
    show k0_off4 L k 0 + 1 * (y 0).val = 16 * (8 * (2 * (L 1).val + (L 0).val) + k.val) + (y 0).val
    rw [k0_off4_eq]
    show 256 * (L 1).val + 128 * (L 0).val + 16 * k.val + 1 * (y 0).val = _
    omega
  | ⟨1, _⟩ =>
    show k0_off4 L k 1 + 1 * (y 1).val = (y 1).val
    rw [k0_off4_eq]
    show 0 + 1 * (y 1).val = _
    omega
  | ⟨2, _⟩ =>
    show k0_off4 L k 2 + 1 * (y 2).val = (y 2).val
    rw [k0_off4_eq]
    show 0 + 1 * (y 2).val = _
    omega

/-- The chunk's target, built from staging tables that hold the chunk's rows of the arguments, is the whole target on the
    chunk: staging row 10 b + p is candidate p of batch row base + b. -/
theorem Gv_eq_G (L : grid0.Coords) (k : Fin k0_t1_loop.trips)
    (X0 : FVec F ⟨3, ![4096, 10, 3]⟩ .f32) (X1 : FVec F ⟨2, ![4096, 10]⟩ .f32) (X2 : FVec F ⟨3, ![4096, 10, 2]⟩ .f32)
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 ⟨16 * (8 * (2 * (L 1).val + (L 0).val) + k.val) + b.val, base_lt L k _ b.isLt⟩ p))
    (hB : ∀ (r : Fin 160) (c : Fin 2), B (ix2 r c)
      = X2 (ix3 ⟨16 * (8 * (2 * (L 1).val + (L 0).val) + k.val) + r.val / 10, base_lt L k _ (by omega)⟩ ⟨r.val % 10, by omega⟩ c))
    (b : Fin 16) (p : Fin 10) (q : Fin 7) :
    Cert.Spec.Gv A C B (ix2 ⟨b.val * 10 + p.val, by omega⟩ q)
      = Cert.Spec.G X0 X1 X2 (ix3 ⟨16 * (8 * (2 * (L 1).val + (L 0).val) + k.val) + b.val, base_lt L k _ b.isLt⟩ p q) := by
  have hdiv : (b.val * 10 + p.val) / 10 = b.val := by omega
  have hmod : (b.val * 10 + p.val) % 10 = p.val := by omega
  by_cases hq3 : q.val < 3
  · rw [Cert.Chunk.Gv_lt3 A C B _ hq3, G_lt3 X0 X1 X2 _ hq3, hA]
    congr 1
    funext a
    match a with
    | ⟨0, _⟩ => exact Fin.ext (by show _ + (b.val * 10 + p.val) / 10 = _ + b.val; rw [hdiv])
    | ⟨1, _⟩ => exact Fin.ext hmod
    | ⟨2, _⟩ => rfl
  · by_cases hq : q.val = 3
    · rw [Cert.Chunk.Gv_3 A C B _ hq, G_3 X0 X1 X2 _ hq, hC]
      congr 2
      funext a
      match a with
      | ⟨0, _⟩ => exact Fin.ext (by show _ + (b.val * 10 + p.val) / 10 = _ + b.val; rw [hdiv])
      | ⟨1, _⟩ => exact Fin.ext hmod
    · by_cases hq4 : q.val = 4
      · rw [Cert.Chunk.Gv_4 A C B _ hq4, G_4 X0 X1 X2 _ hq4, hC]
        congr 1
        funext a
        match a with
        | ⟨0, _⟩ => exact Fin.ext (by show _ + (b.val * 10 + p.val) / 10 = _ + b.val; rw [hdiv])
        | ⟨1, _⟩ => exact Fin.ext hmod
      · have hq5 : 5 ≤ q.val := by omega
        rw [Cert.Chunk.Gv_ge5 A C B _ hq5, G_ge5 X0 X1 X2 _ hq5, hB]
        congr 1
        funext a
        match a with
        | ⟨0, _⟩ => exact Fin.ext (by show _ + (b.val * 10 + p.val) / 10 = _ + b.val; rw [hdiv])
        | ⟨1, _⟩ => exact Fin.ext hmod
        | ⟨2, _⟩ => rfl

end Out

section Out2
variable [FloatOps F]

/-- **The copy out, on any mask.** The staging table equal to the chunk's target, read through its [16, 10, 7] regrouping and
    written through the chunk's view on the mask `M`, leaves the whole target's values at the masked elements of the chunk. -/
theorem copyOut_on (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) (M : Finset S16x10x7.Idx) :
    ∀ j ∈ (oChunk L k).view.setOn M,
      View.write (Elt F) (oChunk L k).view f
        (ReadAs.same.apply (View.read (Elt F)
          ((Memref.whole cc0_scratch3 : Memref sig .scVector .vmem S160x7 .f32).reshape S16x10x7 h1 h2 h3).view O)) M j
      = Cert.Spec.G (F := F) X0 X1 X2 j := by
  intro j hj
  obtain ⟨y, hy, rfl⟩ := Finset.mem_map.mp hj
  rw [View.write_emb_of_mem _ _ hy]
  subst hO
  show Cert.Spec.Gv A C B (Shape.reshapeEquiv h1 y) = Cert.Spec.G X0 X1 X2 ((oChunk L k).view.emb y)
  rw [regroup' h1 y, oChunk_emb L k y]
  exact Gv_eq_G L k X0 X1 X2 A C B hA hC hB ⟨(y 0).val, (y 0).isLt⟩ (y 1) (y 2)

/-- **The copy out, unmasked**: the result after the chunk is written agrees with the whole target on the chunk. -/
theorem copyOut (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) :
    ∀ j ∈ chunkSet L k,
      View.write (Elt F) (oChunk L k).view f
        (ReadAs.same.apply (View.read (Elt F)
          ((Memref.whole cc0_scratch3 : Memref sig .scVector .vmem S160x7 .f32).reshape S16x10x7 h1 h2 h3).view O)) Finset.univ j
      = Cert.Spec.G (F := F) X0 X1 X2 j :=
  fun j hj => copyOut_on d L k h1 h2 h3 X0 X1 X2 A C B hA hC hB O hO f Finset.univ j hj

end Out2

section OutW
variable [FloatOps F]

/-- **The copy out as a one-piece list of writes, the piece's contents named by a variable.** A single unmasked piece through the
    whole rectangle of the chunk's view is the unmasked write through the view. -/
theorem copyOutW_of (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d))
    (w : S16x10x7.Idx → Elt F .f32)
    (hw : w = ReadAs.same.apply (View.read (Elt F)
      ((Memref.whole cc0_scratch3 : Memref sig .scVector .vmem S160x7 .f32).reshape S16x10x7 h1 h2 h3).view O)) :
    ∀ j ∈ chunkSet L k,
      (oChunk L k).view.writes (Elt F) f [⟨Rect.whole S16x10x7, w⟩] j = Cert.Spec.G (F := F) X0 X1 X2 j := by
  intro j hj
  subst hw
  rw [← View.write_univ_eq_writes_whole (oChunk L k).view f [] _, View.writes_nil]
  exact copyOut d L k h1 h2 h3 X0 X1 X2 A C B hA hC hB O hO f j hj

/-- **The copy out as a one-piece list of writes.** -/
theorem copyOutW (d : Dev nD) (L : grid0.Coords) (k : Fin k0_t1_loop.trips)
    (h1 : S16x10x7.numel = S160x7.numel) (h2 : 2 ≤ S160x7.rank ∧ 2 ≤ S16x10x7.rank)
    (h3 : (Memref.whole cc0_scratch3 : Memref sig .scVector .vmem S160x7 .f32).view.Contiguous)
    (X0 : Buf (Elt F) (a0Loc d)) (X1 : Buf (Elt F) (a1Loc d)) (X2 : Buf (Elt F) (a2Loc d))
    (A : FVec F ⟨2, ![160, 3]⟩ .f32) (C : FVec F ⟨2, ![16, 10]⟩ .f32) (B : FVec F ⟨2, ![160, 2]⟩ .f32)
    (hA : ∀ (r : Fin 160) (c : Fin 3), A (ix2 r c)
      = X0 (ix3 (n0 := 4096) (n1 := 10) (n2 := 3) ⟨16 * (8 * (2 * (L 1).val + (L 0).val) + k.val) + r.val / 10, base_lt L k _ (by omega)⟩ ⟨r.val % 10, by omega⟩ c))
    (hC : ∀ (b : Fin 16) (p : Fin 10), C (ix2 b p)
      = X1 (ix2 (n0 := 4096) (n1 := 10) ⟨16 * (8 * (2 * (L 1).val + (L 0).val) + k.val) + b.val, base_lt L k _ b.isLt⟩ p))
    (hB : ∀ (r : Fin 160) (c : Fin 2), B (ix2 r c)
      = X2 (ix3 (n0 := 4096) (n1 := 10) (n2 := 2) ⟨16 * (8 * (2 * (L 1).val + (L 0).val) + k.val) + r.val / 10, base_lt L k _ (by omega)⟩ ⟨r.val % 10, by omega⟩ c))
    (O : (cc0_scratch3 : Ref sig .scVector).ty.Contents (Elt F)) (hO : O = Cert.Spec.Gv A C B)
    (f : Buf (Elt F) (oLoc d)) :
    ∀ j ∈ chunkSet L k,
      (oChunk L k).view.writes (Elt F) f [⟨Rect.whole S16x10x7, ReadAs.same.apply (View.read (Elt F)
        ((Memref.whole cc0_scratch3 : Memref sig .scVector .vmem S160x7 .f32).reshape S16x10x7 h1 h2 h3).view O)⟩] j
      = Cert.Spec.G (F := F) X0 X1 X2 j :=
  copyOutW_of d L k h1 h2 h3 X0 X1 X2 A C B hA hC hB O hO f _ rfl

end OutW

end Cert.Proof.KI

end
-- ==== Proof.IdealBody.lean ====
/-
  One tile's task of the idealized kernel, at a symbolic tile.

  The task first copies the six constant index tables into its own memory. Then, eight times (chunk k = 0..7): it copies
  the chunk's sixteen batch rows of the three arguments into staging tables A [160,3], C [16,10], B [160,2] (the copies land
  through a row-major regrouping of (row, candidate) into one axis of 160); it fills a [160,7] staging table by eighty
  indexed stores, every one writing, at the positions its index vectors name, what the chunk's record table holds there;
  and it copies the staging table to the chunk's sixteen rows of the result.
  The loop's invariant: the chunks below k of the tile's rows hold the specification `Cert.Spec.G` of the arguments, the
  nine read-only arrays are untouched, the six table copies hold the tables, every semaphore counter is zero.
-/
import proofs.«214040_g26508538151745_cont_9to1_1151_18_alg».proof.Proof.IdealChunks
import proofs.«214040_g26508538151745_cont_9to1_1151_18_alg».proof.Proof.Chunk
import proofs.«214040_g26508538151745_cont_9to1_1151_18_alg».proof.Proof.IdealViews

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

-- the kernel's memrefs, spelt as the body table passes them
local notation "a0V" => (Memref.whole Cert.KernelIdeal.main_arg0_scv : Memref Cert.KernelIdeal.sig Kind.scVector Space.hbm Cert.KernelIdeal.S4096x10x3 EltTy.f32)
local notation "a1V" => (Memref.whole Cert.KernelIdeal.main_arg1_scv : Memref Cert.KernelIdeal.sig Kind.scVector Space.hbm Cert.KernelIdeal.S4096x10 EltTy.f32)
local notation "a2V" => (Memref.whole Cert.KernelIdeal.main_arg2_scv : Memref Cert.KernelIdeal.sig Kind.scVector Space.hbm Cert.KernelIdeal.S4096x10x2 EltTy.f32)
local notation "t0V" => (Memref.whole Cert.KernelIdeal.main_c_scv : Memref Cert.KernelIdeal.sig Kind.scVector Space.hbm Cert.KernelIdeal.S480 EltTy.i32)
local notation "t1V" => (Memref.whole Cert.KernelIdeal.main_c_0_scv : Memref Cert.KernelIdeal.sig Kind.scVector Space.hbm Cert.KernelIdeal.S480 EltTy.i32)
local notation "t2V" => (Memref.whole Cert.KernelIdeal.main_c_1_scv : Memref Cert.KernelIdeal.sig Kind.scVector Space.hbm Cert.KernelIdeal.S320 EltTy.i32)
local notation "t3V" => (Memref.whole Cert.KernelIdeal.main_c_2_scv : Memref Cert.KernelIdeal.sig Kind.scVector Space.hbm Cert.KernelIdeal.S320 EltTy.i32)
local notation "t4V" => (Memref.whole Cert.KernelIdeal.main_c_3_scv : Memref Cert.KernelIdeal.sig Kind.scVector Space.hbm Cert.KernelIdeal.S160 EltTy.i32)
local notation "t5V" => (Memref.whole Cert.KernelIdeal.main_c_4_scv : Memref Cert.KernelIdeal.sig Kind.scVector Space.hbm Cert.KernelIdeal.S160 EltTy.i32)
local notation "oV" => (Memref.whole Cert.KernelIdeal.main_v0_scv : Memref Cert.KernelIdeal.sig Kind.scVector Space.hbm Cert.KernelIdeal.S4096x10x7 EltTy.f32)
local notation "s0V" => (Memref.whole Cert.KernelIdeal.cc0_scratch0 : Memref Cert.KernelIdeal.sig Kind.scVector Space.vmem Cert.KernelIdeal.S160x3 EltTy.f32)
local notation "s1V" => (Memref.whole Cert.KernelIdeal.cc0_scratch1 : Memref Cert.KernelIdeal.sig Kind.scVector Space.vmem Cert.KernelIdeal.S16x10 EltTy.f32)
local notation "s2V" => (Memref.whole Cert.KernelIdeal.cc0_scratch2 : Memref Cert.KernelIdeal.sig Kind.scVector Space.vmem Cert.KernelIdeal.S160x2 EltTy.f32)
local notation "s3V" => (Memref.whole Cert.KernelIdeal.cc0_scratch3 : Memref Cert.KernelIdeal.sig Kind.scVector Space.vmem Cert.KernelIdeal.S160x7 EltTy.f32)
local notation "s4V" => (Memref.whole Cert.KernelIdeal.cc0_scratch4 : Memref Cert.KernelIdeal.sig Kind.scVector Space.vmem Cert.KernelIdeal.S480 EltTy.i32)
local notation "s5V" => (Memref.whole Cert.KernelIdeal.cc0_scratch5 : Memref Cert.KernelIdeal.sig Kind.scVector Space.vmem Cert.KernelIdeal.S480 EltTy.i32)
local notation "s6V" => (Memref.whole Cert.KernelIdeal.cc0_scratch6 : Memref Cert.KernelIdeal.sig Kind.scVector Space.vmem Cert.KernelIdeal.S320 EltTy.i32)
local notation "s7V" => (Memref.whole Cert.KernelIdeal.cc0_scratch7 : Memref Cert.KernelIdeal.sig Kind.scVector Space.vmem Cert.KernelIdeal.S320 EltTy.i32)
local notation "s8V" => (Memref.whole Cert.KernelIdeal.cc0_scratch8 : Memref Cert.KernelIdeal.sig Kind.scVector Space.vmem Cert.KernelIdeal.S160 EltTy.i32)
local notation "s9V" => (Memref.whole Cert.KernelIdeal.cc0_scratch9 : Memref Cert.KernelIdeal.sig Kind.scVector Space.vmem Cert.KernelIdeal.S160 EltTy.i32)

variable [FloatOps F]

section Tile
variable (d : Dev nD) (L : grid0.Coords)

abbrev cV (L : grid0.Coords) : Fin τ.nSC := (L 0).castLE hcore0
abbrev jV (L : grid0.Coords) : Fin τ.nSub := (L 1).castLE hsub0

/-! ## The arrays as a tile's memrefs address them are the device's arrays -/

omit [FloatOps F] in
theorem pts_a0V (c : Fin τ.nSC) (i : Fin τ.nSub) (q : PosShare TreeShare) (f : Buf (Elt F) (a0Loc d)) :
    ((a0V).view.loc (V d c i) ↦{q} f : sProp (𝕄 F)) = a0Loc d ↦{q} f := by
  simp only [Memref.view_whole, View.set_whole]
omit [FloatOps F] in
theorem pts_a1V (c : Fin τ.nSC) (i : Fin τ.nSub) (q : PosShare TreeShare) (f : Buf (Elt F) (a1Loc d)) :
    ((a1V).view.loc (V d c i) ↦{q} f : sProp (𝕄 F)) = a1Loc d ↦{q} f := by
  simp only [Memref.view_whole, View.set_whole]
omit [FloatOps F] in
theorem pts_a2V (c : Fin τ.nSC) (i : Fin τ.nSub) (q : PosShare TreeShare) (f : Buf (Elt F) (a2Loc d)) :
    ((a2V).view.loc (V d c i) ↦{q} f : sProp (𝕄 F)) = a2Loc d ↦{q} f := by
  simp only [Memref.view_whole, View.set_whole]
omit [FloatOps F] in
theorem pts_t0V (c : Fin τ.nSC) (i : Fin τ.nSub) (q : PosShare TreeShare) (f : Buf (Elt F) (t0Loc d)) :
    ((t0V).view.loc (V d c i) ↦{q} f : sProp (𝕄 F)) = t0Loc d ↦{q} f := by
  simp only [Memref.view_whole, View.set_whole]
omit [FloatOps F] in
theorem pts_t1V (c : Fin τ.nSC) (i : Fin τ.nSub) (q : PosShare TreeShare) (f : Buf (Elt F) (t1Loc d)) :
    ((t1V).view.loc (V d c i) ↦{q} f : sProp (𝕄 F)) = t1Loc d ↦{q} f := by
  simp only [Memref.view_whole, View.set_whole]
omit [FloatOps F] in
theorem pts_t2V (c : Fin τ.nSC) (i : Fin τ.nSub) (q : PosShare TreeShare) (f : Buf (Elt F) (t2Loc d)) :
    ((t2V).view.loc (V d c i) ↦{q} f : sProp (𝕄 F)) = t2Loc d ↦{q} f := by
  simp only [Memref.view_whole, View.set_whole]
omit [FloatOps F] in
theorem pts_t3V (c : Fin τ.nSC) (i : Fin τ.nSub) (q : PosShare TreeShare) (f : Buf (Elt F) (t3Loc d)) :
    ((t3V).view.loc (V d c i) ↦{q} f : sProp (𝕄 F)) = t3Loc d ↦{q} f := by
  simp only [Memref.view_whole, View.set_whole]
omit [FloatOps F] in
theorem pts_t4V (c : Fin τ.nSC) (i : Fin τ.nSub) (q : PosShare TreeShare) (f : Buf (Elt F) (t4Loc d)) :
    ((t4V).view.loc (V d c i) ↦{q} f : sProp (𝕄 F)) = t4Loc d ↦{q} f := by
  simp only [Memref.view_whole, View.set_whole]
omit [FloatOps F] in
theorem pts_t5V (c : Fin τ.nSC) (i : Fin τ.nSub) (q : PosShare TreeShare) (f : Buf (Elt F) (t5Loc d)) :
    ((t5V).view.loc (V d c i) ↦{q} f : sProp (𝕄 F)) = t5Loc d ↦{q} f := by
  simp only [Memref.view_whole, View.set_whole]
omit [FloatOps F] in
theorem pts_oV (c : Fin τ.nSC) (i : Fin τ.nSub) (q : PosShare TreeShare) (f : Buf (Elt F) (oLoc d)) :
    ((oV).view.loc (V d c i) ↦{q} f : sProp (𝕄 F)) = oLoc d ↦{q} f := by
  simp only [Memref.view_whole, View.set_whole]
omit [FloatOps F] in
theorem pts_s0 (c : Fin τ.nSC) (i : Fin τ.nSub) (f : Buf (Elt F) ((V d c i).loc cc0_scratch0)) :
    ((s0V).view.loc (V d c i) ↦{fullShare} f : sProp (𝕄 F)) = (V d c i).loc cc0_scratch0 ↦{fullShare} f := rfl
omit [FloatOps F] in
theorem pts_s1 (c : Fin τ.nSC) (i : Fin τ.nSub) (f : Buf (Elt F) ((V d c i).loc cc0_scratch1)) :
    ((s1V).view.loc (V d c i) ↦{fullShare} f : sProp (𝕄 F)) = (V d c i).loc cc0_scratch1 ↦{fullShare} f := rfl
omit [FloatOps F] in
theorem pts_s2 (c : Fin τ.nSC) (i : Fin τ.nSub) (f : Buf (Elt F) ((V d c i).loc cc0_scratch2)) :
    ((s2V).view.loc (V d c i) ↦{fullShare} f : sProp (𝕄 F)) = (V d c i).loc cc0_scratch2 ↦{fullShare} f := rfl
omit [FloatOps F] in
theorem pts_s3 (c : Fin τ.nSC) (i : Fin τ.nSub) (f : Buf (Elt F) ((V d c i).loc cc0_scratch3)) :
    ((s3V).view.loc (V d c i) ↦{fullShare} f : sProp (𝕄 F)) = (V d c i).loc cc0_scratch3 ↦{fullShare} f := rfl
omit [FloatOps F] in
theorem pts_s4 (c : Fin τ.nSC) (i : Fin τ.nSub) (f : Buf (Elt F) ((V d c i).loc cc0_scratch4)) :
    ((s4V).view.loc (V d c i) ↦{fullShare} f : sProp (𝕄 F)) = (V d c i).loc cc0_scratch4 ↦{fullShare} f := rfl
omit [FloatOps F] in
theorem pts_s5 (c : Fin τ.nSC) (i : Fin τ.nSub) (f : Buf (Elt F) ((V d c i).loc cc0_scratch5)) :
    ((s5V).view.loc (V d c i) ↦{fullShare} f : sProp (𝕄 F)) = (V d c i).loc cc0_scratch5 ↦{fullShare} f := rfl
omit [FloatOps F] in
theorem pts_s6 (c : Fin τ.nSC) (i : Fin τ.nSub) (f : Buf (Elt F) ((V d c i).loc cc0_scratch6)) :
    ((s6V).view.loc (V d c i) ↦{fullShare} f : sProp (𝕄 F)) = (V d c i).loc cc0_scratch6 ↦{fullShare} f := rfl
omit [FloatOps F] in
theorem pts_s7 (c : Fin τ.nSC) (i : Fin τ.nSub) (f : Buf (Elt F) ((V d c i).loc cc0_scratch7)) :
    ((s7V).view.loc (V d c i) ↦{fullShare} f : sProp (𝕄 F)) = (V d c i).loc cc0_scratch7 ↦{fullShare} f := rfl
omit [FloatOps F] in
theorem pts_s8 (c : Fin τ.nSC) (i : Fin τ.nSub) (f : Buf (Elt F) ((V d c i).loc cc0_scratch8)) :
    ((s8V).view.loc (V d c i) ↦{fullShare} f : sProp (𝕄 F)) = (V d c i).loc cc0_scratch8 ↦{fullShare} f := rfl
omit [FloatOps F] in
theorem pts_s9 (c : Fin τ.nSC) (i : Fin τ.nSub) (f : Buf (Elt F) ((V d c i).loc cc0_scratch9)) :
    ((s9V).view.loc (V d c i) ↦{fullShare} f : sProp (𝕄 F)) = (V d c i).loc cc0_scratch9 ↦{fullShare} f := rfl

/-! ## The tile's own buffers and semaphores, opened -/

omit [FloatOps F] in
/-- The ten scratch buffers are among the tile's own: they are them, at some contents, and the rest. -/
theorem ownBufs_V (c : Fin τ.nSC) (i : Fin τ.nSub) :
    (ownBufs (V d c i) : sProp (𝕄 F))
      = iprop((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f)
          ∗ (∃ f, (V d c i).loc cc0_scratch5 ↦{fullShare} f)
          ∗ (∃ f, (V d c i).loc cc0_scratch6 ↦{fullShare} f)
          ∗ (∃ f, (V d c i).loc cc0_scratch7 ↦{fullShare} f)
          ∗ (∃ f, (V d c i).loc cc0_scratch8 ↦{fullShare} f)
          ∗ (∃ f, (V d c i).loc cc0_scratch9 ↦{fullShare} f)
          ∗ bigSep (((((((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5)).erase ((Proc.scVector c i).devRef cc0_scratch6)).erase ((Proc.scVector c i).devRef cc0_scratch7)).erase ((Proc.scVector c i).devRef cc0_scratch8)).erase ((Proc.scVector c i).devRef cc0_scratch9))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := (Proc.scVector c i).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := (Proc.scVector c i).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := (Proc.scVector c i).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector c i) (b := (Proc.scVector c i).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector c i) (b := (Proc.scVector c i).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector c i) (b := (Proc.scVector c i).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector c i) (b := (Proc.scVector c i).devRef cc0_scratch9) rfl⟩⟩⟩⟩⟩⟩⟩⟩⟩)]

omit [FloatOps F] in
theorem cell_ne (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

omit [FloatOps F] in
/-- The ten transfer semaphores are among the tile's own cells: they are them, at zero, and the rest. -/
theorem ownSems0_V (c : Fin τ.nSC) (i : Fin τ.nSub) :
    (ownSems0 (V d c i) : sProp (𝕄 F))
      = iprop(semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ semVal ((V d c i, SemLoc.dma cc0_scoped5.sem) : GSem nD τ sig) 0
          ∗ semVal ((V d c i, SemLoc.dma cc0_scoped6.sem) : GSem nD τ sig) 0
          ∗ semVal ((V d c i, SemLoc.dma cc0_scoped7.sem) : GSem nD τ sig) 0
          ∗ semVal ((V d c i, SemLoc.dma cc0_scoped8.sem) : GSem nD τ sig) 0
          ∗ semVal ((V d c i, SemLoc.dma cc0_scoped9.sem) : GSem nD τ sig) 0
          ∗ bigSep (((((((((((ownCells (V d c i)).erase ((V d c i, SemLoc.dma cc0_scoped0.sem) : GSem nD τ sig)).erase ((V d c i, SemLoc.dma cc0_scoped1.sem) : GSem nD τ sig)).erase ((V d c i, SemLoc.dma cc0_scoped2.sem) : GSem nD τ sig)).erase ((V d c i, SemLoc.dma cc0_scoped3.sem) : GSem nD τ sig)).erase ((V d c i, SemLoc.dma cc0_scoped4.sem) : GSem nD τ sig)).erase ((V d c i, SemLoc.dma cc0_scoped5.sem) : GSem nD τ sig)).erase ((V d c i, SemLoc.dma cc0_scoped6.sem) : GSem nD τ sig)).erase ((V d c i, SemLoc.dma cc0_scoped7.sem) : GSem nD τ sig)).erase ((V d c i, SemLoc.dma cc0_scoped8.sem) : GSem nD τ sig)).erase ((V d c i, SemLoc.dma cc0_scoped9.sem) : GSem nD τ sig)) fun g => semVal g 0) := by
  unfold SparseCore.Cfg.ownSems0
  rw [SparseCore.bigSep_erase' ((mem_ownCells (g := ((V d c i, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨cell_ne d c i (show (cc0_scoped1.sem : DmaSem sig) ≠ cc0_scoped0.sem by decide), (mem_ownCells (g := ((V d c i, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨cell_ne d c i (show (cc0_scoped2.sem : DmaSem sig) ≠ cc0_scoped1.sem by decide), Finset.mem_erase.mpr ⟨cell_ne d c i (show (cc0_scoped2.sem : DmaSem sig) ≠ cc0_scoped0.sem by decide), (mem_ownCells (g := ((V d c i, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨cell_ne d c i (show (cc0_scoped3.sem : DmaSem sig) ≠ cc0_scoped2.sem by decide), Finset.mem_erase.mpr ⟨cell_ne d c i (show (cc0_scoped3.sem : DmaSem sig) ≠ cc0_scoped1.sem by decide), Finset.mem_erase.mpr ⟨cell_ne d c i (show (cc0_scoped3.sem : DmaSem sig) ≠ cc0_scoped0.sem by decide), (mem_ownCells (g := ((V d c i, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨cell_ne d c i (show (cc0_scoped4.sem : DmaSem sig) ≠ cc0_scoped3.sem by decide), Finset.mem_erase.mpr ⟨cell_ne d c i (show (cc0_scoped4.sem : DmaSem sig) ≠ cc0_scoped2.sem by decide), Finset.mem_erase.mpr ⟨cell_ne d c i (show (cc0_scoped4.sem : DmaSem sig) ≠ cc0_scoped1.sem by decide), Finset.mem_erase.mpr ⟨cell_ne d c i (show (cc0_scoped4.sem : DmaSem sig) ≠ cc0_scoped0.sem by decide), (mem_ownCells (g := ((V d c i, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨cell_ne d c i (show (cc0_scoped5.sem : DmaSem sig) ≠ cc0_scoped4.sem by decide), Finset.mem_erase.mpr ⟨cell_ne d c i (show (cc0_scoped5.sem : DmaSem sig) ≠ cc0_scoped3.sem by decide), Finset.mem_erase.mpr ⟨cell_ne d c i (show (cc0_scoped5.sem : DmaSem sig) ≠ cc0_scoped2.sem by decide), Finset.mem_erase.mpr ⟨cell_ne d c i (show (cc0_scoped5.sem : DmaSem sig) ≠ cc0_scoped1.sem by decide), Finset.mem_erase.mpr ⟨cell_ne d c i (show (cc0_scoped5.sem : DmaSem sig) ≠ cc0_scoped0.sem by decide), (mem_ownCells (g := ((V d c i, SemLoc.dma cc0_scoped5.sem) : GSem nD τ sig))).mpr ⟨rfl, by show (SemLoc.dma cc0_scoped5.sem : SemLoc sig).isScoped .scVector = true; decide⟩⟩⟩⟩⟩⟩),
    SparseCore.bigSep_erase' (Finset.mem_erase.mpr ⟨cell_ne d c i (show (cc0_scoped6.sem : DmaSem sig) ≠ cc0_scoped5.sem by decide), Finset.mem_erase.mpr ⟨cell_ne d c i (show (cc0_scoped6.sem : DmaSem sig) ≠ cc0_scoped4.sem by decide), Finset.mem_erase.mpr ⟨cell_ne d c i (show (cc0_scoped6.sem : DmaSem sig) ≠ cc0_scoped3.sem by decide), Finset.mem_erase.mpr ⟨cell_ne d c i (show (cc0_scoped6.sem : DmaSem sig) ≠ cc0_scoped2.sem by decide), Finset.mem_erase.mpr ⟨cell_ne d c i (show (cc0_scoped6.sem : DmaSem sig) ≠ cc0_scoped1.sem by decide), Finset.mem_erase.mpr ⟨cell_ne d c i (show (cc0_scoped6.sem : DmaSem sig) ≠ cc0_scoped0.sem by decide), (mem_ownCells (g := ((V d c i, SemLoc.dma cc0_scoped6.sem) : GSem nD τ sig))).mpr ⟨rfl, by show (SemLoc.dma cc0_scoped6.sem : SemLoc sig).isScoped .scVector = true; decide⟩⟩⟩⟩⟩⟩⟩),
    SparseCore.bigSep_erase' (Finset.mem_erase.mpr ⟨cell_ne d c i (show (cc0_scoped7.sem : DmaSem sig) ≠ cc0_scoped6.sem by decide), Finset.mem_erase.mpr ⟨cell_ne d c i (show (cc0_scoped7.sem : DmaSem sig) ≠ cc0_scoped5.sem by decide), Finset.mem_erase.mpr ⟨cell_ne d c i (show (cc0_scoped7.sem : DmaSem sig) ≠ cc0_scoped4.sem by decide), Finset.mem_erase.mpr ⟨cell_ne d c i (show (cc0_scoped7.sem : DmaSem sig) ≠ cc0_scoped3.sem by decide), Finset.mem_erase.mpr ⟨cell_ne d c i (show (cc0_scoped7.sem : DmaSem sig) ≠ cc0_scoped2.sem by decide), Finset.mem_erase.mpr ⟨cell_ne d c i (show (cc0_scoped7.sem : DmaSem sig) ≠ cc0_scoped1.sem by decide), Finset.mem_erase.mpr ⟨cell_ne d c i (show (cc0_scoped7.sem : DmaSem sig) ≠ cc0_scoped0.sem by decide), (mem_ownCells (g := ((V d c i, SemLoc.dma cc0_scoped7.sem) : GSem nD τ sig))).mpr ⟨rfl, by show (SemLoc.dma cc0_scoped7.sem : SemLoc sig).isScoped .scVector = true; decide⟩⟩⟩⟩⟩⟩⟩⟩),
    SparseCore.bigSep_erase' (Finset.mem_erase.mpr ⟨cell_ne d c i (show (cc0_scoped8.sem : DmaSem sig) ≠ cc0_scoped7.sem by decide), Finset.mem_erase.mpr ⟨cell_ne d c i (show (cc0_scoped8.sem : DmaSem sig) ≠ cc0_scoped6.sem by decide), Finset.mem_erase.mpr ⟨cell_ne d c i (show (cc0_scoped8.sem : DmaSem sig) ≠ cc0_scoped5.sem by decide), Finset.mem_erase.mpr ⟨cell_ne d c i (show (cc0_scoped8.sem : DmaSem sig) ≠ cc0_scoped4.sem by decide), Finset.mem_erase.mpr ⟨cell_ne d c i (show (cc0_scoped8.sem : DmaSem sig) ≠ cc0_scoped3.sem by decide), Finset.mem_erase.mpr ⟨cell_ne d c i (show (cc0_scoped8.sem : DmaSem sig) ≠ cc0_scoped2.sem by decide), Finset.mem_erase.mpr ⟨cell_ne d c i (show (cc0_scoped8.sem : DmaSem sig) ≠ cc0_scoped1.sem by decide), Finset.mem_erase.mpr ⟨cell_ne d c i (show (cc0_scoped8.sem : DmaSem sig) ≠ cc0_scoped0.sem by decide), (mem_ownCells (g := ((V d c i, SemLoc.dma cc0_scoped8.sem) : GSem nD τ sig))).mpr ⟨rfl, by show (SemLoc.dma cc0_scoped8.sem : SemLoc sig).isScoped .scVector = true; decide⟩⟩⟩⟩⟩⟩⟩⟩⟩),
    SparseCore.bigSep_erase' (Finset.mem_erase.mpr ⟨cell_ne d c i (show (cc0_scoped9.sem : DmaSem sig) ≠ cc0_scoped8.sem by decide), Finset.mem_erase.mpr ⟨cell_ne d c i (show (cc0_scoped9.sem : DmaSem sig) ≠ cc0_scoped7.sem by decide), Finset.mem_erase.mpr ⟨cell_ne d c i (show (cc0_scoped9.sem : DmaSem sig) ≠ cc0_scoped6.sem by decide), Finset.mem_erase.mpr ⟨cell_ne d c i (show (cc0_scoped9.sem : DmaSem sig) ≠ cc0_scoped5.sem by decide), Finset.mem_erase.mpr ⟨cell_ne d c i (show (cc0_scoped9.sem : DmaSem sig) ≠ cc0_scoped4.sem by decide), Finset.mem_erase.mpr ⟨cell_ne d c i (show (cc0_scoped9.sem : DmaSem sig) ≠ cc0_scoped3.sem by decide), Finset.mem_erase.mpr ⟨cell_ne d c i (show (cc0_scoped9.sem : DmaSem sig) ≠ cc0_scoped2.sem by decide), Finset.mem_erase.mpr ⟨cell_ne d c i (show (cc0_scoped9.sem : DmaSem sig) ≠ cc0_scoped1.sem by decide), Finset.mem_erase.mpr ⟨cell_ne d c i (show (cc0_scoped9.sem : DmaSem sig) ≠ cc0_scoped0.sem by decide), (mem_ownCells (g := ((V d c i, SemLoc.dma cc0_scoped9.sem) : GSem nD τ sig))).mpr ⟨rfl, by show (SemLoc.dma cc0_scoped9.sem : SemLoc sig).isScoped .scVector = true; decide⟩⟩⟩⟩⟩⟩⟩⟩⟩⟩)]

/-! ## Respelling a staging table for the indexed load and store rules -/

omit [FloatOps F] in
theorem acc_s0 (c : Fin τ.nSC) (i : Fin τ.nSub) (f : Buf (Elt F) ((V d c i).loc cc0_scratch0)) :
    ((s0V).view.loc (V d c i) ↦{fullShare} f : sProp (𝕄 F)) = (((s0V).access (.whole S160x3)).loc (V d c i) ↦{fullShare} f) := rfl
omit [FloatOps F] in
theorem acc_s1 (c : Fin τ.nSC) (i : Fin τ.nSub) (f : Buf (Elt F) ((V d c i).loc cc0_scratch1)) :
    ((s1V).view.loc (V d c i) ↦{fullShare} f : sProp (𝕄 F)) = (((s1V).access (.whole S16x10)).loc (V d c i) ↦{fullShare} f) := rfl
omit [FloatOps F] in
theorem acc_s2 (c : Fin τ.nSC) (i : Fin τ.nSub) (f : Buf (Elt F) ((V d c i).loc cc0_scratch2)) :
    ((s2V).view.loc (V d c i) ↦{fullShare} f : sProp (𝕄 F)) = (((s2V).access (.whole S160x2)).loc (V d c i) ↦{fullShare} f) := rfl
omit [FloatOps F] in
theorem acc_s3 (c : Fin τ.nSC) (i : Fin τ.nSub) (f : Buf (Elt F) ((V d c i).loc cc0_scratch3)) :
    ((s3V).view.loc (V d c i) ↦{fullShare} f : sProp (𝕄 F))
      = (((s3V).access (.whole S160x7)).loc (V d c i) ↦[((s3V).access (.whole S160x7)).set]{fullShare} f) := by
  rw [show ((s3V).access (.whole S160x7)).set = Finset.univ from Memref.set_access_whole (cc0_scratch3 : Ref sig .scVector)]

/-! ## The index vectors a group loads, and the checks on them -/

/-- The sixteen lanes a group loads at offset `o` of the tile's copy of table 0. -/
abbrev RD4 (o : Nat) (h : ∀ a, (![o] : Fin 1 → Nat) a + S16.size a ≤ S480.size a) : IVec S16 32 :=
  View.readAt (Elt F) (s4V).view (Rect.unit (s := S480) ![o] S16.size h).toLoadRect (fun j => lit0 (S480.rowMajor j))
/-- The sixteen lanes a group loads at offset `o` of the tile's copy of table 1. -/
abbrev RD5 (o : Nat) (h : ∀ a, (![o] : Fin 1 → Nat) a + S16.size a ≤ S480.size a) : IVec S16 32 :=
  View.readAt (Elt F) (s5V).view (Rect.unit (s := S480) ![o] S16.size h).toLoadRect (fun j => lit1 (S480.rowMajor j))
/-- The sixteen lanes a group loads at offset `o` of the tile's copy of table 2. -/
abbrev RD6 (o : Nat) (h : ∀ a, (![o] : Fin 1 → Nat) a + S16.size a ≤ S320.size a) : IVec S16 32 :=
  View.readAt (Elt F) (s6V).view (Rect.unit (s := S320) ![o] S16.size h).toLoadRect (fun j => lit2 (S320.rowMajor j))
/-- The sixteen lanes a group loads at offset `o` of the tile's copy of table 3. -/
abbrev RD7 (o : Nat) (h : ∀ a, (![o] : Fin 1 → Nat) a + S16.size a ≤ S320.size a) : IVec S16 32 :=
  View.readAt (Elt F) (s7V).view (Rect.unit (s := S320) ![o] S16.size h).toLoadRect (fun j => lit3 (S320.rowMajor j))
/-- The sixteen lanes a group loads at offset `o` of the tile's copy of table 4. -/
abbrev RD8 (o : Nat) (h : ∀ a, (![o] : Fin 1 → Nat) a + S16.size a ≤ S160.size a) : IVec S16 32 :=
  View.readAt (Elt F) (s8V).view (Rect.unit (s := S160) ![o] S16.size h).toLoadRect (fun j => lit4 (S160.rowMajor j))
/-- The sixteen lanes a group loads at offset `o` of the tile's copy of table 5. -/
abbrev RD9 (o : Nat) (h : ∀ a, (![o] : Fin 1 → Nat) a + S16.size a ≤ S160.size a) : IVec S16 32 :=
  View.readAt (Elt F) (s9V).view (Rect.unit (s := S160) ![o] S16.size h).toLoadRect (fun j => lit5 (S160.rowMajor j))

/-- Phase 1's check at offset `o` (group `o / 16`): rows `n / 3`, columns `n % 3` of flat entries `n = o .. o + 15` are inside [160,3] and [160,7]. -/
theorem chk_p1 (o : Nat) (ho : o % 16 = 0) (hlt : o < 480) (h h' : ∀ a, (![o] : Fin 1 → Nat) a + S16.size a ≤ S480.size a) :
    (∀ a x, ((![RD4 (F := F) o h, RD5 (F := F) o h'] : Fin 2 → IVec S16 32) a x).toNat < S160x3.size a)
      ∧ (∀ a x, ((![RD4 (F := F) o h, RD5 (F := F) o h'] : Fin 2 → IVec S16 32) a x).toNat < S160x7.size a) := by
  have e : 16 * (o / 16) = o := by omega
  exact Cert.Chunk.chk1 (o / 16) (by omega) _ _ (fun x => by rw [e]; exact rd4 (F := F) o h x) (fun x => by rw [e]; exact rd5 (F := F) o h' x)

/-- Phase 2's first check at offset `o`: rows `n / 2`, columns `n % 2` of flat entries `n = o .. o + 15` are inside [160,2]. -/
theorem chk_p2a (o : Nat) (ho : o % 16 = 0) (hlt : o < 320) (h h' : ∀ a, (![o] : Fin 1 → Nat) a + S16.size a ≤ S320.size a) :
    (∀ a x, ((![RD6 (F := F) o h, RD7 (F := F) o h'] : Fin 2 → IVec S16 32) a x).toNat < S160x2.size a) := by
  have e : 16 * (o / 16) = o := by omega
  exact (Cert.Chunk.chk2 (o / 16) (by omega) _ _ (fun x => by rw [e]; exact rd6 (F := F) o h x) (fun x => by rw [e]; exact rd7 (F := F) o h' x)).1
/-- Phase 2's second check: the same rows with the columns moved up by five are inside [160,7]. -/
theorem chk_p2b (o : Nat) (ho : o % 16 = 0) (hlt : o < 320) (h h' : ∀ a, (![o] : Fin 1 → Nat) a + S16.size a ≤ S320.size a)
    (five : IVec S16 32) (hfive : five = broadcast S16 5#32) :
    (∀ a x, ((![RD6 (F := F) o h, addi (RD7 (F := F) o h') five] : Fin 2 → IVec S16 32) a x).toNat < S160x7.size a) := by
  subst hfive
  have e : 16 * (o / 16) = o := by omega
  exact (Cert.Chunk.chk2 (o / 16) (by omega) _ _ (fun x => by rw [e]; exact rd6 (F := F) o h x) (fun x => by rw [e]; exact rd7 (F := F) o h' x)).2
/-- Phase 3's first check at offset `o`: batch rows `n / 10`, candidates `n % 10` of candidates `n = o .. o + 15` are inside [16,10]. -/
theorem chk_p3a (o : Nat) (ho : o % 16 = 0) (hlt : o < 160) (h h' : ∀ a, (![o] : Fin 1 → Nat) a + S16.size a ≤ S160.size a) :
    (∀ a x, ((![RD8 (F := F) o h, RD9 (F := F) o h'] : Fin 2 → IVec S16 32) a x).toNat < S16x10.size a) := by
  have e : 16 * (o / 16) = o := by omega
  exact (Cert.Chunk.chk3 (o / 16) (by omega) _ _ (fun x => by rw [e]; exact rd8 (F := F) o h x) (fun x => by rw [e]; exact rd9 (F := F) o h' x)).1
/-- Phase 3's second check: staging rows `10 (n / 10) + n % 10 = n` at columns 4 and 3 are inside [160,7]. -/
theorem chk_p3b (o : Nat) (ho : o % 16 = 0) (hlt : o < 160) (h h' : ∀ a, (![o] : Fin 1 → Nat) a + S16.size a ≤ S160.size a)
    (three four row : IVec S16 32) (hthree : three = broadcast S16 3#32) (hfour : four = broadcast S16 4#32)
    (hrow : row = addi (muli (RD8 (F := F) o h) (broadcast S16 10#32)) (RD9 (F := F) o h')) :
    (∀ a x, ((![row, four] : Fin 2 → IVec S16 32) a x).toNat < S160x7.size a)
      ∧ (∀ a x, ((![row, three] : Fin 2 → IVec S16 32) a x).toNat < S160x7.size a) := by
  subst hthree hfour hrow
  have e : 16 * (o / 16) = o := by omega
  exact (Cert.Chunk.chk3 (o / 16) (by omega) _ _ (fun x => by rw [e]; exact rd8 (F := F) o h x) (fun x => by rw [e]; exact rd9 (F := F) o h' x)).2

omit [FloatOps F] in
/-- A points-to keeps holding at contents of which a fact is remembered instead of the term. -/
theorem pts_remember {ℓ : Loc nD τ sig} {I : Finset (Idx ℓ)} {q : PosShare TreeShare} (P : Buf (Elt F) ℓ → Prop) (f : Buf (Elt F) ℓ) (hf : P f) :
    (ℓ ↦[I]{q} f : sProp (𝕄 F)) ⊢ iprop(∃ g : Buf (Elt F) ℓ, ⌜P g⌝ ∗ ℓ ↦[I]{q} g) := by
  iintro H
  iexists f
  isplitr
  · ipureintro; exact hf
  · iexact H

/-- A group of the first phase at offset `o = 16 t`: sixteen coordinates gathered out of `A` and stored where they came from. -/
theorem repack1 (c : Fin τ.nSC) (i : Fin τ.nSub) (t o : Nat) (ho : o = 16 * t) (ht : t < 30)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S480.size a)
    (r cc : IVec S16 32) (hr : r = RD4 (F := F) o h) (hc : cc = RD5 (F := F) o h')
    (h2 : ∀ a x, ((![r, cc] : Fin 2 → IVec S16 32) a x).toNat < S160x7.size a)
    (v : Vec F S16 .f32)
    (hv : ∃ h1 : (∀ a x, ((![r, cc] : Fin 2 → IVec S16 32) a x).toNat < S160x3.size a),
      v = loadIdx (((s0V).access (.whole S160x3)).read (Elt F) A) ![r, cc] h1)
    (hO : Cert.Chunk.Agrees (F := F) (Cert.Chunk.Done1 t) O A C B) :
    ((((s3V).access (.whole S160x7)).loc (V d c i) ↦[((s3V).access (.whole S160x7)).set]{fullShare}
        (((s3V).access (.whole S160x7)).write (Elt F) O (storeIdx (((s3V).access (.whole S160x7)).read (Elt F) O) ![r, cc] v (fun _ => 1#1) false h2) Finset.univ) : sProp (𝕄 F))
      ⊢ iprop(∃ O' : Buf (Elt F) ((V d c i).loc cc0_scratch3), ⌜Cert.Chunk.Agrees (F := F) (Cert.Chunk.Done1 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s0V).access (.whole S160x3)) A = A := Memref.read_access_whole (Elt F) (cc0_scratch0 : Ref sig .scVector) A
  obtain ⟨h1, rfl⟩ := hv
  rw [e2, e1, e0]
  iintro H
  iexists (storeIdx O ![r, cc] (loadIdx A ![r, cc] h1) (fun _ => 1#1) false h2)
  isplitr
  · ipureintro
    subst ho hr hc
    exact Cert.Chunk.step1 (F := F) t ht O A C B _ _ (fun x => rd4 (F := F) (16 * t) h x) (fun x => rd5 (F := F) (16 * t) h' x) h1 h2 hO
  · iexact H

/-- A group of the second phase at offset `o = 16 t`: sixteen extents gathered out of `B` and stored five columns up. -/
theorem repack2 (c : Fin τ.nSC) (i : Fin τ.nSub) (t o : Nat) (ho : o = 16 * t) (ht : t < 20)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S320.size a)
    (r cc five col : IVec S16 32) (hr : r = RD6 (F := F) o h) (hc : cc = RD7 (F := F) o h') (hfive : five = broadcast S16 5#32)
    (hcol : col = addi cc five)
    (h2 : ∀ a x, ((![r, col] : Fin 2 → IVec S16 32) a x).toNat < S160x7.size a)
    (v : Vec F S16 .f32)
    (hv : ∃ h1 : (∀ a x, ((![r, cc] : Fin 2 → IVec S16 32) a x).toNat < S160x2.size a),
      v = loadIdx (((s2V).access (.whole S160x2)).read (Elt F) B) ![r, cc] h1)
    (hO : Cert.Chunk.Agrees (F := F) (Cert.Chunk.Done2 t) O A C B) :
    ((((s3V).access (.whole S160x7)).loc (V d c i) ↦[((s3V).access (.whole S160x7)).set]{fullShare}
        (((s3V).access (.whole S160x7)).write (Elt F) O (storeIdx (((s3V).access (.whole S160x7)).read (Elt F) O) ![r, col] v (fun _ => 1#1) false h2) Finset.univ) : sProp (𝕄 F))
      ⊢ iprop(∃ O' : Buf (Elt F) ((V d c i).loc cc0_scratch3), ⌜Cert.Chunk.Agrees (F := F) (Cert.Chunk.Done2 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s2V).access (.whole S160x2)) B = B := Memref.read_access_whole (Elt F) (cc0_scratch2 : Ref sig .scVector) B
  obtain ⟨h1, rfl⟩ := hv
  subst hcol
  rw [e2, e1, e0]
  iintro H
  iexists (storeIdx O ![r, addi cc five] (loadIdx B ![r, cc] h1) (fun _ => 1#1) false h2)
  isplitr
  · ipureintro
    subst ho hr hc hfive
    exact Cert.Chunk.step2 (F := F) t ht O A C B _ _ (fun x => rd6 (F := F) (16 * t) h x) (fun x => rd7 (F := F) (16 * t) h' x) h1 h2 hO
  · iexact H

/-- A group of the third phase at offset `o = 16 t`: sixteen confidences gathered out of `C`, stored at column 4 of their staging rows,
    and their marks at column 3. -/
theorem repack3 (c : Fin τ.nSC) (i : Fin τ.nSub) (t o : Nat) (ho : o = 16 * t) (ht : t < 10)
    (A : Buf (Elt F) ((V d c i).loc cc0_scratch0)) (C : Buf (Elt F) ((V d c i).loc cc0_scratch1)) (B : Buf (Elt F) ((V d c i).loc cc0_scratch2))
    (O : Buf (Elt F) ((V d c i).loc cc0_scratch3)) (h h' : ∀ a, (![o] : Fin 1 → Nat) a + S16.size a ≤ S160.size a)
    (b p three four row : IVec S16 32) (hb : b = RD8 (F := F) o h) (hp : p = RD9 (F := F) o h')
    (hthree : three = broadcast S16 3#32) (hfour : four = broadcast S16 4#32)
    (hrow : row = addi (muli b (broadcast S16 10#32)) p)
    (h2 : ∀ a x, ((![row, four] : Fin 2 → IVec S16 32) a x).toNat < S160x7.size a)
    (h3 : ∀ a x, ((![row, three] : Fin 2 → IVec S16 32) a x).toNat < S160x7.size a)
    (cv : Vec F S16 .f32)
    (hcv : ∃ h1 : (∀ a x, ((![b, p] : Fin 2 → IVec S16 32) a x).toNat < S16x10.size a),
      cv = loadIdx (((s1V).access (.whole S16x10)).read (Elt F) C) ![b, p] h1)
    (mk : FVec F S16 .f32) (hmk : mk = fun x => Cert.Spec.mark (F := F) (cv x))
    (hO : Cert.Chunk.Agrees (F := F) (Cert.Chunk.Done3 t) O A C B) :
    ((((s3V).access (.whole S160x7)).loc (V d c i) ↦[((s3V).access (.whole S160x7)).set]{fullShare}
        (((s3V).access (.whole S160x7)).write (Elt F)
          (((s3V).access (.whole S160x7)).write (Elt F) O (storeIdx (((s3V).access (.whole S160x7)).read (Elt F) O) ![row, four] cv (fun _ => 1#1) false h2) Finset.univ)
          (storeIdx (((s3V).access (.whole S160x7)).read (Elt F)
              (((s3V).access (.whole S160x7)).write (Elt F) O (storeIdx (((s3V).access (.whole S160x7)).read (Elt F) O) ![row, four] cv (fun _ => 1#1) false h2) Finset.univ))
            ![row, three] mk (fun _ => 1#1) false h3) Finset.univ) : sProp (𝕄 F))
      ⊢ iprop(∃ O' : Buf (Elt F) ((V d c i).loc cc0_scratch3), ⌜Cert.Chunk.Agrees (F := F) (Cert.Chunk.Done3 (t + 1)) O' A C B⌝
          ∗ (((s3V).access (.whole S160x7)).loc (V d c i) ↦[((s3V).access (.whole S160x7)).set]{fullShare} O'))) := by
  have e1 : ∀ O₁, View.read (Elt F) ((s3V).access (.whole S160x7)) O₁ = O₁ := fun O₁ => Memref.read_access_whole (Elt F) (cc0_scratch3 : Ref sig .scVector) O₁
  have e2 : ∀ O₁ w, View.write (Elt F) ((s3V).access (.whole S160x7)) O₁ w Finset.univ = w :=
    fun O₁ w => Memref.write_access_whole_univ (Elt F) (cc0_scratch3 : Ref sig .scVector) O₁ w
  have e0 : View.read (Elt F) ((s1V).access (.whole S16x10)) C = C := Memref.read_access_whole (Elt F) (cc0_scratch1 : Ref sig .scVector) C
  obtain ⟨h1, rfl⟩ := hcv
  subst hmk
  simp only [e2, e1, e0]
  iintro H
  iexists (storeIdx (storeIdx O ![row, four] (loadIdx C ![b, p] h1) (fun _ => 1#1) false h2) ![row, three]
    (fun x => Cert.Spec.mark (F := F) (loadIdx C ![b, p] h1 x)) (fun _ => 1#1) false h3)
  isplitr
  · ipureintro
    subst ho hb hp hthree hfour hrow
    exact Cert.Chunk.step3 (F := F) t ht O A C B _ _ (fun x => rd8 (F := F) (16 * t) h x) (fun x => rd9 (F := F) (16 * t) h' x) h1 h2 h3 hO
  · iexact H

/-! ## The chunk of the result a trip writes, and the bookkeeping of the trips -/

omit [FloatOps F] in
/-- Chunk `k` of the tile's rows, as the tile addresses it, is that set of entries of the device's result array. -/
theorem pts_chunk (c : Fin τ.nSC) (i : Fin τ.nSub) (k : Fin k0_t1_loop.trips) (f : Buf (Elt F) (oLoc d)) :
    ((oChunk L k).view.loc (V d c i) ↦[(oChunk L k).view.set]{fullShare} f : sProp (𝕄 F)) = (oLoc d ↦[chunkSet L k]{fullShare} f) := rfl

omit [FloatOps F] in
/-- Chunk `k` at `g` beside the other chunks (those below `k` at `g`, the others at `f`) is all chunks, those below `k + 1` at `g`. -/
theorem chunks_fold (k : Fin k0_t1_loop.trips) (f g : Buf (Elt F) (oLoc d)) :
    iprop((oLoc d ↦[chunkSet L k]{fullShare} g)
        ∗ bigSep (Finset.univ.erase k) (fun j : Fin k0_t1_loop.trips => oLoc d ↦[chunkSet L j]{fullShare} (if j.val < k.val then g else f)))
      ⊢ (bigSep Finset.univ (fun j : Fin k0_t1_loop.trips => oLoc d ↦[chunkSet L j]{fullShare} (if j.val < k.val + 1 then g else f)) : sProp (𝕄 F)) := by
  have e : (bigSep (Finset.univ.erase k) (fun j : Fin k0_t1_loop.trips => oLoc d ↦[chunkSet L j]{fullShare} (if j.val < k.val then g else f)) : sProp (𝕄 F))
      = bigSep (Finset.univ.erase k) (fun j : Fin k0_t1_loop.trips => oLoc d ↦[chunkSet L j]{fullShare} (if j.val < k.val + 1 then g else f)) :=
    bigSep_congr fun j hj => by
      have hne : j.val ≠ k.val := fun e => (Finset.mem_erase.mp hj).1 (Fin.ext e)
      by_cases h : j.val < k.val
      · rw [if_pos h, if_pos (by omega)]
      · rw [if_neg h, if_neg (by omega)]
  rw [SparseCore.bigSep_erase' (Finset.mem_univ k) (Φ := fun j : Fin k0_t1_loop.trips => (oLoc d ↦[chunkSet L j]{fullShare} (if j.val < k.val + 1 then g else f) : sProp (𝕄 F))),
    if_pos (Nat.lt_succ_self _), e]

/-- One more wait on a transfer semaphore of the tile's own keeps the recorded waits within what the launch allows. -/
theorem ins_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- What the three copies in leave in the staging tables: the chunk's sixteen batch rows of each argument, the rows of
    the first and the third regrouped with the candidates into one axis of 160. -/
def RelA (X0 : Buf (Elt F) (a0Loc d)) (k : Fin k0_t1_loop.trips) (A : FVec F ⟨2, ![160, 3]⟩ .f32) : Prop :=
  ∀ (r : Fin 160) (c : Fin 3), A (ix2 r c)
    = X0 (ix3 (n0 := 4096) (n1 := 10) (n2 := 3) ⟨16 * (8 * (2 * (L 1).val + (L 0).val) + k.val) + r.val / 10, base_lt L k _ (by omega)⟩ ⟨r.val % 10, by omega⟩ c)
def RelC (X1 : Buf (Elt F) (a1Loc d)) (k : Fin k0_t1_loop.trips) (C : FVec F ⟨2, ![16, 10]⟩ .f32) : Prop :=
  ∀ (b : Fin 16) (p : Fin 10), C (ix2 b p)
    = X1 (ix2 (n0 := 4096) (n1 := 10) ⟨16 * (8 * (2 * (L 1).val + (L 0).val) + k.val) + b.val, base_lt L k _ b.isLt⟩ p)
def RelB (X2 : Buf (Elt F) (a2Loc d)) (k : Fin k0_t1_loop.trips) (B : FVec F ⟨2, ![160, 2]⟩ .f32) : Prop :=
  ∀ (r : Fin 160) (c : Fin 2), B (ix2 r c)
    = X2 (ix3 (n0 := 4096) (n1 := 10) (n2 := 2) ⟨16 * (8 * (2 * (L 1).val + (L 0).val) + k.val) + r.val / 10, base_lt L k _ (by omega)⟩ ⟨r.val % 10, by omega⟩ c)

omit [FloatOps F] in
/-- Before the first trip no chunk is below the trip count: all chunks are at `f`. -/
theorem chunks_start (f g : Buf (Elt F) (oLoc d)) :
    (bigSep Finset.univ (fun j : Fin k0_t1_loop.trips => oLoc d ↦[chunkSet L j]{fullShare} f) : sProp (𝕄 F))
      ⊢ bigSep Finset.univ (fun j : Fin k0_t1_loop.trips => oLoc d ↦[chunkSet L j]{fullShare} (if j.val < 0 then g else f)) := by
  rw [show (fun j : Fin k0_t1_loop.trips => (oLoc d ↦[chunkSet L j]{fullShare} (if j.val < 0 then g else f) : sProp (𝕄 F)))
      = fun j => oLoc d ↦[chunkSet L j]{fullShare} f from funext fun j => by rw [if_neg (Nat.not_lt_zero _)]]

omit [FloatOps F] in
/-- After the last trip every chunk is below the trip count: all chunks are at `g`. -/
theorem chunks_end (f g : Buf (Elt F) (oLoc d)) :
    (bigSep Finset.univ (fun j : Fin k0_t1_loop.trips => oLoc d ↦[chunkSet L j]{fullShare} (if j.val < k0_t1_loop.trips then g else f)) : sProp (𝕄 F))
      ⊢ bigSep Finset.univ (fun j : Fin k0_t1_loop.trips => oLoc d ↦[chunkSet L j]{fullShare} g) := by
  rw [show (fun j : Fin k0_t1_loop.trips => (oLoc d ↦[chunkSet L j]{fullShare} (if j.val < k0_t1_loop.trips then g else f) : sProp (𝕄 F)))
      = fun j => oLoc d ↦[chunkSet L j]{fullShare} g from funext fun j => by rw [if_pos j.isLt]]

omit [FloatOps F] in
/-- A tile's copy of constant table 0 holds the table. -/
theorem tcopy0 (c : Fin τ.nSC) (i : Fin τ.nSub) (j : S480.Idx) :
    (ReadAs.same.apply (View.read (Elt F) (t0V).view (TB0 (F := F) d)) : S480.Idx → Elt F .i32) j = TS0 (F := F) d c i j :=
  congrFun (View.read_whole (Val := Elt F) (main_c_scv : Ref sig .scVector) (TB0 (F := F) d)) j
omit [FloatOps F] in
/-- A tile's copy of constant table 1 holds the table. -/
theorem tcopy1 (c : Fin τ.nSC) (i : Fin τ.nSub) (j : S480.Idx) :
    (ReadAs.same.apply (View.read (Elt F) (t1V).view (TB1 (F := F) d)) : S480.Idx → Elt F .i32) j = TS1 (F := F) d c i j :=
  congrFun (View.read_whole (Val := Elt F) (main_c_0_scv : Ref sig .scVector) (TB1 (F := F) d)) j
omit [FloatOps F] in
/-- A tile's copy of constant table 2 holds the table. -/
theorem tcopy2 (c : Fin τ.nSC) (i : Fin τ.nSub) (j : S320.Idx) :
    (ReadAs.same.apply (View.read (Elt F) (t2V).view (TB2 (F := F) d)) : S320.Idx → Elt F .i32) j = TS2 (F := F) d c i j :=
  congrFun (View.read_whole (Val := Elt F) (main_c_1_scv : Ref sig .scVector) (TB2 (F := F) d)) j
omit [FloatOps F] in
/-- A tile's copy of constant table 3 holds the table. -/
theorem tcopy3 (c : Fin τ.nSC) (i : Fin τ.nSub) (j : S320.Idx) :
    (ReadAs.same.apply (View.read (Elt F) (t3V).view (TB3 (F := F) d)) : S320.Idx → Elt F .i32) j = TS3 (F := F) d c i j :=
  congrFun (View.read_whole (Val := Elt F) (main_c_2_scv : Ref sig .scVector) (TB3 (F := F) d)) j
omit [FloatOps F] in
/-- A tile's copy of constant table 4 holds the table. -/
theorem tcopy4 (c : Fin τ.nSC) (i : Fin τ.nSub) (j : S160.Idx) :
    (ReadAs.same.apply (View.read (Elt F) (t4V).view (TB4 (F := F) d)) : S160.Idx → Elt F .i32) j = TS4 (F := F) d c i j :=
  congrFun (View.read_whole (Val := Elt F) (main_c_3_scv : Ref sig .scVector) (TB4 (F := F) d)) j
omit [FloatOps F] in
/-- A tile's copy of constant table 5 holds the table. -/
theorem tcopy5 (c : Fin τ.nSC) (i : Fin τ.nSub) (j : S160.Idx) :
    (ReadAs.same.apply (View.read (Elt F) (t5V).view (TB5 (F := F) d)) : S160.Idx → Elt F .i32) j = TS5 (F := F) d c i j :=
  congrFun (View.read_whole (Val := Elt F) (main_c_4_scv : Ref sig .scVector) (TB5 (F := F) d)) j

variable (m : (ℓ : Loc nD τ sig) → Buf (Elt F) ℓ)

/-- The loop's invariant before trip `n`: the nine read-only arrays and the six table copies as they were, the four staging
    tables at some contents, every transfer semaphore's counter at zero, chunks below `n` of the tile's rows at the
    specification and the others untouched, and what the tile owes the launch. -/
def inv (O : CellTallies nD τ sig (HIx 1)) (W : Waits sig (HIx 1)) (q : PosShare TreeShare) (n : Nat) (_ : PUnit) : sProp (𝕄 F) :=
  iprop(Transfers.MayWaits (V d (cV L) (jV L)) (none : HIx 1) O
    ∗ ((a0V).view.loc (V d (cV L) (jV L)) ↦{q} m (a0Loc d)) ∗ ((a1V).view.loc (V d (cV L) (jV L)) ↦{q} m (a1Loc d)) ∗ ((a2V).view.loc (V d (cV L) (jV L)) ↦{q} m (a2Loc d))
    ∗ ((s4V).view.loc (V d (cV L) (jV L)) ↦{fullShare} TS0 d (cV L) (jV L)) ∗ ((s5V).view.loc (V d (cV L) (jV L)) ↦{fullShare} TS1 d (cV L) (jV L)) ∗ ((s6V).view.loc (V d (cV L) (jV L)) ↦{fullShare} TS2 d (cV L) (jV L)) ∗ ((s7V).view.loc (V d (cV L) (jV L)) ↦{fullShare} TS3 d (cV L) (jV L)) ∗ ((s8V).view.loc (V d (cV L) (jV L)) ↦{fullShare} TS4 d (cV L) (jV L)) ∗ ((s9V).view.loc (V d (cV L) (jV L)) ↦{fullShare} TS5 d (cV L) (jV L))
    ∗ (∃ f, (s0V).view.loc (V d (cV L) (jV L)) ↦{fullShare} f) ∗ (∃ f, (s1V).view.loc (V d (cV L) (jV L)) ↦{fullShare} f) ∗ (∃ f, (s2V).view.loc (V d (cV L) (jV L)) ↦{fullShare} f) ∗ (∃ f, (s3V).view.loc (V d (cV L) (jV L)) ↦{fullShare} f)
    ∗ semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0 ∗ semVal ((V d (cV L) (jV L)), SemLoc.dma cc0_scoped3.sem) 0 ∗ semVal ((V d (cV L) (jV L)), SemLoc.dma cc0_scoped4.sem) 0 ∗ semVal ((V d (cV L) (jV L)), SemLoc.dma cc0_scoped5.sem) 0 ∗ semVal ((V d (cV L) (jV L)), SemLoc.dma cc0_scoped6.sem) 0 ∗ semVal ((V d (cV L) (jV L)), SemLoc.dma cc0_scoped7.sem) 0 ∗ semVal ((V d (cV L) (jV L)), SemLoc.dma cc0_scoped8.sem) 0 ∗ semVal ((V d (cV L) (jV L)), SemLoc.dma cc0_scoped9.sem) 0
    ∗ (bigSep Finset.univ fun k : Fin k0_t1_loop.trips => oLoc d ↦[chunkSet L k]{fullShare} (if k.val < n then GO m d else m (oLoc d)))
    ∗ ∃ W', ⌜∀ p ∈ W', p ∈ W ∨ p.2 = none⌝ ∗ owes (V d (cV L) (jV L)) O W')

set_option hygiene false in
local macro "sl_chk" : tactic => `(tactic| first
  | (show (∀ a x, _ < S160x3.size a) ∧ _; exact chk_p1 (F := F) _ (by decide) (by decide) _ _)
  | (show (∀ a x, _ < S160x2.size a); exact chk_p2a (F := F) _ (by decide) (by decide) _ _)
  | (show (∀ a x, _ < S160x7.size a); exact chk_p2b (F := F) _ (by decide) (by decide) _ _ _ rfl)
  | (show (∀ a x, _ < S16x10.size a); exact chk_p3a (F := F) _ (by decide) (by decide) _ _)
  | (show (∀ a x, _ < S160x7.size a) ∧ _; exact chk_p3b (F := F) _ (by decide) (by decide) _ _ _ _ _ rfl rfl rfl))

set_option hygiene false in
local macro "grp1" t:num o:num hb:ident : tactic => `(tactic| (
    iapply (SparseCore.wp_vectorLoadIdx 𝒱₀ (V d (cV L) (jV L)) none Set.univ (base := s0V) (S := Finset.univ) (q := fullShare) (Finset.subset_univ _)) $$ Hs0; iintro Hs0
    iapply (SparseCore.wp_vectorStoreIdx 𝒱₀ (V d (cV L) (jV L)) none Set.univ (base := s3V)) $$ Hs3; iintro Hs3
    ihave Hs3 := (repack1 (F := F) d (cV L) (jV L) $t $o (by decide) (by decide) A C B Ocur $hb $hb _ _ ?hr ?hc _ _ ?hv hOcur) $$ Hs3
    case hr => exact rfl
    case hc => exact rfl
    case hv => exact ⟨_, rfl⟩
    icases Hs3 with ⟨%Ocur, %hOcur, Hs3⟩
    sl_exec (disch := sl_chk)))

set_option hygiene false in
local macro "grp1s" t:num o:num hb:ident : tactic => `(tactic| (
    iapply (SparseCore.wp_vectorLoadIdx 𝒱₀ (V d (cV L) (jV L)) none Set.univ (base := s0V) (S := Finset.univ) (q := fullShare) (Finset.subset_univ _)) $$ Hs0; iintro Hs0
    sl_exec (disch := sl_chk)
    iapply (SparseCore.wp_vectorStoreIdx 𝒱₀ (V d (cV L) (jV L)) none Set.univ (base := s3V)) $$ Hs3; iintro Hs3
    ihave Hs3 := (repack1 (F := F) d (cV L) (jV L) $t $o (by decide) (by decide) A C B Ocur $hb $hb _ _ ?hr ?hc _ _ ?hv hOcur) $$ Hs3
    case hr => exact rfl
    case hc => exact rfl
    case hv => exact ⟨_, rfl⟩
    icases Hs3 with ⟨%Ocur, %hOcur, Hs3⟩
    sl_exec (disch := sl_chk)))

set_option hygiene false in
local macro "grp2" t:num o:num hb:ident : tactic => `(tactic| (
    iapply (SparseCore.wp_vectorLoadIdx 𝒱₀ (V d (cV L) (jV L)) none Set.univ (base := s2V) (S := Finset.univ) (q := fullShare) (Finset.subset_univ _)) $$ Hs2; iintro Hs2
    iapply (SparseCore.wp_vectorStoreIdx 𝒱₀ (V d (cV L) (jV L)) none Set.univ (base := s3V)) $$ Hs3; iintro Hs3
    ihave Hs3 := (repack2 (F := F) d (cV L) (jV L) $t $o (by decide) (by decide) A C B Ocur $hb $hb _ (RD7 (F := F) $o $hb) (broadcast S16 5#32) _ ?hr rfl rfl ?hcol _ _ ?hv hOcur) $$ Hs3
    case hr => exact rfl
    case hcol => exact rfl
    case hv => exact ⟨_, rfl⟩
    icases Hs3 with ⟨%Ocur, %hOcur, Hs3⟩
    sl_exec (disch := sl_chk)))

set_option hygiene false in
local macro "grp2s" t:num o:num hb:ident : tactic => `(tactic| (
    iapply (SparseCore.wp_vectorLoadIdx 𝒱₀ (V d (cV L) (jV L)) none Set.univ (base := s2V) (S := Finset.univ) (q := fullShare) (Finset.subset_univ _)) $$ Hs2; iintro Hs2
    sl_exec (disch := sl_chk)
    iapply (SparseCore.wp_vectorStoreIdx 𝒱₀ (V d (cV L) (jV L)) none Set.univ (base := s3V)) $$ Hs3; iintro Hs3
    ihave Hs3 := (repack2 (F := F) d (cV L) (jV L) $t $o (by decide) (by decide) A C B Ocur $hb $hb _ (RD7 (F := F) $o $hb) (broadcast S16 5#32) _ ?hr rfl rfl ?hcol _ _ ?hv hOcur) $$ Hs3
    case hr => exact rfl
    case hcol => exact rfl
    case hv => exact ⟨_, rfl⟩
    icases Hs3 with ⟨%Ocur, %hOcur, Hs3⟩
    sl_exec (disch := sl_chk)))

set_option hygiene false in
local macro "grp3" t:num o:num hb:ident : tactic => `(tactic| (
    iapply (SparseCore.wp_vectorLoadIdx 𝒱₀ (V d (cV L) (jV L)) none Set.univ (base := s1V) (S := Finset.univ) (q := fullShare) (Finset.subset_univ _)) $$ Hs1; iintro Hs1
    iapply (SparseCore.wp_vectorStoreIdx 𝒱₀ (V d (cV L) (jV L)) none Set.univ (base := s3V)) $$ Hs3; iintro Hs3
    iapply (SparseCore.wp_vectorStoreIdx 𝒱₀ (V d (cV L) (jV L)) none Set.univ (base := s3V)) $$ Hs3; iintro Hs3
    ihave Hs3 := (repack3 (F := F) d (cV L) (jV L) $t $o (by decide) (by decide) A C B Ocur $hb $hb (RD8 (F := F) $o $hb) (RD9 (F := F) $o $hb) _ _ _ rfl rfl ?hthree ?hfour ?hrow _ _ _ ?hcv _ ?hmk hOcur) $$ Hs3
    case hthree => exact rfl
    case hfour => exact rfl
    case hrow => exact rfl
    case hcv => exact ⟨_, rfl⟩
    case hmk => exact rfl
    icases Hs3 with ⟨%Ocur, %hOcur, Hs3⟩))

set_option hygiene false in
local macro "grp3s" t:num o:num hb:ident : tactic => `(tactic| (
    iapply (SparseCore.wp_vectorLoadIdx 𝒱₀ (V d (cV L) (jV L)) none Set.univ (base := s1V) (S := Finset.univ) (q := fullShare) (Finset.subset_univ _)) $$ Hs1; iintro Hs1
    sl_exec (disch := sl_chk)
    iapply (SparseCore.wp_vectorStoreIdx 𝒱₀ (V d (cV L) (jV L)) none Set.univ (base := s3V)) $$ Hs3; iintro Hs3
    iapply (SparseCore.wp_vectorStoreIdx 𝒱₀ (V d (cV L) (jV L)) none Set.univ (base := s3V)) $$ Hs3; iintro Hs3
    ihave Hs3 := (repack3 (F := F) d (cV L) (jV L) $t $o (by decide) (by decide) A C B Ocur $hb $hb (RD8 (F := F) $o $hb) (RD9 (F := F) $o $hb) _ _ _ rfl rfl ?hthree ?hfour ?hrow _ _ _ ?hcv _ ?hmk hOcur) $$ Hs3
    case hthree => exact rfl
    case hfour => exact rfl
    case hrow => exact rfl
    case hcv => exact ⟨_, rfl⟩
    case hmk => exact rfl
    icases Hs3 with ⟨%Ocur, %hOcur, Hs3⟩))

set_option maxHeartbeats 0 in
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp
        ∗ (Ins d m q ∗ bigSep Finset.univ fun k : Fin k0_t1_loop.trips => oLoc d ↦[chunkSet L k]{fullShare} m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_assemble L a0V (Memref.isWhole_whole _) a1V (Memref.isWhole_whole _) a2V (Memref.isWhole_whole _) t0V (Memref.isWhole_whole _) t1V (Memref.isWhole_whole _) t2V (Memref.isWhole_whole _) t3V (Memref.isWhole_whole _) t4V (Memref.isWhole_whole _) t5V (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) s8V (Memref.isWhole_whole _) s9V (Memref.isWhole_whole _) cc0_scoped0 cc0_scoped1 cc0_scoped2 cc0_scoped3 cc0_scoped4 cc0_scoped5 cc0_scoped6 cc0_scoped7 cc0_scoped8 cc0_scoped9)
          fun _ => iprop((Ins d m q ∗ bigSep Finset.univ fun k : Fin k0_t1_loop.trips => oLoc d ↦[chunkSet L k]{fullShare} GO m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_assemble_eq_skeleton]; unfold cc0__sc_assemble_skel
  rw [(K (F := F)).scopedBufs_V hF d (cV L) (jV L), SparseCore.Cfg.scopedSems0_V (Val := Elt F) d (cV L) (jV L), ownSems0_V, ownBufs_V]
  unfold Ins
  iintro ⟨#Hlv, -, ⟨⟨Ha0, Ha1, Ha2, Ht0, Ht1, Ht2, Ht3, Ht4, Ht5⟩, Hout⟩,
    ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, Hbufs⟩, ⟨Hm0, Hm1, Hm2, Hm3, Hm4, Hm5, Hm6, Hm7, Hm8, Hm9, Hsems⟩, HO⟩
  ihave Hmw := ((K (F := F)).mayWaits_none (thr := (V d (cV L) (jV L))) hO) $$ Hlv
  ihave Ha0' := (Entails.of_eq (pts_a0V (F := F) d (cV L) (jV L) q _).symm) $$ Ha0
  ihave Ha1' := (Entails.of_eq (pts_a1V (F := F) d (cV L) (jV L) q _).symm) $$ Ha1
  ihave Ha2' := (Entails.of_eq (pts_a2V (F := F) d (cV L) (jV L) q _).symm) $$ Ha2
  ihave Ht0' := (Entails.of_eq (pts_t0V (F := F) d (cV L) (jV L) q _).symm) $$ Ht0
  ihave Ht1' := (Entails.of_eq (pts_t1V (F := F) d (cV L) (jV L) q _).symm) $$ Ht1
  ihave Ht2' := (Entails.of_eq (pts_t2V (F := F) d (cV L) (jV L) q _).symm) $$ Ht2
  ihave Ht3' := (Entails.of_eq (pts_t3V (F := F) d (cV L) (jV L) q _).symm) $$ Ht3
  ihave Ht4' := (Entails.of_eq (pts_t4V (F := F) d (cV L) (jV L) q _).symm) $$ Ht4
  ihave Ht5' := (Entails.of_eq (pts_t5V (F := F) d (cV L) (jV L) q _).symm) $$ Ht5
  ihave Hs0' := (Entails.of_eq (pts_s0 (F := F) d (cV L) (jV L) _).symm) $$ Hs0
  ihave Hs1' := (Entails.of_eq (pts_s1 (F := F) d (cV L) (jV L) _).symm) $$ Hs1
  ihave Hs2' := (Entails.of_eq (pts_s2 (F := F) d (cV L) (jV L) _).symm) $$ Hs2
  ihave Hs3' := (Entails.of_eq (pts_s3 (F := F) d (cV L) (jV L) _).symm) $$ Hs3
  ihave Hs4' := (Entails.of_eq (pts_s4 (F := F) d (cV L) (jV L) _).symm) $$ Hs4
  ihave Hs5' := (Entails.of_eq (pts_s5 (F := F) d (cV L) (jV L) _).symm) $$ Hs5
  ihave Hs6' := (Entails.of_eq (pts_s6 (F := F) d (cV L) (jV L) _).symm) $$ Hs6
  ihave Hs7' := (Entails.of_eq (pts_s7 (F := F) d (cV L) (jV L) _).symm) $$ Hs7
  ihave Hs8' := (Entails.of_eq (pts_s8 (F := F) d (cV L) (jV L) _).symm) $$ Hs8
  ihave Hs9' := (Entails.of_eq (pts_s9 (F := F) d (cV L) (jV L) _).symm) $$ Hs9
  sl_exec
  simp only [View.write_whole_univ]
  sl_for (inv d L m O W q) $$ [Hmw Ha0' Ha1' Ha2' Hs4' Hs5' Hs6' Hs7' Hs8' Hs9' Hs0' Hs1' Hs2' Hs3' Hm0 Hm1 Hm2 Hm3 Hm4 Hm5 Hm6 Hm7 Hm8 Hm9 Hout HO]
  case region =>
    intro k u
    unfold inv
    rw [SparseCore.bigSep_erase' (Finset.mem_univ k), if_neg (Nat.lt_irrefl k.val)]
    iintro ⟨Hmw, Ha0, Ha1, Ha2, Hs4, Hs5, Hs6, Hs7, Hs8, Hs9, ⟨%g0, Hs0⟩, ⟨%g1, Hs1⟩, ⟨%g2, Hs2⟩, ⟨%g3, Hs3⟩, Hm0, Hm1, Hm2, Hm3, Hm4, Hm5, Hm6, Hm7, Hm8, Hm9, ⟨Hck, Hrest⟩, %W', %hW', HO⟩
    ihave Hck' := (Entails.of_eq (pts_chunk (F := F) d L (cV L) (jV L) k _).symm) $$ Hck
    sl_exec (disch := sl_chk)
    ihave Hs0 := (pts_remember (F := F) (RelA (F := F) d L (m (a0Loc d)) k) _ ?hA) $$ Hs0
    case hA => exact fun r c => copyA (F := F) d L k _ _ _ _ _ r c
    icases Hs0 with ⟨%A, %hA, Hs0⟩
    ihave Hs1 := (pts_remember (F := F) (RelC (F := F) d L (m (a1Loc d)) k) _ ?hC) $$ Hs1
    case hC => exact fun b p => copyC (F := F) d L k _ _ b p
    icases Hs1 with ⟨%C, %hC, Hs1⟩
    ihave Hs2 := (pts_remember (F := F) (RelB (F := F) d L (m (a2Loc d)) k) _ ?hB) $$ Hs2
    case hB => exact fun r c => copyB (F := F) d L k _ _ _ _ _ r c
    icases Hs2 with ⟨%B, %hB, Hs2⟩
    ihave Hs0 := (Entails.of_eq (acc_s0 (F := F) d (cV L) (jV L) _)) $$ Hs0
    ihave Hs1 := (Entails.of_eq (acc_s1 (F := F) d (cV L) (jV L) _)) $$ Hs1
    ihave Hs2 := (Entails.of_eq (acc_s2 (F := F) d (cV L) (jV L) _)) $$ Hs2
    ihave Hs3 := (Entails.of_eq (acc_s3 (F := F) d (cV L) (jV L) _)) $$ Hs3
    have hOcur : Cert.Chunk.Agrees (F := F) (Cert.Chunk.Done1 0) g3 A C B := Cert.Chunk.agrees_start _ _ _ _
    rename' g3 => Ocur
    grp1 0 0 inb_S480_S16_0
    grp1 1 16 inb_S480_S16_16
    grp1 2 32 inb_S480_S16_32
    grp1 3 48 inb_S480_S16_48
    grp1 4 64 inb_S480_S16_64
    grp1 5 80 inb_S480_S16_80
    grp1 6 96 inb_S480_S16_96
    grp1 7 112 inb_S480_S16_112
    grp1 8 128 inb_S480_S16_128
    grp1 9 144 inb_S480_S16_144
    grp1 10 160 inb_S480_S16_160
    grp1 11 176 inb_S480_S16_176
    grp1 12 192 inb_S480_S16_192
    grp1 13 208 inb_S480_S16_208
    grp1 14 224 inb_S480_S16_224
    grp1 15 240 inb_S480_S16_240
    grp1 16 256 inb_S480_S16_256
    grp1 17 272 inb_S480_S16_272
    grp1 18 288 inb_S480_S16_288
    grp1 19 304 inb_S480_S16_304
    grp1 20 320 inb_S480_S16_320
    grp1 21 336 inb_S480_S16_336
    grp1 22 352 inb_S480_S16_352
    grp1 23 368 inb_S480_S16_368
    grp1 24 384 inb_S480_S16_384
    grp1 25 400 inb_S480_S16_400
    grp1s 26 416 inb_S480_S16_416
    grp1 27 432 inb_S480_S16_432
    grp1 28 448 inb_S480_S16_448
    grp1 29 464 inb_S480_S16_464
    have hOcur := Cert.Chunk.agrees_1_2 (F := F) _ _ _ _ hOcur
    grp2 0 0 inb_S320_S16_0
    grp2 1 16 inb_S320_S16_16
    grp2 2 32 inb_S320_S16_32
    grp2 3 48 inb_S320_S16_48
    grp2 4 64 inb_S320_S16_64
    grp2 5 80 inb_S320_S16_80
    grp2 6 96 inb_S320_S16_96
    grp2 7 112 inb_S320_S16_112
    grp2 8 128 inb_S320_S16_128
    grp2 9 144 inb_S320_S16_144
    grp2s 10 160 inb_S320_S16_160
    grp2 11 176 inb_S320_S16_176
    grp2 12 192 inb_S320_S16_192
    grp2 13 208 inb_S320_S16_208
    grp2 14 224 inb_S320_S16_224
    grp2 15 240 inb_S320_S16_240
    grp2 16 256 inb_S320_S16_256
    grp2 17 272 inb_S320_S16_272
    grp2 18 288 inb_S320_S16_288
    grp2 19 304 inb_S320_S16_304
    have hOcur := Cert.Chunk.agrees_2_3 (F := F) _ _ _ _ hOcur
    grp3 0 0 inb_S160_S16_0
    sl_exec (disch := sl_chk)
    grp3s 1 16 inb_S160_S16_16
    sl_exec (disch := sl_chk)
    grp3 2 32 inb_S160_S16_32
    sl_exec (disch := sl_chk)
    grp3 3 48 inb_S160_S16_48
    sl_exec (disch := sl_chk)
    grp3s 4 64 inb_S160_S16_64
    sl_exec (disch := sl_chk)
    grp3 5 80 inb_S160_S16_80
    sl_exec (disch := sl_chk)
    grp3 6 96 inb_S160_S16_96
    sl_exec (disch := sl_chk)
    grp3s 7 112 inb_S160_S16_112
    sl_exec (disch := sl_chk)
    grp3 8 128 inb_S160_S16_128
    sl_exec (disch := sl_chk)
    grp3 9 144 inb_S160_S16_144
    have hfin : Ocur = Cert.Spec.Gv (F := F) A C B := Cert.Chunk.agrees_done (F := F) _ _ _ _ hOcur
    ihave Hs0 := (Entails.of_eq (acc_s0 (F := F) d (cV L) (jV L) _).symm) $$ Hs0
    ihave Hs1 := (Entails.of_eq (acc_s1 (F := F) d (cV L) (jV L) _).symm) $$ Hs1
    ihave Hs2 := (Entails.of_eq (acc_s2 (F := F) d (cV L) (jV L) _).symm) $$ Hs2
    ihave Hs3 := (Entails.of_eq (acc_s3 (F := F) d (cV L) (jV L) _).symm) $$ Hs3
    sl_exec (disch := sl_chk)
    sl_step
    -- the chunk, back at the device's location, holds the specification on its sixteen rows
    ihave Hck := (Entails.of_eq (pts_chunk (F := F) d L (cV L) (jV L) k _)) $$ Hck'
    ihave Hck := (Entails.of_eq (pointsTo_congr (g := GO m d) ?hcong)) $$ Hck
    case hcong =>
      exact copyOutW_of (F := F) d L k _ _ _ (m (a0Loc d)) (m (a1Loc d)) (m (a2Loc d)) A C B hA hC hB Ocur hfin (m (oLoc d)) _ rfl
    isplitl [Hmw]; · iexact Hmw
    isplitl [Ha0]; · iexact Ha0
    isplitl [Ha1]; · iexact Ha1
    isplitl [Ha2]; · iexact Ha2
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs0]; · iexists _; iexact Hs0
    isplitl [Hs1]; · iexists _; iexact Hs1
    isplitl [Hs2]; · iexists _; iexact Hs2
    isplitl [Hs3]; · iexists _; iexact Hs3
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hck Hrest]
    · iapply (chunks_fold (F := F) d L k (m (oLoc d)) (GO m d))
      isplitl [Hck]; · iexact Hck
      iexact Hrest
    iexists _; isplitr
    on_goal 2 => iexact HO
    ipureintro; exact ins_ok (ins_ok (ins_ok (ins_ok hW' _) _) _) _
  · unfold inv
    isplitr; · iexact Hmw
    isplitl [Ha0']; · iexact Ha0'
    isplitl [Ha1']; · iexact Ha1'
    isplitl [Ha2']; · iexact Ha2'
    isplitl [Hs4']
    · iapply (Entails.of_eq (pointsTo_congr (g := TS0 (F := F) d (cV L) (jV L)) ?h4)) $$ Hs4'
      case h4 => exact fun j _ => tcopy0 (F := F) d (cV L) (jV L) j
    isplitl [Hs5']
    · iapply (Entails.of_eq (pointsTo_congr (g := TS1 (F := F) d (cV L) (jV L)) ?h5)) $$ Hs5'
      case h5 => exact fun j _ => tcopy1 (F := F) d (cV L) (jV L) j
    isplitl [Hs6']
    · iapply (Entails.of_eq (pointsTo_congr (g := TS2 (F := F) d (cV L) (jV L)) ?h6)) $$ Hs6'
      case h6 => exact fun j _ => tcopy2 (F := F) d (cV L) (jV L) j
    isplitl [Hs7']
    · iapply (Entails.of_eq (pointsTo_congr (g := TS3 (F := F) d (cV L) (jV L)) ?h7)) $$ Hs7'
      case h7 => exact fun j _ => tcopy3 (F := F) d (cV L) (jV L) j
    isplitl [Hs8']
    · iapply (Entails.of_eq (pointsTo_congr (g := TS4 (F := F) d (cV L) (jV L)) ?h8)) $$ Hs8'
      case h8 => exact fun j _ => tcopy4 (F := F) d (cV L) (jV L) j
    isplitl [Hs9']
    · iapply (Entails.of_eq (pointsTo_congr (g := TS5 (F := F) d (cV L) (jV L)) ?h9)) $$ Hs9'
      case h9 => exact fun j _ => tcopy5 (F := F) d (cV L) (jV L) j
    isplitl [Hs0']; · iexists _; iexact Hs0'
    isplitl [Hs1']; · iexists _; iexact Hs1'
    isplitl [Hs2']; · iexists _; iexact Hs2'
    isplitl [Hs3']; · iexists _; iexact Hs3'
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hout]
    · iapply (chunks_start (F := F) d L (m (oLoc d)) (GO m d)); iexact Hout
    iexists _; isplitr
    on_goal 2 => iexact HO
    ipureintro; exact ins_ok (ins_ok (ins_ok (ins_ok (ins_ok (ins_ok (fun p hp => Or.inl hp) _) _) _) _) _) _
  iintro %acc HI
  unfold inv
  icases HI with ⟨-, Ha0, Ha1, Ha2, Hs4, Hs5, Hs6, Hs7, Hs8, Hs9, ⟨%g0, Hs0⟩, ⟨%g1, Hs1⟩, ⟨%g2, Hs2⟩, ⟨%g3, Hs3⟩, Hm0, Hm1, Hm2, Hm3, Hm4, Hm5, Hm6, Hm7, Hm8, Hm9, Hout, %W', %hW', HO⟩
  sl_exec
  sl_step
  isplitl [Ha0 Ha1 Ha2 Ht0' Ht1' Ht2' Ht3' Ht4' Ht5' Hout]
  · isplitl [Ha0 Ha1 Ha2 Ht0' Ht1' Ht2' Ht3' Ht4' Ht5']
    · isplitl [Ha0]; · iapply (Entails.of_eq (pts_a0V (F := F) d (cV L) (jV L) q _)); iexact Ha0
      isplitl [Ha1]; · iapply (Entails.of_eq (pts_a1V (F := F) d (cV L) (jV L) q _)); iexact Ha1
      isplitl [Ha2]; · iapply (Entails.of_eq (pts_a2V (F := F) d (cV L) (jV L) q _)); iexact Ha2
      isplitl [Ht0']; · iapply (Entails.of_eq (pts_t0V (F := F) d (cV L) (jV L) q _)); iexact Ht0'
      isplitl [Ht1']; · iapply (Entails.of_eq (pts_t1V (F := F) d (cV L) (jV L) q _)); iexact Ht1'
      isplitl [Ht2']; · iapply (Entails.of_eq (pts_t2V (F := F) d (cV L) (jV L) q _)); iexact Ht2'
      isplitl [Ht3']; · iapply (Entails.of_eq (pts_t3V (F := F) d (cV L) (jV L) q _)); iexact Ht3'
      isplitl [Ht4']; · iapply (Entails.of_eq (pts_t4V (F := F) d (cV L) (jV L) q _)); iexact Ht4'
      iapply (Entails.of_eq (pts_t5V (F := F) d (cV L) (jV L) q _)); iexact Ht5'
    · iapply (chunks_end (F := F) d L (m (oLoc d)) (GO m d)); iexact Hout
  isplitl [Hs0 Hs1 Hs2 Hs3 Hs4 Hs5 Hs6 Hs7 Hs8 Hs9 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    iexact Hbufs
  isplitl [Hm0 Hm1 Hm2 Hm3 Hm4 Hm5 Hm6 Hm7 Hm8 Hm9 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    iexact Hsems
  iexists W'; isplitr
  · ipureintro; exact hW'
  · iexact HO

end Tile

end Cert.Proof.KI

end
-- ==== Proof.IdealLaunch.lean ====
/-
  The launch of the idealized kernel: from one tile's task to every weakly fair execution of the device's threads.

  The launch theorem asks for: the task's obligation at every tile of the grid (the body theorem at the tile's coordinates,
  at the tile's thirty-second share of the read-only arrays and its own eight chunks of the result); how a SparseCore's
  holdings split among its sixteen tiles and gather back (its half share of the nine read-only arrays is the sixteen
  leaves of the fourfold halving, its chunks are its tiles' chunks); the launch element (the handshakes' rounds; the
  kernel has no protocol of its own); and @main on the TensorCore: six constants written into the six tables, the call
  handing the two SparseCores the halves of the read-only arrays and the result's chunks and taking them back at the
  specification, the return. The claim read off the final memory: the result array is the specification at the arguments'
  launch contents, and the four arguments are unchanged.
-/
import proofs.«214040_g26508538151745_cont_9to1_1151_18_alg».proof.Proof.IdealPay
import proofs.«214040_g26508538151745_cont_9to1_1151_18_alg».proof.Proof.IdealBody

noncomputable section

namespace Cert.Proof.KI

open Cert.KernelIdeal Cert.KernelIdeal.Gen Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "a0V" => (Memref.whole Cert.KernelIdeal.main_arg0_scv : Memref Cert.KernelIdeal.sig Kind.scVector Space.hbm Cert.KernelIdeal.S4096x10x3 EltTy.f32)
local notation "a1V" => (Memref.whole Cert.KernelIdeal.main_arg1_scv : Memref Cert.KernelIdeal.sig Kind.scVector Space.hbm Cert.KernelIdeal.S4096x10 EltTy.f32)
local notation "a2V" => (Memref.whole Cert.KernelIdeal.main_arg2_scv : Memref Cert.KernelIdeal.sig Kind.scVector Space.hbm Cert.KernelIdeal.S4096x10x2 EltTy.f32)
local notation "t0V" => (Memref.whole Cert.KernelIdeal.main_c_scv : Memref Cert.KernelIdeal.sig Kind.scVector Space.hbm Cert.KernelIdeal.S480 EltTy.i32)
local notation "t1V" => (Memref.whole Cert.KernelIdeal.main_c_0_scv : Memref Cert.KernelIdeal.sig Kind.scVector Space.hbm Cert.KernelIdeal.S480 EltTy.i32)
local notation "t2V" => (Memref.whole Cert.KernelIdeal.main_c_1_scv : Memref Cert.KernelIdeal.sig Kind.scVector Space.hbm Cert.KernelIdeal.S320 EltTy.i32)
local notation "t3V" => (Memref.whole Cert.KernelIdeal.main_c_2_scv : Memref Cert.KernelIdeal.sig Kind.scVector Space.hbm Cert.KernelIdeal.S320 EltTy.i32)
local notation "t4V" => (Memref.whole Cert.KernelIdeal.main_c_3_scv : Memref Cert.KernelIdeal.sig Kind.scVector Space.hbm Cert.KernelIdeal.S160 EltTy.i32)
local notation "t5V" => (Memref.whole Cert.KernelIdeal.main_c_4_scv : Memref Cert.KernelIdeal.sig Kind.scVector Space.hbm Cert.KernelIdeal.S160 EltTy.i32)
local notation "oV" => (Memref.whole Cert.KernelIdeal.main_v0_scv : Memref Cert.KernelIdeal.sig Kind.scVector Space.hbm Cert.KernelIdeal.S4096x10x7 EltTy.f32)
local notation "s0V" => (Memref.whole Cert.KernelIdeal.cc0_scratch0 : Memref Cert.KernelIdeal.sig Kind.scVector Space.vmem Cert.KernelIdeal.S160x3 EltTy.f32)
local notation "s1V" => (Memref.whole Cert.KernelIdeal.cc0_scratch1 : Memref Cert.KernelIdeal.sig Kind.scVector Space.vmem Cert.KernelIdeal.S16x10 EltTy.f32)
local notation "s2V" => (Memref.whole Cert.KernelIdeal.cc0_scratch2 : Memref Cert.KernelIdeal.sig Kind.scVector Space.vmem Cert.KernelIdeal.S160x2 EltTy.f32)
local notation "s3V" => (Memref.whole Cert.KernelIdeal.cc0_scratch3 : Memref Cert.KernelIdeal.sig Kind.scVector Space.vmem Cert.KernelIdeal.S160x7 EltTy.f32)
local notation "s4V" => (Memref.whole Cert.KernelIdeal.cc0_scratch4 : Memref Cert.KernelIdeal.sig Kind.scVector Space.vmem Cert.KernelIdeal.S480 EltTy.i32)
local notation "s5V" => (Memref.whole Cert.KernelIdeal.cc0_scratch5 : Memref Cert.KernelIdeal.sig Kind.scVector Space.vmem Cert.KernelIdeal.S480 EltTy.i32)
local notation "s6V" => (Memref.whole Cert.KernelIdeal.cc0_scratch6 : Memref Cert.KernelIdeal.sig Kind.scVector Space.vmem Cert.KernelIdeal.S320 EltTy.i32)
local notation "s7V" => (Memref.whole Cert.KernelIdeal.cc0_scratch7 : Memref Cert.KernelIdeal.sig Kind.scVector Space.vmem Cert.KernelIdeal.S320 EltTy.i32)
local notation "s8V" => (Memref.whole Cert.KernelIdeal.cc0_scratch8 : Memref Cert.KernelIdeal.sig Kind.scVector Space.vmem Cert.KernelIdeal.S160 EltTy.i32)
local notation "s9V" => (Memref.whole Cert.KernelIdeal.cc0_scratch9 : Memref Cert.KernelIdeal.sig Kind.scVector Space.vmem Cert.KernelIdeal.S160 EltTy.i32)

variable [FloatOps F] (m : (ℓ : Loc nD τ sig) → Buf (Elt F) ℓ) (ρ : Dev nD → PrngReg)

/-! ## The payload record's fields, as equations -/

theorem P_st (d : Dev nD) (c : Fin ((K (F := F)).nCore 0)) :
    (P m).st 0 d c = iprop(Ins d m (coreShare (Fin.cast nCore_zero c)) ∗ bigSep Finset.univ fun i : Fin 16 => outTile d (Fin.cast nCore_zero c) i (m (oLoc d))) := rfl
theorem P_dn (d : Dev nD) (c : Fin ((K (F := F)).nCore 0)) :
    (P m).dn 0 d c = iprop(Ins d m (coreShare (Fin.cast nCore_zero c)) ∗ bigSep Finset.univ fun i : Fin 16 => outTile d (Fin.cast nCore_zero c) i (GO m d)) := rfl
theorem P_go (d : Dev nD) (c : Fin ((K (F := F)).nCore 0)) (i : Fin ((K (F := F)).nSub 0)) :
    (P m).go 0 d c i = iprop(Ins d m (tileShare (Fin.cast nCore_zero c) (Fin.cast nSub_zero i)) ∗ outTile d (Fin.cast nCore_zero c) (Fin.cast nSub_zero i) (m (oLoc d))) := rfl
theorem P_td (d : Dev nD) (c : Fin ((K (F := F)).nCore 0)) (i : Fin ((K (F := F)).nSub 0)) :
    (P m).td 0 d c i = iprop(Ins d m (tileShare (Fin.cast nCore_zero c) (Fin.cast nSub_zero i)) ∗ outTile d (Fin.cast nCore_zero c) (Fin.cast nSub_zero i) (GO m d)) := rfl
theorem P_x (q : Fin 1) (thr : Thread nD τ) : (P m).x q thr = iprop(emp) := rfl

/-! ## The task's obligation -/

theorem defs₀_vector (c : Fin τ.nSC) (s : Fin τ.nSub) :
    defs₀ (F := F) (.scVector c s) 0 ()
      = SparseCore.onTile hcore0 hsub0 (fun c s => cc0__sc_assemble (coordsV c s)
          a0V (Memref.isWhole_whole _) a1V (Memref.isWhole_whole _) a2V (Memref.isWhole_whole _) t0V (Memref.isWhole_whole _) t1V (Memref.isWhole_whole _) t2V (Memref.isWhole_whole _) t3V (Memref.isWhole_whole _) t4V (Memref.isWhole_whole _) t5V (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) s8V (Memref.isWhole_whole _) s9V (Memref.isWhole_whole _) cc0_scoped0 cc0_scoped1 cc0_scoped2 cc0_scoped3 cc0_scoped4 cc0_scoped5 cc0_scoped6 cc0_scoped7 cc0_scoped8 cc0_scoped9) ⟨⟩ c s := rfl

omit [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation at call 0: tile `(c, i)` of the grid runs the body at its coordinates, at its share of the read-only
    arrays and its own chunks. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, P_x]
  exact (tile_body d (coordsV ⟨_, hc.1⟩ ⟨_, hc.2⟩) m hF O W hO (tileShare (Fin.cast nCore_zero c) (Fin.cast nSub_zero i))).trans
    (wp_mono frame _ _ fun _ => obl_post)

/-! ## A SparseCore's holdings among its tiles -/

omit [FloatOps F] in
/-- The read-only bundle at a share is the bundle at the share's left half beside the bundle at its right half. -/
theorem Ins_halves (d : Dev nD) : ∀ q, Ins d m q = iprop(Ins d m q.left ∗ Ins d m q.right) := by
  unfold Ins
  exact Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves)
    (Cert.LibShares.sep_halves _ _ (fun _ => Cert.LibShares.pointsTo_halves) (fun _ => Cert.LibShares.pointsTo_halves))))))))

omit [FloatOps F] in
/-- A SparseCore's half of the read-only bundle is its sixteen tiles' shares of it. -/
theorem Ins_tiles (d : Dev nD) (c : Fin 2) :
    Ins d m (coreShare c) = bigSep Finset.univ fun i : Fin 16 => Ins d m (tileShare c i) := by
  rw [Cert.LibShares.leaves (fun q => Ins d m q) (Ins_halves m d) 4 (coreShare c)]
  exact bigSep_univ_equiv (finCongr (by decide : 16 = 2 ^ 4)) _

omit [FloatOps F] in
/-- The whole read-only bundle is the two SparseCores' halves of it. -/
theorem Ins_cores (d : Dev nD) :
    Ins d m fullShare = iprop(Ins d m (coreShare 0) ∗ Ins d m (coreShare 1)) := by
  rw [Cert.LibShares.leaves (fun q => Ins d m q) (Ins_halves m d) 1 fullShare,
    bigSep_univ_equiv (finCongr (by decide : 2 = 2 ^ 1)), bigSep_univ_two]
  rfl

omit [FloatOps F] in
theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

/-- SparseCore `c`'s holdings split into its sixteen tiles' and gather back from them: the half share of the read-only
    bundle is the sixteen leaves below it, the chunks are already grouped by tile. -/
theorem vecSplit : (K (F := F)).VecSplit' (P m) 0 := by
  intro d c
  simp only [P_st, P_dn, P_go, P_td]
  rw [bigSep_tasks (F := F) (fun i => iprop(Ins d m (tileShare (Fin.cast nCore_zero c) i) ∗ outTile d (Fin.cast nCore_zero c) i (m (oLoc d)))),
    bigSep_tasks (F := F) (fun i => iprop(Ins d m (tileShare (Fin.cast nCore_zero c) i) ∗ outTile d (Fin.cast nCore_zero c) i (GO m d))),
    bigSep_sep', bigSep_sep', Ins_tiles]
  iintro ⟨Hi, Ho⟩; imodintro
  isplitl [Hi Ho]
  · isplitl [Hi]; · iexact Hi
    iexact Ho
  iintro ⟨Hi, Ho⟩
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp (𝕄 F))) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp (𝕄 F)) = iprop((a0Loc d ↦{fullShare} W main_arg0) ∗ (a1Loc d ↦{fullShare} W main_arg1) ∗ (a2Loc d ↦{fullShare} W main_arg2)
      ∗ (a3Loc d ↦{fullShare} W main_arg3) ∗ (t0Loc d ↦{fullShare} W main_c) ∗ (t1Loc d ↦{fullShare} W main_c_0) ∗ (t2Loc d ↦{fullShare} W main_c_1)
      ∗ (t3Loc d ↦{fullShare} W main_c_2) ∗ (t4Loc d ↦{fullShare} W main_c_3) ∗ (t5Loc d ↦{fullShare} W main_c_4) ∗ (oLoc d ↦{fullShare} W main_v0)) := by
  unfold unscopedBufs
  rw [show (Finset.univ.filter fun b : Ref sig .tc => ¬ b.isScoped)
      = {main_arg0, main_arg1, main_arg2, main_arg3, main_c, main_c_0, main_c_1, main_c_2, main_c_3, main_c_4, main_v0} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`'s arrays. -/
def V0 (d : Dev nD) : Valuation τ sig (Elt F) := fun b => m (d, b)

omit [FloatOps F] in
/-- One array held whole. -/
theorem held_single (d : Dev nD) (b : DevRef τ sig) (W : Valuation τ sig (Elt F)) :
    (held (SparseCore.T d) {b} W : sProp (𝕄 F)) = ((d, b) : Loc nD τ sig) ↦{fullShare} W b := by
  unfold held; rw [bigSep_singleton]

omit [FloatOps F] in
/-- After a constant is written, its array holds the constant. -/
theorem held_const (d : Dev nD) (y : Ref sig .tc) (v : y.ty.Contents (Elt F))
    (hy : y.space ≠ .host ∧ (Proc.devRef .tc y : DevRef τ sig).isScoped = false) (W : Valuation τ sig (Elt F)) :
    (held (SparseCore.T d) {(Proc.devRef .tc y : DevRef τ sig)} ((StableHlo.nullary y v hy : HloOp τ sig (Elt F)).result W) : sProp (𝕄 F))
      = ((SparseCore.T d).loc y) ↦{fullShare} v := by
  rw [held_single, StableHlo.nullary_result]

/-- What @main leaves the claim: the four arguments at their launch contents, the result at the specification. -/
abbrev FIN (d : Dev nD) : sProp (𝕄 F) :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (oLoc d ↦{fullShare} GO m d))

/-- The result array whole is the two SparseCores' tiles' chunks. -/
theorem out_tiles (d : Dev nD) (f : Buf (Elt F) (oLoc d)) :
    (oLoc d ↦{fullShare} f : sProp (𝕄 F))
      = iprop((bigSep Finset.univ fun i : Fin 16 => outTile d 0 i f) ∗ (bigSep Finset.univ fun i : Fin 16 => outTile d 1 i f)) := by
  rw [out_split d f]
  exact bigSep_univ_two (fun c : Fin 2 => bigSep Finset.univ fun i : Fin 16 => outTile d c i f)

/-- What the call hands the two SparseCores: the read-only bundle and the result array, whole. -/
theorem st0_eq (d : Dev nD) : (bigSep Finset.univ fun c : Fin ((K (F := F)).nCore 0) => (P m).st 0 d c)
    = iprop(Ins d m fullShare ∗ (oLoc d ↦{fullShare} m (oLoc d))) := by
  simp only [P_st]
  rw [bigSep_cores (F := F) (fun c => iprop(Ins d m (coreShare c) ∗ bigSep Finset.univ fun i : Fin 16 => outTile d c i (m (oLoc d)))),
    bigSep_sep', bigSep_univ_two, bigSep_univ_two, ← Ins_cores, ← out_tiles]
/-- What it takes back: the bundle, and the result array at the specification. -/
theorem dn0_eq (d : Dev nD) : (bigSep Finset.univ fun c : Fin ((K (F := F)).nCore 0) => (P m).dn 0 d c)
    = iprop(Ins d m fullShare ∗ (oLoc d ↦{fullShare} GO m d)) := by
  simp only [P_dn]
  rw [bigSep_cores (F := F) (fun c => iprop(Ins d m (coreShare c) ∗ bigSep Finset.univ fun i : Fin 16 => outTile d c i (GO m d))),
    bigSep_sep', bigSep_univ_two, bigSep_univ_two, ← Ins_cores, ← out_tiles]

omit [FloatOps F] in
theorem Ins_eq (d : Dev nD) (q : PosShare TreeShare) : Ins d m q
    = iprop((a0Loc d ↦{q} m (a0Loc d)) ∗ (a1Loc d ↦{q} m (a1Loc d)) ∗ (a2Loc d ↦{q} m (a2Loc d))
      ∗ (t0Loc d ↦{q} TB0 d) ∗ (t1Loc d ↦{q} TB1 d) ∗ (t2Loc d ↦{q} TB2 d) ∗ (t3Loc d ↦{q} TB3 d) ∗ (t4Loc d ↦{q} TB4 d) ∗ (t5Loc d ↦{q} TB5 d)) := rfl

/-- @main on device `d`'s TensorCore: the six constants, each written into its table; the call, from the read-only arrays
    and the result array whole, back with the result at the specification; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ht0, Ht1, Ht2, Ht3, Ht4, Ht5, Ho⟩, -, -⟩, -⟩
  iapply (wp_hlo_within 𝒱 (SparseCore.T d) none Set.univ (op := StableHlo.nullary main_c (fun i => lit0 (S480.rowMajor i))) (S := {Proc.devRef .tc (main_c : Ref sig .tc)}) (Finset.Subset.refl _) (V := V0 m d)) $$ [Hb Ht0]
  · isplitl [Hb]; · iexact Hb
    rw [held_single]; iexact Ht0
  iintro ⟨Hb, Hh⟩
  ihave Ht0 := (Entails.of_eq (held_const (F := F) d main_c _ _ (V0 m d))) $$ Hh
  rw [wp_ret]; imodintro
  iapply (wp_hlo_within 𝒱 (SparseCore.T d) none Set.univ (op := StableHlo.nullary main_c_0 (fun i => lit1 (S480.rowMajor i))) (S := {Proc.devRef .tc (main_c_0 : Ref sig .tc)}) (Finset.Subset.refl _) (V := V0 m d)) $$ [Hb Ht1]
  · isplitl [Hb]; · iexact Hb
    rw [held_single]; iexact Ht1
  iintro ⟨Hb, Hh⟩
  ihave Ht1 := (Entails.of_eq (held_const (F := F) d main_c_0 _ _ (V0 m d))) $$ Hh
  rw [wp_ret]; imodintro
  iapply (wp_hlo_within 𝒱 (SparseCore.T d) none Set.univ (op := StableHlo.nullary main_c_1 (fun i => lit2 (S320.rowMajor i))) (S := {Proc.devRef .tc (main_c_1 : Ref sig .tc)}) (Finset.Subset.refl _) (V := V0 m d)) $$ [Hb Ht2]
  · isplitl [Hb]; · iexact Hb
    rw [held_single]; iexact Ht2
  iintro ⟨Hb, Hh⟩
  ihave Ht2 := (Entails.of_eq (held_const (F := F) d main_c_1 _ _ (V0 m d))) $$ Hh
  rw [wp_ret]; imodintro
  iapply (wp_hlo_within 𝒱 (SparseCore.T d) none Set.univ (op := StableHlo.nullary main_c_2 (fun i => lit3 (S320.rowMajor i))) (S := {Proc.devRef .tc (main_c_2 : Ref sig .tc)}) (Finset.Subset.refl _) (V := V0 m d)) $$ [Hb Ht3]
  · isplitl [Hb]; · iexact Hb
    rw [held_single]; iexact Ht3
  iintro ⟨Hb, Hh⟩
  ihave Ht3 := (Entails.of_eq (held_const (F := F) d main_c_2 _ _ (V0 m d))) $$ Hh
  rw [wp_ret]; imodintro
  iapply (wp_hlo_within 𝒱 (SparseCore.T d) none Set.univ (op := StableHlo.nullary main_c_3 (fun i => lit4 (S160.rowMajor i))) (S := {Proc.devRef .tc (main_c_3 : Ref sig .tc)}) (Finset.Subset.refl _) (V := V0 m d)) $$ [Hb Ht4]
  · isplitl [Hb]; · iexact Hb
    rw [held_single]; iexact Ht4
  iintro ⟨Hb, Hh⟩
  ihave Ht4 := (Entails.of_eq (held_const (F := F) d main_c_3 _ _ (V0 m d))) $$ Hh
  rw [wp_ret]; imodintro
  iapply (wp_hlo_within 𝒱 (SparseCore.T d) none Set.univ (op := StableHlo.nullary main_c_4 (fun i => lit5 (S160.rowMajor i))) (S := {Proc.devRef .tc (main_c_4 : Ref sig .tc)}) (Finset.Subset.refl _) (V := V0 m d)) $$ [Hb Ht5]
  · isplitl [Hb]; · iexact Hb
    rw [held_single]; iexact Ht5
  iintro ⟨Hb, Hh⟩
  ihave Ht5 := (Entails.of_eq (held_const (F := F) d main_c_4 _ _ (V0 m d))) $$ Hh
  rw [wp_ret]; imodintro
  -- the call
  iapply ((K (F := F)).wp_run (D (F := F)) 𝒱 (EH := EH) (P := P m) κ d 0) $$ [Hst Ha0 Ha1 Ha2 Ha3 Ht0 Ht1 Ht2 Ht3 Ht4 Ht5 Ho]
  isplitr; · iexact Hctx
  isplitl [Hst]; · iexact Hst
  isplitl [Ha0 Ha1 Ha2 Ht0 Ht1 Ht2 Ht3 Ht4 Ht5 Ho]
  · rw [st0_eq, Ins_eq]
    isplitl [Ha0 Ha1 Ha2 Ht0 Ht1 Ht2 Ht3 Ht4 Ht5]
    · isplitl [Ha0]; · iexact Ha0
      isplitl [Ha1]; · iexact Ha1
      isplitl [Ha2]; · iexact Ha2
      isplitl [Ht0]; · iexact Ht0
      isplitl [Ht1]; · iexact Ht1
      isplitl [Ht2]; · iexact Ht2
      isplitl [Ht3]; · iexact Ht3
      isplitl [Ht4]; · iexact Ht4
      iexact Ht5
    · iexact Ho
  iintro ⟨Hst, Hdn⟩
  ihave Hdn' := (Entails.of_eq (dn0_eq m d)) $$ Hdn
  icases Hdn' with ⟨Hins, Ho⟩
  ihave Hins' := (Entails.of_eq (Ins_eq m d fullShare)) $$ Hins
  icases Hins' with ⟨Ha0, Ha1, Ha2, -⟩
  imodintro
  isplitl [Hst]; · iexact Hst
  isplitl [Ha0]; · iexact Ha0
  isplitl [Ha1]; · iexact Ha1
  isplitl [Ha2]; · iexact Ha2
  isplitl [Ha3]; · iexact Ha3
  iexact Ho

def fq (d : Dev nD) (s' : Phys nD τ sig (Elt F)) : Prop :=
  s'.mem.mem (oLoc d) = GO m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp (𝕄 F)) := by
  iintro ⟨⟨H0, H1, H2, H3, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := oLoc d) (I := Finset.univ) (q := fullShare) (f := GO m d)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (oLoc c) = GO m c ∧ r.2.mem (a0Loc c) = m (a0Loc c) ∧ r.2.mem (a1Loc c) = m (a1Loc c)
    ∧ r.2.mem (a2Loc c) = m (a2Loc c) ∧ r.2.mem (a3Loc c) = m (a3Loc c)

/-- Every weakly fair execution of the device's threads terminates with the result array at the specification of the
    arguments' launch contents and the four arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefScatter.lean ====
/-
  A scatter that WRITES its updates (the body returns the update element), read at one index of its result.

  The scatter is a left fold, over the update's indices in row-major order, of steps that each overwrite the result at
  one index (the update index's result index, when it is inside the operand) and leave every other index as it was. Read
  at a fixed index `i`, such a fold is decided by the update indices whose result index is `i`: if there is none the
  operand's element survives, and if there is exactly one, `j`, the result is the update's element at `j`.
  The result index of an update index is "start plus window coordinate on every axis", whenever that lies inside the
  operand; `resultIdx?_eq_some_iff` says so as an equation between integers, axis by axis.
-/
import Idealize.ShloMosaic.PureOps
import Idealize.ShloMosaic.Lib.ValueIdx

noncomputable section

namespace Cert.ReferenceIdeal.RefValue

open Idealize.ShloMosaic Idealize.ShloMosaic.ValueIdx

/-! ## A fold of pointwise overwrites, read at one index -/

section Fold
variable {ι κ α : Type}

/-- A fold of steps none of which touches index `i` leaves the initial function's value there. -/
theorem foldl_untouched (stp : (κ → α) → ι → κ → α) (hit : ι → Prop) (i : κ)
    (hmiss : ∀ r n, ¬ hit n → stp r n i = r i) (l : List ι) (x : κ → α) (h : ∀ n ∈ l, ¬ hit n) :
    l.foldl stp x i = x i := by
  induction l generalizing x with
  | nil => rfl
  | cons n l ih =>
    rw [List.foldl_cons, ih _ (fun m hm => h m (List.mem_cons_of_mem _ hm))]
    exact hmiss x n (h n (List.mem_cons_self ..))

/-- A fold of steps, each of which either writes `v n` at index `i` (a hit) or leaves index `i` alone: when some
    step of the list hits and every hitting step writes the same value `c`, the fold's value at `i` is `c`. -/
theorem foldl_written (stp : (κ → α) → ι → κ → α) (hit : ι → Prop) (v : ι → α) (i : κ)
    (hhit : ∀ r n, hit n → stp r n i = v n) (hmiss : ∀ r n, ¬ hit n → stp r n i = r i) (c : α)
    (l : List ι) (x : κ → α) (hex : ∃ n ∈ l, hit n) (hval : ∀ n ∈ l, hit n → v n = c) :
    l.foldl stp x i = c := by
  induction l generalizing x with
  | nil => obtain ⟨n, hn, _⟩ := hex; cases hn
  | cons n l ih =>
    rw [List.foldl_cons]
    by_cases hl : ∃ m ∈ l, hit m
    · exact ih _ hl (fun m hm => hval m (List.mem_cons_of_mem _ hm))
    · have hl' : ∀ m ∈ l, ¬ hit m := fun m hm hh => hl ⟨m, hm, hh⟩
      rw [foldl_untouched stp hit i hmiss l _ hl']
      obtain ⟨m, hm, hh⟩ := hex
      rcases List.mem_cons.1 hm with rfl | hm'
      · rw [hhit x m hh]; exact hval m (List.mem_cons_self ..) hh
      · exact absurd hh (hl' m hm')

end Fold

/-! ## The result index of an update index -/

section Scatter
variable {s si u : Shape} {α : Type} {w : Nat}

/-- An update index lands at `i` exactly when, on every axis, its start plus its window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · rintro rfl a
      have := h a
      simp only
      omega
    · intro hi
      funext a
      apply Fin.ext
      have := hi a
      simp only
      omega
  · next h =>
    constructor
    · intro hh; cases hh
    · intro hi
      exfalso; apply h
      intro a
      have := hi a
      have := (i a).isLt
      omega

/-- A writing scatter read at an index no update index lands at: the operand's element. -/
theorem scatter_set_untouched (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  refine foldl_untouched _ (fun n => d.resultIdx? (u.rowMajor.symm n) idx = some i) i ?_ _ _ (fun n _ => h _)
  intro r n hn
  cases hg : d.resultIdx? (u.rowMajor.symm n) idx with
  | none => rfl
  | some i₁ =>
    simp only
    rw [if_neg]
    rintro rfl
    exact hn hg

/-- A writing scatter read at an index exactly one update index `j` lands at: the update's element at `j`. -/
theorem scatter_set_written (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine foldl_written _ (fun n => d.resultIdx? (u.rowMajor.symm n) idx = some i) (fun n => upd (u.rowMajor.symm n)) i
    ?_ ?_ _ _ _ ⟨u.rowMajor j, List.mem_finRange _, by simpa using hj⟩ (fun n _ hn => by rw [huniq _ hn])
  · intro r n hn
    simp only [hn, if_true]
  · intro r n hn
    cases hg : d.resultIdx? (u.rowMajor.symm n) idx with
    | none => rfl
    | some i₁ =>
      simp only
      rw [if_neg]
      rintro rfl
      exact hn hg

end Scatter

end Cert.ReferenceIdeal.RefValue

end
-- ==== Proof.RefValue.lean ====
/-
  The reference's result array is the record table `Cert.Spec.G` of the three argument arrays.

  The reference writes, into an array of zeros, four column blocks one after another, each by a scatter with ONE start
  index on the column axis: columns 0-2 from the coordinates, column 4 from the confidences, column 3 from the mark of
  the confidences, columns 5-6 from the extents. A scatter with start column `c` sends update index `(b, p, k)` (or
  `(b, p)`, for a one-column update) to result index `(b, p, c + k)` (or `(b, p, c)`): every result index is
  reached by at most one update index, so reading the scatter at `(b, p, k)` gives the update's element when column `k` is
  in the written block and the operand's element otherwise. The four blocks cover all seven columns, so nothing of the zero
  array is left; and on the extended reals "the comparison's bit as a number, minus one" is `0` when the bit is set and `-1`
  when it is not, which is the mark.
-/
import proofs.«214040_g26508538151745_cont_9to1_1151_18_alg».proof.Proof.Gen.ReferenceIdeal.Read
import proofs.«214040_g26508538151745_cont_9to1_1151_18_alg».proof.Proof.RefScatter
import proofs.«214040_g26508538151745_cont_9to1_1151_18_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The three dimension-number records, axis by axis -/

/-- A block of three columns. -/
abbrev dA : ScatterDims S4096x10x7 S1 S4096x10x3 := scatter_S4096x10x7_S1_S4096x10x3_012_n_2_0
/-- One column. -/
abbrev dB : ScatterDims S4096x10x7 S1 S4096x10 := scatter_S4096x10x7_S1_S4096x10_01_2_2_0
/-- A block of two columns. -/
abbrev dC : ScatterDims S4096x10x7 S1 S4096x10x2 := scatter_S4096x10x7_S1_S4096x10x2_012_n_2_0

theorem dA_start0 (j : S4096x10x3.Idx) (idx : IVec S1 32) : dA.start j idx 0 = 0 := by
  unfold ScatterDims.start; rw [dif_neg (by decide)]
theorem dA_start1 (j : S4096x10x3.Idx) (idx : IVec S1 32) : dA.start j idx 1 = 0 := by
  unfold ScatterDims.start; rw [dif_neg (by decide)]
theorem dA_start2 (j : S4096x10x3.Idx) (idx : IVec S1 32) (c : BitVec 32) (h : ∀ k, idx k = c) : dA.start j idx 2 = c.toInt := by
  unfold ScatterDims.start; rw [dif_pos (by decide), h]
theorem dA_window0 (j : S4096x10x3.Idx) : dA.window j 0 = (j 0).val := by
  unfold ScatterDims.window; rw [dif_pos (by decide)]; rfl
theorem dA_window1 (j : S4096x10x3.Idx) : dA.window j 1 = (j 1).val := by
  unfold ScatterDims.window; rw [dif_pos (by decide)]; rfl
theorem dA_window2 (j : S4096x10x3.Idx) : dA.window j 2 = (j 2).val := by
  unfold ScatterDims.window; rw [dif_pos (by decide)]; rfl

/-- With every start index the column `C`, update index `j` lands at `i` exactly when `i` is `j` moved `C` columns on. -/
theorem dA_lands (idx : IVec S1 32) (c : BitVec 32) (C : Nat) (hc : c.toInt = (C : Int)) (hidx : ∀ k, idx k = c)
    (j : S4096x10x3.Idx) (i : S4096x10x7.Idx) :
    dA.resultIdx? j idx = some i ↔ (i 0).val = (j 0).val ∧ (i 1).val = (j 1).val ∧ (i 2).val = C + (j 2).val := by
  rw [resultIdx?_eq_some_iff]
  constructor
  · intro h
    have h0 := h 0; have h1 := h 1; have h2 := h 2
    rw [dA_start0, dA_window0] at h0
    rw [dA_start1, dA_window1] at h1
    rw [dA_start2 j idx c hidx, dA_window2, hc] at h2
    omega
  · rintro ⟨h0, h1, h2⟩ a
    match a with
    | ⟨0, _⟩ => show dA.start j idx 0 + (dA.window j 0 : Int) = ((i 0).val : Int); rw [dA_start0, dA_window0]; omega
    | ⟨1, _⟩ => show dA.start j idx 1 + (dA.window j 1 : Int) = ((i 1).val : Int); rw [dA_start1, dA_window1]; omega
    | ⟨2, _⟩ => show dA.start j idx 2 + (dA.window j 2 : Int) = ((i 2).val : Int); rw [dA_start2 j idx c hidx, dA_window2, hc]; omega

theorem dB_start0 (j : S4096x10.Idx) (idx : IVec S1 32) : dB.start j idx 0 = 0 := by
  unfold ScatterDims.start; rw [dif_neg (by decide)]
theorem dB_start1 (j : S4096x10.Idx) (idx : IVec S1 32) : dB.start j idx 1 = 0 := by
  unfold ScatterDims.start; rw [dif_neg (by decide)]
theorem dB_start2 (j : S4096x10.Idx) (idx : IVec S1 32) (c : BitVec 32) (h : ∀ k, idx k = c) : dB.start j idx 2 = c.toInt := by
  unfold ScatterDims.start; rw [dif_pos (by decide), h]
theorem dB_window0 (j : S4096x10.Idx) : dB.window j 0 = (j 0).val := by
  unfold ScatterDims.window; rw [dif_pos (by decide)]; rfl
theorem dB_window1 (j : S4096x10.Idx) : dB.window j 1 = (j 1).val := by
  unfold ScatterDims.window; rw [dif_pos (by decide)]; rfl
theorem dB_window2 (j : S4096x10.Idx) : dB.window j 2 = 0 := by
  unfold ScatterDims.window; rw [dif_neg (by decide)]

/-- With every start index the column `C`, update index `j` lands at `i` exactly when `i` is `j` with column `C`. -/
theorem dB_lands (idx : IVec S1 32) (c : BitVec 32) (C : Nat) (hc : c.toInt = (C : Int)) (hidx : ∀ k, idx k = c)
    (j : S4096x10.Idx) (i : S4096x10x7.Idx) :
    dB.resultIdx? j idx = some i ↔ (i 0).val = (j 0).val ∧ (i 1).val = (j 1).val ∧ (i 2).val = C := by
  rw [resultIdx?_eq_some_iff]
  constructor
  · intro h
    have h0 := h 0; have h1 := h 1; have h2 := h 2
    rw [dB_start0, dB_window0] at h0
    rw [dB_start1, dB_window1] at h1
    rw [dB_start2 j idx c hidx, dB_window2, hc] at h2
    omega
  · rintro ⟨h0, h1, h2⟩ a
    match a with
    | ⟨0, _⟩ => show dB.start j idx 0 + (dB.window j 0 : Int) = ((i 0).val : Int); rw [dB_start0, dB_window0]; omega
    | ⟨1, _⟩ => show dB.start j idx 1 + (dB.window j 1 : Int) = ((i 1).val : Int); rw [dB_start1, dB_window1]; omega
    | ⟨2, _⟩ => show dB.start j idx 2 + (dB.window j 2 : Int) = ((i 2).val : Int); rw [dB_start2 j idx c hidx, dB_window2, hc]; omega

theorem dC_start0 (j : S4096x10x2.Idx) (idx : IVec S1 32) : dC.start j idx 0 = 0 := by
  unfold ScatterDims.start; rw [dif_neg (by decide)]
theorem dC_start1 (j : S4096x10x2.Idx) (idx : IVec S1 32) : dC.start j idx 1 = 0 := by
  unfold ScatterDims.start; rw [dif_neg (by decide)]
theorem dC_start2 (j : S4096x10x2.Idx) (idx : IVec S1 32) (c : BitVec 32) (h : ∀ k, idx k = c) : dC.start j idx 2 = c.toInt := by
  unfold ScatterDims.start; rw [dif_pos (by decide), h]
theorem dC_window0 (j : S4096x10x2.Idx) : dC.window j 0 = (j 0).val := by
  unfold ScatterDims.window; rw [dif_pos (by decide)]; rfl
theorem dC_window1 (j : S4096x10x2.Idx) : dC.window j 1 = (j 1).val := by
  unfold ScatterDims.window; rw [dif_pos (by decide)]; rfl
theorem dC_window2 (j : S4096x10x2.Idx) : dC.window j 2 = (j 2).val := by
  unfold ScatterDims.window; rw [dif_pos (by decide)]; rfl

/-- With every start index the column `C`, update index `j` lands at `i` exactly when `i` is `j` moved `C` columns on. -/
theorem dC_lands (idx : IVec S1 32) (c : BitVec 32) (C : Nat) (hc : c.toInt = (C : Int)) (hidx : ∀ k, idx k = c)
    (j : S4096x10x2.Idx) (i : S4096x10x7.Idx) :
    dC.resultIdx? j idx = some i ↔ (i 0).val = (j 0).val ∧ (i 1).val = (j 1).val ∧ (i 2).val = C + (j 2).val := by
  rw [resultIdx?_eq_some_iff]
  constructor
  · intro h
    have h0 := h 0; have h1 := h 1; have h2 := h 2
    rw [dC_start0, dC_window0] at h0
    rw [dC_start1, dC_window1] at h1
    rw [dC_start2 j idx c hidx, dC_window2, hc] at h2
    omega
  · rintro ⟨h0, h1, h2⟩ a
    match a with
    | ⟨0, _⟩ => show dC.start j idx 0 + (dC.window j 0 : Int) = ((i 0).val : Int); rw [dC_start0, dC_window0]; omega
    | ⟨1, _⟩ => show dC.start j idx 1 + (dC.window j 1 : Int) = ((i 1).val : Int); rw [dC_start1, dC_window1]; omega
    | ⟨2, _⟩ => show dC.start j idx 2 + (dC.window j 2 : Int) = ((i 2).val : Int); rw [dC_start2 j idx c hidx, dC_window2, hc]; omega

/-! ## The four stages, read at an index -/

section Stages
variable {α : Type}

/-- A rank-3 index with the coordinates of `ix3 a b c` is `ix3 a b c`. -/
theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2

/-- A rank-2 index with the coordinates of `ix2 a b` is `ix2 a b`. -/
theorem ix2_ext {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A block of three columns written at column 0: columns 0, 1, 2 are the update's, the others the operand's. -/
theorem stageA (x : S4096x10x7.Idx → α) (idx : IVec S1 32) (hidx : ∀ k, idx k = 0#32) (upd : S4096x10x3.Idx → α)
    (b : Fin 4096) (p : Fin 10) (k : Fin 7) :
    Host.scatter dA (fun _ v => v) x idx upd (ix3 b p k)
      = if h : k.val < 3 then upd (ix3 b p ⟨k.val, h⟩) else x (ix3 b p k) := by
  have L := dA_lands idx 0#32 0 (by decide) hidx
  split
  · next h =>
    refine scatter_set_written dA x idx upd _ (ix3 b p ⟨k.val, h⟩)
      ((L _ _).2 ⟨rfl, rfl, show k.val = 0 + k.val by omega⟩) ?_
    intro j' hj'
    obtain ⟨h0, h1, h2⟩ := (L _ _).1 hj'
    have h0' : b.val = (j' 0).val := h0
    have h1' : p.val = (j' 1).val := h1
    have h2' : k.val = 0 + (j' 2).val := h2
    exact ix3_ext j' _ _ _ h0'.symm h1'.symm (show (j' 2).val = k.val by omega)
  · next h =>
    refine scatter_set_untouched dA x idx upd _ ?_
    intro j hj
    obtain ⟨_, _, h2⟩ := (L _ _).1 hj
    have h2' : k.val = 0 + (j 2).val := h2
    have : (j 2).val < 3 := (j 2).isLt
    omega

/-- A block of two columns written at column 5: columns 5, 6 are the update's, the others the operand's. -/
theorem stageC (x : S4096x10x7.Idx → α) (idx : IVec S1 32) (hidx : ∀ k, idx k = 5#32) (upd : S4096x10x2.Idx → α)
    (b : Fin 4096) (p : Fin 10) (k : Fin 7) :
    Host.scatter dC (fun _ v => v) x idx upd (ix3 b p k)
      = if h : 5 ≤ k.val then upd (ix3 b p ⟨k.val - 5, by omega⟩) else x (ix3 b p k) := by
  have L := dC_lands idx 5#32 5 (by decide) hidx
  split
  · next h =>
    refine scatter_set_written dC x idx upd _ (ix3 b p ⟨k.val - 5, by omega⟩)
      ((L _ _).2 ⟨rfl, rfl, show k.val = 5 + (k.val - 5) by omega⟩) ?_
    intro j' hj'
    obtain ⟨h0, h1, h2⟩ := (L _ _).1 hj'
    have h0' : b.val = (j' 0).val := h0
    have h1' : p.val = (j' 1).val := h1
    have h2' : k.val = 5 + (j' 2).val := h2
    exact ix3_ext j' _ _ _ h0'.symm h1'.symm (show (j' 2).val = k.val - 5 by omega)
  · next h =>
    refine scatter_set_untouched dC x idx upd _ ?_
    intro j hj
    obtain ⟨_, _, h2⟩ := (L _ _).1 hj
    have h2' : k.val = 5 + (j 2).val := h2
    omega

/-- One column written at column `C`: that column is the update's, the others the operand's. -/
theorem stageB (x : S4096x10x7.Idx → α) (idx : IVec S1 32) (c : BitVec 32) (C : Nat) (hc : c.toInt = (C : Int))
    (hidx : ∀ k, idx k = c) (upd : S4096x10.Idx → α) (b : Fin 4096) (p : Fin 10) (k : Fin 7) :
    Host.scatter dB (fun _ v => v) x idx upd (ix3 b p k) = if k.val = C then upd (ix2 b p) else x (ix3 b p k) := by
  have L := dB_lands idx c C hc hidx
  split
  · next h =>
    refine scatter_set_written dB x idx upd _ (ix2 b p) ((L _ _).2 ⟨rfl, rfl, h⟩) ?_
    intro j' hj'
    obtain ⟨h0, h1, _⟩ := (L _ _).1 hj'
    have h0' : b.val = (j' 0).val := h0
    have h1' : p.val = (j' 1).val := h1
    exact ix2_ext j' _ _ h0'.symm h1'.symm
  · next h =>
    refine scatter_set_untouched dB x idx upd _ ?_
    intro j hj
    obtain ⟨_, _, h2⟩ := (L _ _).1 hj
    exact h h2

end Stages

/-! ## The constants and the mark, on the extended reals -/

/-- The word of `+0.0` denotes `0`. -/
theorem ofBits_zero : Ideal.ofBits .f32 0x00000000#32 = ((0 : ℝ) : EReal) := by
  simp [Ideal.ofBits, Ideal.ieee]
/-- The word of `1.0` denotes `1`. -/
theorem ofBits_one : Ideal.ofBits .f32 0x3F800000#32 = ((1 : ℝ) : EReal) := by
  simp [Ideal.ofBits, Ideal.ieee, -EReal.coe_mul]; norm_num
/-- The word of `-1.0` denotes `-1`. -/
theorem ofBits_neg_one : Ideal.ofBits .f32 0xBF800000#32 = ((-1 : ℝ) : EReal) := by
  simp [Ideal.ofBits, Ideal.ieee, -EReal.coe_mul]; norm_num

/-- The comparison's bit read as a number, minus one, is the mark: `1 - 1 = 0` where the confidence is above the
    threshold, `0 - 1 = -1` elsewhere. -/
theorem sub_one_eq_mark (x : Ideal .f32) :
    FloatOps.subf (FloatOps.uitofp .f32 (FloatOps.cmpf .ogt x (FloatOps.ofBits .f32 0x3E99999A#32)))
      (FloatOps.ofBits .f32 0x3F800000#32) = Cert.Spec.mark (F := Ideal) x := by
  unfold Cert.Spec.mark
  generalize FloatOps.cmpf .ogt x (FloatOps.ofBits .f32 0x3E99999A#32) = bit
  by_cases hb : bit = 1#1
  · subst hb
    rw [select_one, Ideal.subf_def, Ideal.ofBits_def, Ideal.ofBits_def, ofBits_one, ofBits_zero]
    show (((1#1 : BitVec 1).toNat : ℝ) : EReal) - ((1 : ℝ) : EReal) = ((0 : ℝ) : EReal)
    rw [← EReal.coe_sub]; norm_num
  · have hz := eq_zero_of_ne_one hb
    subst hz
    rw [select_zero, Ideal.subf_def, Ideal.ofBits_def, Ideal.ofBits_def, ofBits_one, ofBits_neg_one]
    show (((0#1 : BitVec 1).toNat : ℝ) : EReal) - ((1 : ℝ) : EReal) = ((-1 : ℝ) : EReal)
    rw [← EReal.coe_sub]; norm_num

/-- The update of the third stage at a candidate is the mark of its confidence. -/
theorem val_main_v9_mark (x1 : FVec Ideal S4096x10 .f32) (i : S4096x10.Idx) :
    val_main_v9 (F := Ideal) x1 i = Cert.Spec.mark (F := Ideal) (x1 i) := by
  rw [val_main_v9_apply, val_main_v7_apply, val_main_v6_apply, val_main_v5_apply, val_main_cst_1_apply, val_main_v8_apply,
    val_main_cst_2_apply]
  exact sub_one_eq_mark (x1 i)

/-! ## The reference's result is the record table -/

/-- The four scatters over the zero array, read index by index: the record table of the three arguments. -/
theorem ref_is_G (x0 : FVec Ideal ⟨3, ![4096, 10, 3]⟩ .f32) (x1 : FVec Ideal ⟨2, ![4096, 10]⟩ .f32) (x2 : FVec Ideal ⟨3, ![4096, 10, 2]⟩ .f32) :
    Cert.ReferenceIdeal.Read.val_main_v13 (F := Ideal) x0 x1 x2 = Cert.Spec.G (F := Ideal) x0 x1 x2 := by
  funext j
  obtain ⟨b, p, k, rfl⟩ : ∃ b p k, j = ix3 b p k := ⟨j 0, j 1, j 2, eq_ix3 j⟩
  have i0 : ∀ k, val_main_v1 (F := Ideal) k = 0#32 := fun k => by rw [val_main_v1_apply, val_main_c_apply]
  have i4 : ∀ k, val_main_v3 (F := Ideal) k = 4#32 := fun k => by rw [val_main_v3_apply, val_main_c_0_apply]
  have i3 : ∀ k, val_main_v10 (F := Ideal) k = 3#32 := fun k => by rw [val_main_v10_apply, val_main_c_3_apply]
  have i5 : ∀ k, val_main_v12 (F := Ideal) k = 5#32 := fun k => by rw [val_main_v12_apply, val_main_c_4_apply]
  have e13 := stageC (val_main_v11 (F := Ideal) x0 x1) _ i5 x2 b p k
  have e11 := stageB (val_main_v4 (F := Ideal) x0 x1) _ 3#32 3 (by decide) i3 (val_main_v9 (F := Ideal) x1) b p k
  have e4 := stageB (val_main_v2 (F := Ideal) x0) _ 4#32 4 (by decide) i4 x1 b p k
  have e2 := stageA (val_main_v0 (F := Ideal)) _ i0 x0 b p k
  have hk : k.val < 7 := k.isLt
  show Host.scatter dC (fun _ v => v) (val_main_v11 (F := Ideal) x0 x1) (val_main_v12 (F := Ideal)) x2 (ix3 b p k)
    = if h : k.val < 3 then x0 (ix3 b p ⟨k.val, h⟩)
      else if k.val = 3 then Cert.Spec.mark (F := Ideal) (x1 (ix2 b p))
      else if k.val = 4 then x1 (ix2 b p)
      else x2 (ix3 b p ⟨k.val - 5, by omega⟩)
  rw [e13]
  by_cases h5 : 5 ≤ k.val
  · rw [dif_pos h5, dif_neg (by omega), if_neg (by omega), if_neg (by omega)]
  · rw [dif_neg h5]
    show Host.scatter dB (fun _ v => v) (val_main_v4 (F := Ideal) x0 x1) (val_main_v10 (F := Ideal)) (val_main_v9 (F := Ideal) x1) (ix3 b p k) = _
    rw [e11]
    by_cases h3 : k.val = 3
    · rw [if_pos h3, dif_neg (by omega), if_pos h3, val_main_v9_mark]
    · rw [if_neg h3]
      show Host.scatter dB (fun _ v => v) (val_main_v2 (F := Ideal) x0) (val_main_v3 (F := Ideal)) x1 (ix3 b p k) = _
      rw [e4]
      by_cases h4 : k.val = 4
      · rw [if_pos h4, dif_neg (by omega), if_neg h3, if_pos h4]
      · rw [if_neg h4]
        show Host.scatter dA (fun _ v => v) (val_main_v0 (F := Ideal)) (val_main_v1 (F := Ideal)) x0 (ix3 b p k) = _
        rw [e2, dif_pos (by omega), dif_pos (by omega)]

/-- Every weakly fair execution of the reference ends with its result buffer at the record table of the argument arrays'
    launch contents, the arguments unchanged: the generated run, its result term read by `ref_is_G`. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v13) = Cert.Spec.G (F := Ideal) (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v13_eq _ _ _).trans (ref_is_G _ _ _)), (h c).2⟩)
    (Cert.ReferenceIdeal.Value.run (F := Ideal) m ρ)

end Cert.ReferenceIdeal.RefValue

end
-- ==== Proof.lean ====
/-
  The certificate's claim, assembled.

  The program builds, for each of 4096 batch rows and each of its ten candidates, a record of seven numbers: the candidate's
  three grid coordinates (columns 0, 1, 2), a mark of its confidence (column 3: 0 where the confidence exceeds three tenths,
  -1 elsewhere), the confidence itself (column 4) and its two box extents (columns 5, 6). `Cert.Spec.G` is that table as one
  function of the three argument arrays.

  The kernel, in both of its instances (on words and on extended reals), is one vector-subcore task run at the same time by
  the thirty-two tiles of the two SparseCores. Tile (core c, subcore s) owns the 128 batch rows starting at 128 (2 s + c) and
  fills them in eight chunks of sixteen rows; the tiles only read the three argument arrays and the six constant index tables,
  each through a thirty-second share of it, and write disjoint chunks of the result. The body theorem says one task leaves
  its eight chunks at the specification; the launch theorem turns that into: every weakly fair execution of the device's
  threads terminates with the result array at `Cert.Spec.G` of the arguments' launch contents and the four arguments
  unchanged. Each kernel frame is that run with the result's conjunct dropped.

  The reference writes the same seven columns by four scatters over an array of zeros, each with one start index on the
  column axis: columns 0-2, column 4, column 3 (the comparison's bit as a number, minus one, which on the extended reals is
  the mark) and columns 5-6. Read index by index, its result is `Cert.Spec.G` of its arguments too, so from memories that agree
  on the arguments the two programs end with equal results.

  The idealization rewrote no operation of the kernel (it is the kernel's own text read on the extended reals), so the
  preservation claim is `True`.
-/
import proofs.«214040_g26508538151745_cont_9to1_1151_18_alg».proof.Defs
import proofs.«214040_g26508538151745_cont_9to1_1151_18_alg».proof.Proof.Gen.Kernel
import proofs.«214040_g26508538151745_cont_9to1_1151_18_alg».proof.Proof.Gen.KernelIdeal
import proofs.«214040_g26508538151745_cont_9to1_1151_18_alg».proof.Proof.Gen.ReferenceIdeal
import proofs.«214040_g26508538151745_cont_9to1_1151_18_alg».proof.Proof.Gen.Pre_input_domain
import proofs.«214040_g26508538151745_cont_9to1_1151_18_alg».proof.Proof.WordLaunch
import proofs.«214040_g26508538151745_cont_9to1_1151_18_alg».proof.Proof.IdealLaunch
import proofs.«214040_g26508538151745_cont_9to1_1151_18_alg».proof.Proof.RefValue
import Idealize.ShloMosaic.Adequacy
import Idealize.ShloMosaic.Init

noncomputable section

namespace Cert.Proof

open Idealize.ShloMosaic Idealize.SL.Sem

/-- The kernel on words runs and leaves its four arguments unchanged: its run to the specification, the result's
    conjunct dropped. -/
theorem frame_k : Cert.frame_Kernel := fun m ρ _ =>
  (θ_run Cert.Kernel.defs _ _).mono (fun _ h c => (h c).2) (Cert.Proof.KW.run_main (F := Bits) m ρ)

/-- The same for the kernel on the extended reals. -/
theorem frame_ki : Cert.frame_KernelIdeal := fun m ρ _ =>
  (θ_run Cert.KernelIdeal.defs _ _).mono (fun _ h c => (h c).2) (Cert.Proof.KI.run_main (F := Ideal) m ρ)

/-- The reference runs and leaves its four arguments unchanged. -/
theorem frame_ri : Cert.frame_ReferenceIdeal := fun m ρ _ =>
  (θ_run Cert.ReferenceIdeal.defs _ _).mono (fun _ h c => (h c).2) (Cert.ReferenceIdeal.RefValue.ref_run m ρ)

/-- On the extended reals, from memories that agree on the arguments, the kernel and the reference both end with the
    record table of the kernel's arguments in their result arrays: the kernel's run to the specification, and the reference's
    run read at arguments equal to the kernel's. -/
theorem algebraic : Cert.algebraic_KernelIdeal_ReferenceIdeal := by
  intro m ρ m' ρ' _ hagree
  refine ⟨fun c => Cert.Proof.KI.GO m c, Cert.Proof.KI.run_main (F := Ideal) m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1]
  rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
